-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S3x128 .f32) (main_arg5 : FVec F S3x128 .f32) (main_arg6 : FVec F S128x64 .f32) (main_arg7 : FVec F S64 .f32) (main_arg8 : FVec F S64x1 .f32) (main_arg9 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S3x128x128 .f32) (main_arg2 : FVec F S3x128x128 .f32) (main_arg3 : FVec F S3x128 .f32) (main_arg4 : FVec F S3x128 .f32) (main_arg5 : FVec F S3x128 .f32) (main_arg6 : FVec F S128x64 .f32) (main_arg7 : FVec F S64 .f32) (main_arg8 : FVec F S64x1 .f32) (main_arg9 : FVec F S1 .f32) (main_arg10 : IVec S1600000 32) (main_arg11 : IVec S1600000 32) (main_arg12 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S4000x128 : Shape := ⟨2, ![4000, 128]⟩
abbrev S4096 : Shape := ⟨1, ![4096]⟩
abbrev S4096x128 : Shape := ⟨2, ![4096, 128]⟩
abbrev S4096x1 : Shape := ⟨2, ![4096, 1]⟩
abbrev S1x64 : Shape := ⟨2, ![1, 64]⟩
abbrev S1x1 : Shape := ⟨2, ![1, 1]⟩
abbrev S4096x64 : Shape := ⟨2, ![4096, 64]⟩

abbrev nBuf : Space → Nat
  | .hbm => 181
  | .vmem => 60
  | .smem => 0
  | _ => 0

abbrev hbmTy0_0 (i : Nat) : BufTy := match i % 128 with
  | 0 => ⟨S100000x128, .f32⟩
  | 1 => ⟨S3x128x128, .f32⟩
  | 2 => ⟨S3x128x128, .f32⟩
  | 3 => ⟨S3x128, .f32⟩
  | 4 => ⟨S3x128, .f32⟩
  | 5 => ⟨S3x128, .f32⟩
  | 6 => ⟨S128x64, .f32⟩
  | 7 => ⟨S64, .f32⟩
  | 8 => ⟨S64x1, .f32⟩
  | 9 => ⟨S1, .f32⟩
  | 10 => ⟨S1600000, .i32⟩
  | 11 => ⟨S1600000, .i32⟩
  | 12 => ⟨S100000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S100000x128, .f32⟩
  | 49 => ⟨S2x128, .f32⟩
  | 50 => ⟨S1x128, .f32⟩
  | 51 => ⟨S128, .f32⟩
  | 52 => ⟨S_, .f32⟩
  | 53 => ⟨S128, .f32⟩
  | 54 => ⟨S128, .f32⟩
  | 55 => ⟨S1x128, .f32⟩
  | 56 => ⟨S128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S1x128, .f32⟩
  | 68 => ⟨S1x128, .f32⟩
  | 69 => ⟨S1x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S100000x128, .f32⟩
  | 86 => ⟨S1x128x128, .f32⟩
  | 87 => ⟨S128x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S100000x128, .f32⟩
  | 94 => ⟨S2x128, .f32⟩
  | 95 => ⟨S1x128, .f32⟩
  | 96 => ⟨S128, .f32⟩
  | 97 => ⟨S_, .f32⟩
  | 98 => ⟨S128, .f32⟩
  | 99 => ⟨S128, .f32⟩
  | 100 => ⟨S1x128, .f32⟩
  | 101 => ⟨S128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128x128, .f32⟩
  | 4 => ⟨S128x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S100000x128, .f32⟩
  | 11 => ⟨S2x128, .f32⟩
  | 12 => ⟨S1x128, .f32⟩
  | 13 => ⟨S128, .f32⟩
  | 14 => ⟨S_, .f32⟩
  | 15 => ⟨S128, .f32⟩
  | 16 => ⟨S128, .f32⟩
  | 17 => ⟨S1x128, .f32⟩
  | 18 => ⟨S128, .f32⟩
  | 19 => ⟨S_, .f32⟩
  | 20 => ⟨S128, .f32⟩
  | 21 => ⟨S128, .f32⟩
  | 22 => ⟨S128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S1x128, .f32⟩
  | 30 => ⟨S1x128, .f32⟩
  | 31 => ⟨S1x128, .f32⟩
  | 32 => ⟨S100000x128, .f32⟩
  | 33 => ⟨S_, .f32⟩
  | 34 => ⟨S100000, .f32⟩
  | 35 => ⟨S_, .f32⟩
  | 36 => ⟨S4096, .f32⟩
  | 37 => ⟨S100000x1, .i32⟩
  | 38 => ⟨S4096, .f32⟩
  | 39 => ⟨S_, .f32⟩
  | 40 => ⟨S4096x128, .f32⟩
  | 41 => ⟨S100000x1, .i32⟩
  | 42 => ⟨S4096x128, .f32⟩
  | 43 => ⟨S_, .f32⟩
  | 44 => ⟨S4096, .f32⟩
  | 45 => ⟨S4096, .f32⟩
  | 46 => ⟨S4096x1, .f32⟩
  | 47 => ⟨S4096x128, .f32⟩
  | 48 => ⟨S4096x128, .f32⟩
  | 49 => ⟨S1x64, .f32⟩
  | 50 => ⟨S1x1, .f32⟩
  | 51 => ⟨S4096x1, .f32⟩
  | 52 => ⟨S4096, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S2x128, .f32⟩
  | .local _ .vmem, ⟨10, _⟩ => ⟨S4000x128, .f32⟩
  | .local _ .vmem, ⟨11, _⟩ => ⟨S4000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S2x128, .f32⟩
  | .local _ .vmem, ⟨28, _⟩ => ⟨S4000x128, .f32⟩
  | .local _ .vmem, ⟨29, _⟩ => ⟨S4000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S4000x128, .f32⟩
  | .local _ .vmem, ⟨44, _⟩ => ⟨S4000x128, .f32⟩
  | .local _ .vmem, ⟨45, _⟩ => ⟨S2x128, .f32⟩
  | .local _ .vmem, ⟨46, _⟩ => ⟨S4000x128, .f32⟩
  | .local _ .vmem, ⟨47, _⟩ => ⟨S4000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S4096x128, .f32⟩
  | .local _ .vmem, ⟨55, _⟩ => ⟨S128x64, .f32⟩
  | .local _ .vmem, ⟨56, _⟩ => ⟨S1x64, .f32⟩
  | .local _ .vmem, ⟨57, _⟩ => ⟨S64x1, .f32⟩
  | .local _ .vmem, ⟨58, _⟩ => ⟨S1x1, .f32⟩
  | .local _ .vmem, ⟨59, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67_0 : Ref sig .tc := ⟨.hbm, 93, rfl⟩
abbrev main_v67_1 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_12 : Ref sig .tc := ⟨.hbm, 116, rfl⟩
abbrev main_v87 : Ref sig .tc := ⟨.hbm, 117, rfl⟩
abbrev main_v88 : Ref sig .tc := ⟨.hbm, 118, rfl⟩
abbrev main_c_13 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_14 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106_0 : Ref sig .tc := ⟨.hbm, 138, rfl⟩
abbrev main_v106_1 : Ref sig .tc := ⟨.hbm, 139, rfl⟩
abbrev main_v107 : Ref sig .tc := ⟨.hbm, 140, rfl⟩
abbrev main_v108 : Ref sig .tc := ⟨.hbm, 141, rfl⟩
abbrev main_cst_15 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_16 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_17 : Ref sig .tc := ⟨.hbm, 161, rfl⟩
abbrev main_v126 : Ref sig .tc := ⟨.hbm, 162, rfl⟩
abbrev main_cst_18 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_19 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_20 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S4096x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2x128_S2x128_0_0 : ∀ a, (![0, 0] : Fin 2 → Nat) a + S2x128.size a ≤ S2x128.size a
  h_S2x128 : 0 < S2x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  bcast_S_S128 : S_.BroadcastsInDim S128 (![] : Fin 0 → Fin S128.rank)
  slices_S2x128_S1x128_1_0 : S2x128.Slices ![1, 0] S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  shapeCasts_S64_S1x64 : S64.ShapeCasts S1x64
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2x128.size a ≤ S2x128.size a
  hwx4_6 : ∀ i : grid4.Coords, EltTy.bits .f32 = 32 ∨ (Rect.block (s := S2x128) S2x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S4096x128.size a
  hwx6_0 : ∀ i : grid6.Coords, EltTy.bits .f32 = 32 ∨ (Rect.block (s := S4096x128) S4096x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S4096x1.size a ≤ S4096x1.size a
  hwx6_5 : ∀ i : grid6.Coords, EltTy.bits .f32 = 32 ∨ (Rect.block (s := S4096x1) S4096x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v20) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v67_1) S2x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v100) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106_0) S4000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v106_1) S2x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v106_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v125) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v137) S4096x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v138) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v139) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v140) S4096x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096 : Shape := ⟨1, ![4096]⟩
abbrev S4096x128 : Shape := ⟨2, ![4096, 128]⟩
abbrev S4096x1 : Shape := ⟨2, ![4096, 1]⟩
abbrev S4096x64 : Shape := ⟨2, ![4096, 64]⟩
abbrev S1x64 : Shape := ⟨2, ![1, 64]⟩
abbrev S1x1 : Shape := ⟨2, ![1, 1]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S3x128x128, .f32⟩
  | 2 => ⟨S3x128x128, .f32⟩
  | 3 => ⟨S3x128, .f32⟩
  | 4 => ⟨S3x128, .f32⟩
  | 5 => ⟨S3x128, .f32⟩
  | 6 => ⟨S128x64, .f32⟩
  | 7 => ⟨S64, .f32⟩
  | 8 => ⟨S64x1, .f32⟩
  | 9 => ⟨S1, .f32⟩
  | 10 => ⟨S1600000, .i32⟩
  | 11 => ⟨S1600000, .i32⟩
  | 12 => ⟨S100000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S1x128, .f32⟩
  | 109 => ⟨S128, .f32⟩
  | 110 => ⟨S1x128, .f32⟩
  | 111 => ⟨S100000x128, .f32⟩
  | 112 => ⟨S100000x128, .f32⟩
  | 113 => ⟨S1x128x128, .f32⟩
  | 114 => ⟨S128x128, .f32⟩
  | 115 => ⟨S100000x128, .f32⟩
  | 116 => ⟨S100000x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S100000, .f32⟩
  | 92 => ⟨S_, .f32⟩
  | 93 => ⟨S4096, .f32⟩
  | 94 => ⟨S100000x1, .i32⟩
  | 95 => ⟨S4096, .f32⟩
  | 96 => ⟨S_, .f32⟩
  | 97 => ⟨S4096x128, .f32⟩
  | 98 => ⟨S100000x1, .i32⟩
  | 99 => ⟨S4096x128, .f32⟩
  | 100 => ⟨S_, .f32⟩
  | 101 => ⟨S4096, .f32⟩
  | 102 => ⟨S4096, .f32⟩
  | 103 => ⟨S4096x1, .f32⟩
  | 104 => ⟨S4096x128, .f32⟩
  | 105 => ⟨S4096x128, .f32⟩
  | 106 => ⟨S4096x64, .f32⟩
  | 107 => ⟨S1x64, .f32⟩
  | 108 => ⟨S4096x64, .f32⟩
  | 109 => ⟨S4096x64, .f32⟩
  | 110 => ⟨S_, .f32⟩
  | 111 => ⟨S4096x64, .f32⟩
  | 112 => ⟨S4096x64, .f32⟩
  | 113 => ⟨S4096x1, .f32⟩
  | 114 => ⟨S1x1, .f32⟩
  | 115 => ⟨S4096x1, .f32⟩
  | 116 => ⟨S4096x1, .f32⟩
  | 117 => ⟨S4096, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call0_cst : Ref sig .tc := ⟨.hbm, 87, rfl⟩
abbrev main_call0_v0 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_13 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_15 : Ref sig .tc := ⟨.hbm, 126, rfl⟩
abbrev main_v94 : Ref sig .tc := ⟨.hbm, 127, rfl⟩
abbrev main_cst_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_17 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call1_cst : Ref sig .tc := ⟨.hbm, 151, rfl⟩
abbrev main_call1_v0 : Ref sig .tc := ⟨.hbm, 152, rfl⟩
abbrev main_v116 : Ref sig .tc := ⟨.hbm, 153, rfl⟩
abbrev main_c_18 : Ref sig .tc := ⟨.hbm, 154, rfl⟩
abbrev main_v117 : Ref sig .tc := ⟨.hbm, 155, rfl⟩
abbrev main_v118 : Ref sig .tc := ⟨.hbm, 156, rfl⟩
abbrev main_c_19 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_20 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_21 : Ref sig .tc := ⟨.hbm, 181, rfl⟩
abbrev main_v141 : Ref sig .tc := ⟨.hbm, 182, rfl⟩
abbrev main_cst_22 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_23 : Ref sig .tc := ⟨.hbm, 190, rfl⟩
abbrev main_v148 : Ref sig .tc := ⟨.hbm, 191, rfl⟩
abbrev main_cst_24 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_25 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_call2_cst : Ref sig .tc := ⟨.hbm, 215, rfl⟩
abbrev main_call2_v0 : Ref sig .tc := ⟨.hbm, 216, rfl⟩
abbrev main_v170 : Ref sig .tc := ⟨.hbm, 217, rfl⟩
abbrev main_cst_26 : Ref sig .tc := ⟨.hbm, 218, rfl⟩
abbrev main_v171 : Ref sig .tc := ⟨.hbm, 219, rfl⟩
abbrev main_cst_27 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_28 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_29 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_call3_cst : Ref sig .tc := ⟨.hbm, 238, rfl⟩
abbrev main_call3_v0 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.Spec.lean ====
/-
  One layer of the network, and its read-out head, entry by entry on the extended reals.

  A layer takes the aggregated neighbour features `A` and the node features `X` (rows indexed by the nodes,
  128 columns), two 128×128 weight matrices, a bias row, a scale row and a shift row. Its affine part is
      lin r j = (Σₖ A r k · Wl k j + Σₖ X r k · Wr k j) + b j.
  Each column j is then normalised over the rows: with μ j the column mean of `lin` and v j a column variance,
      out r j = max (((lin r j − μ j) · (v j + ε)^(-1/2)) · γ j + β j) 0.
  The variance is written two ways: the mean of the squares minus the squared mean, and the mean of the squared
  deviations from the mean. On reals they are the same number; the affine part is also written with its three
  summands in two orders. The head maps a pooled 128-vector per graph through a 64-wide hidden layer with the
  same `max · 0` and a final weighted sum plus a bias.
-/
import Idealize.ShloMosaic.PureOps.Ideal

noncomputable section

open scoped BigOperators

namespace Cert.Spec

open Idealize.ShloMosaic

/-- The number of rows, as the float both programs divide by: the pattern of 100000.0. -/
def nF : EReal := Ideal.ofBits .f32 0x47C35000#32

/-- The ε added to a variance before the inverse square root: the float nearest 1e-5. -/
def eps : EReal := Ideal.ofBits .f32 0x3727C5AC#32

variable {R : Type} [Fintype R]

/-- The affine part at (r, j), the two matrix products added first, then the bias. -/
def lin (A X : R → Fin 128 → EReal) (Wl Wr : Fin 128 → Fin 128 → EReal) (b : Fin 128 → EReal) (r : R) (j : Fin 128) : EReal :=
  ((∑ k, A r k * Wl k j) + (∑ k, X r k * Wr k j)) + b j

/-- The same affine part with the bias added to the first product before the second product. -/
def linR (A X : R → Fin 128 → EReal) (Wl Wr : Fin 128 → Fin 128 → EReal) (b : Fin 128 → EReal) (r : R) (j : Fin 128) : EReal :=
  ((∑ k, A r k * Wl k j) + b j) + (∑ k, X r k * Wr k j)

/-- Column sum over the rows. -/
def colSum (Y : R → Fin 128 → EReal) (j : Fin 128) : EReal := ∑ r, Y r j

/-- Column mean: the column sum divided by the number of rows. -/
def mean (Y : R → Fin 128 → EReal) (j : Fin 128) : EReal := Ideal.div (colSum Y j) nF

/-- Column variance as mean square minus squared mean. -/
def varK (Y : R → Fin 128 → EReal) (j : Fin 128) : EReal :=
  Ideal.div (colSum (fun r j => Y r j * Y r j) j) nF - mean Y j * mean Y j

/-- Column variance as the mean squared deviation from the mean. -/
def varR (Y : R → Fin 128 → EReal) (j : Fin 128) : EReal :=
  Ideal.div (colSum (fun r j => (Y r j - mean Y j) * (Y r j - mean Y j)) j) nF

/-- Normalise, scale, shift, and clamp below at 0. -/
def norm (y mu v g be : EReal) : EReal := max ((y - mu) * Ideal.rsqrt (v + eps) * g + be) 0

/-- A layer with the variance as mean square minus squared mean. -/
def layerK (A X : R → Fin 128 → EReal) (Wl Wr : Fin 128 → Fin 128 → EReal) (b g be : Fin 128 → EReal) (r : R) (j : Fin 128) : EReal :=
  norm (lin A X Wl Wr b r j) (mean (lin A X Wl Wr b) j) (varK (lin A X Wl Wr b) j) (g j) (be j)

/-- A layer with the variance as mean squared deviation, and the bias added before the second product. -/
def layerR (A X : R → Fin 128 → EReal) (Wl Wr : Fin 128 → Fin 128 → EReal) (b g be : Fin 128 → EReal) (r : R) (j : Fin 128) : EReal :=
  norm (linR A X Wl Wr b r j) (mean (linR A X Wl Wr b) j) (varR (linR A X Wl Wr b) j) (g j) (be j)

variable {G : Type}

/-- Hidden unit k of the head for graph g. -/
def hidden (H : G → Fin 128 → EReal) (W1 : Fin 128 → Fin 64 → EReal) (b1 : Fin 64 → EReal) (g : G) (k : Fin 64) : EReal :=
  max ((∑ q, H g q * W1 q k) + b1 k) 0

/-- The head's output for graph g. -/
def head (H : G → Fin 128 → EReal) (W1 : Fin 128 → Fin 64 → EReal) (b1 : Fin 64 → EReal) (W2 : Fin 64 → EReal) (b2 : EReal) (g : G) : EReal :=
  (∑ k, hidden H W1 b1 g k * W2 k) + b2

/-- Every entry of a table is a real number. -/
def IsReal {ι κ : Type} (Y : ι → κ → EReal) : Prop := ∀ r c, ∃ x : ℝ, Y r c = (x : EReal)

/-- Every entry of a row is a real number. -/
def IsRealRow {κ : Type} (y : κ → EReal) : Prop := ∀ c, ∃ x : ℝ, y c = (x : EReal)

end Cert.Spec

end
-- ==== Proof.Consts.lean ====
/-
  The float constants the two programs spell, as the extended reals their bit patterns denote.

  A 32-bit pattern with sign bit s, 8 exponent bits E and 23 fraction bits T denotes, for 0 < E < 255, the real
  (−1)^s · (2^23 + T) · 2^(E − 127 − 23). So the all-zero pattern is 0, 0x3F800000 (E = 127, T = 0) is 1,
  0x47C35000 (E = 143, T = 4411392) is 12800000 · 2^(−7) = 100000, and 0x3727C5AC (E = 110, T = 2606508) is
  10995116 · 2^(−40), a positive real close to 1e-5; 0x7F800000 (E = 255, T = 0, s = 0) is +∞. This is the one module that unfolds the pattern semantics;
  the others read the constants here.
-/
import Idealize.ShloMosaic.PureOps.Ideal
import proofs.«158987_j88218628260833_1_alg».proof.Proof.Spec

noncomputable section

namespace Cert.Consts

open Idealize.ShloMosaic

/-- The all-zero pattern denotes 0. -/
theorem ofBits_zero : Ideal.ofBits .f32 0x00000000#32 = 0 := by
  simp [Ideal.ofBits, Ideal.ieee]

/-- The pattern with all exponent bits set, no fraction bit and a clear sign denotes +∞. -/
theorem ofBits_inf : Ideal.ofBits .f32 0x7F800000#32 = ⊤ := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The row count the programs divide by is the real 100000. -/
theorem nF_eq : Cert.Spec.nF = ((100000 : ℝ) : EReal) := by
  simp [Cert.Spec.nF, Ideal.ofBits, Ideal.ieee, -EReal.coe_mul]; norm_num

/-- The ε added to a variance is a positive real. -/
theorem eps_eq : ∃ e : ℝ, 0 < e ∧ Cert.Spec.eps = (e : EReal) := by
  refine ⟨10995116 * (2 : ℝ) ^ (-40 : ℤ), by positivity, ?_⟩
  simp [Cert.Spec.eps, Ideal.ofBits, Ideal.ieee, -EReal.coe_mul]

end Cert.Consts

end
-- ==== Proof.FiniteInputs.lean ====
/-
  From the stated precondition to "every float entry is a real".

  The precondition is a conjunction with one conjunct per float argument: every entry x of the argument satisfies
  |x| < +∞, where |x| = max x (−x) and +∞ is the pattern 0x7F800000. On the extended reals this excludes x = +∞
  (then |x| = +∞) and x = −∞ (then −x = +∞), so x is a real. Each conjunct is an "and" over all the entries of
  the comparison that came out 1, so every entry passed; the conjunction is a chain of "and"s that came out 1, so
  every conjunct did.
-/
import Idealize.ShloMosaic.Lib.ReduceAll
import Idealize.ShloMosaic.Lib.ValueIdx
import proofs.«158987_j88218628260833_1_alg».proof.Pre_finite_inputs
import proofs.«158987_j88218628260833_1_alg».proof.Proof.Consts

noncomputable section

namespace Cert.FiniteInputs

open Idealize.ShloMosaic Cert.Pre_finite_inputs

/-- The shape with no axes has one index. -/
instance : Subsingleton S_.Idx := ⟨fun _ _ => funext fun d => d.elim0⟩

/-- |x| < +∞ leaves only the reals. -/
theorem real_of_abs_lt_inf (x : EReal)
    (h : Ideal.cmp .olt (max x (-x)) (Ideal.ofBits .f32 0x7F800000#32) = 1#1) : ∃ r : ℝ, x = (r : EReal) := by
  rw [Cert.Consts.ofBits_inf] at h
  have hlt : max x (-x) < ⊤ := by
    have hc : Ideal.cmp .olt (max x (-x)) ⊤ = BitVec.ofBool (decide (max x (-x) < ⊤)) := rfl
    rw [hc] at h
    by_contra hn
    rw [decide_eq_false hn] at h
    exact absurd h (by decide)
  induction x using EReal.rec with
  | bot => simp at hlt
  | coe r => exact ⟨r, rfl⟩
  | top => simp at hlt

/-- One conjunct: if "all entries have |x| < +∞" came out 1, every entry of the array is a real. -/
theorem all_real {s : Shape} {axes : List (Fin s.rank)} (hb : S_.BroadcastsInDim s (![] : Fin 0 → Fin s.rank))
    (hr : s.ReducesTo axes S_) (hS : 0 < S_.numel) (a : FVec Ideal s .f32)
    (e : Host.reduce IntOp.andi
          (cmpf .olt (Host.absf a) (broadcastInDim s ![] hb (constant (F := Ideal) S_ .f32 0x7F800000#32)))
          (constantI S_ 1 1#1) hr hS ValueIdx.ix0 = 1#1) :
    ∀ i, ∃ r : ℝ, a i = (r : EReal) := fun i =>
  real_of_abs_lt_inf (a i) (Host.reduce_andi_all _ _ hr hS _ e i)

variable [Facts]

/-- The precondition at the exact instance makes every entry of the ten float arguments a real. -/
theorem real_of_pre (a0 : FVec Ideal S100000x128 .f32) (a1 a2 : FVec Ideal S3x128x128 .f32)
    (a3 a4 a5 : FVec Ideal S3x128 .f32) (a6 : FVec Ideal S128x64 .f32) (a7 : FVec Ideal S64 .f32)
    (a8 : FVec Ideal S64x1 .f32) (a9 : FVec Ideal S1 .f32) (a10 a11 : IVec S1600000 32) (a12 : IVec S100000 32)
    (h : fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ValueIdx.ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7,
    all_real _ _ _ a8 e8, all_real _ _ _ a9 e9⟩

end Cert.FiniteInputs

end
-- ==== Proof.KRun.lean ====
import proofs.«158987_j88218628260833_1_alg».proof.Proof.Gen.KernelIdeal.Frame

/-!
# The run of the kernel program, keeping the result buffer

Every weakly fair execution of the program on the TensorCores terminates without fault, and in every final state
the result buffer holds the last fold of the boundary contents (`W15`) while the thirteen argument arrays are as
launched.  The fold `W0 … W15` threads the buffer contents through the eight stretches of host operations and the
seven pipelined regions between them.
-/

set_option maxRecDepth 16384

noncomputable section

namespace Cert.KValue.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- From any memory with zero counters, every weakly fair execution of the program terminates, nothing faulting;
    in every final state the result buffer holds the fold's last contents and each argument array is as launched. -/
theorem run : θ_run defs (onTc (τ := τ) (main (F := F))) ⟨m, fun _ => 0, ρ⟩ (fun r => ∀ c : Dev nD,
      r.2.mem ((c.tc : Thread nD τ).loc main_v141) = W15 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v141 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KValue.Run

end
-- ==== Proof.LibBatchNorm.lean ====
/-
  The batch-normalisation variance, two ways, on extended reals that are reals.

  For finitely many reals `g i` with mean `μ = (Σ g i) / N` (N the number of terms), the mean of the squared
  deviations is the mean of the squares minus the squared mean,
      (Σ (g i − μ)²) / N = (Σ (g i)²) / N − μ²,
  and it is not negative, so clamping the right-hand side below at 0 changes nothing. Stated over the extended reals
  with the reals embedded, division by `N` spelt as multiplication by the real `1 / N`; sums of embedded reals are
  embedded sums.
-/
import Idealize.ShloMosaic.PureOps.Ideal

open scoped BigOperators

namespace Cert.BatchNorm

/-- A finite sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: the mean squared deviation is the mean square minus the squared mean. -/
theorem real_var {ι : Type} [Fintype ι] (g : ι → ℝ) (N : ℝ) (hN : N = Fintype.card ι) (hpos : 0 < N) :
    (∑ i, (g i - (∑ k, g k) * (1 / N)) * (g i - (∑ k, g k) * (1 / N))) * (1 / N)
      = (∑ i, g i * g i) * (1 / N) - ((∑ k, g k) * (1 / N)) * ((∑ k, g k) * (1 / N)) := by
  have hne : N ≠ 0 := ne_of_gt hpos
  set S := ∑ k, g k with hS
  have h1 : ∑ i, (g i - S * (1 / N)) * (g i - S * (1 / N))
      = (∑ i, g i * g i) - 2 * (S * (1 / N)) * S + N * ((S * (1 / N)) * (S * (1 / N))) := by
    have : ∀ i, (g i - S * (1 / N)) * (g i - S * (1 / N)) = g i * g i - 2 * (S * (1 / N)) * g i + (S * (1 / N)) * (S * (1 / N)) := fun i => by ring
    simp only [this, Finset.sum_add_distrib, Finset.sum_sub_distrib, ← Finset.mul_sum, Finset.sum_const, Finset.card_univ, nsmul_eq_mul, ← hN, ← hS]
    ring
  rw [h1]; field_simp; ring

/-- The mean squared deviation of reals is not negative. -/
theorem real_var_nonneg {ι : Type} [Fintype ι] (g : ι → ℝ) (μ N : ℝ) (hpos : 0 < N) :
    0 ≤ (∑ i, (g i - μ) * (g i - μ)) * (1 / N) :=
  mul_nonneg (Finset.sum_nonneg fun i _ => mul_self_nonneg _) (by positivity)

/-- On extended reals: with `μ` the mean, the clamped "mean square minus squared mean" is the mean squared deviation. -/
theorem var_eq {ι : Type} [Fintype ι] (g : ι → ℝ) (N : ℝ) (hN : N = Fintype.card ι) (hpos : 0 < N) :
    max ((∑ i, (g i : EReal) * (g i : EReal)) * ((1 / N : ℝ) : EReal)
          - ((∑ k, (g k : EReal)) * ((1 / N : ℝ) : EReal)) * ((∑ k, (g k : EReal)) * ((1 / N : ℝ) : EReal))) 0
      = (∑ i, ((g i : EReal) - (∑ k, (g k : EReal)) * ((1 / N : ℝ) : EReal)) * ((g i : EReal) - (∑ k, (g k : EReal)) * ((1 / N : ℝ) : EReal)))
          * ((1 / N : ℝ) : EReal) := by
  have e1 : ∀ i, ((g i : EReal) - (∑ k, (g k : EReal)) * ((1 / N : ℝ) : EReal)) * ((g i : EReal) - (∑ k, (g k : EReal)) * ((1 / N : ℝ) : EReal))
      = (((g i - (∑ k, g k) * (1 / N)) * (g i - (∑ k, g k) * (1 / N)) : ℝ) : EReal) := fun i => by
    rw [← coe_sum, ← EReal.coe_mul, ← EReal.coe_sub, ← EReal.coe_mul]
  have e2 : ∀ i, (g i : EReal) * (g i : EReal) = ((g i * g i : ℝ) : EReal) := fun i => (EReal.coe_mul _ _).symm
  simp only [e1, e2]
  rw [← coe_sum, ← coe_sum, ← coe_sum, ← EReal.coe_mul, ← EReal.coe_mul, ← EReal.coe_mul, ← EReal.coe_mul, ← EReal.coe_sub,
    ← real_var g N hN hpos]
  exact max_eq_left (by exact_mod_cast real_var_nonneg g _ N hpos)

end Cert.BatchNorm
-- ==== Proof.LayerMath.lean ====
/-
  The layer's two spellings agree on real tables, and real tables stay real.

  Addition on the extended reals is commutative and associative, so the affine part (P + Q) + b equals (P + b) + Q
  with no finiteness needed. When every entry is a real number and the row count is 100000, the column mean is the
  real (Σ y) · (1/100000), and the two variances are the two sides of the real identity
      (Σ (y − μ)²)/N = (Σ y²)/N − μ².
  The variance of reals is a real ≥ 0 and ε > 0, so v + ε is a positive real, its inverse square root is a real,
  and a sum, difference, product or maximum of reals is a real: the normalised layer of real tables is a real table.
  The same closure holds for a scatter that adds (a real plus a finite sum of reals), for 1 / max x 1 (max x 1 ≥ 1
  is not zero), and for products.
-/
import Idealize.ShloMosaic.PureOps.Ideal
import proofs.«158987_j88218628260833_1_alg».proof.Proof.Spec
import proofs.«158987_j88218628260833_1_alg».proof.Proof.Consts
import proofs.«158987_j88218628260833_1_alg».proof.Proof.LibBatchNorm

noncomputable section

open scoped BigOperators

namespace Cert.LayerMath

open Idealize.ShloMosaic Cert.Spec

/-! ### Reals are closed under the operations used -/

theorem add_real (x y : EReal) (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem sub_real (x y : EReal) (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem mul_real (x y : EReal) (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The embedding of the reals is monotone, so it commutes with the maximum. -/
theorem coe_max (a b : ℝ) : ((max a b : ℝ) : EReal) = max (a : EReal) (b : EReal) :=
  EReal.coe_strictMono.monotone.map_max

theorem max_real (x y : EReal) (hx : ∃ r : ℝ, x = r) (hy : ∃ r : ℝ, y = r) : ∃ r : ℝ, max x y = r := by
  obtain ⟨a, rfl⟩ := hx
  obtain ⟨b, rfl⟩ := hy
  exact ⟨max a b, (coe_max a b).symm⟩

/-- A finite sum of reals is a real. -/
theorem finsum_real {ι : Type} (s : Finset ι) (u : ι → EReal) (hu : ∀ k, ∃ r : ℝ, u k = r) :
    ∃ r : ℝ, ∑ k ∈ s, u k = r := by
  choose a ha using hu
  exact ⟨∑ k ∈ s, a k, by rw [Cert.BatchNorm.coe_sum]; exact Finset.sum_congr rfl fun k _ => ha k⟩

/-- The inverse square root of a positive real is a real. -/
theorem rsqrt_pos_real (t : ℝ) (ht : 0 < t) : ∃ r : ℝ, Ideal.rsqrt (t : EReal) = r :=
  ⟨(Real.sqrt t)⁻¹, by rw [Ideal.rsqrt_coe, if_neg (not_lt.mpr ht.le), if_neg ht.ne']⟩

/-! ### The affine part -/

variable {R : Type} [Fintype R]

/-- (P + Q) + b = (P + b) + Q. -/
theorem lin_eq_linR (A X : R → Fin 128 → EReal) (Wl Wr : Fin 128 → Fin 128 → EReal) (b : Fin 128 → EReal) :
    lin A X Wl Wr b = linR A X Wl Wr b := by
  funext r j
  simp only [lin, linR]
  exact add_right_comm _ _ _

theorem lin_isReal {A X : R → Fin 128 → EReal} {Wl Wr : Fin 128 → Fin 128 → EReal} {b : Fin 128 → EReal}
    (hA : IsReal A) (hX : IsReal X) (hWl : IsReal Wl) (hWr : IsReal Wr) (hb : IsRealRow b) :
    IsReal (lin A X Wl Wr b) := by
  intro r j
  simp only [lin]
  exact add_real _ _
    (add_real _ _
      (finsum_real _ _ fun k => mul_real _ _ (hA r k) (hWl k j))
      (finsum_real _ _ fun k => mul_real _ _ (hX r k) (hWr k j)))
    (hb j)

/-! ### Mean and variance of a real table with 100000 rows -/

/-- Dividing by the row count is multiplying by the real 1/100000. -/
theorem div_nF (x : EReal) : Ideal.div x nF = x * ((1 / 100000 : ℝ) : EReal) := by
  rw [Cert.Consts.nF_eq]
  exact Ideal.div_coe (by norm_num) x

/-- A column of embedded reals sums to the embedded sum. -/
theorem colSum_of (Y : R → Fin 128 → EReal) (f : R → ℝ) (j : Fin 128) (h : ∀ r, Y r j = (f r : EReal)) :
    colSum Y j = ((∑ r, f r : ℝ) : EReal) := by
  rw [colSum, Cert.BatchNorm.coe_sum]
  exact Finset.sum_congr rfl fun r _ => h r

theorem mean_of (Y : R → Fin 128 → EReal) (f : R → ℝ) (j : Fin 128) (h : ∀ r, Y r j = (f r : EReal)) :
    mean Y j = (((∑ r, f r) * (1 / 100000) : ℝ) : EReal) := by
  rw [mean, div_nF, colSum_of Y f j h, ← EReal.coe_mul]

theorem varK_of (Y : R → Fin 128 → EReal) (f : R → ℝ) (j : Fin 128) (h : ∀ r, Y r j = (f r : EReal)) :
    varK Y j = (((∑ r, f r * f r) * (1 / 100000)
      - ((∑ r, f r) * (1 / 100000)) * ((∑ r, f r) * (1 / 100000)) : ℝ) : EReal) := by
  have hs : colSum (fun r j => Y r j * Y r j) j = ((∑ r, f r * f r : ℝ) : EReal) :=
    colSum_of _ (fun r => f r * f r) j fun r => by
      show Y r j * Y r j = _
      rw [h r, EReal.coe_mul]
  rw [varK, div_nF, hs, mean_of Y f j h, ← EReal.coe_mul, ← EReal.coe_mul, ← EReal.coe_sub]

theorem varR_of (Y : R → Fin 128 → EReal) (f : R → ℝ) (j : Fin 128) (h : ∀ r, Y r j = (f r : EReal)) :
    varR Y j = (((∑ r, (f r - (∑ k, f k) * (1 / 100000)) * (f r - (∑ k, f k) * (1 / 100000)))
      * (1 / 100000) : ℝ) : EReal) := by
  have hs : colSum (fun r j => (Y r j - mean Y j) * (Y r j - mean Y j)) j
      = ((∑ r, (f r - (∑ k, f k) * (1 / 100000)) * (f r - (∑ k, f k) * (1 / 100000)) : ℝ) : EReal) :=
    colSum_of _ (fun r => (f r - (∑ k, f k) * (1 / 100000)) * (f r - (∑ k, f k) * (1 / 100000))) j fun r => by
      show (Y r j - mean Y j) * (Y r j - mean Y j) = _
      rw [h r, mean_of Y f j h, ← EReal.coe_sub, ← EReal.coe_mul]
  rw [varR, div_nF, hs, ← EReal.coe_mul]

/-- On a real table with 100000 rows, mean square minus squared mean is the mean squared deviation. -/
theorem varK_eq_varR (hcard : (Fintype.card R : ℝ) = 100000) (Y : R → Fin 128 → EReal) (hY : IsReal Y)
    (j : Fin 128) : varK Y j = varR Y j := by
  choose y hy using hY
  rw [varK_of Y (fun r => y r j) j fun r => hy r j, varR_of Y (fun r => y r j) j fun r => hy r j]
  exact congrArg _ (Cert.BatchNorm.real_var (fun r => y r j) 100000 hcard.symm (by norm_num)).symm

/-- The mean of a real column is a real. -/
theorem mean_real (Y : R → Fin 128 → EReal) (hY : IsReal Y) (j : Fin 128) : ∃ m : ℝ, mean Y j = m := by
  choose y hy using hY
  exact ⟨_, mean_of Y (fun r => y r j) j fun r => hy r j⟩

/-- The mean squared deviation of a real column is a real that is not negative. -/
theorem varR_real (Y : R → Fin 128 → EReal) (hY : IsReal Y) (j : Fin 128) : ∃ v : ℝ, 0 ≤ v ∧ varR Y j = v := by
  choose y hy using hY
  exact ⟨_, Cert.BatchNorm.real_var_nonneg (fun r => y r j) _ 100000 (by norm_num),
    varR_of Y (fun r => y r j) j fun r => hy r j⟩

/-! ### The layer -/

theorem layerK_eq_layerR (hcard : (Fintype.card R : ℝ) = 100000)
    {A X : R → Fin 128 → EReal} {Wl Wr : Fin 128 → Fin 128 → EReal} {b : Fin 128 → EReal}
    (hA : IsReal A) (hX : IsReal X) (hWl : IsReal Wl) (hWr : IsReal Wr) (hb : IsRealRow b)
    (g be : Fin 128 → EReal) :
    layerK A X Wl Wr b g be = layerR A X Wl Wr b g be := by
  funext r j
  rw [layerK, layerR, ← lin_eq_linR, varK_eq_varR hcard _ (lin_isReal hA hX hWl hWr hb) j]

/-- Normalising reals with a real mean and a real variance ≥ 0 gives a real. -/
theorem norm_real (y mu v g be : EReal) (hy : ∃ r : ℝ, y = r) (hmu : ∃ r : ℝ, mu = r)
    (hv : ∃ r : ℝ, 0 ≤ r ∧ v = r) (hg : ∃ r : ℝ, g = r) (hbe : ∃ r : ℝ, be = r) :
    ∃ r : ℝ, norm y mu v g be = r := by
  obtain ⟨e, he, hE⟩ := Cert.Consts.eps_eq
  obtain ⟨w, hw, rfl⟩ := hv
  have hr : ∃ r : ℝ, Ideal.rsqrt ((w : EReal) + eps) = r := by
    rw [hE, ← EReal.coe_add]
    exact rsqrt_pos_real (w + e) (by linarith)
  unfold Cert.Spec.norm
  exact max_real _ _ (add_real _ _ (mul_real _ _ (mul_real _ _ (sub_real _ _ hy hmu) hr) hg) hbe) ⟨0, EReal.coe_zero.symm⟩

theorem layerR_isReal (hcard : (Fintype.card R : ℝ) = 100000)
    {A X : R → Fin 128 → EReal} {Wl Wr : Fin 128 → Fin 128 → EReal} {b g be : Fin 128 → EReal}
    (hA : IsReal A) (hX : IsReal X) (hWl : IsReal Wl) (hWr : IsReal Wr) (hb : IsRealRow b)
    (hg : IsRealRow g) (hbe : IsRealRow be) :
    IsReal (layerR A X Wl Wr b g be) := by
  have hL : IsReal (linR A X Wl Wr b) := by
    rw [← lin_eq_linR]
    exact lin_isReal hA hX hWl hWr hb
  intro r j
  rw [layerR]
  exact norm_real _ _ _ _ _ (hL r j) (mean_real _ hL j) (varR_real _ hL j) (hg j) (hbe j)

/-! ### The host operations at the exact instance -/

/-- A scatter that adds: each element plus a finite sum of updates. Reals in, reals out. -/
theorem scatterAdd_real {s si su : Shape} (d : ScatterDims s si su) {w : Nat} (x : s.Idx → EReal) (idx : IVec si w)
    (upd : su.Idx → EReal) (hx : ∀ i, ∃ r : ℝ, x i = r) (hu : ∀ j, ∃ r : ℝ, upd j = r) :
    ∀ i, ∃ r : ℝ, Ideal.hostScatterAdd d x idx upd i = r := by
  intro i
  unfold Ideal.hostScatterAdd
  exact add_real _ _ (hx i) (finsum_real _ _ hu)

/-- 1 / max x 1 for a real x: max x 1 ≥ 1 is a nonzero real. -/
theorem div_one_max_real (x : EReal) (hx : ∃ r : ℝ, x = r) : ∃ r : ℝ, Ideal.div (1 : EReal) (max x 1) = r := by
  obtain ⟨a, rfl⟩ := hx
  have h1 : max (a : EReal) 1 = ((max a 1 : ℝ) : EReal) := by
    rw [coe_max, EReal.coe_one]
  have hne : max a 1 ≠ 0 := ne_of_gt (lt_of_lt_of_le one_pos (le_max_right a 1))
  rw [h1, Ideal.div_coe hne]
  exact mul_real _ _ ⟨1, EReal.coe_one.symm⟩ ⟨_, rfl⟩

end Cert.LayerMath

end
-- ==== Proof.LayerStep.lean ====
/-
  One layer, abstractly, and the chain of the three layers and the head.
-/
import proofs.«158987_j88218628260833_1_alg».proof.Proof.Spec
import proofs.«158987_j88218628260833_1_alg».proof.Proof.LayerMath

noncomputable section

open scoped BigOperators

namespace Cert.LayerStep

open Cert.Spec Cert.LayerMath Idealize.ShloMosaic

theorem card_rows : (Fintype.card (Fin 100000) : ℝ) = 100000 := by simp

/-- If the table a normalising pass receives is a layer's affine part, the two rows it derives its mean and
    variance from are that table's column sums and column sums of squares, the mean is the first row over the
    number of rows, the variance the second row over the number of rows minus the squared mean, and scale and
    shift are the layer's, then — all inputs of the affine part being real — the normalised, clamped entry is
    the layer written with the mean squared deviation and the other order of the affine part's summands. -/
theorem layer_step
    {A X : Fin 100000 → Fin 128 → EReal} {Wl Wr : Fin 128 → Fin 128 → EReal} {b : Fin 128 → EReal} (g be : Fin 128 → EReal)
    (hA : IsReal A) (hX : IsReal X) (hWl : IsReal Wl) (hWr : IsReal Wr) (hb : IsRealRow b)
    (xlin : Fin 100000 → Fin 128 → EReal) (st0 st1 mu v gg bb : Fin 128 → EReal)
    (hxlin : ∀ r j, xlin r j = lin A X Wl Wr b r j)
    (hst0 : ∀ j, st0 j = colSum (lin A X Wl Wr b) j)
    (hst1 : ∀ j, st1 j = colSum (fun r j => lin A X Wl Wr b r j * lin A X Wl Wr b r j) j)
    (hmu : ∀ j, mu j = Ideal.div (st0 j) nF)
    (hv : ∀ j, v j = Ideal.div (st1 j) nF - Ideal.div (st0 j) nF * Ideal.div (st0 j) nF)
    (hg : ∀ j, gg j = g j) (hbe : ∀ j, bb j = be j) (r : Fin 100000) (j : Fin 128) :
    Cert.Spec.norm (xlin r j) (mu j) (v j) (gg j) (bb j) = layerR A X Wl Wr b g be r j := by
  rw [hxlin, hmu, hv, hst0, hst1, hg, hbe]
  exact congrFun (congrFun (layerK_eq_layerR card_rows hA hX hWl hWr hb g be) r) j

/-- A table all of whose entries, read through an index, are real. -/
theorem isReal_of_forall {S : Shape} (x : S.Idx → EReal) (h : ∀ i, ∃ r : ℝ, x i = (r : EReal)) {ι κ : Type} (f : ι → κ → S.Idx) :
    IsReal (fun a b => x (f a b)) := fun a b => h (f a b)

theorem isRealRow_of_forall {S : Shape} (x : S.Idx → EReal) (h : ∀ i, ∃ r : ℝ, x i = (r : EReal)) {κ : Type} (f : κ → S.Idx) :
    IsRealRow (fun a => x (f a)) := fun a => h (f a)

end Cert.LayerStep

end
-- ==== Proof.RefLayers.lean ====
/-
  The reference network read one layer at a time, as the shared specification.

  The reference is three layers and a read-out head. A layer takes the aggregated neighbour features A (rows are nodes)
  and the node features X, and computes, column by column,
      lin r j = ((Σₖ A r k · Wl k j) + b j) + Σₖ X r k · Wr k j,
      μ j = (Σᵣ lin r j) / n,      v j = (Σᵣ (lin r j − μ j)²) / n,
      out r j = max (((lin r j − μ j) · (v j + ε)^(-1/2)) · γ j + β j) 0,
  where Wl, Wr, b, γ, β are slice l of the stacked parameters for layer l, and the two column sums start from 0.
  Each theorem below reads one stage of the reference at an index and identifies it with the corresponding piece of the
  specification, in the reference's own order of operations: the matrices and rows as slices, the affine part, the
  column mean, the column variance, the inverse square root, and the whole layer. The aggregation and pooling stages
  (sums over edges, and over the nodes of a graph) are not opened: they appear as the same terms on both sides. The head
  is max((Σ_q H g q · W1 q k) + b1 k, 0) weighted by the one column of W2, plus the final bias.
-/
import proofs.«158987_j88218628260833_1_alg».proof.Proof.RefRead
import proofs.«158987_j88218628260833_1_alg».proof.Proof.Spec
import Idealize.ShloMosaic.Lib.ValueIdx
import Idealize.ShloMosaic.PureOps.Ideal.Laws

noncomputable section

open scoped BigOperators

namespace Cert.RefLayers

open Cert.ReferenceIdeal Cert.ReferenceIdeal.ReadP Idealize.ShloMosaic Idealize.ShloMosaic.ValueIdx Cert.Spec

variable (x0 : (⟨S100000x128, .f32⟩ : BufTy).Contents (Elt Ideal))
  (x1 x2 : (⟨S3x128x128, .f32⟩ : BufTy).Contents (Elt Ideal))
  (x3 x4 x5 : (⟨S3x128, .f32⟩ : BufTy).Contents (Elt Ideal))
  (x6 : (⟨S128x64, .f32⟩ : BufTy).Contents (Elt Ideal))
  (x7 : (⟨S64, .f32⟩ : BufTy).Contents (Elt Ideal))
  (x8 : (⟨S64x1, .f32⟩ : BufTy).Contents (Elt Ideal))
  (x9 : (⟨S1, .f32⟩ : BufTy).Contents (Elt Ideal))
  (x10 x11 : (⟨S1600000, .i32⟩ : BufTy).Contents (Elt Ideal))
  (x12 : (⟨S100000, .i32⟩ : BufTy).Contents (Elt Ideal))

/-! ## The first layer -/

/-- The matrix that multiplies the aggregated features in the first layer is slice 0 of the stacked weights. -/
theorem wl_1 (k j : Fin 128) : val_main_v22 (F := Ideal) x1 (ix2 k j) = x1 (ix3 (0 : Fin 3) k j) := by
  rw [val_main_v22_apply, val_main_v21_apply]
  exact congrArg x1 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The matrix that multiplies the node features in the first layer is slice 0 of the second stacked weights. -/
theorem wr_1 (k j : Fin 128) : val_main_v30 (F := Ideal) x2 (ix2 k j) = x2 (ix3 (0 : Fin 3) k j) := by
  rw [val_main_v30_apply, val_main_v29_apply]
  exact congrArg x2 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The bias row of the first layer, repeated down the rows, is row 0 of the stacked biases. -/
theorem bias_1 (r : Fin 100000) (j : Fin 128) : val_main_v27 (F := Ideal) x3 (ix2 r j) = x3 (ix2 (0 : Fin 3) j) := by
  rw [val_main_v27_apply, val_main_v26_apply, val_main_v25_apply, val_main_v24_apply]
  exact congrArg x3 (funext fun a => Fin.ext (by
    match a with
    | ⟨0, _⟩ => rfl
    | ⟨1, _⟩ => show j.val % 128 = j.val; have := j.isLt; omega))

/-- The scale row of the first layer, repeated down the rows, is row 0 of the stacked scales. -/
theorem scale_1 (r : Fin 100000) (j : Fin 128) : val_main_v55 (F := Ideal) x4 (ix2 r j) = x4 (ix2 (0 : Fin 3) j) := by
  rw [val_main_v55_apply, val_main_v54_apply, val_main_v53_apply, val_main_v52_apply]
  exact congrArg x4 (funext fun a => Fin.ext (by
    match a with
    | ⟨0, _⟩ => rfl
    | ⟨1, _⟩ => show j.val % 128 = j.val; have := j.isLt; omega))

/-- The shift row of the first layer, repeated down the rows, is row 0 of the stacked shifts. -/
theorem shift_1 (r : Fin 100000) (j : Fin 128) : val_main_v60 (F := Ideal) x5 (ix2 r j) = x5 (ix2 (0 : Fin 3) j) := by
  rw [val_main_v60_apply, val_main_v59_apply, val_main_v58_apply, val_main_v57_apply]
  exact congrArg x5 (funext fun a => Fin.ext (by
    match a with
    | ⟨0, _⟩ => rfl
    | ⟨1, _⟩ => show j.val % 128 = j.val; have := j.isLt; omega))

/-- The product of the aggregated features with the first matrix, at (r, j). -/
theorem dotA_1 (r : Fin 100000) (j : Fin 128) :
    val_main_v23 (F := Ideal) x0 x1 x10 x11 (ix2 r j)
      = ∑ k : Fin 128, val_main_v20 (F := Ideal) x0 x10 x11 (ix2 r k) * x1 (ix3 (0 : Fin 3) k j) := by
  rw [val_main_v23_apply]
  refine Finset.sum_congr rfl fun k _ => ?_
  have el : lidx_main_v23 (ix2 r j) k = ix2 r k := funext fun a => Fin.ext (by match a with | ⟨0, _⟩ => rfl | ⟨1, _⟩ => rfl)
  have er : ridx_main_v23 (ix2 r j) k = ix2 k j := funext fun a => Fin.ext (by match a with | ⟨0, _⟩ => rfl | ⟨1, _⟩ => rfl)
  rw [el, er, wl_1]

/-- The product of the layer's input with the second matrix, at (r, j). -/
theorem dotX_1 (r : Fin 100000) (j : Fin 128) :
    val_main_v31 (F := Ideal) x0 x2 (ix2 r j)
      = ∑ k : Fin 128, x0 (ix2 r k) * x2 (ix3 (0 : Fin 3) k j) := by
  rw [val_main_v31_apply]
  refine Finset.sum_congr rfl fun k _ => ?_
  have el : lidx_main_v31 (ix2 r j) k = ix2 r k := funext fun a => Fin.ext (by match a with | ⟨0, _⟩ => rfl | ⟨1, _⟩ => rfl)
  have er : ridx_main_v31 (ix2 r j) k = ix2 k j := funext fun a => Fin.ext (by match a with | ⟨0, _⟩ => rfl | ⟨1, _⟩ => rfl)
  rw [el, er, wr_1]

/-- The affine part of the first layer at (r, j): the product with the first matrix, plus the bias, plus the product
    with the second matrix, in that order. -/
theorem lin_1 (r : Fin 100000) (j : Fin 128) :
    val_main_v32 (F := Ideal) x0 x1 x2 x3 x10 x11 (ix2 r j)
      = linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j)) r j := by
  rw [val_main_v32_apply, val_main_v28_apply, dotA_1, dotX_1, bias_1]
  simp only [Ideal.addf_def, linR]

/-- The column sum of the first layer's affine part; the sum starts from the pattern of 0. -/
theorem colsum_1 (j : Fin 128) :
    val_main_v33 (F := Ideal) x0 x1 x2 x3 x10 x11 (ix1 j)
      = ∑ r : Fin 100000, (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) r j := by
  rw [val_main_v33_apply, val_main_cst_5_apply]
  simp only [Ideal.ofBits_def, Ideal.ofBits_zero_f32, zero_add]
  refine Finset.sum_congr rfl fun k _ => ?_
  have e : idx_main_v33 (ix1 j) k = ix2 k j := funext fun a => Fin.ext (by match a with | ⟨0, _⟩ => rfl | ⟨1, _⟩ => rfl)
  rw [e, lin_1]

/-- The column mean of the first layer's affine part: the column sum over the row count. -/
theorem mean_1 (j : Fin 128) :
    val_main_v35 (F := Ideal) x0 x1 x2 x3 x10 x11 (ix1 j)
      = mean (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j := by
  rw [val_main_v35_apply, colsum_1, val_main_v34_apply, val_main_cst_6_apply]
  simp only [Ideal.hostDivf_def, Ideal.ofBits_def, mean, colSum, nF]

/-- The column mean repeated down the rows (the copy the deviations for the variance use). -/
theorem meanv_1 (r : Fin 100000) (j : Fin 128) :
    val_main_v37 (F := Ideal) x0 x1 x2 x3 x10 x11 (ix2 r j)
      = mean (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j := by
  rw [val_main_v37_apply, val_main_v36_apply]
  have e : idx_main_v36 (idx_main_v37 (ix2 r j)) = ix1 j := funext fun a => Fin.ext (by match a with | ⟨0, _⟩ => rfl)
  rw [e, mean_1]

/-- The column mean repeated down the rows (the copy the normalisation uses). -/
theorem meann_1 (r : Fin 100000) (j : Fin 128) :
    val_main_v44 (F := Ideal) x0 x1 x2 x3 x10 x11 (ix2 r j)
      = mean (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j := by
  rw [val_main_v44_apply, val_main_v43_apply]
  have e : idx_main_v43 (idx_main_v44 (ix2 r j)) = ix1 j := funext fun a => Fin.ext (by match a with | ⟨0, _⟩ => rfl)
  rw [e, mean_1]

/-- The column sum of the squared deviations from the column mean; the sum starts from the pattern of 0. -/
theorem sqsum_1 (j : Fin 128) :
    val_main_v40 (F := Ideal) x0 x1 x2 x3 x10 x11 (ix1 j)
      = ∑ r : Fin 100000, ((linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) r j - mean (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j)
          * ((linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) r j - mean (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j) := by
  rw [val_main_v40_apply, val_main_cst_7_apply]
  simp only [Ideal.ofBits_def, Ideal.ofBits_zero_f32, zero_add]
  refine Finset.sum_congr rfl fun k _ => ?_
  have e : idx_main_v40 (ix1 j) k = ix2 k j := funext fun a => Fin.ext (by match a with | ⟨0, _⟩ => rfl | ⟨1, _⟩ => rfl)
  rw [e, val_main_v39_apply, val_main_v38_apply, lin_1, meanv_1]
  simp only [Ideal.mulf_def, Ideal.subf_def]

/-- The column variance of the first layer's affine part: the mean of the squared deviations from the column mean. -/
theorem var_1 (j : Fin 128) :
    val_main_v42 (F := Ideal) x0 x1 x2 x3 x10 x11 (ix1 j)
      = varR (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j := by
  rw [val_main_v42_apply, sqsum_1, val_main_v41_apply, val_main_cst_8_apply]
  simp only [Ideal.hostDivf_def, Ideal.ofBits_def, varR, colSum, nF]

/-- The inverse square root of the variance plus ε, repeated down the rows. -/
theorem rstd_1 (r : Fin 100000) (j : Fin 128) :
    val_main_v50 (F := Ideal) x0 x1 x2 x3 x10 x11 (ix2 r j)
      = Ideal.rsqrt (varR (linR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))) j + eps) := by
  rw [val_main_v50_apply, val_main_v49_apply]
  have e : idx_main_v49 (idx_main_v50 (ix2 r j)) = ix1 j := funext fun a => Fin.ext (by match a with | ⟨0, _⟩ => rfl)
  rw [e, val_main_v48_apply, val_main_v47_apply, var_1, val_main_v46_apply, val_main_cst_9_apply]
  simp only [Ideal.hostUnary_rsqrt_def, Ideal.addf_def, Ideal.ofBits_def, eps]

/-- The first layer of the reference is the specification's layer of its aggregate and its input. -/
theorem layer1 (r : Fin 100000) (j : Fin 128) :
    val_main_v62 (F := Ideal) x0 x1 x2 x3 x4 x5 x10 x11 (ix2 r j)
      = layerR (fun (r : Fin 100000) (k : Fin 128) => val_main_v20 (F := Ideal) x0 x10 x11 (ix2 r k)) (fun (r : Fin 100000) (k : Fin 128) => x0 (ix2 r k))
        (fun (k j : Fin 128) => x1 (ix3 (0 : Fin 3) k j)) (fun (k j : Fin 128) => x2 (ix3 (0 : Fin 3) k j)) (fun (j : Fin 128) => x3 (ix2 (0 : Fin 3) j))
        (fun (j : Fin 128) => x4 (ix2 (0 : Fin 3) j)) (fun (j : Fin 128) => x5 (ix2 (0 : Fin 3) j)) r j := by
  rw [val_main_v62_apply, val_main_v61_apply, val_main_v56_apply, val_main_v51_apply, val_main_v45_apply, lin_1, meann_1, rstd_1, scale_1, shift_1,
    val_main_call0_v0_apply, val_main_call0_cst_apply]
  simp only [Ideal.maximumf_def, Ideal.addf_def, Ideal.mulf_def, Ideal.subf_def, Ideal.ofBits_def, Ideal.ofBits_zero_f32, layerR, Cert.Spec.norm]

/-! ## The second layer -/

/-- The matrix that multiplies the aggregated features in the second layer is slice 1 of the stacked weights. -/
theorem wl_2 (k j : Fin 128) : val_main_v76 (F := Ideal) x1 (ix2 k j) = x1 (ix3 (1 : Fin 3) k j) := by
  rw [val_main_v76_apply, val_main_v75_apply]
  exact congrArg x1 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The matrix that multiplies the node features in the second layer is slice 1 of the second stacked weights. -/
theorem wr_2 (k j : Fin 128) : val_main_v84 (F := Ideal) x2 (ix2 k j) = x2 (ix3 (1 : Fin 3) k j) := by
  rw [val_main_v84_apply, val_main_v83_apply]
  exact congrArg x2 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The bias row of the second layer, repeated down the rows, is row 1 of the stacked biases. -/
theorem bias_2 (r : Fin 100000) (j : Fin 128) : val_main_v81 (F := Ideal) x3 (ix2 r j) = x3 (ix2 (1 : Fin 3) j) := by
  rw [val_main_v81_apply, val_main_v80_apply, val_main_v79_apply, val_main_v78_apply]
  exact congrArg x3 (funext fun a => Fin.ext (by
    match a with
    | ⟨0, _⟩ => rfl
    | ⟨1, _⟩ => show j.val % 128 = j.val; have := j.isLt; omega))

/-- The scale row of the second layer, repeated down the rows, is row 1 of the stacked scales. -/
theorem scale_2 (r : Fin 100000) (j : Fin 128) : val_main_v109 (F := Ideal) x4 (ix2 r j) = x4 (ix2 (1 : Fin 3) j) := by
  rw [val_main_v109_apply, val_main_v108_apply, val_main_v107_apply, val_main_v106_apply]
  exact congrArg x4 (funext fun a => Fin.ext (by
    match a with
    | ⟨0, _⟩ => rfl
    | ⟨1, _⟩ => show j.val % 128 = j.val; have := j.isLt; omega))

/-- The shift row of the second layer, repeated down the rows, is row 1 of the stacked shifts. -/
theorem shift_2 (r : Fin 100000) (j : Fin 128) : val_main_v114 (F := Ideal) x5 (ix2 r j) = x5 (ix2 (1 : Fin 3) j) := by
  rw [val_main_v114_apply, val_main_v113_apply, val_main_v112_apply, val_main_v111_apply]
  exact congrArg x5 (funext fun a => Fin.ext (by
    match a with
    | ⟨0, _⟩ => rfl
    | ⟨1, _⟩ => show j.val % 128 = j.val; have := j.isLt; omega))

/-- The product of the aggregated features with the first matrix, at (r, j). -/
theorem dotA_2 (r : Fin 100000) (j : Fin 128) :
    val_main_v77 (F := Ideal) x0 x1 x2 x3 x4 x5 x10 x11 (ix2 r j)
      = ∑ k : Fin 128, val_main_v74 (F := Ideal) x0 x1 x2 x3 x4 x5 x10 x11 (ix2 r k) * x1 (ix3 (1 : Fin 3) k j) := by
  rw [val_main_v77_apply]
  refine Finset.sum_congr rfl fun k _ => ?_
  have el : lidx_main_v77 (ix2 r j) k = ix2 r k := funext fun a => Fin.ext (by match a with | ⟨0, _⟩ => rfl | ⟨1, _⟩ => rfl)
  have er : ridx_main_v77 (ix2 r j) k = ix2 k j := funext fun a => Fin.ext (by match a with | ⟨0, _⟩ => rfl | ⟨1, _⟩ => rfl)
  rw [el, er, wl_2]

/-- The product of the layer's input with the second matrix, at (r, j). -/
theorem dotX_2 (r : Fin 100000) (j : Fin 128) :
    val_main_v85 (F := Ideal) x0 x1 x2 x3 x4 x5 x10 x11 (ix2 r j)
      = ∑ k : Fin 128, val_main_v62 (F := Ideal) x0 x1 x2 x3 x4 x5 x10 x11 (ix2 r k) * x2 (ix3 (1 : Fin 3) k j) := by
  rw [val_main_v85_apply]
  refine Finset.sum_congr rfl fun k _ => ?_
  have el : lidx_main_v85 (ix2 r j) k = ix2 r k := funext fun a => Fin.ext (by match a with | ⟨0, _⟩ => rfl | ⟨1, _⟩ => rfl)
  have er : ridx_main_v85 (ix2 r j) k = ix2 k j := funext fun a => Fin.ext (by match a with | ⟨0, _⟩ => rfl | ⟨1, _⟩ => rfl)
  rw [el, er, wr_2]

/-- The affine part of the second layer at (r, j): the product with the first matrix, plus the bias, plus the product
    with the second matrix, in that order. -/
theorem lin_2 (r : Fin 100000) (j : Fin 128) :
    val_main_v86 (F := Ideal) x0 x1 x2 x3 x4 x5 x10 x11 (ix2 r j)
      = linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j)) r j := by
  rw [val_main_v86_apply, val_main_v82_apply, dotA_2, dotX_2, bias_2]
  simp only [Ideal.addf_def, linR]

/-- The column sum of the second layer's affine part; the sum starts from the pattern of 0. -/
theorem colsum_2 (j : Fin 128) :
    val_main_v87 (F := Ideal) x0 x1 x2 x3 x4 x5 x10 x11 (ix1 j)
      = ∑ r : Fin 100000, (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) r j := by
  rw [val_main_v87_apply, val_main_cst_13_apply]
  simp only [Ideal.ofBits_def, Ideal.ofBits_zero_f32, zero_add]
  refine Finset.sum_congr rfl fun k _ => ?_
  have e : idx_main_v87 (ix1 j) k = ix2 k j := funext fun a => Fin.ext (by match a with | ⟨0, _⟩ => rfl | ⟨1, _⟩ => rfl)
  rw [e, lin_2]

/-- The column mean of the second layer's affine part: the column sum over the row count. -/
theorem mean_2 (j : Fin 128) :
    val_main_v89 (F := Ideal) x0 x1 x2 x3 x4 x5 x10 x11 (ix1 j)
      = mean (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j := by
  rw [val_main_v89_apply, colsum_2, val_main_v88_apply, val_main_cst_14_apply]
  simp only [Ideal.hostDivf_def, Ideal.ofBits_def, mean, colSum, nF]

/-- The column mean repeated down the rows (the copy the deviations for the variance use). -/
theorem meanv_2 (r : Fin 100000) (j : Fin 128) :
    val_main_v91 (F := Ideal) x0 x1 x2 x3 x4 x5 x10 x11 (ix2 r j)
      = mean (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j := by
  rw [val_main_v91_apply, val_main_v90_apply]
  have e : idx_main_v90 (idx_main_v91 (ix2 r j)) = ix1 j := funext fun a => Fin.ext (by match a with | ⟨0, _⟩ => rfl)
  rw [e, mean_2]

/-- The column mean repeated down the rows (the copy the normalisation uses). -/
theorem meann_2 (r : Fin 100000) (j : Fin 128) :
    val_main_v98 (F := Ideal) x0 x1 x2 x3 x4 x5 x10 x11 (ix2 r j)
      = mean (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j := by
  rw [val_main_v98_apply, val_main_v97_apply]
  have e : idx_main_v97 (idx_main_v98 (ix2 r j)) = ix1 j := funext fun a => Fin.ext (by match a with | ⟨0, _⟩ => rfl)
  rw [e, mean_2]

/-- The column sum of the squared deviations from the column mean; the sum starts from the pattern of 0. -/
theorem sqsum_2 (j : Fin 128) :
    val_main_v94 (F := Ideal) x0 x1 x2 x3 x4 x5 x10 x11 (ix1 j)
      = ∑ r : Fin 100000, ((linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) r j - mean (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j)
          * ((linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) r j - mean (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j) := by
  rw [val_main_v94_apply, val_main_cst_15_apply]
  simp only [Ideal.ofBits_def, Ideal.ofBits_zero_f32, zero_add]
  refine Finset.sum_congr rfl fun k _ => ?_
  have e : idx_main_v94 (ix1 j) k = ix2 k j := funext fun a => Fin.ext (by match a with | ⟨0, _⟩ => rfl | ⟨1, _⟩ => rfl)
  rw [e, val_main_v93_apply, val_main_v92_apply, lin_2, meanv_2]
  simp only [Ideal.mulf_def, Ideal.subf_def]

/-- The column variance of the second layer's affine part: the mean of the squared deviations from the column mean. -/
theorem var_2 (j : Fin 128) :
    val_main_v96 (F := Ideal) x0 x1 x2 x3 x4 x5 x10 x11 (ix1 j)
      = varR (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j := by
  rw [val_main_v96_apply, sqsum_2, val_main_v95_apply, val_main_cst_16_apply]
  simp only [Ideal.hostDivf_def, Ideal.ofBits_def, varR, colSum, nF]

/-- The inverse square root of the variance plus ε, repeated down the rows. -/
theorem rstd_2 (r : Fin 100000) (j : Fin 128) :
    val_main_v104 (F := Ideal) x0 x1 x2 x3 x4 x5 x10 x11 (ix2 r j)
      = Ideal.rsqrt (varR (linR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))) j + eps) := by
  rw [val_main_v104_apply, val_main_v103_apply]
  have e : idx_main_v103 (idx_main_v104 (ix2 r j)) = ix1 j := funext fun a => Fin.ext (by match a with | ⟨0, _⟩ => rfl)
  rw [e, val_main_v102_apply, val_main_v101_apply, var_2, val_main_v100_apply, val_main_cst_17_apply]
  simp only [Ideal.hostUnary_rsqrt_def, Ideal.addf_def, Ideal.ofBits_def, eps]

/-- The second layer of the reference is the specification's layer of its aggregate and its input. -/
theorem layer2 (r : Fin 100000) (j : Fin 128) :
    val_main_v116 (F := Ideal) x0 x1 x2 x3 x4 x5 x10 x11 (ix2 r j)
      = layerR (fun (r : Fin 100000) (k : Fin 128) => val_main_v74 (F := Ideal) x0 x1 x2 x3 x4 x5 x10 x11 (ix2 r k)) (fun (r : Fin 100000) (k : Fin 128) => val_main_v62 (F := Ideal) x0 x1 x2 x3 x4 x5 x10 x11 (ix2 r k))
        (fun (k j : Fin 128) => x1 (ix3 (1 : Fin 3) k j)) (fun (k j : Fin 128) => x2 (ix3 (1 : Fin 3) k j)) (fun (j : Fin 128) => x3 (ix2 (1 : Fin 3) j))
        (fun (j : Fin 128) => x4 (ix2 (1 : Fin 3) j)) (fun (j : Fin 128) => x5 (ix2 (1 : Fin 3) j)) r j := by
  rw [val_main_v116_apply, val_main_v115_apply, val_main_v110_apply, val_main_v105_apply, val_main_v99_apply, lin_2, meann_2, rstd_2, scale_2, shift_2,
    val_main_call1_v0_apply, val_main_call1_cst_apply]
  simp only [Ideal.maximumf_def, Ideal.addf_def, Ideal.mulf_def, Ideal.subf_def, Ideal.ofBits_def, Ideal.ofBits_zero_f32, layerR, Cert.Spec.norm]

/-! ## The third layer -/

/-- The matrix that multiplies the aggregated features in the third layer is slice 2 of the stacked weights. -/
theorem wl_3 (k j : Fin 128) : val_main_v130 (F := Ideal) x1 (ix2 k j) = x1 (ix3 (2 : Fin 3) k j) := by
  rw [val_main_v130_apply, val_main_v129_apply]
  exact congrArg x1 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The matrix that multiplies the node features in the third layer is slice 2 of the second stacked weights. -/
theorem wr_3 (k j : Fin 128) : val_main_v138 (F := Ideal) x2 (ix2 k j) = x2 (ix3 (2 : Fin 3) k j) := by
  rw [val_main_v138_apply, val_main_v137_apply]
  exact congrArg x2 (funext fun a => Fin.ext (by
    match a with
    | ⟨0, _⟩ => rfl
    | ⟨1, _⟩ => show (k.val * 128 + j.val) / 128 % 128 = k.val; have := k.isLt; have := j.isLt; omega
    | ⟨2, _⟩ => show (k.val * 128 + j.val) % 128 = j.val; have := k.isLt; have := j.isLt; omega))

/-- The bias row of the third layer, repeated down the rows, is row 2 of the stacked biases. -/
theorem bias_3 (r : Fin 100000) (j : Fin 128) : val_main_v135 (F := Ideal) x3 (ix2 r j) = x3 (ix2 (2 : Fin 3) j) := by
  rw [val_main_v135_apply, val_main_v134_apply, val_main_v133_apply, val_main_v132_apply]
  exact congrArg x3 (funext fun a => Fin.ext (by
    match a with
    | ⟨0, _⟩ => rfl
    | ⟨1, _⟩ => show j.val % 128 = j.val; have := j.isLt; omega))

/-- The scale row of the third layer, repeated down the rows, is row 2 of the stacked scales. -/
theorem scale_3 (r : Fin 100000) (j : Fin 128) : val_main_v163 (F := Ideal) x4 (ix2 r j) = x4 (ix2 (2 : Fin 3) j) := by
  rw [val_main_v163_apply, val_main_v162_apply, val_main_v161_apply, val_main_v160_apply]
  exact congrArg x4 (funext fun a => Fin.ext (by
    match a with
    | ⟨0, _⟩ => rfl
    | ⟨1, _⟩ => show j.val % 128 = j.val; have := j.isLt; omega))

/-- The shift row of the third layer, repeated down the rows, is row 2 of the stacked shifts. -/
theorem shift_3 (r : Fin 100000) (j : Fin 128) : val_main_v168 (F := Ideal) x5 (ix2 r j) = x5 (ix2 (2 : Fin 3) j) := by
  rw [val_main_v168_apply, val_main_v167_apply, val_main_v166_apply, val_main_v165_apply]
  exact congrArg x5 (funext fun a => Fin.ext (by
    match a with
    | ⟨0, _⟩ => rfl
    | ⟨1, _⟩ => show j.val % 128 = j.val; have := j.isLt; omega))

/-- The product of the aggregated features with the first matrix, at (r, j). -/
theorem dotA_3 (r : Fin 100000) (j : Fin 128) :
    val_main_v131 (F := Ideal) x0 x1 x2 x3 x4 x5 x10 x11 (ix2 r j)
      = ∑ k : Fin 128, val_main_v128 (F := Ideal) x0 x1 x2 x3 x4 x5 x10 x11 (ix2 r k) * x1 (ix3 (2 : Fin 3) k j) := by
  rw [val_main_v131_apply]
  refine Finset.sum_congr rfl fun k _ => ?_
  have el : lidx_main_v131 (ix2 r j) k = ix2 r k := funext fun a => Fin.ext (by match a with | ⟨0, _⟩ => rfl | ⟨1, _⟩ => rfl)
  have er : ridx_main_v131 (ix2 r j) k = ix2 k j := funext fun a => Fin.ext (by match a with | ⟨0, _⟩ => rfl | ⟨1, _⟩ => rfl)
  rw [el, er, wl_3]

/-- The product of the layer's input with the second matrix, at (r, j). -/
theorem dotX_3 (r : Fin 100000) (j : Fin 128) :
    val_main_v139 (F := Ideal) x0 x1 x2 x3 x4 x5 x10 x11 (ix2 r j)
      = ∑ k : Fin 128, val_main_v116 (F := Ideal) x0 x1 x2 x3 x4 x5 x10 x11 (ix2 r k) * x2 (ix3 (2 : Fin 3) k j) := by
  rw [val_main_v139_apply]
  refine Finset.sum_congr rfl fun k _ => ?_
  have el : lidx_main_v139 (ix2 r j) k = ix2 r k := funext fun a => Fin.ext (by match a with | ⟨0, _⟩ => rfl | ⟨1, _⟩ => rfl)
  have er : ridx_main_v139 (ix2 r j) k = ix2 k j := funext fun a => Fin.ext (by match a with | ⟨0, _⟩ => rfl | ⟨1, _⟩ => rfl)
  rw [el, er, wr_3]

/-- The affine part of the third layer at (r, j): the product with the first matrix, plus the bias, plus the product
    with the second matrix, in that order. -/
theorem lin_3 (r : Fin 100000) (j : Fin 128) :
    val_main_v140 (F := Ideal) x0 x1 x2 x3 x4 x5 x10 x11 (ix2 r j)
      = linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j)) r j := by
  rw [val_main_v140_apply, val_main_v136_apply, dotA_3, dotX_3, bias_3]
  simp only [Ideal.addf_def, linR]

/-- The column sum of the third layer's affine part; the sum starts from the pattern of 0. -/
theorem colsum_3 (j : Fin 128) :
    val_main_v141 (F := Ideal) x0 x1 x2 x3 x4 x5 x10 x11 (ix1 j)
      = ∑ r : Fin 100000, (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) r j := by
  rw [val_main_v141_apply, val_main_cst_21_apply]
  simp only [Ideal.ofBits_def, Ideal.ofBits_zero_f32, zero_add]
  refine Finset.sum_congr rfl fun k _ => ?_
  have e : idx_main_v141 (ix1 j) k = ix2 k j := funext fun a => Fin.ext (by match a with | ⟨0, _⟩ => rfl | ⟨1, _⟩ => rfl)
  rw [e, lin_3]

/-- The column mean of the third layer's affine part: the column sum over the row count. -/
theorem mean_3 (j : Fin 128) :
    val_main_v143 (F := Ideal) x0 x1 x2 x3 x4 x5 x10 x11 (ix1 j)
      = mean (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j := by
  rw [val_main_v143_apply, colsum_3, val_main_v142_apply, val_main_cst_22_apply]
  simp only [Ideal.hostDivf_def, Ideal.ofBits_def, mean, colSum, nF]

/-- The column mean repeated down the rows (the copy the deviations for the variance use). -/
theorem meanv_3 (r : Fin 100000) (j : Fin 128) :
    val_main_v145 (F := Ideal) x0 x1 x2 x3 x4 x5 x10 x11 (ix2 r j)
      = mean (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j := by
  rw [val_main_v145_apply, val_main_v144_apply]
  have e : idx_main_v144 (idx_main_v145 (ix2 r j)) = ix1 j := funext fun a => Fin.ext (by match a with | ⟨0, _⟩ => rfl)
  rw [e, mean_3]

/-- The column mean repeated down the rows (the copy the normalisation uses). -/
theorem meann_3 (r : Fin 100000) (j : Fin 128) :
    val_main_v152 (F := Ideal) x0 x1 x2 x3 x4 x5 x10 x11 (ix2 r j)
      = mean (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j := by
  rw [val_main_v152_apply, val_main_v151_apply]
  have e : idx_main_v151 (idx_main_v152 (ix2 r j)) = ix1 j := funext fun a => Fin.ext (by match a with | ⟨0, _⟩ => rfl)
  rw [e, mean_3]

/-- The column sum of the squared deviations from the column mean; the sum starts from the pattern of 0. -/
theorem sqsum_3 (j : Fin 128) :
    val_main_v148 (F := Ideal) x0 x1 x2 x3 x4 x5 x10 x11 (ix1 j)
      = ∑ r : Fin 100000, ((linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) r j - mean (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j)
          * ((linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) r j - mean (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j) := by
  rw [val_main_v148_apply, val_main_cst_23_apply]
  simp only [Ideal.ofBits_def, Ideal.ofBits_zero_f32, zero_add]
  refine Finset.sum_congr rfl fun k _ => ?_
  have e : idx_main_v148 (ix1 j) k = ix2 k j := funext fun a => Fin.ext (by match a with | ⟨0, _⟩ => rfl | ⟨1, _⟩ => rfl)
  rw [e, val_main_v147_apply, val_main_v146_apply, lin_3, meanv_3]
  simp only [Ideal.mulf_def, Ideal.subf_def]

/-- The column variance of the third layer's affine part: the mean of the squared deviations from the column mean. -/
theorem var_3 (j : Fin 128) :
    val_main_v150 (F := Ideal) x0 x1 x2 x3 x4 x5 x10 x11 (ix1 j)
      = varR (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j := by
  rw [val_main_v150_apply, sqsum_3, val_main_v149_apply, val_main_cst_24_apply]
  simp only [Ideal.hostDivf_def, Ideal.ofBits_def, varR, colSum, nF]

/-- The inverse square root of the variance plus ε, repeated down the rows. -/
theorem rstd_3 (r : Fin 100000) (j : Fin 128) :
    val_main_v158 (F := Ideal) x0 x1 x2 x3 x4 x5 x10 x11 (ix2 r j)
      = Ideal.rsqrt (varR (linR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))) j + eps) := by
  rw [val_main_v158_apply, val_main_v157_apply]
  have e : idx_main_v157 (idx_main_v158 (ix2 r j)) = ix1 j := funext fun a => Fin.ext (by match a with | ⟨0, _⟩ => rfl)
  rw [e, val_main_v156_apply, val_main_v155_apply, var_3, val_main_v154_apply, val_main_cst_25_apply]
  simp only [Ideal.hostUnary_rsqrt_def, Ideal.addf_def, Ideal.ofBits_def, eps]

/-- The third layer of the reference is the specification's layer of its aggregate and its input. -/
theorem layer3 (r : Fin 100000) (j : Fin 128) :
    val_main_v170 (F := Ideal) x0 x1 x2 x3 x4 x5 x10 x11 (ix2 r j)
      = layerR (fun (r : Fin 100000) (k : Fin 128) => val_main_v128 (F := Ideal) x0 x1 x2 x3 x4 x5 x10 x11 (ix2 r k)) (fun (r : Fin 100000) (k : Fin 128) => val_main_v116 (F := Ideal) x0 x1 x2 x3 x4 x5 x10 x11 (ix2 r k))
        (fun (k j : Fin 128) => x1 (ix3 (2 : Fin 3) k j)) (fun (k j : Fin 128) => x2 (ix3 (2 : Fin 3) k j)) (fun (j : Fin 128) => x3 (ix2 (2 : Fin 3) j))
        (fun (j : Fin 128) => x4 (ix2 (2 : Fin 3) j)) (fun (j : Fin 128) => x5 (ix2 (2 : Fin 3) j)) r j := by
  rw [val_main_v170_apply, val_main_v169_apply, val_main_v164_apply, val_main_v159_apply, val_main_v153_apply, lin_3, meann_3, rstd_3, scale_3, shift_3,
    val_main_call2_v0_apply, val_main_call2_cst_apply]
  simp only [Ideal.maximumf_def, Ideal.addf_def, Ideal.mulf_def, Ideal.subf_def, Ideal.ofBits_def, Ideal.ofBits_zero_f32, layerR, Cert.Spec.norm]

/-! ## The read-out head -/

/-- The pooled features of graph g times column k of the first head matrix. -/
theorem dotH (g : Fin 4096) (k : Fin 64) :
    val_main_v183 (F := Ideal) x0 x1 x2 x3 x4 x5 x6 x10 x11 x12 (ix2 g k)
      = ∑ q : Fin 128, val_main_v182 (F := Ideal) x0 x1 x2 x3 x4 x5 x10 x11 x12 (ix2 g q) * x6 (ix2 q k) := by
  rw [val_main_v183_apply]
  refine Finset.sum_congr rfl fun q _ => ?_
  have el : lidx_main_v183 (ix2 g k) q = ix2 g q := funext fun a => Fin.ext (by match a with | ⟨0, _⟩ => rfl | ⟨1, _⟩ => rfl)
  have er : ridx_main_v183 (ix2 g k) q = ix2 q k := funext fun a => Fin.ext (by match a with | ⟨0, _⟩ => rfl | ⟨1, _⟩ => rfl)
  rw [el, er]

/-- The first head bias, repeated down the graphs. -/
theorem bias_h1 (g : Fin 4096) (k : Fin 64) : val_main_v185 (F := Ideal) x7 (ix2 g k) = x7 (ix1 k) := by
  rw [val_main_v185_apply, val_main_v184_apply]
  exact congrArg x7 (funext fun a => Fin.ext (by match a with | ⟨0, _⟩ => rfl))

/-- Hidden unit k of graph g: the pooled features times the first head matrix, plus its bias, clamped below at 0. -/
theorem hidden_eq (g : Fin 4096) (k : Fin 64) :
    val_main_v187 (F := Ideal) x0 x1 x2 x3 x4 x5 x6 x7 x10 x11 x12 (ix2 g k)
      = hidden (fun (g : Fin 4096) (q : Fin 128) => val_main_v182 (F := Ideal) x0 x1 x2 x3 x4 x5 x10 x11 x12 (ix2 g q))
        (fun (q : Fin 128) (k : Fin 64) => x6 (ix2 q k)) (fun (k : Fin 64) => x7 (ix1 k)) g k := by
  rw [val_main_v187_apply, val_main_v186_apply, dotH, bias_h1, val_main_call3_v0_apply, val_main_call3_cst_apply]
  simp only [Ideal.maximumf_def, Ideal.addf_def, Ideal.ofBits_def, Ideal.ofBits_zero_f32, Cert.Spec.hidden]

/-- The hidden units of graph g weighted by the one column of the second head matrix. -/
theorem dotO (g : Fin 4096) :
    val_main_v188 (F := Ideal) x0 x1 x2 x3 x4 x5 x6 x7 x8 x10 x11 x12 (ix2 g (0 : Fin 1))
      = ∑ k : Fin 64, hidden (fun (g : Fin 4096) (q : Fin 128) => val_main_v182 (F := Ideal) x0 x1 x2 x3 x4 x5 x10 x11 x12 (ix2 g q))
          (fun (q : Fin 128) (k : Fin 64) => x6 (ix2 q k)) (fun (k : Fin 64) => x7 (ix1 k)) g k * x8 (ix2 k (0 : Fin 1)) := by
  rw [val_main_v188_apply]
  refine Finset.sum_congr rfl fun k _ => ?_
  have el : lidx_main_v188 (ix2 g (0 : Fin 1)) k = ix2 g k := funext fun a => Fin.ext (by match a with | ⟨0, _⟩ => rfl | ⟨1, _⟩ => rfl)
  have er : ridx_main_v188 (ix2 g (0 : Fin 1)) k = ix2 k (0 : Fin 1) := funext fun a => Fin.ext (by match a with | ⟨0, _⟩ => rfl | ⟨1, _⟩ => rfl)
  rw [el, er, hidden_eq]

/-- The final bias, repeated down the graphs. -/
theorem bias_h2 (g : Fin 4096) : val_main_v190 (F := Ideal) x9 (ix2 g (0 : Fin 1)) = x9 (ix1 (0 : Fin 1)) := by
  rw [val_main_v190_apply, val_main_v189_apply]
  exact congrArg x9 (funext fun a => Fin.ext (by match a with | ⟨0, _⟩ => rfl))

/-- The result for graph g: the hidden units weighted by the second head matrix's one column, plus the final bias. -/
theorem head_eq (g : Fin 4096) :
    val_main_v192 (F := Ideal) x0 x1 x2 x3 x4 x5 x6 x7 x8 x9 x10 x11 x12 (ix1 g)
      = head (fun (g : Fin 4096) (q : Fin 128) => val_main_v182 (F := Ideal) x0 x1 x2 x3 x4 x5 x10 x11 x12 (ix2 g q))
        (fun (q : Fin 128) (k : Fin 64) => x6 (ix2 q k)) (fun (k : Fin 64) => x7 (ix1 k)) (fun (k : Fin 64) => x8 (ix2 k (0 : Fin 1))) (x9 (ix1 (0 : Fin 1))) g := by
  rw [val_main_v192_apply]
  have e : idx_main_v192 (ix1 g) = ix2 g (0 : Fin 1) := funext fun a => Fin.ext (by
    match a with
    | ⟨0, _⟩ => show g.val / 1 = g.val; omega
    | ⟨1, _⟩ => rfl)
  rw [e, val_main_v191_apply, dotO, bias_h2]
  simp only [Ideal.addf_def, Cert.Spec.head]

end Cert.RefLayers

end
-- ==== Proof.RefAggReal.lean ====
/-
  The aggregation stages of the reference keep real tables real.

  The inverse degree of a node is 1 / max(c, 1), where c is a scatter that adds the constant 1 into a table of zeros:
  a real plus a finite sum of reals, so c is a real, max(c, 1) ≥ 1 is a nonzero real and the quotient is a real.
  A layer's aggregate is (a scatter that adds gathered rows of the layer's input into zeros) times the broadcast
  inverse degree. A gathered entry is an entry of the gathered table, so it is a real when the table is; the scatter
  is then a real plus a finite sum of reals, and the product of two reals is a real. The sums are never opened.
-/
import Idealize.ShloMosaic.PureOps.Ideal
import proofs.«158987_j88218628260833_1_alg».proof.Proof.RefRead
import proofs.«158987_j88218628260833_1_alg».proof.Proof.Consts
import proofs.«158987_j88218628260833_1_alg».proof.Proof.LayerMath

noncomputable section

namespace Cert.RefAggReal

open Cert.ReferenceIdeal Cert.ReferenceIdeal.Gen Cert.ReferenceIdeal.ReadP Idealize.ShloMosaic Cert.LayerMath

/-- The pattern of 0.0 is the real 0. -/
theorem zero_real : ∃ r : ℝ, Ideal.ofBits .f32 0x00000000#32 = (r : EReal) :=
  ⟨0, Cert.Consts.ofBits_zero.trans EReal.coe_zero.symm⟩

/-- The pattern of 1.0 is the real 1. -/
theorem one_real : ∃ r : ℝ, Ideal.ofBits .f32 0x3F800000#32 = (r : EReal) :=
  ⟨1, Cert.Consts.ofBits_one.trans EReal.coe_one.symm⟩

/-- A gathered entry is an entry of the gathered table. -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) := fun j =>
  hx (d.operandIdx j idx)

/-- A scatter that adds real updates into a real table, times a real table, is a real table. -/
theorem agg_core {s si su : Shape} (d : ScatterDims s si su) {w : Nat} (z : s.Idx → EReal) (idx : IVec si w)
    (upd : su.Idx → EReal) (inv : s.Idx → EReal) (hz : ∀ i, ∃ r : ℝ, z i = (r : EReal))
    (hu : ∀ j, ∃ r : ℝ, upd j = (r : EReal)) (hinv : ∀ i, ∃ r : ℝ, inv i = (r : EReal)) :
    ∀ i, ∃ r : ℝ, Ideal.hostScatterAdd d z idx upd i * inv i = (r : EReal) := fun i =>
  mul_real _ _ (scatterAdd_real d z idx upd hz hu i) (hinv i)

/-- The degree count's scatter stage is the exact scatter-add of its operands. -/
theorem v3_eq (x11 : (⟨S1600000, .i32⟩ : BufTy).Contents (Elt Ideal)) :
    val_main_v3 (F := Ideal) x11
      = Ideal.hostScatterAdd scatter_S100000_S1600000x1_S1600000_n_0_0_1 (val_main_v1 (F := Ideal))
          (val_main_v2 (F := Ideal) x11) (val_main_v0 (F := Ideal)) := by
  unfold val_main_v3 Host.scatterAdd
  exact Ideal.hostScatterAdd_def _ _ _ _ _

/-- The count of incoming edges of each node (ones added into zeros) is a real. -/
theorem count_real (x11 : (⟨S1600000, .i32⟩ : BufTy).Contents (Elt Ideal)) (k : S100000.Idx) :
    ∃ r : ℝ, val_main_v3 (F := Ideal) x11 k = (r : EReal) := by
  rw [v3_eq]
  exact scatterAdd_real _ _ _ _
    (fun i => by rw [val_main_v1_apply, val_main_cst_0_apply, Ideal.ofBits_def]; exact zero_real)
    (fun j => by rw [val_main_v0_apply, val_main_cst_apply, Ideal.ofBits_def]; exact one_real) k

/-- 1 / max(count, 1) is a real. -/
theorem invdeg7_real (x11 : (⟨S1600000, .i32⟩ : BufTy).Contents (Elt Ideal)) (k : S100000.Idx) :
    ∃ r : ℝ, val_main_v7 (F := Ideal) x11 k = (r : EReal) := by
  have h6 : val_main_v6 (F := Ideal) k = (1 : EReal) := by
    rw [val_main_v6_apply, val_main_cst_2_apply, Ideal.ofBits_def]; exact Cert.Consts.ofBits_one
  have h4 : val_main_v4 (F := Ideal) k = (1 : EReal) := by
    rw [val_main_v4_apply, val_main_cst_1_apply, Ideal.ofBits_def]; exact Cert.Consts.ofBits_one
  rw [val_main_v7_apply, val_main_v5_apply, h6, h4, Ideal.hostDivf_def, Ideal.maximumf_def]
  exact div_one_max_real _ (count_real x11 k)

/-- The inverse degree, as a column. -/
theorem invdeg_real (x11 : (⟨S1600000, .i32⟩ : BufTy).Contents (Elt Ideal)) :
    ∀ i, ∃ r : ℝ, val_main_v8 (F := Ideal) x11 i = (r : EReal) := fun i => by
  rw [val_main_v8_apply]; exact invdeg7_real x11 _

/-- The first layer's scatter stage is the exact scatter-add of its operands. -/
theorem v18_eq (x0 : (⟨S100000x128, .f32⟩ : BufTy).Contents (Elt Ideal)) (x10 x11 : (⟨S1600000, .i32⟩ : BufTy).Contents (Elt Ideal)) :
    val_main_v18 (F := Ideal) x0 x10 x11
      = Ideal.hostScatterAdd scatter_S100000x128_S1600000x1_S1600000x128_1_0_0_1 (val_main_v16 (F := Ideal))
          (val_main_v17 (F := Ideal) x11) (val_main_v15 (F := Ideal) x0 x10) := by
  unfold val_main_v18 Host.scatterAdd
  exact Ideal.hostScatterAdd_def _ _ _ _ _

/-- The first layer's aggregate is a real table when the node features are. -/
theorem agg1_real (x0 : (⟨S100000x128, .f32⟩ : BufTy).Contents (Elt Ideal)) (x10 x11 : (⟨S1600000, .i32⟩ : BufTy).Contents (Elt Ideal)) (h0 : ∀ i, ∃ r : ℝ, x0 i = (r : EReal)) :
    ∀ i, ∃ r : ℝ, val_main_v20 (F := Ideal) x0 x10 x11 i = (r : EReal) := fun i => by
  rw [val_main_v20_apply, Ideal.mulf_def, v18_eq]
  exact agg_core _ _ _ _ _
    (fun i => by rw [val_main_v16_apply, val_main_cst_4_apply, Ideal.ofBits_def]; exact zero_real)
    (fun j => by unfold val_main_v15; exact gather_real _ _ _ h0 j)
    (fun i => by rw [val_main_v19_apply]; exact invdeg_real x11 _) i

/-- The second layer's scatter stage is the exact scatter-add of its operands. -/
theorem v72_eq (x0 : (⟨S100000x128, .f32⟩ : BufTy).Contents (Elt Ideal)) (x1 x2 : (⟨S3x128x128, .f32⟩ : BufTy).Contents (Elt Ideal)) (x3 x4 x5 : (⟨S3x128, .f32⟩ : BufTy).Contents (Elt Ideal)) (x10 x11 : (⟨S1600000, .i32⟩ : BufTy).Contents (Elt Ideal)) :
    val_main_v72 (F := Ideal) x0 x1 x2 x3 x4 x5 x10 x11
      = Ideal.hostScatterAdd scatter_S100000x128_S1600000x1_S1600000x128_1_0_0_1 (val_main_v70 (F := Ideal))
          (val_main_v71 (F := Ideal) x11) (val_main_v69 (F := Ideal) x0 x1 x2 x3 x4 x5 x10 x11) := by
  unfold val_main_v72 Host.scatterAdd
  exact Ideal.hostScatterAdd_def _ _ _ _ _

/-- The second layer's aggregate is a real table when the previous layer's output is. -/
theorem agg2_real (x0 : (⟨S100000x128, .f32⟩ : BufTy).Contents (Elt Ideal)) (x1 x2 : (⟨S3x128x128, .f32⟩ : BufTy).Contents (Elt Ideal)) (x3 x4 x5 : (⟨S3x128, .f32⟩ : BufTy).Contents (Elt Ideal)) (x10 x11 : (⟨S1600000, .i32⟩ : BufTy).Contents (Elt Ideal))
    (h62 : ∀ i, ∃ r : ℝ, val_main_v62 (F := Ideal) x0 x1 x2 x3 x4 x5 x10 x11 i = (r : EReal)) :
    ∀ i, ∃ r : ℝ, val_main_v74 (F := Ideal) x0 x1 x2 x3 x4 x5 x10 x11 i = (r : EReal) := fun i => by
  rw [val_main_v74_apply, Ideal.mulf_def, v72_eq]
  exact agg_core _ _ _ _ _
    (fun i => by rw [val_main_v70_apply, val_main_cst_12_apply, Ideal.ofBits_def]; exact zero_real)
    (fun j => by unfold val_main_v69; exact gather_real _ _ _ h62 j)
    (fun i => by rw [val_main_v73_apply]; exact invdeg_real x11 _) i

/-- The third layer's scatter stage is the exact scatter-add of its operands. -/
theorem v126_eq (x0 : (⟨S100000x128, .f32⟩ : BufTy).Contents (Elt Ideal)) (x1 x2 : (⟨S3x128x128, .f32⟩ : BufTy).Contents (Elt Ideal)) (x3 x4 x5 : (⟨S3x128, .f32⟩ : BufTy).Contents (Elt Ideal)) (x10 x11 : (⟨S1600000, .i32⟩ : BufTy).Contents (Elt Ideal)) :
    val_main_v126 (F := Ideal) x0 x1 x2 x3 x4 x5 x10 x11
      = Ideal.hostScatterAdd scatter_S100000x128_S1600000x1_S1600000x128_1_0_0_1 (val_main_v124 (F := Ideal))
          (val_main_v125 (F := Ideal) x11) (val_main_v123 (F := Ideal) x0 x1 x2 x3 x4 x5 x10 x11) := by
  unfold val_main_v126 Host.scatterAdd
  exact Ideal.hostScatterAdd_def _ _ _ _ _

/-- The third layer's aggregate is a real table when the previous layer's output is. -/
theorem agg3_real (x0 : (⟨S100000x128, .f32⟩ : BufTy).Contents (Elt Ideal)) (x1 x2 : (⟨S3x128x128, .f32⟩ : BufTy).Contents (Elt Ideal)) (x3 x4 x5 : (⟨S3x128, .f32⟩ : BufTy).Contents (Elt Ideal)) (x10 x11 : (⟨S1600000, .i32⟩ : BufTy).Contents (Elt Ideal))
    (h116 : ∀ i, ∃ r : ℝ, val_main_v116 (F := Ideal) x0 x1 x2 x3 x4 x5 x10 x11 i = (r : EReal)) :
    ∀ i, ∃ r : ℝ, val_main_v128 (F := Ideal) x0 x1 x2 x3 x4 x5 x10 x11 i = (r : EReal) := fun i => by
  rw [val_main_v128_apply, Ideal.mulf_def, v126_eq]
  exact agg_core _ _ _ _ _
    (fun i => by rw [val_main_v124_apply, val_main_cst_20_apply, Ideal.ofBits_def]; exact zero_real)
    (fun j => by unfold val_main_v123; exact gather_real _ _ _ h116 j)
    (fun i => by rw [val_main_v127_apply]; exact invdeg_real x11 _) i

end Cert.RefAggReal

end
-- ==== Proof.KHost.lean ====
import proofs.«158987_j88218628260833_1_alg».proof.Proof.Gen.KernelIdeal.Frame
import Idealize.ShloMosaic.Lib.StableHlo.Run

/-!
# The host side of the kernel program: what each stretch of host operations computes

The program is eight stretches of host operations around seven pipelined regions.  The generated frame folds the
buffer contents through them: `W0` is the launch contents, `W(2K+1)` the contents after stretch `K` run from `W(2K)`,
and `W(2K+2)` the contents after region `K`.  This module states, for every buffer a region reads, the pure term the
stretch's operations compute for it from the contents BEFORE the stretch, and the facts that carry a buffer unchanged
across the boundaries where nothing writes it: every argument array holds its launch contents at every boundary, the
column of reciprocal degrees is the one computed before the first layer, and each region's output is still there when
the next region reads it.  Nothing here evaluates an array: the statements only unfold the list of operations.
-/

set_option maxRecDepth 16384

noncomputable section

namespace Cert.KValue.Host

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The argument arrays hold their launch contents at every boundary

No host operation and no region writes an argument (a region reads it through an input window or not at all). -/

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W0_arg0 m ρ c
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := W1_arg0 m ρ c
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_arg0 m ρ c
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = m ((c : Thread nD τ).loc main_arg0) := W3_arg0 m ρ c
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W4_arg0 m ρ c
theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = m ((c : Thread nD τ).loc main_arg0) := W5_arg0 m ρ c
theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W6_arg0 m ρ c
theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = m ((c : Thread nD τ).loc main_arg0) := W7_arg0 m ρ c
theorem W9_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W8_arg0 m ρ c
theorem W10_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = m ((c : Thread nD τ).loc main_arg0) := W9_arg0 m ρ c
theorem W11_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W10_arg0 m ρ c
theorem W12_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = m ((c : Thread nD τ).loc main_arg0) := W11_arg0 m ρ c
theorem W13_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_forall_not_mem (b := Proc.devRef .tc main_arg0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W12_arg0 m ρ c
theorem W14_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = m ((c : Thread nD τ).loc main_arg0) := W13_arg0 m ρ c
theorem W15_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_forall_not_mem (b := Proc.devRef .tc main_arg0) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W14_arg0 m ρ c

theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W0_arg1 m ρ c
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := W1_arg1 m ρ c
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = m ((c : Thread nD τ).loc main_arg1) := W3_arg1 m ρ c
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W4_arg1 m ρ c
theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = m ((c : Thread nD τ).loc main_arg1) := W5_arg1 m ρ c
theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W6_arg1 m ρ c
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = m ((c : Thread nD τ).loc main_arg1) := W7_arg1 m ρ c
theorem W9_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W8_arg1 m ρ c
theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = m ((c : Thread nD τ).loc main_arg1) := W9_arg1 m ρ c
theorem W11_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W10_arg1 m ρ c
theorem W12_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = m ((c : Thread nD τ).loc main_arg1) := W11_arg1 m ρ c
theorem W13_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W12_arg1 m ρ c
theorem W14_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = m ((c : Thread nD τ).loc main_arg1) := W13_arg1 m ρ c
theorem W15_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_forall_not_mem (b := Proc.devRef .tc main_arg1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W14_arg1 m ρ c

theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W0_arg2 m ρ c
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := W1_arg2 m ρ c
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := W3_arg2 m ρ c
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_arg2 m ρ c
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_arg2 m ρ c
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W6_arg2 m ρ c
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = m ((c : Thread nD τ).loc main_arg2) := W7_arg2 m ρ c
theorem W9_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W8_arg2 m ρ c
theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = m ((c : Thread nD τ).loc main_arg2) := W9_arg2 m ρ c
theorem W11_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W10_arg2 m ρ c
theorem W12_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = m ((c : Thread nD τ).loc main_arg2) := W11_arg2 m ρ c
theorem W13_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W12_arg2 m ρ c
theorem W14_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = m ((c : Thread nD τ).loc main_arg2) := W13_arg2 m ρ c
theorem W15_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W14_arg2 m ρ c

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W0_arg3 m ρ c
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_arg3 m ρ c
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := W3_arg3 m ρ c
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W4_arg3 m ρ c
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := W5_arg3 m ρ c
theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W6_arg3 m ρ c
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = m ((c : Thread nD τ).loc main_arg3) := W7_arg3 m ρ c
theorem W9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W8_arg3 m ρ c
theorem W10_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = m ((c : Thread nD τ).loc main_arg3) := W9_arg3 m ρ c
theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W10_arg3 m ρ c
theorem W12_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = m ((c : Thread nD τ).loc main_arg3) := W11_arg3 m ρ c
theorem W13_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W12_arg3 m ρ c
theorem W14_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = m ((c : Thread nD τ).loc main_arg3) := W13_arg3 m ρ c
theorem W15_arg3 (c : Dev nD) : W15 m ρ c (Proc.devRef .tc main_arg3) = m ((c : Thread nD τ).loc main_arg3) :=
  calc W15 m ρ c (Proc.devRef .tc main_arg3)
    _ = W14 m ρ c (Proc.devRef .tc main_arg3) := StableHlo.after_of_forall_not_mem (b := Proc.devRef .tc main_arg3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W14_arg3 m ρ c

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W0_arg4 m ρ c
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := W1_arg4 m ρ c
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_arg4 m ρ c
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = m ((c : Thread nD τ).loc main_arg4) := W3_arg4 m ρ c
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W4_arg4 m ρ c
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = m ((c : Thread nD τ).loc main_arg4) := W5_arg4 m ρ c
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W6_arg4 m ρ c
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = m ((c : Thread nD τ).loc main_arg4) := W7_arg4 m ρ c
theorem W9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W8_arg4 m ρ c
theorem W10_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = m ((c : Thread nD τ).loc main_arg4) := W9_arg4 m ρ c
theorem W11_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W10_arg4 m ρ c
theorem W12_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = m ((c : Thread nD τ).loc main_arg4) := W11_arg4 m ρ c
theorem W13_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W12_arg4 m ρ c
theorem W14_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = m ((c : Thread nD τ).loc main_arg4) := W13_arg4 m ρ c
theorem W15_arg4 (c : Dev nD) : W15 m ρ c (Proc.devRef .tc main_arg4) = m ((c : Thread nD τ).loc main_arg4) :=
  calc W15 m ρ c (Proc.devRef .tc main_arg4)
    _ = W14 m ρ c (Proc.devRef .tc main_arg4) := StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W14_arg4 m ρ c

theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W0_arg5 m ρ c
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := W1_arg5 m ρ c
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_arg5 m ρ c
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = m ((c : Thread nD τ).loc main_arg5) := W3_arg5 m ρ c
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W4_arg5 m ρ c
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = m ((c : Thread nD τ).loc main_arg5) := W5_arg5 m ρ c
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W6_arg5 m ρ c
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = m ((c : Thread nD τ).loc main_arg5) := W7_arg5 m ρ c
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W8_arg5 m ρ c
theorem W10_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = m ((c : Thread nD τ).loc main_arg5) := W9_arg5 m ρ c
theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W10_arg5 m ρ c
theorem W12_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = m ((c : Thread nD τ).loc main_arg5) := W11_arg5 m ρ c
theorem W13_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W12_arg5 m ρ c
theorem W14_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = m ((c : Thread nD τ).loc main_arg5) := W13_arg5 m ρ c
theorem W15_arg5 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_forall_not_mem (b := Proc.devRef .tc main_arg5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W14_arg5 m ρ c

theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W0_arg6 m ρ c
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = m ((c : Thread nD τ).loc main_arg6) := W1_arg6 m ρ c
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_arg6 m ρ c
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = m ((c : Thread nD τ).loc main_arg6) := W3_arg6 m ρ c
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W4_arg6 m ρ c
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = m ((c : Thread nD τ).loc main_arg6) := W5_arg6 m ρ c
theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W6_arg6 m ρ c
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = m ((c : Thread nD τ).loc main_arg6) := W7_arg6 m ρ c
theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W8_arg6 m ρ c
theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = m ((c : Thread nD τ).loc main_arg6) := W9_arg6 m ρ c
theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W10_arg6 m ρ c
theorem W12_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = m ((c : Thread nD τ).loc main_arg6) := W11_arg6 m ρ c
theorem W13_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W12_arg6 m ρ c
theorem W14_arg6 (c : Dev nD) : W14 m ρ c (Proc.devRef .tc main_arg6) = m ((c : Thread nD τ).loc main_arg6) :=
  calc W14 m ρ c (Proc.devRef .tc main_arg6)
    _ = W13 m ρ c (Proc.devRef .tc main_arg6) := (W14_arr m ρ c 1).trans (((dat6 (V13 m ρ) c).arrAt_in 1 rfl _).trans (A_eq6 (V13 m ρ) c 1))
    _ = m ((c : Thread nD τ).loc main_arg6) := W13_arg6 m ρ c
theorem W15_arg6 (c : Dev nD) : W15 m ρ c (Proc.devRef .tc main_arg6) = m ((c : Thread nD τ).loc main_arg6) :=
  calc W15 m ρ c (Proc.devRef .tc main_arg6)
    _ = W14 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W14_arg6 m ρ c

theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W0_arg7 m ρ c
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := W1_arg7 m ρ c
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_arg7 m ρ c
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = m ((c : Thread nD τ).loc main_arg7) := W3_arg7 m ρ c
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W4_arg7 m ρ c
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = m ((c : Thread nD τ).loc main_arg7) := W5_arg7 m ρ c
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W6_arg7 m ρ c
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = m ((c : Thread nD τ).loc main_arg7) := W7_arg7 m ρ c
theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W8_arg7 m ρ c
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = m ((c : Thread nD τ).loc main_arg7) := W9_arg7 m ρ c
theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W10_arg7 m ρ c
theorem W12_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = m ((c : Thread nD τ).loc main_arg7) := W11_arg7 m ρ c
theorem W13_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W12_arg7 m ρ c
theorem W14_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = m ((c : Thread nD τ).loc main_arg7) := W13_arg7 m ρ c
theorem W15_arg7 (c : Dev nD) : W15 m ρ c (Proc.devRef .tc main_arg7) = m ((c : Thread nD τ).loc main_arg7) :=
  calc W15 m ρ c (Proc.devRef .tc main_arg7)
    _ = W14 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W14_arg7 m ρ c

theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W0_arg8 m ρ c
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := W1_arg8 m ρ c
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_arg8 m ρ c
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := W3_arg8 m ρ c
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W4_arg8 m ρ c
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = m ((c : Thread nD τ).loc main_arg8) := W5_arg8 m ρ c
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W6_arg8 m ρ c
theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = m ((c : Thread nD τ).loc main_arg8) := W7_arg8 m ρ c
theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W8_arg8 m ρ c
theorem W10_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = m ((c : Thread nD τ).loc main_arg8) := W9_arg8 m ρ c
theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W10_arg8 m ρ c
theorem W12_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = m ((c : Thread nD τ).loc main_arg8) := W11_arg8 m ρ c
theorem W13_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W12_arg8 m ρ c
theorem W14_arg8 (c : Dev nD) : W14 m ρ c (Proc.devRef .tc main_arg8) = m ((c : Thread nD τ).loc main_arg8) :=
  calc W14 m ρ c (Proc.devRef .tc main_arg8)
    _ = W13 m ρ c (Proc.devRef .tc main_arg8) := (W14_arr m ρ c 3).trans (((dat6 (V13 m ρ) c).arrAt_in 3 rfl _).trans (A_eq6 (V13 m ρ) c 3))
    _ = m ((c : Thread nD τ).loc main_arg8) := W13_arg8 m ρ c
theorem W15_arg8 (c : Dev nD) : W15 m ρ c (Proc.devRef .tc main_arg8) = m ((c : Thread nD τ).loc main_arg8) :=
  calc W15 m ρ c (Proc.devRef .tc main_arg8)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W14_arg8 m ρ c

theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W0_arg9 m ρ c
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = m ((c : Thread nD τ).loc main_arg9) := W1_arg9 m ρ c
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_arg9 m ρ c
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := W3_arg9 m ρ c
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W4_arg9 m ρ c
theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = m ((c : Thread nD τ).loc main_arg9) := W5_arg9 m ρ c
theorem W7_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W6_arg9 m ρ c
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = m ((c : Thread nD τ).loc main_arg9) := W7_arg9 m ρ c
theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W8_arg9 m ρ c
theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = m ((c : Thread nD τ).loc main_arg9) := W9_arg9 m ρ c
theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W10_arg9 m ρ c
theorem W12_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = m ((c : Thread nD τ).loc main_arg9) := W11_arg9 m ρ c
theorem W13_arg9 (c : Dev nD) : W13 m ρ c (Proc.devRef .tc main_arg9) = m ((c : Thread nD τ).loc main_arg9) :=
  calc W13 m ρ c (Proc.devRef .tc main_arg9)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W12_arg9 m ρ c
theorem W14_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = m ((c : Thread nD τ).loc main_arg9) := W13_arg9 m ρ c
theorem W15_arg9 (c : Dev nD) : W15 m ρ c (Proc.devRef .tc main_arg9) = m ((c : Thread nD τ).loc main_arg9) :=
  calc W15 m ρ c (Proc.devRef .tc main_arg9)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W14_arg9 m ρ c

theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W0_arg10 m ρ c
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = m ((c : Thread nD τ).loc main_arg10) := W1_arg10 m ρ c
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_arg10 m ρ c
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = m ((c : Thread nD τ).loc main_arg10) := W3_arg10 m ρ c
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W4_arg10 m ρ c
theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = m ((c : Thread nD τ).loc main_arg10) := W5_arg10 m ρ c
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W6_arg10 m ρ c
theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = m ((c : Thread nD τ).loc main_arg10) := W7_arg10 m ρ c
theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W8_arg10 m ρ c
theorem W10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = m ((c : Thread nD τ).loc main_arg10) := W9_arg10 m ρ c
theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W10_arg10 m ρ c
theorem W12_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = m ((c : Thread nD τ).loc main_arg10) := W11_arg10 m ρ c
theorem W13_arg10 (c : Dev nD) : W13 m ρ c (Proc.devRef .tc main_arg10) = m ((c : Thread nD τ).loc main_arg10) :=
  calc W13 m ρ c (Proc.devRef .tc main_arg10)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W12_arg10 m ρ c
theorem W14_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = m ((c : Thread nD τ).loc main_arg10) := W13_arg10 m ρ c
theorem W15_arg10 (c : Dev nD) : W15 m ρ c (Proc.devRef .tc main_arg10) = m ((c : Thread nD τ).loc main_arg10) :=
  calc W15 m ρ c (Proc.devRef .tc main_arg10)
    _ = W14 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W14_arg10 m ρ c

theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W0_arg11 m ρ c
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = m ((c : Thread nD τ).loc main_arg11) := W1_arg11 m ρ c
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_arg11 m ρ c
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = m ((c : Thread nD τ).loc main_arg11) := W3_arg11 m ρ c
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W4_arg11 m ρ c
theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = m ((c : Thread nD τ).loc main_arg11) := W5_arg11 m ρ c
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W6_arg11 m ρ c
theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = m ((c : Thread nD τ).loc main_arg11) := W7_arg11 m ρ c
theorem W9_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W8_arg11 m ρ c
theorem W10_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = m ((c : Thread nD τ).loc main_arg11) := W9_arg11 m ρ c
theorem W11_arg11 (c : Dev nD) : W11 m ρ c (Proc.devRef .tc main_arg11) = m ((c : Thread nD τ).loc main_arg11) :=
  calc W11 m ρ c (Proc.devRef .tc main_arg11)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W10_arg11 m ρ c
theorem W12_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = m ((c : Thread nD τ).loc main_arg11) := W11_arg11 m ρ c
theorem W13_arg11 (c : Dev nD) : W13 m ρ c (Proc.devRef .tc main_arg11) = m ((c : Thread nD τ).loc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W12_arg11 m ρ c
theorem W14_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = m ((c : Thread nD τ).loc main_arg11) := W13_arg11 m ρ c
theorem W15_arg11 (c : Dev nD) : W15 m ρ c (Proc.devRef .tc main_arg11) = m ((c : Thread nD τ).loc main_arg11) :=
  calc W15 m ρ c (Proc.devRef .tc main_arg11)
    _ = W14 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W14_arg11 m ρ c

theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W0_arg12 m ρ c
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = m ((c : Thread nD τ).loc main_arg12) := W1_arg12 m ρ c
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_arg12 m ρ c
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = m ((c : Thread nD τ).loc main_arg12) := W3_arg12 m ρ c
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W4_arg12 m ρ c
theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = m ((c : Thread nD τ).loc main_arg12) := W5_arg12 m ρ c
theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W6_arg12 m ρ c
theorem W8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = m ((c : Thread nD τ).loc main_arg12) := W7_arg12 m ρ c
theorem W9_arg12 (c : Dev nD) : W9 m ρ c (Proc.devRef .tc main_arg12) = m ((c : Thread nD τ).loc main_arg12) :=
  calc W9 m ρ c (Proc.devRef .tc main_arg12)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W8_arg12 m ρ c
theorem W10_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = m ((c : Thread nD τ).loc main_arg12) := W9_arg12 m ρ c
theorem W11_arg12 (c : Dev nD) : W11 m ρ c (Proc.devRef .tc main_arg12) = m ((c : Thread nD τ).loc main_arg12) :=
  calc W11 m ρ c (Proc.devRef .tc main_arg12)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W10_arg12 m ρ c
theorem W12_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = m ((c : Thread nD τ).loc main_arg12) := W11_arg12 m ρ c
theorem W13_arg12 (c : Dev nD) : W13 m ρ c (Proc.devRef .tc main_arg12) = m ((c : Thread nD τ).loc main_arg12) :=
  calc W13 m ρ c (Proc.devRef .tc main_arg12)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W12_arg12 m ρ c
theorem W14_arg12 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = m ((c : Thread nD τ).loc main_arg12) := W13_arg12 m ρ c
theorem W15_arg12 (c : Dev nD) : W15 m ρ c (Proc.devRef .tc main_arg12) = m ((c : Thread nD τ).loc main_arg12) :=
  calc W15 m ρ c (Proc.devRef .tc main_arg12)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W14_arg12 m ρ c

/-! ## Buffers carried unchanged across later boundaries -/

/-- The column of reciprocal degrees is written once, before the first layer, and no operation or region up to the second layer's aggregation writes it. -/
theorem W4_v8 (c : Dev nD) : W4 m ρ c (Proc.devRef .tc main_v8) = W1 m ρ c (Proc.devRef .tc main_v8) :=
  calc W4 m ρ c (Proc.devRef .tc main_v8)
    _ = W3 m ρ c (Proc.devRef .tc main_v8) := W4_of_ne m ρ c main_v8 (by decide)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

/-- Likewise up to the third layer's aggregation. -/
theorem W8_v8 (c : Dev nD) : W8 m ρ c (Proc.devRef .tc main_v8) = W1 m ρ c (Proc.devRef .tc main_v8) :=
  calc W8 m ρ c (Proc.devRef .tc main_v8)
    _ = W7 m ρ c (Proc.devRef .tc main_v8) := W8_of_ne m ρ c main_v8 (by decide)
    _ = W6 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W4_v8 m ρ c

/-- The first layer's linear output is untouched by the operations that form its statistics. -/
theorem W3_v28_0 (c : Dev nD) : W3 m ρ c (Proc.devRef .tc main_v28_0) = W2 m ρ c (Proc.devRef .tc main_v28_0) :=
  calc W3 m ρ c (Proc.devRef .tc main_v28_0)
    _ = W2 m ρ c (Proc.devRef .tc main_v28_0) := StableHlo.after_of_forall_not_mem (b := Proc.devRef .tc main_v28_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first layer's normalised output is untouched by the second layer's aggregation. -/
theorem W5_v47 (c : Dev nD) : W5 m ρ c (Proc.devRef .tc main_v47) = W4 m ρ c (Proc.devRef .tc main_v47) :=
  calc W5 m ρ c (Proc.devRef .tc main_v47)
    _ = W4 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second layer's linear output is untouched by the operations that form its statistics. -/
theorem W7_v67_0 (c : Dev nD) : W7 m ρ c (Proc.devRef .tc main_v67_0) = W6 m ρ c (Proc.devRef .tc main_v67_0) :=
  calc W7 m ρ c (Proc.devRef .tc main_v67_0)
    _ = W6 m ρ c (Proc.devRef .tc main_v67_0) := StableHlo.after_of_forall_not_mem (b := Proc.devRef .tc main_v67_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second layer's normalised output is untouched by the third layer's aggregation. -/
theorem W9_v86 (c : Dev nD) : W9 m ρ c (Proc.devRef .tc main_v86) = W8 m ρ c (Proc.devRef .tc main_v86) :=
  calc W9 m ρ c (Proc.devRef .tc main_v86)
    _ = W8 m ρ c (Proc.devRef .tc main_v86) := StableHlo.after_of_forall_not_mem (b := Proc.devRef .tc main_v86) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third layer's linear output is untouched by the operations that form its statistics. -/
theorem W11_v106_0 (c : Dev nD) : W11 m ρ c (Proc.devRef .tc main_v106_0) = W10 m ρ c (Proc.devRef .tc main_v106_0) :=
  calc W11 m ρ c (Proc.devRef .tc main_v106_0)
    _ = W10 m ρ c (Proc.devRef .tc main_v106_0) := StableHlo.after_of_forall_not_mem (b := Proc.devRef .tc main_v106_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Stretch 0: before the first layer's linear region -/

/-- The column of reciprocal degrees: ones scatter-added from zero at the edges' target indices count each node's incoming edges; the entry is one divided by the larger of that count and one, as a 100000×1 column. -/
theorem s0_v8 (c : Dev nD) :
    (W1 m ρ c (Proc.devRef .tc main_v8) : (⟨S100000x1, .f32⟩ : BufTy).Contents (Elt F)) =
      ((broadcastInDim S100000x1 ![0] bcast_S100000_S100000x1_0 : (⟨S100000, .f32⟩ : BufTy).Contents (Elt F) → (⟨S100000x1, .f32⟩ : BufTy).Contents (Elt F))
        ((Host.divf : (⟨S100000, .f32⟩ : BufTy).Contents (Elt F) → (⟨S100000, .f32⟩ : BufTy).Contents (Elt F) → (⟨S100000, .f32⟩ : BufTy).Contents (Elt F))
          ((broadcastInDim S100000 ![] bcast_S_S100000 : (⟨S_, .f32⟩ : BufTy).Contents (Elt F) → (⟨S100000, .f32⟩ : BufTy).Contents (Elt F))
            (constant S_ .f32 0x3F800000#32 : (⟨S_, .f32⟩ : BufTy).Contents (Elt F)))
          ((maximumf : (⟨S100000, .f32⟩ : BufTy).Contents (Elt F) → (⟨S100000, .f32⟩ : BufTy).Contents (Elt F) → (⟨S100000, .f32⟩ : BufTy).Contents (Elt F))
            ((Host.scatterAdd scatter_S100000_S1600000x1_S1600000_n_0_0_1 : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
              ((broadcastInDim S100000 ![] bcast_S_S100000 : (⟨S_, .f32⟩ : BufTy).Contents (Elt F) → (⟨S100000, .f32⟩ : BufTy).Contents (Elt F))
                (constant S_ .f32 0x00000000#32 : (⟨S_, .f32⟩ : BufTy).Contents (Elt F)))
              ((broadcastInDim S1600000x1 ![0] bcast_S1600000_S1600000x1_0 : (⟨S1600000, .i32⟩ : BufTy).Contents (Elt F) → (⟨S1600000x1, .i32⟩ : BufTy).Contents (Elt F))
                (W0 m ρ c (Proc.devRef .tc main_arg11) : (⟨S1600000, .i32⟩ : BufTy).Contents (Elt F)))
              ((broadcastInDim S1600000 ![] bcast_S_S1600000 : (⟨S_, .f32⟩ : BufTy).Contents (Elt F) → (⟨S1600000, .f32⟩ : BufTy).Contents (Elt F))
                (constant S_ .f32 0x3F800000#32 : (⟨S_, .f32⟩ : BufTy).Contents (Elt F))))
            ((broadcastInDim S100000 ![] bcast_S_S100000 : (⟨S_, .f32⟩ : BufTy).Contents (Elt F) → (⟨S100000, .f32⟩ : BufTy).Contents (Elt F))
              (constant S_ .f32 0x3F800000#32 : (⟨S_, .f32⟩ : BufTy).Contents (Elt F)))))) := by
  show StableHlo.after hostOps0 (W0 m ρ c) (Proc.devRef .tc main_v8) = _
  after_results
  all_goals rfl

set_option maxHeartbeats 1600000 in
/-- The first layer's mean aggregate: the rows of the input features gathered at the edges' source indices (a negative index wrapped by the node count), scatter-added from zero at the edges' target indices, each row scaled by the reciprocal degree (stated with the reciprocal-degree column as it stands after these operations). -/
theorem s0_v20 (c : Dev nD) :
    (W1 m ρ c (Proc.devRef .tc main_v20) : (⟨S100000x128, .f32⟩ : BufTy).Contents (Elt F)) =
      ((mulf : (⟨S100000x128, .f32⟩ : BufTy).Contents (Elt F) → (⟨S100000x128, .f32⟩ : BufTy).Contents (Elt F) → (⟨S100000x128, .f32⟩ : BufTy).Contents (Elt F))
        ((Host.scatterAdd scatter_S100000x128_S1600000x1_S1600000x128_1_0_0_1 : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
          ((broadcastInDim S100000x128 ![] bcast_S_S100000x128 : (⟨S_, .f32⟩ : BufTy).Contents (Elt F) → (⟨S100000x128, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (W0 m ρ c (Proc.devRef .tc main_arg11) : (⟨S1600000, .i32⟩ : BufTy).Contents (Elt F)))
          ((Host.gather gather_S100000x128_S1600000x1_S1600000x128_1_0_n_n_0_1_1128 : (⟨S100000x128, .f32⟩ : BufTy).Contents (Elt F) → (⟨S1600000x1, .i32⟩ : BufTy).Contents (Elt F) → (⟨S1600000x128, .f32⟩ : BufTy).Contents (Elt F))
            (W0 m ρ c (Proc.devRef .tc main_arg0) : (⟨S100000x128, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (W0 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (W0 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (W0 m ρ c (Proc.devRef .tc main_arg10) : (⟨S1600000, .i32⟩ : BufTy).Contents (Elt F))))))
        ((broadcastInDim S100000x128 ![0, 1] bcast_S100000x1_S100000x128_0_1 : (⟨S100000x1, .f32⟩ : BufTy).Contents (Elt F) → (⟨S100000x128, .f32⟩ : BufTy).Contents (Elt F))
          (W1 m ρ c (Proc.devRef .tc main_v8) : (⟨S100000x1, .f32⟩ : BufTy).Contents (Elt F)))) := by
  show StableHlo.after hostOps0 (W0 m ρ c) (Proc.devRef .tc main_v20) = _
  after_results_simp
  all_goals rfl

/-- The first layer's weight on the aggregate: slice 0 of the stacked aggregate weights, as a 128×128 matrix. -/
theorem s0_v22 (c : Dev nD) :
    (W1 m ρ c (Proc.devRef .tc main_v22) : (⟨S128x128, .f32⟩ : BufTy).Contents (Elt F)) =
      (shapeCast S128x128
        (extractStridedSlice S1x128x128 ![0, 0, 0]
          (W0 m ρ c (Proc.devRef .tc main_arg1) : (⟨S3x128x128, .f32⟩ : BufTy).Contents (Elt F))
          slices_S3x128x128_S1x128x128_0_0_0 : (⟨S1x128x128, .f32⟩ : BufTy).Contents (Elt F))
        shapeCasts_S1x128x128_S128x128 : (⟨S128x128, .f32⟩ : BufTy).Contents (Elt F)) := by
  show StableHlo.after hostOps0 (W0 m ρ c) (Proc.devRef .tc main_v22) = _
  after_results
  all_goals rfl

/-- The first layer's weight on a node's own features: slice 0 of the stacked self weights, as a 128×128 matrix. -/
theorem s0_v24 (c : Dev nD) :
    (W1 m ρ c (Proc.devRef .tc main_v24) : (⟨S128x128, .f32⟩ : BufTy).Contents (Elt F)) =
      (shapeCast S128x128
        (extractStridedSlice S1x128x128 ![0, 0, 0]
          (W0 m ρ c (Proc.devRef .tc main_arg2) : (⟨S3x128x128, .f32⟩ : BufTy).Contents (Elt F))
          slices_S3x128x128_S1x128x128_0_0_0 : (⟨S1x128x128, .f32⟩ : BufTy).Contents (Elt F))
        shapeCasts_S1x128x128_S128x128 : (⟨S128x128, .f32⟩ : BufTy).Contents (Elt F)) := by
  show StableHlo.after hostOps0 (W0 m ρ c) (Proc.devRef .tc main_v24) = _
  after_results
  all_goals rfl

/-- The first layer's bias: row 0 of the stacked biases, as a 1×128 row. -/
theorem s0_v27 (c : Dev nD) :
    (W1 m ρ c (Proc.devRef .tc main_v27) : (⟨S1x128, .f32⟩ : BufTy).Contents (Elt F)) =
      (shapeCast S1x128
        (shapeCast S128
          (extractStridedSlice S1x128 ![0, 0]
            (W0 m ρ c (Proc.devRef .tc main_arg3) : (⟨S3x128, .f32⟩ : BufTy).Contents (Elt F))
            slices_S3x128_S1x128_0_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps0 (W0 m ρ c) (Proc.devRef .tc main_v27) = _
  after_results
  all_goals rfl

/-! ## Stretch 1: between the first layer's linear region and its normalisation -/

/-- The first layer's mean: the first row of its statistics (the column sums) divided by the node count 100000, as a 1×128 row. -/
theorem s1_v43 (c : Dev nD) :
    (W3 m ρ c (Proc.devRef .tc main_v43) : (⟨S1x128, .f32⟩ : BufTy).Contents (Elt F)) =
      (shapeCast S1x128
        ((Host.divf : (⟨S128, .f32⟩ : BufTy).Contents (Elt F) → (⟨S128, .f32⟩ : BufTy).Contents (Elt F) → (⟨S128, .f32⟩ : BufTy).Contents (Elt F))
          (shapeCast S128
            (extractStridedSlice S1x128 ![0, 0]
              (W2 m ρ c (Proc.devRef .tc main_v28_1) : (⟨S2x128, .f32⟩ : BufTy).Contents (Elt F))
              slices_S2x128_S1x128_0_0 : (⟨S1x128, .f32⟩ : BufTy).Contents (Elt F))
            shapeCasts_S1x128_S128 : (⟨S128, .f32⟩ : BufTy).Contents (Elt F))
          ((broadcastInDim S128 ![] bcast_S_S128 : (⟨S_, .f32⟩ : BufTy).Contents (Elt F) → (⟨S128, .f32⟩ : BufTy).Contents (Elt F))
            (constant S_ .f32 0x47C35000#32 : (⟨S_, .f32⟩ : BufTy).Contents (Elt F))))
        shapeCasts_S128_S1x128 : (⟨S1x128, .f32⟩ : BufTy).Contents (Elt F)) := by
  show StableHlo.after hostOps1 (W2 m ρ c) (Proc.devRef .tc main_v43) = _
  after_results
  all_goals rfl

/-- The first layer's variance: the second row of its statistics (the column sums of squares) divided by 100000, minus the square of the mean, as a 1×128 row. -/
theorem s1_v44 (c : Dev nD) :
    (W3 m ρ c (Proc.devRef .tc main_v44) : (⟨S1x128, .f32⟩ : BufTy).Contents (Elt F)) =
      (shapeCast S1x128
        ((subf : (⟨S128, .f32⟩ : BufTy).Contents (Elt F) → (⟨S128, .f32⟩ : BufTy).Contents (Elt F) → (⟨S128, .f32⟩ : BufTy).Contents (Elt F))
          ((Host.divf : (⟨S128, .f32⟩ : BufTy).Contents (Elt F) → (⟨S128, .f32⟩ : BufTy).Contents (Elt F) → (⟨S128, .f32⟩ : BufTy).Contents (Elt F))
            (shapeCast S128
              (extractStridedSlice S1x128 ![1, 0]
                (W2 m ρ c (Proc.devRef .tc main_v28_1) : (⟨S2x128, .f32⟩ : BufTy).Contents (Elt F))
                slices_S2x128_S1x128_1_0 : (⟨S1x128, .f32⟩ : BufTy).Contents (Elt F))
              shapeCasts_S1x128_S128 : (⟨S128, .f32⟩ : BufTy).Contents (Elt F))
            ((broadcastInDim S128 ![] bcast_S_S128 : (⟨S_, .f32⟩ : BufTy).Contents (Elt F) → (⟨S128, .f32⟩ : BufTy).Contents (Elt F))
              (constant S_ .f32 0x47C35000#32 : (⟨S_, .f32⟩ : BufTy).Contents (Elt F))))
          ((mulf : (⟨S128, .f32⟩ : BufTy).Contents (Elt F) → (⟨S128, .f32⟩ : BufTy).Contents (Elt F) → (⟨S128, .f32⟩ : BufTy).Contents (Elt F))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W2 m ρ c (Proc.devRef .tc main_v28_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W2 m ρ c (Proc.devRef .tc main_v28_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))))
        shapeCasts_S128_S1x128 : (⟨S1x128, .f32⟩ : BufTy).Contents (Elt F)) := by
  show StableHlo.after hostOps1 (W2 m ρ c) (Proc.devRef .tc main_v44) = _
  after_results
  all_goals rfl

/-- The first layer's scale: row 0 of the stacked scales, as a 1×128 row. -/
theorem s1_v45 (c : Dev nD) :
    (W3 m ρ c (Proc.devRef .tc main_v45) : (⟨S1x128, .f32⟩ : BufTy).Contents (Elt F)) =
      (shapeCast S1x128
        (shapeCast S128
          (extractStridedSlice S1x128 ![0, 0]
            (W2 m ρ c (Proc.devRef .tc main_arg4) : (⟨S3x128, .f32⟩ : BufTy).Contents (Elt F))
            slices_S3x128_S1x128_0_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps1 (W2 m ρ c) (Proc.devRef .tc main_v45) = _
  after_results
  all_goals rfl

/-- The first layer's shift: row 0 of the stacked shifts, as a 1×128 row. -/
theorem s1_v46 (c : Dev nD) :
    (W3 m ρ c (Proc.devRef .tc main_v46) : (⟨S1x128, .f32⟩ : BufTy).Contents (Elt F)) =
      (shapeCast S1x128
        (shapeCast S128
          (extractStridedSlice S1x128 ![0, 0]
            (W2 m ρ c (Proc.devRef .tc main_arg5) : (⟨S3x128, .f32⟩ : BufTy).Contents (Elt F))
            slices_S3x128_S1x128_0_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps1 (W2 m ρ c) (Proc.devRef .tc main_v46) = _
  after_results
  all_goals rfl

/-! ## Stretch 2: before the second layer's linear region -/

set_option maxHeartbeats 1600000 in
/-- The second layer's mean aggregate: the rows of the first layer's output gathered at the edges' source indices (a negative index wrapped by the node count), scatter-added from zero at the edges' target indices, each row scaled by the reciprocal degree. -/
theorem s2_v59 (c : Dev nD) :
    (W5 m ρ c (Proc.devRef .tc main_v59) : (⟨S100000x128, .f32⟩ : BufTy).Contents (Elt F)) =
      ((mulf : (⟨S100000x128, .f32⟩ : BufTy).Contents (Elt F) → (⟨S100000x128, .f32⟩ : BufTy).Contents (Elt F) → (⟨S100000x128, .f32⟩ : BufTy).Contents (Elt F))
        ((Host.scatterAdd scatter_S100000x128_S1600000x1_S1600000x128_1_0_0_1 : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
          ((broadcastInDim S100000x128 ![] bcast_S_S100000x128 : (⟨S_, .f32⟩ : BufTy).Contents (Elt F) → (⟨S100000x128, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (W4 m ρ c (Proc.devRef .tc main_arg11) : (⟨S1600000, .i32⟩ : BufTy).Contents (Elt F)))
          ((Host.gather gather_S100000x128_S1600000x1_S1600000x128_1_0_n_n_0_1_1128 : (⟨S100000x128, .f32⟩ : BufTy).Contents (Elt F) → (⟨S1600000x1, .i32⟩ : BufTy).Contents (Elt F) → (⟨S1600000x128, .f32⟩ : BufTy).Contents (Elt F))
            (W4 m ρ c (Proc.devRef .tc main_v47) : (⟨S100000x128, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (W4 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (W4 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (W4 m ρ c (Proc.devRef .tc main_arg10) : (⟨S1600000, .i32⟩ : BufTy).Contents (Elt F))))))
        ((broadcastInDim S100000x128 ![0, 1] bcast_S100000x1_S100000x128_0_1 : (⟨S100000x1, .f32⟩ : BufTy).Contents (Elt F) → (⟨S100000x128, .f32⟩ : BufTy).Contents (Elt F))
          (W4 m ρ c (Proc.devRef .tc main_v8) : (⟨S100000x1, .f32⟩ : BufTy).Contents (Elt F)))) := by
  show StableHlo.after hostOps2 (W4 m ρ c) (Proc.devRef .tc main_v59) = _
  after_results_simp
  all_goals rfl

/-- The second layer's weight on the aggregate: slice 1 of the stacked aggregate weights, as a 128×128 matrix. -/
theorem s2_v61 (c : Dev nD) :
    (W5 m ρ c (Proc.devRef .tc main_v61) : (⟨S128x128, .f32⟩ : BufTy).Contents (Elt F)) =
      (shapeCast S128x128
        (extractStridedSlice S1x128x128 ![1, 0, 0]
          (W4 m ρ c (Proc.devRef .tc main_arg1) : (⟨S3x128x128, .f32⟩ : BufTy).Contents (Elt F))
          slices_S3x128x128_S1x128x128_1_0_0 : (⟨S1x128x128, .f32⟩ : BufTy).Contents (Elt F))
        shapeCasts_S1x128x128_S128x128 : (⟨S128x128, .f32⟩ : BufTy).Contents (Elt F)) := by
  show StableHlo.after hostOps2 (W4 m ρ c) (Proc.devRef .tc main_v61) = _
  after_results
  all_goals rfl

/-- The second layer's weight on a node's own features: slice 1 of the stacked self weights, as a 128×128 matrix. -/
theorem s2_v63 (c : Dev nD) :
    (W5 m ρ c (Proc.devRef .tc main_v63) : (⟨S128x128, .f32⟩ : BufTy).Contents (Elt F)) =
      (shapeCast S128x128
        (extractStridedSlice S1x128x128 ![1, 0, 0]
          (W4 m ρ c (Proc.devRef .tc main_arg2) : (⟨S3x128x128, .f32⟩ : BufTy).Contents (Elt F))
          slices_S3x128x128_S1x128x128_1_0_0 : (⟨S1x128x128, .f32⟩ : BufTy).Contents (Elt F))
        shapeCasts_S1x128x128_S128x128 : (⟨S128x128, .f32⟩ : BufTy).Contents (Elt F)) := by
  show StableHlo.after hostOps2 (W4 m ρ c) (Proc.devRef .tc main_v63) = _
  after_results
  all_goals rfl

/-- The second layer's bias: row 1 of the stacked biases, as a 1×128 row. -/
theorem s2_v66 (c : Dev nD) :
    (W5 m ρ c (Proc.devRef .tc main_v66) : (⟨S1x128, .f32⟩ : BufTy).Contents (Elt F)) =
      (shapeCast S1x128
        (shapeCast S128
          (extractStridedSlice S1x128 ![1, 0]
            (W4 m ρ c (Proc.devRef .tc main_arg3) : (⟨S3x128, .f32⟩ : BufTy).Contents (Elt F))
            slices_S3x128_S1x128_1_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps2 (W4 m ρ c) (Proc.devRef .tc main_v66) = _
  after_results
  all_goals rfl

/-! ## Stretch 3: between the second layer's linear region and its normalisation -/

/-- The second layer's mean: the first row of its statistics (the column sums) divided by the node count 100000, as a 1×128 row. -/
theorem s3_v82 (c : Dev nD) :
    (W7 m ρ c (Proc.devRef .tc main_v82) : (⟨S1x128, .f32⟩ : BufTy).Contents (Elt F)) =
      (shapeCast S1x128
        ((Host.divf : (⟨S128, .f32⟩ : BufTy).Contents (Elt F) → (⟨S128, .f32⟩ : BufTy).Contents (Elt F) → (⟨S128, .f32⟩ : BufTy).Contents (Elt F))
          (shapeCast S128
            (extractStridedSlice S1x128 ![0, 0]
              (W6 m ρ c (Proc.devRef .tc main_v67_1) : (⟨S2x128, .f32⟩ : BufTy).Contents (Elt F))
              slices_S2x128_S1x128_0_0 : (⟨S1x128, .f32⟩ : BufTy).Contents (Elt F))
            shapeCasts_S1x128_S128 : (⟨S128, .f32⟩ : BufTy).Contents (Elt F))
          ((broadcastInDim S128 ![] bcast_S_S128 : (⟨S_, .f32⟩ : BufTy).Contents (Elt F) → (⟨S128, .f32⟩ : BufTy).Contents (Elt F))
            (constant S_ .f32 0x47C35000#32 : (⟨S_, .f32⟩ : BufTy).Contents (Elt F))))
        shapeCasts_S128_S1x128 : (⟨S1x128, .f32⟩ : BufTy).Contents (Elt F)) := by
  show StableHlo.after hostOps3 (W6 m ρ c) (Proc.devRef .tc main_v82) = _
  after_results
  all_goals rfl

/-- The second layer's variance: the second row of its statistics (the column sums of squares) divided by 100000, minus the square of the mean, as a 1×128 row. -/
theorem s3_v83 (c : Dev nD) :
    (W7 m ρ c (Proc.devRef .tc main_v83) : (⟨S1x128, .f32⟩ : BufTy).Contents (Elt F)) =
      (shapeCast S1x128
        ((subf : (⟨S128, .f32⟩ : BufTy).Contents (Elt F) → (⟨S128, .f32⟩ : BufTy).Contents (Elt F) → (⟨S128, .f32⟩ : BufTy).Contents (Elt F))
          ((Host.divf : (⟨S128, .f32⟩ : BufTy).Contents (Elt F) → (⟨S128, .f32⟩ : BufTy).Contents (Elt F) → (⟨S128, .f32⟩ : BufTy).Contents (Elt F))
            (shapeCast S128
              (extractStridedSlice S1x128 ![1, 0]
                (W6 m ρ c (Proc.devRef .tc main_v67_1) : (⟨S2x128, .f32⟩ : BufTy).Contents (Elt F))
                slices_S2x128_S1x128_1_0 : (⟨S1x128, .f32⟩ : BufTy).Contents (Elt F))
              shapeCasts_S1x128_S128 : (⟨S128, .f32⟩ : BufTy).Contents (Elt F))
            ((broadcastInDim S128 ![] bcast_S_S128 : (⟨S_, .f32⟩ : BufTy).Contents (Elt F) → (⟨S128, .f32⟩ : BufTy).Contents (Elt F))
              (constant S_ .f32 0x47C35000#32 : (⟨S_, .f32⟩ : BufTy).Contents (Elt F))))
          ((mulf : (⟨S128, .f32⟩ : BufTy).Contents (Elt F) → (⟨S128, .f32⟩ : BufTy).Contents (Elt F) → (⟨S128, .f32⟩ : BufTy).Contents (Elt F))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W6 m ρ c (Proc.devRef .tc main_v67_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W6 m ρ c (Proc.devRef .tc main_v67_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))))
        shapeCasts_S128_S1x128 : (⟨S1x128, .f32⟩ : BufTy).Contents (Elt F)) := by
  show StableHlo.after hostOps3 (W6 m ρ c) (Proc.devRef .tc main_v83) = _
  after_results
  all_goals rfl

/-- The second layer's scale: row 1 of the stacked scales, as a 1×128 row. -/
theorem s3_v84 (c : Dev nD) :
    (W7 m ρ c (Proc.devRef .tc main_v84) : (⟨S1x128, .f32⟩ : BufTy).Contents (Elt F)) =
      (shapeCast S1x128
        (shapeCast S128
          (extractStridedSlice S1x128 ![1, 0]
            (W6 m ρ c (Proc.devRef .tc main_arg4) : (⟨S3x128, .f32⟩ : BufTy).Contents (Elt F))
            slices_S3x128_S1x128_1_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps3 (W6 m ρ c) (Proc.devRef .tc main_v84) = _
  after_results
  all_goals rfl

/-- The second layer's shift: row 1 of the stacked shifts, as a 1×128 row. -/
theorem s3_v85 (c : Dev nD) :
    (W7 m ρ c (Proc.devRef .tc main_v85) : (⟨S1x128, .f32⟩ : BufTy).Contents (Elt F)) =
      (shapeCast S1x128
        (shapeCast S128
          (extractStridedSlice S1x128 ![1, 0]
            (W6 m ρ c (Proc.devRef .tc main_arg5) : (⟨S3x128, .f32⟩ : BufTy).Contents (Elt F))
            slices_S3x128_S1x128_1_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps3 (W6 m ρ c) (Proc.devRef .tc main_v85) = _
  after_results
  all_goals rfl

/-! ## Stretch 4: before the third layer's linear region -/

set_option maxHeartbeats 1600000 in
/-- The third layer's mean aggregate: the rows of the second layer's output gathered at the edges' source indices (a negative index wrapped by the node count), scatter-added from zero at the edges' target indices, each row scaled by the reciprocal degree. -/
theorem s4_v98 (c : Dev nD) :
    (W9 m ρ c (Proc.devRef .tc main_v98) : (⟨S100000x128, .f32⟩ : BufTy).Contents (Elt F)) =
      ((mulf : (⟨S100000x128, .f32⟩ : BufTy).Contents (Elt F) → (⟨S100000x128, .f32⟩ : BufTy).Contents (Elt F) → (⟨S100000x128, .f32⟩ : BufTy).Contents (Elt F))
        ((Host.scatterAdd scatter_S100000x128_S1600000x1_S1600000x128_1_0_0_1 : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
          ((broadcastInDim S100000x128 ![] bcast_S_S100000x128 : (⟨S_, .f32⟩ : BufTy).Contents (Elt F) → (⟨S100000x128, .f32⟩ : BufTy).Contents (Elt F))
            (constant S_ .f32 0x00000000#32 : (⟨S_, .f32⟩ : BufTy).Contents (Elt F)))
          ((broadcastInDim S1600000x1 ![0] bcast_S1600000_S1600000x1_0 : (⟨S1600000, .i32⟩ : BufTy).Contents (Elt F) → (⟨S1600000x1, .i32⟩ : BufTy).Contents (Elt F))
            (W8 m ρ c (Proc.devRef .tc main_arg11) : (⟨S1600000, .i32⟩ : BufTy).Contents (Elt F)))
          ((Host.gather gather_S100000x128_S1600000x1_S1600000x128_1_0_n_n_0_1_1128 : (⟨S100000x128, .f32⟩ : BufTy).Contents (Elt F) → (⟨S1600000x1, .i32⟩ : BufTy).Contents (Elt F) → (⟨S1600000x128, .f32⟩ : BufTy).Contents (Elt F))
            (W8 m ρ c (Proc.devRef .tc main_v86) : (⟨S100000x128, .f32⟩ : BufTy).Contents (Elt F))
            ((broadcastInDim S1600000x1 ![0] bcast_S1600000_S1600000x1_0 : (⟨S1600000, .i32⟩ : BufTy).Contents (Elt F) → (⟨S1600000x1, .i32⟩ : BufTy).Contents (Elt F))
              ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
                ((cmpi .slt : (⟨S1600000, .i32⟩ : BufTy).Contents (Elt F) → (⟨S1600000, .i32⟩ : BufTy).Contents (Elt F) → (⟨S1600000, .i1⟩ : BufTy).Contents (Elt F))
                  (W8 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 0#32 : (⟨S_, .i32⟩ : BufTy).Contents (Elt F))))
                ((addi : (⟨S1600000, .i32⟩ : BufTy).Contents (Elt F) → (⟨S1600000, .i32⟩ : BufTy).Contents (Elt F) → (⟨S1600000, .i32⟩ : BufTy).Contents (Elt F))
                  (W8 m ρ c (Proc.devRef .tc main_arg10) : (⟨S1600000, .i32⟩ : BufTy).Contents (Elt F))
                  ((broadcastInDim S1600000 ![] bcast_S_S1600000 : (⟨S_, .i32⟩ : BufTy).Contents (Elt F) → (⟨S1600000, .i32⟩ : BufTy).Contents (Elt F))
                    (constantI S_ 32 100000#32 : (⟨S_, .i32⟩ : BufTy).Contents (Elt F))))
                (W8 m ρ c (Proc.devRef .tc main_arg10) : (⟨S1600000, .i32⟩ : BufTy).Contents (Elt F))))))
        ((broadcastInDim S100000x128 ![0, 1] bcast_S100000x1_S100000x128_0_1 : (⟨S100000x1, .f32⟩ : BufTy).Contents (Elt F) → (⟨S100000x128, .f32⟩ : BufTy).Contents (Elt F))
          (W8 m ρ c (Proc.devRef .tc main_v8) : (⟨S100000x1, .f32⟩ : BufTy).Contents (Elt F)))) := by
  show StableHlo.after hostOps4 (W8 m ρ c) (Proc.devRef .tc main_v98) = _
  after_results_simp
  all_goals rfl

/-- The third layer's weight on the aggregate: slice 2 of the stacked aggregate weights, as a 128×128 matrix. -/
theorem s4_v100 (c : Dev nD) :
    (W9 m ρ c (Proc.devRef .tc main_v100) : (⟨S128x128, .f32⟩ : BufTy).Contents (Elt F)) =
      (shapeCast S128x128
        (extractStridedSlice S1x128x128 ![2, 0, 0]
          (W8 m ρ c (Proc.devRef .tc main_arg1) : (⟨S3x128x128, .f32⟩ : BufTy).Contents (Elt F))
          slices_S3x128x128_S1x128x128_2_0_0 : (⟨S1x128x128, .f32⟩ : BufTy).Contents (Elt F))
        shapeCasts_S1x128x128_S128x128 : (⟨S128x128, .f32⟩ : BufTy).Contents (Elt F)) := by
  show StableHlo.after hostOps4 (W8 m ρ c) (Proc.devRef .tc main_v100) = _
  after_results
  all_goals rfl

/-- The third layer's weight on a node's own features: slice 2 of the stacked self weights, as a 128×128 matrix. -/
theorem s4_v102 (c : Dev nD) :
    (W9 m ρ c (Proc.devRef .tc main_v102) : (⟨S128x128, .f32⟩ : BufTy).Contents (Elt F)) =
      (shapeCast S128x128
        (extractStridedSlice S1x128x128 ![2, 0, 0]
          (W8 m ρ c (Proc.devRef .tc main_arg2) : (⟨S3x128x128, .f32⟩ : BufTy).Contents (Elt F))
          slices_S3x128x128_S1x128x128_2_0_0 : (⟨S1x128x128, .f32⟩ : BufTy).Contents (Elt F))
        shapeCasts_S1x128x128_S128x128 : (⟨S128x128, .f32⟩ : BufTy).Contents (Elt F)) := by
  show StableHlo.after hostOps4 (W8 m ρ c) (Proc.devRef .tc main_v102) = _
  after_results
  all_goals rfl

/-- The third layer's bias: row 2 of the stacked biases, as a 1×128 row. -/
theorem s4_v105 (c : Dev nD) :
    (W9 m ρ c (Proc.devRef .tc main_v105) : (⟨S1x128, .f32⟩ : BufTy).Contents (Elt F)) =
      (shapeCast S1x128
        (shapeCast S128
          (extractStridedSlice S1x128 ![2, 0]
            (W8 m ρ c (Proc.devRef .tc main_arg3) : (⟨S3x128, .f32⟩ : BufTy).Contents (Elt F))
            slices_S3x128_S1x128_2_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps4 (W8 m ρ c) (Proc.devRef .tc main_v105) = _
  after_results
  all_goals rfl

/-! ## Stretch 5: between the third layer's linear region and its normalisation -/

/-- The third layer's mean: the first row of its statistics (the column sums) divided by the node count 100000, as a 1×128 row. -/
theorem s5_v121 (c : Dev nD) :
    (W11 m ρ c (Proc.devRef .tc main_v121) : (⟨S1x128, .f32⟩ : BufTy).Contents (Elt F)) =
      (shapeCast S1x128
        ((Host.divf : (⟨S128, .f32⟩ : BufTy).Contents (Elt F) → (⟨S128, .f32⟩ : BufTy).Contents (Elt F) → (⟨S128, .f32⟩ : BufTy).Contents (Elt F))
          (shapeCast S128
            (extractStridedSlice S1x128 ![0, 0]
              (W10 m ρ c (Proc.devRef .tc main_v106_1) : (⟨S2x128, .f32⟩ : BufTy).Contents (Elt F))
              slices_S2x128_S1x128_0_0 : (⟨S1x128, .f32⟩ : BufTy).Contents (Elt F))
            shapeCasts_S1x128_S128 : (⟨S128, .f32⟩ : BufTy).Contents (Elt F))
          ((broadcastInDim S128 ![] bcast_S_S128 : (⟨S_, .f32⟩ : BufTy).Contents (Elt F) → (⟨S128, .f32⟩ : BufTy).Contents (Elt F))
            (constant S_ .f32 0x47C35000#32 : (⟨S_, .f32⟩ : BufTy).Contents (Elt F))))
        shapeCasts_S128_S1x128 : (⟨S1x128, .f32⟩ : BufTy).Contents (Elt F)) := by
  show StableHlo.after hostOps5 (W10 m ρ c) (Proc.devRef .tc main_v121) = _
  after_results
  all_goals rfl

/-- The third layer's variance: the second row of its statistics (the column sums of squares) divided by 100000, minus the square of the mean, as a 1×128 row. -/
theorem s5_v122 (c : Dev nD) :
    (W11 m ρ c (Proc.devRef .tc main_v122) : (⟨S1x128, .f32⟩ : BufTy).Contents (Elt F)) =
      (shapeCast S1x128
        ((subf : (⟨S128, .f32⟩ : BufTy).Contents (Elt F) → (⟨S128, .f32⟩ : BufTy).Contents (Elt F) → (⟨S128, .f32⟩ : BufTy).Contents (Elt F))
          ((Host.divf : (⟨S128, .f32⟩ : BufTy).Contents (Elt F) → (⟨S128, .f32⟩ : BufTy).Contents (Elt F) → (⟨S128, .f32⟩ : BufTy).Contents (Elt F))
            (shapeCast S128
              (extractStridedSlice S1x128 ![1, 0]
                (W10 m ρ c (Proc.devRef .tc main_v106_1) : (⟨S2x128, .f32⟩ : BufTy).Contents (Elt F))
                slices_S2x128_S1x128_1_0 : (⟨S1x128, .f32⟩ : BufTy).Contents (Elt F))
              shapeCasts_S1x128_S128 : (⟨S128, .f32⟩ : BufTy).Contents (Elt F))
            ((broadcastInDim S128 ![] bcast_S_S128 : (⟨S_, .f32⟩ : BufTy).Contents (Elt F) → (⟨S128, .f32⟩ : BufTy).Contents (Elt F))
              (constant S_ .f32 0x47C35000#32 : (⟨S_, .f32⟩ : BufTy).Contents (Elt F))))
          ((mulf : (⟨S128, .f32⟩ : BufTy).Contents (Elt F) → (⟨S128, .f32⟩ : BufTy).Contents (Elt F) → (⟨S128, .f32⟩ : BufTy).Contents (Elt F))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W10 m ρ c (Proc.devRef .tc main_v106_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))
            ((Host.divf : (⟨S128, .f32⟩ : BufTy).Contents (Elt F) → (⟨S128, .f32⟩ : BufTy).Contents (Elt F) → (⟨S128, .f32⟩ : BufTy).Contents (Elt F))
              (shapeCast S128
                (extractStridedSlice S1x128 ![0, 0]
                  (W10 m ρ c (Proc.devRef .tc main_v106_1) : (⟨S2x128, .f32⟩ : BufTy).Contents (Elt F))
                  slices_S2x128_S1x128_0_0 : (⟨S1x128, .f32⟩ : BufTy).Contents (Elt F))
                shapeCasts_S1x128_S128 : (⟨S128, .f32⟩ : BufTy).Contents (Elt F))
              ((broadcastInDim S128 ![] bcast_S_S128 : (⟨S_, .f32⟩ : BufTy).Contents (Elt F) → (⟨S128, .f32⟩ : BufTy).Contents (Elt F))
                (constant S_ .f32 0x47C35000#32 : (⟨S_, .f32⟩ : BufTy).Contents (Elt F))))))
        shapeCasts_S128_S1x128 : (⟨S1x128, .f32⟩ : BufTy).Contents (Elt F)) := by
  show StableHlo.after hostOps5 (W10 m ρ c) (Proc.devRef .tc main_v122) = _
  after_results
  all_goals rfl

/-- The third layer's scale: row 2 of the stacked scales, as a 1×128 row. -/
theorem s5_v123 (c : Dev nD) :
    (W11 m ρ c (Proc.devRef .tc main_v123) : (⟨S1x128, .f32⟩ : BufTy).Contents (Elt F)) =
      (shapeCast S1x128
        (shapeCast S128
          (extractStridedSlice S1x128 ![2, 0]
            (W10 m ρ c (Proc.devRef .tc main_arg4) : (⟨S3x128, .f32⟩ : BufTy).Contents (Elt F))
            slices_S3x128_S1x128_2_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps5 (W10 m ρ c) (Proc.devRef .tc main_v123) = _
  after_results
  all_goals rfl

/-- The third layer's shift: row 2 of the stacked shifts, as a 1×128 row. -/
theorem s5_v124 (c : Dev nD) :
    (W11 m ρ c (Proc.devRef .tc main_v124) : (⟨S1x128, .f32⟩ : BufTy).Contents (Elt F)) =
      (shapeCast S1x128
        (shapeCast S128
          (extractStridedSlice S1x128 ![2, 0]
            (W10 m ρ c (Proc.devRef .tc main_arg5) : (⟨S3x128, .f32⟩ : BufTy).Contents (Elt F))
            slices_S3x128_S1x128_2_0 : (⟨S1x128, .f32⟩ : BufTy).Contents (Elt F))
          shapeCasts_S1x128_S128 : (⟨S128, .f32⟩ : BufTy).Contents (Elt F))
        shapeCasts_S128_S1x128 : (⟨S1x128, .f32⟩ : BufTy).Contents (Elt F)) := by
  show StableHlo.after hostOps5 (W10 m ρ c) (Proc.devRef .tc main_v124) = _
  after_results
  all_goals rfl

/-! ## Stretch 6: before the head -/

set_option maxHeartbeats 1600000 in
/-- The pooled features: the rows of the third layer's output scatter-added from zero at the nodes' graph indices, each of the 4096 rows divided by the larger of its graph's node count (ones scatter-added at the same indices) and one. -/
theorem s6_v137 (c : Dev nD) :
    (W13 m ρ c (Proc.devRef .tc main_v137) : (⟨S4096x128, .f32⟩ : BufTy).Contents (Elt F)) =
      ((Host.divf : (⟨S4096x128, .f32⟩ : BufTy).Contents (Elt F) → (⟨S4096x128, .f32⟩ : BufTy).Contents (Elt F) → (⟨S4096x128, .f32⟩ : BufTy).Contents (Elt F))
        ((Host.scatterAdd scatter_S4096x128_S100000x1_S100000x128_1_0_0_1 : (⟨S4096x128, .f32⟩ : BufTy).Contents (Elt F) → (⟨S100000x1, .i32⟩ : BufTy).Contents (Elt F) → (⟨S100000x128, .f32⟩ : BufTy).Contents (Elt F) → (⟨S4096x128, .f32⟩ : BufTy).Contents (Elt F))
          ((broadcastInDim S4096x128 ![] bcast_S_S4096x128 : (⟨S_, .f32⟩ : BufTy).Contents (Elt F) → (⟨S4096x128, .f32⟩ : BufTy).Contents (Elt F))
            (constant S_ .f32 0x00000000#32 : (⟨S_, .f32⟩ : BufTy).Contents (Elt F)))
          ((broadcastInDim S100000x1 ![0] bcast_S100000_S100000x1_0 : (⟨S100000, .i32⟩ : BufTy).Contents (Elt F) → (⟨S100000x1, .i32⟩ : BufTy).Contents (Elt F))
            (W12 m ρ c (Proc.devRef .tc main_arg12) : (⟨S100000, .i32⟩ : BufTy).Contents (Elt F)))
          (W12 m ρ c (Proc.devRef .tc main_v125) : (⟨S100000x128, .f32⟩ : BufTy).Contents (Elt F)))
        ((broadcastInDim S4096x128 ![0, 1] bcast_S4096x1_S4096x128_0_1 : (⟨S4096x1, .f32⟩ : BufTy).Contents (Elt F) → (⟨S4096x128, .f32⟩ : BufTy).Contents (Elt F))
          ((broadcastInDim S4096x1 ![0] bcast_S4096_S4096x1_0 : (⟨S4096, .f32⟩ : BufTy).Contents (Elt F) → (⟨S4096x1, .f32⟩ : BufTy).Contents (Elt F))
            ((maximumf : (⟨S4096, .f32⟩ : BufTy).Contents (Elt F) → (⟨S4096, .f32⟩ : BufTy).Contents (Elt F) → (⟨S4096, .f32⟩ : BufTy).Contents (Elt F))
              ((Host.scatterAdd scatter_S4096_S100000x1_S100000_n_0_0_1 : (⟨S4096, .f32⟩ : BufTy).Contents (Elt F) → (⟨S100000x1, .i32⟩ : BufTy).Contents (Elt F) → (⟨S100000, .f32⟩ : BufTy).Contents (Elt F) → (⟨S4096, .f32⟩ : BufTy).Contents (Elt F))
                ((broadcastInDim S4096 ![] bcast_S_S4096 : (⟨S_, .f32⟩ : BufTy).Contents (Elt F) → (⟨S4096, .f32⟩ : BufTy).Contents (Elt F))
                  (constant S_ .f32 0x00000000#32 : (⟨S_, .f32⟩ : BufTy).Contents (Elt F)))
                ((broadcastInDim S100000x1 ![0] bcast_S100000_S100000x1_0 : (⟨S100000, .i32⟩ : BufTy).Contents (Elt F) → (⟨S100000x1, .i32⟩ : BufTy).Contents (Elt F))
                  (W12 m ρ c (Proc.devRef .tc main_arg12) : (⟨S100000, .i32⟩ : BufTy).Contents (Elt F)))
                ((broadcastInDim S100000 ![] bcast_S_S100000 : (⟨S_, .f32⟩ : BufTy).Contents (Elt F) → (⟨S100000, .f32⟩ : BufTy).Contents (Elt F))
                  (constant S_ .f32 0x3F800000#32 : (⟨S_, .f32⟩ : BufTy).Contents (Elt F))))
              ((broadcastInDim S4096 ![] bcast_S_S4096 : (⟨S_, .f32⟩ : BufTy).Contents (Elt F) → (⟨S4096, .f32⟩ : BufTy).Contents (Elt F))
                (constant S_ .f32 0x3F800000#32 : (⟨S_, .f32⟩ : BufTy).Contents (Elt F))))))) := by
  show StableHlo.after hostOps6 (W12 m ρ c) (Proc.devRef .tc main_v137) = _
  after_results_simp
  all_goals rfl

/-- The head's first bias as a 1×64 row. -/
theorem s6_v138 (c : Dev nD) :
    (W13 m ρ c (Proc.devRef .tc main_v138) : (⟨S1x64, .f32⟩ : BufTy).Contents (Elt F)) =
      (shapeCast S1x64
        (W12 m ρ c (Proc.devRef .tc main_arg7) : (⟨S64, .f32⟩ : BufTy).Contents (Elt F))
        shapeCasts_S64_S1x64 : (⟨S1x64, .f32⟩ : BufTy).Contents (Elt F)) := by
  show StableHlo.after hostOps6 (W12 m ρ c) (Proc.devRef .tc main_v138) = _
  after_results
  all_goals rfl

/-- The head's second bias as a 1×1 matrix. -/
theorem s6_v139 (c : Dev nD) :
    (W13 m ρ c (Proc.devRef .tc main_v139) : (⟨S1x1, .f32⟩ : BufTy).Contents (Elt F)) =
      (shapeCast S1x1
        (W12 m ρ c (Proc.devRef .tc main_arg9) : (⟨S1, .f32⟩ : BufTy).Contents (Elt F))
        shapeCasts_S1_S1x1 : (⟨S1x1, .f32⟩ : BufTy).Contents (Elt F)) := by
  show StableHlo.after hostOps6 (W12 m ρ c) (Proc.devRef .tc main_v139) = _
  after_results
  all_goals rfl

/-! ## Stretch 7: the result -/

/-- The result: the head's 4096×1 output column read as a vector of 4096 entries. -/
theorem s7_v141 (c : Dev nD) :
    (W15 m ρ c (Proc.devRef .tc main_v141) : (⟨S4096, .f32⟩ : BufTy).Contents (Elt F)) =
      (shapeCast S4096
        (W14 m ρ c (Proc.devRef .tc main_v140) : (⟨S4096x1, .f32⟩ : BufTy).Contents (Elt F))
        shapeCasts_S4096x1_S4096 : (⟨S4096, .f32⟩ : BufTy).Contents (Elt F)) := by
  show StableHlo.after hostOps7 (W14 m ρ c) (Proc.devRef .tc main_v141) = _
  after_results
  all_goals rfl

end Cert.KValue.Host

end
-- ==== Proof.KHostRead.lean ====
/-
  The kernel program's small host lines, read at an index.

  Between the kernels the host program slices the stacked parameters and computes the column statistics. Block l of
  a [3,128,128] stack reshaped to [128,128] reads, at (k, j), the stack at (l, k, j). Row l of a [3,128] table,
  reshaped to [128] and then to [1,128], reads, at (0, j), the table at (l, j). From a [2,128] table of column sums
  (row 0) and column sums of squares (row 1), the mean line is row 0 divided by the row count, and the variance line
  is row 1 divided by the row count minus the square of the mean line; the row count is the constant 100000.0.
  All statements are about operation terms over variable operands, at the exact instance.
-/
import proofs.«158987_j88218628260833_1_alg».proof.KernelIdeal
import proofs.«158987_j88218628260833_1_alg».proof.Proof.Spec
import Idealize.ShloMosaic.Lib.ValueIdx
import Idealize.ShloMosaic.Lib.Pipeline.Value
import Idealize.ShloMosaic.Lib.ValueLayout
import Idealize.ShloMosaic.PureOps.Ideal

noncomputable section

namespace Cert.KValue.HostRead

open Cert.KernelIdeal Idealize.ShloMosaic Idealize.ShloMosaic.ValueIdx

variable [Facts]
open Facts₀ Facts

/-! ### Slices of the stacked parameters -/

/-- Block 0 of a [3,128,128] stack, reshaped to a matrix, read at (k, j). -/
theorem wslice_0 (x : FVec Ideal S3x128x128 .f32) (k j : Fin 128) :
    shapeCast S128x128 (extractStridedSlice S1x128x128 ![0, 0, 0] x slices_S3x128x128_S1x128x128_0_0_0)
        shapeCasts_S1x128x128_S128x128 (ix2 k j)
      = x (ix3 (0 : Fin 3) k j) := by
  rw [shapeCast_1ab_ab_apply]
  exact extractStridedSlice_apply _ x slices_S3x128x128_S1x128x128_0_0_0 _ _ (fun a => match a with
    | ⟨0, _⟩ => by show ((0 : Fin 3) : ℕ) = 0 + ((0 : Fin 1) : ℕ); rfl
    | ⟨1, _⟩ => by show k.val = 0 + k.val; omega
    | ⟨2, _⟩ => by show j.val = 0 + j.val; omega)

/-- Block 1 of a [3,128,128] stack, reshaped to a matrix, read at (k, j). -/
theorem wslice_1 (x : FVec Ideal S3x128x128 .f32) (k j : Fin 128) :
    shapeCast S128x128 (extractStridedSlice S1x128x128 ![1, 0, 0] x slices_S3x128x128_S1x128x128_1_0_0)
        shapeCasts_S1x128x128_S128x128 (ix2 k j)
      = x (ix3 (1 : Fin 3) k j) := by
  rw [shapeCast_1ab_ab_apply]
  exact extractStridedSlice_apply _ x slices_S3x128x128_S1x128x128_1_0_0 _ _ (fun a => match a with
    | ⟨0, _⟩ => by show ((1 : Fin 3) : ℕ) = 1 + ((0 : Fin 1) : ℕ); rfl
    | ⟨1, _⟩ => by show k.val = 0 + k.val; omega
    | ⟨2, _⟩ => by show j.val = 0 + j.val; omega)

/-- Block 2 of a [3,128,128] stack, reshaped to a matrix, read at (k, j). -/
theorem wslice_2 (x : FVec Ideal S3x128x128 .f32) (k j : Fin 128) :
    shapeCast S128x128 (extractStridedSlice S1x128x128 ![2, 0, 0] x slices_S3x128x128_S1x128x128_2_0_0)
        shapeCasts_S1x128x128_S128x128 (ix2 k j)
      = x (ix3 (2 : Fin 3) k j) := by
  rw [shapeCast_1ab_ab_apply]
  exact extractStridedSlice_apply _ x slices_S3x128x128_S1x128x128_2_0_0 _ _ (fun a => match a with
    | ⟨0, _⟩ => by show ((2 : Fin 3) : ℕ) = 2 + ((0 : Fin 1) : ℕ); rfl
    | ⟨1, _⟩ => by show k.val = 0 + k.val; omega
    | ⟨2, _⟩ => by show j.val = 0 + j.val; omega)

/-- Row 0 of a [3,128] table, reshaped to a vector and then to a one-row matrix, read at (0, j). -/
theorem rowslice_0 (x : FVec Ideal S3x128 .f32) (j : Fin 128) :
    shapeCast S1x128 (shapeCast S128 (extractStridedSlice S1x128 ![0, 0] x slices_S3x128_S1x128_0_0) shapeCasts_S1x128_S128)
        shapeCasts_S128_S1x128 (ix2 (0 : Fin 1) j)
      = x (ix2 (0 : Fin 3) j) := by
  rw [shapeCast_a_1a_apply, shapeCast_1a_a_apply]
  exact slice2_axis0_apply 0 x slices_S3x128_S1x128_0_0 (0 : Fin 1) j (0 : Fin 3) rfl

/-- Row 1 of a [3,128] table, reshaped to a vector and then to a one-row matrix, read at (0, j). -/
theorem rowslice_1 (x : FVec Ideal S3x128 .f32) (j : Fin 128) :
    shapeCast S1x128 (shapeCast S128 (extractStridedSlice S1x128 ![1, 0] x slices_S3x128_S1x128_1_0) shapeCasts_S1x128_S128)
        shapeCasts_S128_S1x128 (ix2 (0 : Fin 1) j)
      = x (ix2 (1 : Fin 3) j) := by
  rw [shapeCast_a_1a_apply, shapeCast_1a_a_apply]
  exact slice2_axis0_apply 1 x slices_S3x128_S1x128_1_0 (0 : Fin 1) j (1 : Fin 3) rfl

/-- Row 2 of a [3,128] table, reshaped to a vector and then to a one-row matrix, read at (0, j). -/
theorem rowslice_2 (x : FVec Ideal S3x128 .f32) (j : Fin 128) :
    shapeCast S1x128 (shapeCast S128 (extractStridedSlice S1x128 ![2, 0] x slices_S3x128_S1x128_2_0) shapeCasts_S1x128_S128)
        shapeCasts_S128_S1x128 (ix2 (0 : Fin 1) j)
      = x (ix2 (2 : Fin 3) j) := by
  rw [shapeCast_a_1a_apply, shapeCast_1a_a_apply]
  exact slice2_axis0_apply 2 x slices_S3x128_S1x128_2_0 (0 : Fin 1) j (2 : Fin 3) rfl

/-! ### The statistics lines -/

/-- The host's elementwise division at an index, at the exact instance. -/
theorem hostDivf_apply {s : Shape} {φ : FTy} (a b : FVec Ideal s φ) (i : s.Idx) :
    Host.divf a b i = Ideal.div (a i) (b i) := rfl

/-- A broadcast scalar constant reads the constant everywhere. -/
theorem bcast_const_apply {s : Shape} (h : S_.BroadcastsInDim s (![] : Fin 0 → Fin s.rank)) (b : BitVec 32) (i : s.Idx) :
    broadcastInDim s ![] h (constant (F := Ideal) S_ .f32 b) i = Ideal.ofBits .f32 b := rfl

/-- Row l of the statistics table divided by the row count, as a vector read at j. -/
theorem row_div_apply (stats : FVec Ideal S2x128 .f32) (l : Fin 2) (o : ℕ) (h : S2x128.Slices ![o, 0] S1x128)
    (hl : l.val = o + ((0 : Fin 1) : ℕ)) (j : Fin 128) :
    Host.divf (F := Ideal) (shapeCast S128 (extractStridedSlice S1x128 ![o, 0] stats h) shapeCasts_S1x128_S128)
        (broadcastInDim S128 ![] bcast_S_S128 (constant (F := Ideal) S_ .f32 0x47C35000#32)) (ix1 j)
      = Ideal.div (stats (ix2 l j)) Cert.Spec.nF := by
  rw [hostDivf_apply, shapeCast_1a_a_apply, slice2_axis0_apply o stats h (0 : Fin 1) j l hl, bcast_const_apply,
    Cert.Spec.nF]

/-- The mean line: column sums over the row count. -/
theorem mean_line (stats : FVec Ideal S2x128 .f32) (j : Fin 128) :
    shapeCast S1x128
        (Host.divf (F := Ideal)
          (shapeCast S128 (extractStridedSlice S1x128 ![0, 0] stats slices_S2x128_S1x128_0_0) shapeCasts_S1x128_S128)
          (broadcastInDim S128 ![] bcast_S_S128 (constant (F := Ideal) S_ .f32 0x47C35000#32)))
        shapeCasts_S128_S1x128 (ix2 (0 : Fin 1) j)
      = Ideal.div (stats (ix2 (0 : Fin 2) j)) Cert.Spec.nF := by
  rw [shapeCast_a_1a_apply, row_div_apply stats 0 0 slices_S2x128_S1x128_0_0 rfl j]

/-- The variance line: column sums of squares over the row count, minus the squared mean line. -/
theorem var_line (stats : FVec Ideal S2x128 .f32) (j : Fin 128) :
    shapeCast S1x128
        (subf
          (Host.divf (F := Ideal)
            (shapeCast S128 (extractStridedSlice S1x128 ![1, 0] stats slices_S2x128_S1x128_1_0) shapeCasts_S1x128_S128)
            (broadcastInDim S128 ![] bcast_S_S128 (constant (F := Ideal) S_ .f32 0x47C35000#32)))
          (mulf
            (Host.divf (F := Ideal)
              (shapeCast S128 (extractStridedSlice S1x128 ![0, 0] stats slices_S2x128_S1x128_0_0) shapeCasts_S1x128_S128)
              (broadcastInDim S128 ![] bcast_S_S128 (constant (F := Ideal) S_ .f32 0x47C35000#32)))
            (Host.divf (F := Ideal)
              (shapeCast S128 (extractStridedSlice S1x128 ![0, 0] stats slices_S2x128_S1x128_0_0) shapeCasts_S1x128_S128)
              (broadcastInDim S128 ![] bcast_S_S128 (constant (F := Ideal) S_ .f32 0x47C35000#32)))))
        shapeCasts_S128_S1x128 (ix2 (0 : Fin 1) j)
      = Ideal.div (stats (ix2 (1 : Fin 2) j)) Cert.Spec.nF
          - Ideal.div (stats (ix2 (0 : Fin 2) j)) Cert.Spec.nF * Ideal.div (stats (ix2 (0 : Fin 2) j)) Cert.Spec.nF := by
  rw [shapeCast_a_1a_apply, subf_apply, mulf_apply, row_div_apply stats 0 0 slices_S2x128_S1x128_0_0 rfl j,
    row_div_apply stats 1 1 slices_S2x128_S1x128_1_0 rfl j]

end Cert.KValue.HostRead

end
-- ==== Proof.KParams.lean ====
/-
  The parameter buffers each kernel receives, read at an index.

  Before each layer's first kernel the host program cuts that layer's block out of the stacked weights and that
  layer's row out of the stacked biases; before its second kernel it turns the table of column sums and column sums
  of squares into the mean line and the variance line, and cuts the layer's row out of the stacked scales and shifts.
  No host operation and no kernel writes an argument array, so each cut reads the argument as it was at launch.
  Before the head's kernel the two bias vectors are reshaped to one-row matrices.
-/
import proofs.«158987_j88218628260833_1_alg».proof.Proof.KHost
import proofs.«158987_j88218628260833_1_alg».proof.Proof.KHostRead

noncomputable section

namespace Cert.KValue.Params

open Cert.KernelIdeal Cert.KernelIdeal.Gen
open Idealize.ShloMosaic Idealize.ShloMosaic.TcCoe Idealize.ShloMosaic.ValueIdx
open Idealize.SL Idealize.SL.Sem
open Cert.KValue.Host Cert.KValue.HostRead

variable (m : (ℓ : Loc nD τ sig) → Buf (Elt Ideal) ℓ) (ρ : Dev nD → PrngReg)

/-! ### The first layer -/

/-- The first layer's neighbour weight is block 0 of the stacked neighbour weights. -/
theorem wl1 (c : Dev nD) (k j : Fin 128) :
    (W1 m ρ c (Proc.devRef .tc main_v22) : (⟨S128x128, .f32⟩ : BufTy).Contents (Elt Ideal)) (ix2 k j) = (m ((c : Thread nD τ).loc main_arg1) : (⟨S3x128x128, .f32⟩ : BufTy).Contents (Elt Ideal)) (ix3 (0 : Fin 3) k j) := by
  rw [s0_v22 m ρ c, W0_arg1 m ρ c]
  exact wslice_0 _ k j

/-- The first layer's self weight is block 0 of the stacked self weights. -/
theorem wr1 (c : Dev nD) (k j : Fin 128) :
    (W1 m ρ c (Proc.devRef .tc main_v24) : (⟨S128x128, .f32⟩ : BufTy).Contents (Elt Ideal)) (ix2 k j) = (m ((c : Thread nD τ).loc main_arg2) : (⟨S3x128x128, .f32⟩ : BufTy).Contents (Elt Ideal)) (ix3 (0 : Fin 3) k j) := by
  rw [s0_v24 m ρ c, W0_arg2 m ρ c]
  exact wslice_0 _ k j

/-- The first layer's bias is row 0 of the stacked biases. -/
theorem b1 (c : Dev nD) (j : Fin 128) :
    (W1 m ρ c (Proc.devRef .tc main_v27) : (⟨S1x128, .f32⟩ : BufTy).Contents (Elt Ideal)) (ix2 (0 : Fin 1) j) = (m ((c : Thread nD τ).loc main_arg3) : (⟨S3x128, .f32⟩ : BufTy).Contents (Elt Ideal)) (ix2 (0 : Fin 3) j) := by
  rw [s0_v27 m ρ c, W0_arg3 m ρ c]
  exact rowslice_0 _ j

/-- The first layer's mean line: the column sums over the row count. -/
theorem mean1 (c : Dev nD) (j : Fin 128) :
    (W3 m ρ c (Proc.devRef .tc main_v43) : (⟨S1x128, .f32⟩ : BufTy).Contents (Elt Ideal)) (ix2 (0 : Fin 1) j)
      = Ideal.div ((W2 m ρ c (Proc.devRef .tc main_v28_1) : (⟨S2x128, .f32⟩ : BufTy).Contents (Elt Ideal)) (ix2 (0 : Fin 2) j)) Cert.Spec.nF := by
  rw [s1_v43 m ρ c]
  exact mean_line _ j

/-- The first layer's variance line: the column sums of squares over the row count, minus the squared mean line. -/
theorem var1 (c : Dev nD) (j : Fin 128) :
    (W3 m ρ c (Proc.devRef .tc main_v44) : (⟨S1x128, .f32⟩ : BufTy).Contents (Elt Ideal)) (ix2 (0 : Fin 1) j)
      = Ideal.div ((W2 m ρ c (Proc.devRef .tc main_v28_1) : (⟨S2x128, .f32⟩ : BufTy).Contents (Elt Ideal)) (ix2 (1 : Fin 2) j)) Cert.Spec.nF
          - Ideal.div ((W2 m ρ c (Proc.devRef .tc main_v28_1) : (⟨S2x128, .f32⟩ : BufTy).Contents (Elt Ideal)) (ix2 (0 : Fin 2) j)) Cert.Spec.nF
            * Ideal.div ((W2 m ρ c (Proc.devRef .tc main_v28_1) : (⟨S2x128, .f32⟩ : BufTy).Contents (Elt Ideal)) (ix2 (0 : Fin 2) j)) Cert.Spec.nF := by
  rw [s1_v44 m ρ c]
  exact var_line _ j

/-- The first layer's scale is row 0 of the stacked scales. -/
theorem g1 (c : Dev nD) (j : Fin 128) :
    (W3 m ρ c (Proc.devRef .tc main_v45) : (⟨S1x128, .f32⟩ : BufTy).Contents (Elt Ideal)) (ix2 (0 : Fin 1) j) = (m ((c : Thread nD τ).loc main_arg4) : (⟨S3x128, .f32⟩ : BufTy).Contents (Elt Ideal)) (ix2 (0 : Fin 3) j) := by
  rw [s1_v45 m ρ c, W2_arg4 m ρ c]
  exact rowslice_0 _ j

/-- The first layer's shift is row 0 of the stacked shifts. -/
theorem be1 (c : Dev nD) (j : Fin 128) :
    (W3 m ρ c (Proc.devRef .tc main_v46) : (⟨S1x128, .f32⟩ : BufTy).Contents (Elt Ideal)) (ix2 (0 : Fin 1) j) = (m ((c : Thread nD τ).loc main_arg5) : (⟨S3x128, .f32⟩ : BufTy).Contents (Elt Ideal)) (ix2 (0 : Fin 3) j) := by
  rw [s1_v46 m ρ c, W2_arg5 m ρ c]
  exact rowslice_0 _ j

/-! ### The second layer -/

/-- The second layer's neighbour weight is block 1 of the stacked neighbour weights. -/
theorem wl2 (c : Dev nD) (k j : Fin 128) :
    (W5 m ρ c (Proc.devRef .tc main_v61) : (⟨S128x128, .f32⟩ : BufTy).Contents (Elt Ideal)) (ix2 k j) = (m ((c : Thread nD τ).loc main_arg1) : (⟨S3x128x128, .f32⟩ : BufTy).Contents (Elt Ideal)) (ix3 (1 : Fin 3) k j) := by
  rw [s2_v61 m ρ c, W4_arg1 m ρ c]
  exact wslice_1 _ k j

/-- The second layer's self weight is block 1 of the stacked self weights. -/
theorem wr2 (c : Dev nD) (k j : Fin 128) :
    (W5 m ρ c (Proc.devRef .tc main_v63) : (⟨S128x128, .f32⟩ : BufTy).Contents (Elt Ideal)) (ix2 k j) = (m ((c : Thread nD τ).loc main_arg2) : (⟨S3x128x128, .f32⟩ : BufTy).Contents (Elt Ideal)) (ix3 (1 : Fin 3) k j) := by
  rw [s2_v63 m ρ c, W4_arg2 m ρ c]
  exact wslice_1 _ k j

/-- The second layer's bias is row 1 of the stacked biases. -/
theorem b2 (c : Dev nD) (j : Fin 128) :
    (W5 m ρ c (Proc.devRef .tc main_v66) : (⟨S1x128, .f32⟩ : BufTy).Contents (Elt Ideal)) (ix2 (0 : Fin 1) j) = (m ((c : Thread nD τ).loc main_arg3) : (⟨S3x128, .f32⟩ : BufTy).Contents (Elt Ideal)) (ix2 (1 : Fin 3) j) := by
  rw [s2_v66 m ρ c, W4_arg3 m ρ c]
  exact rowslice_1 _ j

/-- The second layer's mean line: the column sums over the row count. -/
theorem mean2 (c : Dev nD) (j : Fin 128) :
    (W7 m ρ c (Proc.devRef .tc main_v82) : (⟨S1x128, .f32⟩ : BufTy).Contents (Elt Ideal)) (ix2 (0 : Fin 1) j)
      = Ideal.div ((W6 m ρ c (Proc.devRef .tc main_v67_1) : (⟨S2x128, .f32⟩ : BufTy).Contents (Elt Ideal)) (ix2 (0 : Fin 2) j)) Cert.Spec.nF := by
  rw [s3_v82 m ρ c]
  exact mean_line _ j

/-- The second layer's variance line: the column sums of squares over the row count, minus the squared mean line. -/
theorem var2 (c : Dev nD) (j : Fin 128) :
    (W7 m ρ c (Proc.devRef .tc main_v83) : (⟨S1x128, .f32⟩ : BufTy).Contents (Elt Ideal)) (ix2 (0 : Fin 1) j)
      = Ideal.div ((W6 m ρ c (Proc.devRef .tc main_v67_1) : (⟨S2x128, .f32⟩ : BufTy).Contents (Elt Ideal)) (ix2 (1 : Fin 2) j)) Cert.Spec.nF
          - Ideal.div ((W6 m ρ c (Proc.devRef .tc main_v67_1) : (⟨S2x128, .f32⟩ : BufTy).Contents (Elt Ideal)) (ix2 (0 : Fin 2) j)) Cert.Spec.nF
            * Ideal.div ((W6 m ρ c (Proc.devRef .tc main_v67_1) : (⟨S2x128, .f32⟩ : BufTy).Contents (Elt Ideal)) (ix2 (0 : Fin 2) j)) Cert.Spec.nF := by
  rw [s3_v83 m ρ c]
  exact var_line _ j

/-- The second layer's scale is row 1 of the stacked scales. -/
theorem g2 (c : Dev nD) (j : Fin 128) :
    (W7 m ρ c (Proc.devRef .tc main_v84) : (⟨S1x128, .f32⟩ : BufTy).Contents (Elt Ideal)) (ix2 (0 : Fin 1) j) = (m ((c : Thread nD τ).loc main_arg4) : (⟨S3x128, .f32⟩ : BufTy).Contents (Elt Ideal)) (ix2 (1 : Fin 3) j) := by
  rw [s3_v84 m ρ c, W6_arg4 m ρ c]
  exact rowslice_1 _ j

/-- The second layer's shift is row 1 of the stacked shifts. -/
theorem be2 (c : Dev nD) (j : Fin 128) :
    (W7 m ρ c (Proc.devRef .tc main_v85) : (⟨S1x128, .f32⟩ : BufTy).Contents (Elt Ideal)) (ix2 (0 : Fin 1) j) = (m ((c : Thread nD τ).loc main_arg5) : (⟨S3x128, .f32⟩ : BufTy).Contents (Elt Ideal)) (ix2 (1 : Fin 3) j) := by
  rw [s3_v85 m ρ c, W6_arg5 m ρ c]
  exact rowslice_1 _ j

/-! ### The third layer -/

/-- The third layer's neighbour weight is block 2 of the stacked neighbour weights. -/
theorem wl3 (c : Dev nD) (k j : Fin 128) :
    (W9 m ρ c (Proc.devRef .tc main_v100) : (⟨S128x128, .f32⟩ : BufTy).Contents (Elt Ideal)) (ix2 k j) = (m ((c : Thread nD τ).loc main_arg1) : (⟨S3x128x128, .f32⟩ : BufTy).Contents (Elt Ideal)) (ix3 (2 : Fin 3) k j) := by
  rw [s4_v100 m ρ c, W8_arg1 m ρ c]
  exact wslice_2 _ k j

/-- The third layer's self weight is block 2 of the stacked self weights. -/
theorem wr3 (c : Dev nD) (k j : Fin 128) :
    (W9 m ρ c (Proc.devRef .tc main_v102) : (⟨S128x128, .f32⟩ : BufTy).Contents (Elt Ideal)) (ix2 k j) = (m ((c : Thread nD τ).loc main_arg2) : (⟨S3x128x128, .f32⟩ : BufTy).Contents (Elt Ideal)) (ix3 (2 : Fin 3) k j) := by
  rw [s4_v102 m ρ c, W8_arg2 m ρ c]
  exact wslice_2 _ k j

/-- The third layer's bias is row 2 of the stacked biases. -/
theorem b3 (c : Dev nD) (j : Fin 128) :
    (W9 m ρ c (Proc.devRef .tc main_v105) : (⟨S1x128, .f32⟩ : BufTy).Contents (Elt Ideal)) (ix2 (0 : Fin 1) j) = (m ((c : Thread nD τ).loc main_arg3) : (⟨S3x128, .f32⟩ : BufTy).Contents (Elt Ideal)) (ix2 (2 : Fin 3) j) := by
  rw [s4_v105 m ρ c, W8_arg3 m ρ c]
  exact rowslice_2 _ j

/-- The third layer's mean line: the column sums over the row count. -/
theorem mean3 (c : Dev nD) (j : Fin 128) :
    (W11 m ρ c (Proc.devRef .tc main_v121) : (⟨S1x128, .f32⟩ : BufTy).Contents (Elt Ideal)) (ix2 (0 : Fin 1) j)
      = Ideal.div ((W10 m ρ c (Proc.devRef .tc main_v106_1) : (⟨S2x128, .f32⟩ : BufTy).Contents (Elt Ideal)) (ix2 (0 : Fin 2) j)) Cert.Spec.nF := by
  rw [s5_v121 m ρ c]
  exact mean_line _ j

/-- The third layer's variance line: the column sums of squares over the row count, minus the squared mean line. -/
theorem var3 (c : Dev nD) (j : Fin 128) :
    (W11 m ρ c (Proc.devRef .tc main_v122) : (⟨S1x128, .f32⟩ : BufTy).Contents (Elt Ideal)) (ix2 (0 : Fin 1) j)
      = Ideal.div ((W10 m ρ c (Proc.devRef .tc main_v106_1) : (⟨S2x128, .f32⟩ : BufTy).Contents (Elt Ideal)) (ix2 (1 : Fin 2) j)) Cert.Spec.nF
          - Ideal.div ((W10 m ρ c (Proc.devRef .tc main_v106_1) : (⟨S2x128, .f32⟩ : BufTy).Contents (Elt Ideal)) (ix2 (0 : Fin 2) j)) Cert.Spec.nF
            * Ideal.div ((W10 m ρ c (Proc.devRef .tc main_v106_1) : (⟨S2x128, .f32⟩ : BufTy).Contents (Elt Ideal)) (ix2 (0 : Fin 2) j)) Cert.Spec.nF := by
  rw [s5_v122 m ρ c]
  exact var_line _ j

/-- The third layer's scale is row 2 of the stacked scales. -/
theorem g3 (c : Dev nD) (j : Fin 128) :
    (W11 m ρ c (Proc.devRef .tc main_v123) : (⟨S1x128, .f32⟩ : BufTy).Contents (Elt Ideal)) (ix2 (0 : Fin 1) j) = (m ((c : Thread nD τ).loc main_arg4) : (⟨S3x128, .f32⟩ : BufTy).Contents (Elt Ideal)) (ix2 (2 : Fin 3) j) := by
  rw [s5_v123 m ρ c, W10_arg4 m ρ c]
  exact rowslice_2 _ j

/-- The third layer's shift is row 2 of the stacked shifts. -/
theorem be3 (c : Dev nD) (j : Fin 128) :
    (W11 m ρ c (Proc.devRef .tc main_v124) : (⟨S1x128, .f32⟩ : BufTy).Contents (Elt Ideal)) (ix2 (0 : Fin 1) j) = (m ((c : Thread nD τ).loc main_arg5) : (⟨S3x128, .f32⟩ : BufTy).Contents (Elt Ideal)) (ix2 (2 : Fin 3) j) := by
  rw [s5_v124 m ρ c, W10_arg5 m ρ c]
  exact rowslice_2 _ j

/-! ### The head -/

/-- The head's first bias, as a one-row matrix, is the bias vector. -/
theorem hb1 (c : Dev nD) (k : Fin 64) :
    (W13 m ρ c (Proc.devRef .tc main_v138) : (⟨S1x64, .f32⟩ : BufTy).Contents (Elt Ideal)) (ix2 (0 : Fin 1) k) = (m ((c : Thread nD τ).loc main_arg7) : (⟨S64, .f32⟩ : BufTy).Contents (Elt Ideal)) (ix1 k) := by
  rw [s6_v138 m ρ c, W12_arg7 m ρ c]
  exact shapeCast_a_1a_apply _ _ (0 : Fin 1) k

/-- The head's second bias, as a one-by-one matrix, is the bias scalar. -/
theorem hb2 (c : Dev nD) :
    (W13 m ρ c (Proc.devRef .tc main_v139) : (⟨S1x1, .f32⟩ : BufTy).Contents (Elt Ideal)) (ix2 (0 : Fin 1) (0 : Fin 1)) = (m ((c : Thread nD τ).loc main_arg9) : (⟨S1, .f32⟩ : BufTy).Contents (Elt Ideal)) (ix1 (0 : Fin 1)) := by
  rw [s6_v139 m ρ c, W12_arg9 m ρ c]
  exact shapeCast_a_1a_apply _ _ (0 : Fin 1) (0 : Fin 1)

end Cert.KValue.Params

end
-- ==== Proof.KSame.lean ====
import proofs.«158987_j88218628260833_1_alg».proof.Proof.KHost
import proofs.«158987_j88218628260833_1_alg».proof.Proof.RefRead

/-!
# The host stretches the kernel program shares with the reference

Outside its pipelined regions the kernel program runs the SAME host operations as the reference program: the reciprocal
degrees, each layer's mean aggregate (gather along the edges, scatter-add, scale by the reciprocal degree), the pooling by
graph, and the final reading of the head's output column as a vector.  Each statement below says that the buffer a
stretch leaves is the reference's stage at the launch contents of the arguments, given (for the later stretches) that
the layer output the stretch starts from already is the reference's.  Every proof is a match of two terms built from the
same operations; no sum over the edges or the nodes is evaluated.
-/

set_option maxRecDepth 16384

noncomputable section

namespace Cert.KValue.Same

open Cert.KernelIdeal Cert.KernelIdeal.Gen
open Idealize.ShloMosaic Idealize.ShloMosaic.TcCoe
open Idealize.SL Idealize.SL.Sem
open Cert.ReferenceIdeal.ReadP
open Cert.KValue

variable (m : (ℓ : Loc nD τ sig) → Buf (Elt Ideal) ℓ) (ρ : Dev nD → PrngReg)

-- the edge sums must never be evaluated: the two sides of each equation below are the SAME operations applied to the
-- same arguments, and are compared as such
attribute [local irreducible] Host.scatterAdd Host.gather

/-- The column of reciprocal degrees the kernel program computes before its first layer is the reference's. -/
theorem invdeg_eq (c : Dev nD) :
    (W1 m ρ c (Proc.devRef .tc main_v8) : (⟨S100000x1, .f32⟩ : BufTy).Contents (Elt Ideal))
      = val_main_v8 (F := Ideal) (m ((c : Thread nD τ).loc main_arg11)) := by
  rw [Host.s0_v8 m ρ c, Host.W0_arg11 m ρ c]
  unfold val_main_v8 val_main_v7 val_main_v6 val_main_cst_2 val_main_v5 val_main_v4 val_main_cst_1 val_main_v3 val_main_v2 val_main_v1 val_main_cst_0 val_main_v0 val_main_cst
  rfl

/-- The first layer's mean aggregate is the reference's. -/
theorem agg1_eq (c : Dev nD) :
    (W1 m ρ c (Proc.devRef .tc main_v20) : (⟨S100000x128, .f32⟩ : BufTy).Contents (Elt Ideal))
      = val_main_v20 (F := Ideal) (m ((c : Thread nD τ).loc main_arg0)) (m ((c : Thread nD τ).loc main_arg10)) (m ((c : Thread nD τ).loc main_arg11)) := by
  rw [Host.s0_v20 m ρ c, invdeg_eq m ρ c, Host.W0_arg0 m ρ c, Host.W0_arg10 m ρ c, Host.W0_arg11 m ρ c]
  unfold val_main_v20 val_main_v19 val_main_v18 val_main_v17 val_main_v16 val_main_cst_4 val_main_v15 val_main_v14 val_main_v13 val_main_v12 val_main_v11 val_main_c_3 val_main_v10 val_main_v9 val_main_c
  rfl

/-- If the first layer's output is the reference's, the second layer's mean aggregate is the reference's. -/
theorem agg2_eq (c : Dev nD)
    (h47 : (W4 m ρ c (Proc.devRef .tc main_v47) : (⟨S100000x128, .f32⟩ : BufTy).Contents (Elt Ideal)) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))) :
    (W5 m ρ c (Proc.devRef .tc main_v59) : (⟨S100000x128, .f32⟩ : BufTy).Contents (Elt Ideal))
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [Host.s2_v59 m ρ c, h47, Host.W4_v8 m ρ c, invdeg_eq m ρ c, Host.W4_arg10 m ρ c, Host.W4_arg11 m ρ c]
  unfold val_main_v74 val_main_v73 val_main_v72 val_main_v71 val_main_v70 val_main_cst_12 val_main_v69 val_main_v68 val_main_v67 val_main_v66 val_main_v65 val_main_c_11 val_main_v64 val_main_v63 val_main_c_10
  rfl

/-- If the second layer's output is the reference's, the third layer's mean aggregate is the reference's. -/
theorem agg3_eq (c : Dev nD)
    (h86 : (W8 m ρ c (Proc.devRef .tc main_v86) : (⟨S100000x128, .f32⟩ : BufTy).Contents (Elt Ideal)) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))) :
    (W9 m ρ c (Proc.devRef .tc main_v98) : (⟨S100000x128, .f32⟩ : BufTy).Contents (Elt Ideal))
      = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [Host.s4_v98 m ρ c, h86, Host.W8_v8 m ρ c, invdeg_eq m ρ c, Host.W8_arg10 m ρ c, Host.W8_arg11 m ρ c]
  unfold val_main_v128 val_main_v127 val_main_v126 val_main_v125 val_main_v124 val_main_cst_20 val_main_v123 val_main_v122 val_main_v121 val_main_v120 val_main_v119 val_main_c_19 val_main_v118 val_main_v117 val_main_c_18
  rfl

/-- If the third layer's output is the reference's, the pooled features (each graph's row sum divided by the larger of
    its node count and one) are the reference's. -/
theorem pool_eq (c : Dev nD)
    (h125 : (W12 m ρ c (Proc.devRef .tc main_v125) : (⟨S100000x128, .f32⟩ : BufTy).Contents (Elt Ideal)) = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))) :
    (W13 m ρ c (Proc.devRef .tc main_v137) : (⟨S4096x128, .f32⟩ : BufTy).Contents (Elt Ideal))
      = val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) := by
  rw [Host.s6_v137 m ρ c, h125, Host.W12_arg12 m ρ c]
  unfold val_main_v182 val_main_v181 val_main_v180 val_main_v179 val_main_v178 val_main_cst_29 val_main_v177 val_main_v176 val_main_v175 val_main_cst_28 val_main_v174 val_main_v173 val_main_v172 val_main_cst_27 val_main_v171 val_main_cst_26
  rfl

/-- The result vector's entry `g` is the head's output column at row `g`. -/
theorem out_read (c : Dev nD) (g : Fin 4096) :
    (W15 m ρ c (Proc.devRef .tc main_v141) : (⟨S4096, .f32⟩ : BufTy).Contents (Elt Ideal)) (ValueIdx.ix1 g)
      = (W14 m ρ c (Proc.devRef .tc main_v140) : (⟨S4096x1, .f32⟩ : BufTy).Contents (Elt Ideal)) (ValueIdx.ix2 g (0 : Fin 1)) := by
  rw [Host.s7_v141 m ρ c]
  exact shapeCast_apply (s := S4096x1) (t := S4096)
    (W14 m ρ c (Proc.devRef .tc main_v140) : (⟨S4096x1, .f32⟩ : BufTy).Contents (Elt Ideal)) shapeCasts_S4096x1_S4096
    (ValueIdx.ix1 g) (ValueIdx.ix2 g (0 : Fin 1))
    (by
      show (S4096x1.rowMajor (ValueIdx.ix2 g (0 : Fin 1))).val = (S4096.rowMajor (ValueIdx.ix1 g)).val
      rewrite [Shape.rowMajor_val_two, Shape.rowMajor_val_one]
      show g.val * 1 + 0 = g.val
      omega)

end Cert.KValue.Same

end
-- ==== Proof.KLin0.lean ====
import proofs.«158987_j88218628260833_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic
import proofs.«158987_j88218628260833_1_alg».proof.Proof.Spec

noncomputable section

open scoped BigOperators

namespace Cert.KValue.Lin0

open Cert.KernelIdeal Cert.KernelIdeal.Gen Idealize.ShloMosaic Idealize.ShloMosaic.ValueIdx Idealize.ShloMosaic.TcCoe Idealize.SL.Sem
open Idealize.ShloMosaic.Pipeline (Dat)

theorem mm_apply_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_apply_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm_apply_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm_apply_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction of a block with a matrix into the zero block, at (p, j): Σₖ x p k · w k j. -/
theorem mm_apply (x : FVec Ideal S4000x128 .bf16) (w : FVec Ideal S128x128 .bf16) (p : Fin 4000) (j : Fin 128) :
    FloatOps.matmul dot_S4000x128_S128x128_S4000x128_1_0_0_1_n_n none x w (constant S4000x128 .f32 0x00000000#32) (ix2 p j)
      = ∑ k : Fin 128, x (ix2 p k) * w (ix2 k j) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact mm_apply_l0 _ _
      | ⟨1, _⟩ => exact (mm_apply_l1 _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (mm_apply_r0 _ _).trans hk
      | ⟨1, _⟩ => exact mm_apply_r1 _ _)
  rw [el, er]

theorem pay3_apply (x0 x1 : Vec Ideal S4000x128 .f32) (w1 w2 : Vec Ideal S128x128 .f32) (b : Vec Ideal S1x128 .f32) (p : Fin 4000) (j : Fin 128) :
    k0_pay3 (F := Ideal) x0 x1 w1 w2 b (ix2 p j)
      = ((∑ k : Fin 128, x0 (ix2 p k) * w1 (ix2 k j)) + (∑ k : Fin 128, x1 (ix2 p k) * w2 (ix2 k j))) + b (ix2 (0 : Fin 1) j) := by
  unfold k0_pay3
  show (FloatOps.matmul (F := Ideal) dot_S4000x128_S128x128_S4000x128_1_0_0_1_n_n none _ _ (constant (F := Ideal) S4000x128 .f32 0x00000000#32) (ix2 p j)
        + FloatOps.matmul (F := Ideal) dot_S4000x128_S128x128_S4000x128_1_0_0_1_n_n none _ _ (constant (F := Ideal) S4000x128 .f32 0x00000000#32) (ix2 p j))
        + broadcastTo S4000x128 (shapeCast S1x128 b shapeCasts_S1x128_S1x128) broadcasts_S1x128_S4000x128 (ix2 p j) = _
  refine congrArg₂ (· + ·) (congrArg₂ (· + ·) ((mm_apply _ _ p j).trans ?_) ((mm_apply _ _ p j).trans ?_)) ?_
  · refine Finset.sum_congr rfl fun k _ => ?_
    show (shapeCast S4000x128 x0 shapeCasts_S4000x128_S4000x128) (ix2 p k) * (shapeCast S128x128 w1 shapeCasts_S128x128_S128x128) (ix2 k j) = _
    rw [shapeCast_self, shapeCast_self]
  · refine Finset.sum_congr rfl fun k _ => ?_
    show x1 (ix2 p k) * (shapeCast S128x128 w2 shapeCasts_S128x128_S128x128) (ix2 k j) = _
    rw [shapeCast_self]
  · rw [shapeCast_self]
    exact broadcastTo_1b_ab_apply b broadcasts_S1x128_S4000x128 p j

/-- A sum over the 4000 rows of a block, one column j. -/
theorem colsum_apply (src : FVec Ideal S4000x128 .f32) (j : Fin 128) :
    multiReduction (F := Ideal) .add [0] S128 src 0x00000000#32 reduces_S4000x128_S128 (.inl rfl) rfl (ix1 j)
      = ∑ p : Fin 4000, src (ix2 p j) := by
  refine (Ideal.multiReduction_add_single src 0x00000000#32 reduces_S4000x128_S128 (.inl rfl) rfl (ix1 j)).trans ?_
  refine Finset.sum_congr rfl fun p _ => congrArg src (funext fun a => Fin.ext ?_)
  match a with
  | ⟨0, _⟩ => rfl
  | ⟨1, _⟩ => rfl

/-- The block's column sums added to the running row: entry j is acc j + Σₚ lin p j. -/
theorem pay5_apply (x0 x1 : Vec Ideal S4000x128 .f32) (w1 w2 : Vec Ideal S128x128 .f32) (b acc : Vec Ideal S1x128 .f32) (j : Fin 128) :
    k0_pay5 (F := Ideal) x0 x1 w1 w2 b acc (ix2 (0 : Fin 1) j)
      = acc (ix2 (0 : Fin 1) j) + ∑ p : Fin 4000, k0_pay3 (F := Ideal) x0 x1 w1 w2 b (ix2 p j) := by
  unfold k0_pay5
  show (shapeCast S1x128 acc shapeCasts_S1x128_S1x128) (ix2 (0 : Fin 1) j)
      + (shapeCast S1x128 (multiReduction (F := Ideal) .add [0] S128 (k0_pay3 (F := Ideal) x0 x1 w1 w2 b) 0x00000000#32 reduces_S4000x128_S128 (.inl rfl) rfl) shapeCasts_S128_S1x128) (ix2 (0 : Fin 1) j) = _
  rw [shapeCast_self]
  refine congrArg (acc (ix2 (0 : Fin 1) j) + ·) ?_
  exact (shapeCast_a_1a_apply _ shapeCasts_S128_S1x128 (0 : Fin 1) j).trans (colsum_apply _ j)

/-- The block's column sums of squares, as a 1×128 row: entry j is Σₚ lin p j · lin p j. -/
theorem pay4_apply (x0 x1 : Vec Ideal S4000x128 .f32) (w1 w2 : Vec Ideal S128x128 .f32) (b : Vec Ideal S1x128 .f32) (j : Fin 128) :
    k0_pay4 (F := Ideal) x0 x1 w1 w2 b (ix2 (0 : Fin 1) j)
      = ∑ p : Fin 4000, k0_pay3 (F := Ideal) x0 x1 w1 w2 b (ix2 p j) * k0_pay3 (F := Ideal) x0 x1 w1 w2 b (ix2 p j) := by
  unfold k0_pay4
  exact (shapeCast_a_1a_apply _ shapeCasts_S128_S1x128 (0 : Fin 1) j).trans (colsum_apply _ j)

/-- The running row of squares plus a block's contribution. -/
theorem pay1_apply (sq acc : Vec Ideal S1x128 .f32) (j : Fin 128) :
    k0_pay1 (F := Ideal) sq acc (ix2 (0 : Fin 1) j) = acc (ix2 (0 : Fin 1) j) + sq (ix2 (0 : Fin 1) j) := by
  unfold k0_pay1
  show (shapeCast S1x128 acc shapeCasts_S1x128_S1x128) (ix2 (0 : Fin 1) j) + sq (ix2 (0 : Fin 1) j) = _
  rw [shapeCast_self]

theorem hz2 : (![0, 0] : Fin 2 → Nat) = fun _ => 0 := funext fun a => by fin_cases a <;> rfl

/-- Row 1 of a 2×128 buffer as a rectangle: its local index (0, j) is the buffer's (1, j). -/
theorem emb_row1 (j : Fin 128) :
    (Rect.unit (s := S2x128) ![1, 0] ![1, 128] inb_S2x128_S1x128_1_0).emb (ix2 (0 : Fin 1) j) = ix2 (1 : Fin 2) j := by
  funext a
  apply Fin.ext
  match a with
  | ⟨0, _⟩ => rfl
  | ⟨1, _⟩ => show 0 + 1 * j.val = j.val; omega

/-- Row 0 likewise. -/
theorem emb_row0 (j : Fin 128) :
    (Rect.unit (s := S2x128) ![0, 0] ![1, 128] inb_S2x128_S1x128_0_0).emb (ix2 (0 : Fin 1) j) = ix2 (0 : Fin 2) j := by
  funext a
  apply Fin.ext
  match a with
  | ⟨0, _⟩ => rfl
  | ⟨1, _⟩ => show 0 + 1 * j.val = j.val; omega

/-- An entry of row 0 is not in row 1's rectangle. -/
theorem row0_not_mem_row1 (j : Fin 128) :
    ix2 (0 : Fin 2) j ∉ (Rect.unit (s := S2x128) ![1, 0] ![1, 128] inb_S2x128_S1x128_1_0).set := by
  rw [Rect.mem_set_unit]
  intro h
  have := (h 0).1
  revert this
  show ¬ (1 ≤ 0)
  omega

/-- An entry of row 1 is not in row 0's rectangle. -/
theorem row1_not_mem_row0 (j : Fin 128) :
    ix2 (1 : Fin 2) j ∉ (Rect.unit (s := S2x128) ![0, 0] ![1, 128] inb_S2x128_S1x128_0_0).set := by
  rw [Rect.mem_set_unit]
  intro h
  have := (h 0).2
  revert this
  show ¬ (1 < 0 + 1)
  omega

/-- The zero fill of the 2×128 buffer covers every entry. -/
theorem zero_covers (y : S2x128.Idx) :
    ∃ p ∈ ([⟨Rect.unit ![0, 0] S2x128.size inb_S2x128_S2x128_0_0, k0_pay2 (F := Ideal)⟩] : List (View.Piece (Elt Ideal) S2x128 .f32)), y ∈ p.1.set :=
  ⟨_, List.mem_singleton_self _, View.mem_set_unit_zero hz2 inb_S2x128_S2x128_0_0 y⟩

/-- The zero fill reads 0 everywhere. -/
theorem pay2_apply (y : S2x128.Idx) : k0_pay2 (F := Ideal) y = 0 := by
  unfold k0_pay2
  show Ideal.ofBits .f32 0x00000000#32 = 0
  exact Ideal.ofBits_zero_f32

/-- Reading row 1 of what a last store into row 1 left: the store's payload. -/
theorem canon_row1 (w1 : (Rect.unit (s := S2x128) ![1, 0] ![1, 128] inb_S2x128_S1x128_1_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32) :: L) (ix2 (1 : Fin 2) j) = w1 (ix2 (0 : Fin 1) j) := by
  rw [← emb_row1 j]
  exact View.canon_cons_emb _ w1 L (ix2 (0 : Fin 1) j)

/-- Reading row 0 under a last store into row 1 and a store into row 0 before it: the row-0 store's payload. -/
theorem canon_row0 (w1 : (Rect.unit (s := S2x128) ![1, 0] ![1, 128] inb_S2x128_S1x128_1_0).shape.Idx → Elt Ideal .f32)
    (w0 : (Rect.unit (s := S2x128) ![0, 0] ![1, 128] inb_S2x128_S1x128_0_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32)
        :: (⟨Rect.unit ![0, 0] ![1, 128] inb_S2x128_S1x128_0_0, w0⟩ : View.Piece (Elt Ideal) S2x128 .f32) :: L) (ix2 (0 : Fin 2) j)
      = w0 (ix2 (0 : Fin 1) j) := by
  refine (View.canon_cons_of_not_mem (⟨Rect.unit ![1, 0] ![1, 128] inb_S2x128_S1x128_1_0, w1⟩ : View.Piece (Elt Ideal) S2x128 .f32) _ (row0_not_mem_row1 j)).trans ?_
  rw [← emb_row0 j]
  exact View.canon_cons_emb _ w0 L (ix2 (0 : Fin 1) j)

/-- Row 1 under a store into row 0 over the zero fill reads the zero fill: 0. -/
theorem canon_row1_under_row0 (w0 : (Rect.unit (s := S2x128) ![0, 0] ![1, 128] inb_S2x128_S1x128_0_0).shape.Idx → Elt Ideal .f32) (j : Fin 128) :
    View.canon [(⟨Rect.unit ![0, 0] ![1, 128] inb_S2x128_S1x128_0_0, w0⟩ : View.Piece (Elt Ideal) S2x128 .f32),
        ⟨Rect.unit ![0, 0] S2x128.size inb_S2x128_S2x128_0_0, k0_pay2 (F := Ideal)⟩] (ix2 (1 : Fin 2) j) = 0 := by
  refine (View.canon_cons_of_not_mem (⟨Rect.unit ![0, 0] ![1, 128] inb_S2x128_S1x128_0_0, w0⟩ : View.Piece (Elt Ideal) S2x128 .f32) _ (row1_not_mem_row0 j)).trans ?_
  rw [View.canon_unit_zero hz2]
  exact pay2_apply _

/-- Either case leaves the affine block of the point's input blocks in the first output's buffer. -/
theorem out5_A (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond0_0 i) (x0 x1 : Vec Ideal S4000x128 .f32) (x2 x3 : Vec Ideal S128x128 .f32) (x4 : Vec Ideal S1x128 .f32) :
    out0_A_5 (F := Ideal) c i a1 h1 a2 h2 a3 h3 a4 h4 a5 h5 a6 h6 a7 h7 hc x0 x1 x2 x3 x4 = k0_pay3 (F := Ideal) x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

theorem out5_B (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond0_0 i) (x0 x1 : Vec Ideal S4000x128 .f32) (x2 x3 : Vec Ideal S128x128 .f32) (x4 : Vec Ideal S1x128 .f32) (xo : Vec Ideal S2x128 .f32) :
    out0_B_5 (F := Ideal) c i a1 h1 a2 h2 a3 h3 a4 h4 a5 h5 a6 h6 a7 h7 hc x0 x1 x2 x3 x4 xo = k0_pay3 (F := Ideal) x0 x1 x2 x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

/-- Off the first point, row 0 of the second output gains the block's column sums. -/
theorem out6_B_row0 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond0_0 i) (x0 x1 : Vec Ideal S4000x128 .f32) (x2 x3 : Vec Ideal S128x128 .f32) (x4 : Vec Ideal S1x128 .f32) (xo : Vec Ideal S2x128 .f32) (j : Fin 128) :
    out0_B_6 (F := Ideal) c i a1 h1 a2 h2 a3 h3 a4 h4 a5 h5 a6 h6 a7 h7 hc x0 x1 x2 x3 x4 xo (ix2 (0 : Fin 2) j)
      = xo (ix2 (0 : Fin 2) j) + ∑ p : Fin 4000, k0_pay3 (F := Ideal) x0 x1 x2 x3 x4 (ix2 p j) := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  refine (canon_row0 _ _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay5_apply _ _ _ _ _ _ j).trans ?_
  refine congrArg (· + _) ?_
  show xo ((Rect.unit (s := S2x128) ![0, 0] ![1, 128] inb_S2x128_S1x128_0_0).emb (ix2 (0 : Fin 1) j)) = _
  rw [emb_row0]

/-- and row 1 the block's column sums of squares. -/
theorem out6_B_row1 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond0_0 i) (x0 x1 : Vec Ideal S4000x128 .f32) (x2 x3 : Vec Ideal S128x128 .f32) (x4 : Vec Ideal S1x128 .f32) (xo : Vec Ideal S2x128 .f32) (j : Fin 128) :
    out0_B_6 (F := Ideal) c i a1 h1 a2 h2 a3 h3 a4 h4 a5 h5 a6 h6 a7 h7 hc x0 x1 x2 x3 x4 xo (ix2 (1 : Fin 2) j)
      = xo (ix2 (1 : Fin 2) j) + ∑ p : Fin 4000, k0_pay3 (F := Ideal) x0 x1 x2 x3 x4 (ix2 p j) * k0_pay3 (F := Ideal) x0 x1 x2 x3 x4 (ix2 p j) := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  refine (canon_row1 _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay1_apply _ _ j).trans ?_
  refine congrArg₂ (· + ·) ?_ (pay4_apply _ _ _ _ _ j)
  show xo ((Rect.unit (s := S2x128) ![1, 0] ![1, 128] inb_S2x128_S1x128_1_0).emb (ix2 (0 : Fin 1) j)) = _
  rw [emb_row1]

/-- At the first point the buffer is zero-filled first: row 0 ends at the block's column sums, -/
theorem out6_A_row0 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond0_0 i) (x0 x1 : Vec Ideal S4000x128 .f32) (x2 x3 : Vec Ideal S128x128 .f32) (x4 : Vec Ideal S1x128 .f32) (j : Fin 128) :
    out0_A_6 (F := Ideal) c i a1 h1 a2 h2 a3 h3 a4 h4 a5 h5 a6 h6 a7 h7 hc x0 x1 x2 x3 x4 (ix2 (0 : Fin 2) j)
      = ∑ p : Fin 4000, k0_pay3 (F := Ideal) x0 x1 x2 x3 x4 (ix2 p j) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  refine (canon_row0 _ _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay5_apply _ _ _ _ _ _ j).trans ?_
  rw [View.readCov_eq_canon_ld _ _ _ zero_covers, View.canon_unit_zero hz2]
  show k0_pay2 (F := Ideal) _ + _ = _
  rw [pay2_apply, zero_add]

/-- and row 1 at its column sums of squares. -/
theorem out6_A_row1 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond0_0 i) (x0 x1 : Vec Ideal S4000x128 .f32) (x2 x3 : Vec Ideal S128x128 .f32) (x4 : Vec Ideal S1x128 .f32) (j : Fin 128) :
    out0_A_6 (F := Ideal) c i a1 h1 a2 h2 a3 h3 a4 h4 a5 h5 a6 h6 a7 h7 hc x0 x1 x2 x3 x4 (ix2 (1 : Fin 2) j)
      = ∑ p : Fin 4000, k0_pay3 (F := Ideal) x0 x1 x2 x3 x4 (ix2 p j) * k0_pay3 (F := Ideal) x0 x1 x2 x3 x4 (ix2 p j) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  refine (canon_row1 _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay1_apply _ _ j).trans ?_
  refine (congrArg₂ (· + ·) ?_ (pay4_apply _ _ _ _ _ j)).trans (zero_add _)
  rw [View.readCov_eq_canon_ld _ _ _ (fun y => ⟨_, List.mem_cons_of_mem _ (List.mem_singleton_self _), View.mem_set_unit_zero hz2 inb_S2x128_S2x128_0_0 y⟩)]
  show View.canon _ ((Rect.unit (s := S2x128) ![1, 0] ![1, 128] inb_S2x128_S1x128_1_0).emb (ix2 (0 : Fin 1) j)) = 0
  rw [emb_row1]
  exact canon_row1_under_row0 _ j

/-! ## The accumulation over the grid, and the two arrays the region leaves -/

variable (V : (c : Dev nD) → (b : Ref sig .tc) → Buf (Elt Ideal) ((c : Thread nD τ).loc b))

/-- The affine block of point t: the body's first payload of the point's input blocks. -/
abbrev blk (c : Dev nD) (t : Fin cfg0.N) : Vec Ideal S4000x128 .f32 :=
  k0_pay3 (F := Ideal) (iblk0 V c 0 t) (iblk0 V c 1 t) (iblk0 V c 2 t) (iblk0 V c 3 t) (iblk0 V c 4 t)

/-- Column j's sum over point s's block (0 past the grid). -/
def bsum (c : Dev nD) (s : ℕ) (j : Fin 128) : EReal :=
  if h : s < cfg0.N then ∑ p : Fin 4000, blk V c ⟨s, h⟩ (ix2 p j) else 0

/-- Column j's sum of squares over point s's block (0 past the grid). -/
def bsq (c : Dev nD) (s : ℕ) (j : Fin 128) : EReal :=
  if h : s < cfg0.N then ∑ p : Fin 4000, blk V c ⟨s, h⟩ (ix2 p j) * blk V c ⟨s, h⟩ (ix2 p j) else 0

theorem N_eq : cfg0.N = 25 := N_0

set_option maxHeartbeats 4000000 in
/-- After point n the first output's buffer holds that point's affine block, and the second the column sums (row 0)
    and column sums of squares (row 1) of the blocks of points 0 … n: by induction on the point. -/
theorem outs_eq (c : Dev nD) : ∀ (n : ℕ) (h : n < cfg0.N),
    (outsAt0 V c n h).1 = blk V c ⟨n, h⟩
    ∧ (∀ j : Fin 128, (outsAt0 V c n h).2 (ix2 (0 : Fin 2) j) = ∑ s ∈ Finset.range (n + 1), bsum V c s j)
    ∧ (∀ j : Fin 128, (outsAt0 V c n h).2 (ix2 (1 : Fin 2) j) = ∑ s ∈ Finset.range (n + 1), bsq V c s j)
  | 0, h => by
    rw [outsAt0_A V c ⟨0, h⟩ rfl]
    dsimp only
    refine ⟨out5_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) _ (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)), fun j => ?_, fun j => ?_⟩
    · rw [Finset.sum_range_one]; unfold bsum; rw [dif_pos h]
      exact out6_A_row0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) _ (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) j
    · rw [Finset.sum_range_one]; unfold bsq; rw [dif_pos h]
      exact out6_A_row1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) _ (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) j
  | n + 1, h => by
    have hN : cfg0.N = 25 := N_eq
    have hB : ¬(⟨n + 1, h⟩ : Fin cfg0.N).val % 25 = 0 := by dsimp only; omega
    obtain ⟨-, ih0, ih1⟩ := outs_eq c n (Nat.lt_of_succ_lt h)
    rw [outsAt0_B V c ⟨n + 1, h⟩ hB]
    dsimp only
    refine ⟨out5_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) _ (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c n (Nat.lt_of_succ_lt h)).2, fun j => ?_, fun j => ?_⟩
    · rw [Finset.sum_range_succ, ← ih0 j]
      refine (out6_B_row0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) _ (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c n (Nat.lt_of_succ_lt h)).2 j).trans ?_
      unfold bsum; rw [dif_pos h]
    · rw [Finset.sum_range_succ, ← ih1 j]
      refine (out6_B_row1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) _ (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c n (Nat.lt_of_succ_lt h)).2 j).trans ?_
      unfold bsq; rw [dif_pos h]

/-! ## From the blocks to the two arrays: the affine part and its column statistics -/

/-- Where each window's block sits at grid point t: the two row-blocked inputs' and the affine output's block is block t of
    the rows, all columns; the matrices, the bias row and the statistics are one block. Decided over the 25 points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- Row p of block t is row 4000·t + p of the array. -/
def row (t : Fin cfg0.N) (p : Fin 4000) : Fin 100000 :=
  ⟨t.val * 4000 + p.val, by have h1 := t.isLt; have h2 : cfg0.N = 25 := N_eq; have h3 := p.isLt; omega⟩

/-- Window 0's block at point t is rows 4000·t … 4000·t + 3999 of its array. -/
theorem iblk0_apply (c : Dev nD) (t : Fin cfg0.N) (p : Fin 4000) (k : Fin 128) :
    (iblk0 V c 0 t : Vec Ideal S4000x128 .f32) (ix2 p k) = (V c (Pipeline.arrRef spec0 0) : S100000x128.Idx → EReal) (ix2 (row t p) k) := by
  obtain ⟨e00, e01, e10, e11, -⟩ := idx_facts0 t
  unfold iblk0
  rw [View.read_apply]
  refine congrArg (V c (Pipeline.arrRef spec0 0) : S100000x128.Idx → EReal) (funext fun a => Fin.ext ?_)
  match a with
  | ⟨0, _⟩ => show win0_0.index t (0 : Fin 2) * 4000 + 1 * p.val = t.val * 4000 + p.val; rw [e00]; omega
  | ⟨1, _⟩ => show win0_0.index t (1 : Fin 2) * 128 + 1 * k.val = k.val; rw [e01]; omega

/-- Window 1's block at point t is rows 4000·t … 4000·t + 3999 of its array. -/
theorem iblk1_apply (c : Dev nD) (t : Fin cfg0.N) (p : Fin 4000) (k : Fin 128) :
    (iblk0 V c 1 t : Vec Ideal S4000x128 .f32) (ix2 p k) = (V c (Pipeline.arrRef spec0 1) : S100000x128.Idx → EReal) (ix2 (row t p) k) := by
  obtain ⟨e00, e01, e10, e11, -⟩ := idx_facts0 t
  unfold iblk0
  rw [View.read_apply]
  refine congrArg (V c (Pipeline.arrRef spec0 1) : S100000x128.Idx → EReal) (funext fun a => Fin.ext ?_)
  match a with
  | ⟨0, _⟩ => show win0_1.index t (0 : Fin 2) * 4000 + 1 * p.val = t.val * 4000 + p.val; rw [e10]; omega
  | ⟨1, _⟩ => show win0_1.index t (1 : Fin 2) * 128 + 1 * k.val = k.val; rw [e11]; omega

/-- Window 2's block at every point is its whole 128×128 matrix. -/
theorem iblk2_apply (c : Dev nD) (t : Fin cfg0.N) (k j : Fin 128) :
    (iblk0 V c 2 t : Vec Ideal S128x128 .f32) (ix2 k j) = (V c (Pipeline.arrRef spec0 2) : S128x128.Idx → EReal) (ix2 k j) := by
  obtain ⟨-, -, -, -, e20, e21, e30, e31, -⟩ := idx_facts0 t
  unfold iblk0
  rw [View.read_apply]
  refine congrArg (V c (Pipeline.arrRef spec0 2) : S128x128.Idx → EReal) (funext fun a => Fin.ext ?_)
  match a with
  | ⟨0, _⟩ => show win0_2.index t (0 : Fin 2) * 128 + 1 * k.val = k.val; rw [e20]; omega
  | ⟨1, _⟩ => show win0_2.index t (1 : Fin 2) * 128 + 1 * j.val = j.val; rw [e21]; omega

/-- Window 3's block at every point is its whole 128×128 matrix. -/
theorem iblk3_apply (c : Dev nD) (t : Fin cfg0.N) (k j : Fin 128) :
    (iblk0 V c 3 t : Vec Ideal S128x128 .f32) (ix2 k j) = (V c (Pipeline.arrRef spec0 3) : S128x128.Idx → EReal) (ix2 k j) := by
  obtain ⟨-, -, -, -, e20, e21, e30, e31, -⟩ := idx_facts0 t
  unfold iblk0
  rw [View.read_apply]
  refine congrArg (V c (Pipeline.arrRef spec0 3) : S128x128.Idx → EReal) (funext fun a => Fin.ext ?_)
  match a with
  | ⟨0, _⟩ => show win0_3.index t (0 : Fin 2) * 128 + 1 * k.val = k.val; rw [e30]; omega
  | ⟨1, _⟩ => show win0_3.index t (1 : Fin 2) * 128 + 1 * j.val = j.val; rw [e31]; omega

/-- Window 4's block at every point is the whole bias row. -/
theorem iblk4_apply (c : Dev nD) (t : Fin cfg0.N) (j : Fin 128) :
    (iblk0 V c 4 t : Vec Ideal S1x128 .f32) (ix2 (0 : Fin 1) j) = (V c (Pipeline.arrRef spec0 4) : S1x128.Idx → EReal) (ix2 (0 : Fin 1) j) := by
  obtain ⟨-, -, -, -, -, -, -, -, e40, e41, -⟩ := idx_facts0 t
  unfold iblk0
  rw [View.read_apply]
  refine congrArg (V c (Pipeline.arrRef spec0 4) : S1x128.Idx → EReal) (funext fun a => Fin.ext ?_)
  match a with
  | ⟨0, _⟩ => show win0_4.index t (0 : Fin 2) * 1 + 1 * 0 = 0; rw [e40]
  | ⟨1, _⟩ => show win0_4.index t (1 : Fin 2) * 128 + 1 * j.val = j.val; rw [e41]; omega

/-- The five input arrays as the region finds them, by coordinates. -/
abbrev arrA (c : Dev nD) : Fin 100000 → Fin 128 → EReal := fun r k => (V c (Pipeline.arrRef spec0 0) : S100000x128.Idx → EReal) (ix2 r k)
abbrev arrX (c : Dev nD) : Fin 100000 → Fin 128 → EReal := fun r k => (V c (Pipeline.arrRef spec0 1) : S100000x128.Idx → EReal) (ix2 r k)
abbrev matL (c : Dev nD) : Fin 128 → Fin 128 → EReal := fun k j => (V c (Pipeline.arrRef spec0 2) : S128x128.Idx → EReal) (ix2 k j)
abbrev matR (c : Dev nD) : Fin 128 → Fin 128 → EReal := fun k j => (V c (Pipeline.arrRef spec0 3) : S128x128.Idx → EReal) (ix2 k j)
abbrev rowB (c : Dev nD) : Fin 128 → EReal := fun j => (V c (Pipeline.arrRef spec0 4) : S1x128.Idx → EReal) (ix2 (0 : Fin 1) j)

/-- The affine part of the whole arrays, entry by entry. -/
abbrev linV (c : Dev nD) : Fin 100000 → Fin 128 → EReal :=
  Cert.Spec.lin (arrA V c) (arrX V c) (matL V c) (matR V c) (rowB V c)

/-- Entry (p, j) of point t's affine block is entry (4000·t + p, j) of the affine part of the whole arrays. -/
theorem blk_apply (c : Dev nD) (t : Fin cfg0.N) (p : Fin 4000) (j : Fin 128) :
    blk V c t (ix2 p j) = linV V c (row t p) j := by
  refine (pay3_apply (iblk0 V c 0 t) (iblk0 V c 1 t) (iblk0 V c 2 t) (iblk0 V c 3 t) (iblk0 V c 4 t) p j).trans ?_
  show _ = ((∑ k : Fin 128, arrA V c (row t p) k * matL V c k j) + (∑ k : Fin 128, arrX V c (row t p) k * matR V c k j)) + rowB V c j
  refine congrArg₂ (· + ·) (congrArg₂ (· + ·) (Finset.sum_congr rfl fun k _ => ?_) (Finset.sum_congr rfl fun k _ => ?_)) (iblk4_apply V c t j)
  · exact congrArg₂ (· * ·) (iblk0_apply V c t p k) (iblk2_apply V c t k j)
  · exact congrArg₂ (· * ·) (iblk1_apply V c t p k) (iblk3_apply V c t k j)

/-! ### The affine output array -/

/-- What the affine output array ends holding. -/
abbrev G5 (c : Dev nD) : S100000x128.Idx → EReal := fun i => linV V c (i 0 : Fin 100000) (i 1 : Fin 128)

/-- Point t's affine block at (p, q) is that array's entry at the index K the block puts there. -/
theorem point5 (c : Dev nD) (t : Fin cfg0.N) (p : Fin 4000) (q : Fin 128) (K : S100000x128.Idx)
    (hk0 : (K 0).val = t.val * 4000 + p.val) (hk1 : (K 1).val = q.val) : blk V c t (ix2 p q) = G5 V c K := by
  have h0 : (K 0 : Fin 100000) = row t p := Fin.ext hk0
  have h1 : (K 1 : Fin 128) = q := Fin.ext hk1
  show _ = linV V c (K 0 : Fin 100000) (K 1 : Fin 128)
  rw [h0, h1]
  exact blk_apply V c t p q

/-- What point t writes back to the affine output is block t of that array. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5, (outs_eq V c t.val t.isLt).1]
  obtain ⟨-, -, -, -, -, -, -, -, -, -, e50, e51, -⟩ := idx_facts0 t
  funext y
  obtain ⟨p, q, rfl⟩ : ∃ (p : Fin 4000) (q : Fin 128), y = ix2 p q := ⟨y 0, y 1, eq_ix2 y⟩
  rw [View.read_apply]
  show blk V c t (ix2 p q) = _
  exact point5 V c t p q _
    (by show win0_5.index t (0 : Fin 2) * 4000 + 1 * p.val = t.val * 4000 + p.val; rw [e50]; omega)
    (by show win0_5.index t (1 : Fin 2) * 128 + 1 * q.val = q.val; rw [e51]; omega)

/-- An index of the affine output is in point t's block iff each coordinate is in the block's range on its axis. -/
theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v28_0).slice (win0_5.rect t)).set ↔ _
  rw [View.set_slice_whole, Rect.mem_set_unit]
  exact Iff.rfl

/-- Row r is in the block of point r / 4000, which is written back. -/
theorem cover5 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 25 := N_eq
  have hlt : (i 0).val / 4000 < cfg0.N := lt_of_lt_of_eq (by omega : (i 0).val / 4000 < 25) hN.symm
  obtain ⟨-, -, -, -, -, -, -, -, -, -, e50, e51, -⟩ := idx_facts0 ⟨(i 0).val / 4000, hlt⟩
  refine ⟨⟨(i 0).val / 4000, hlt⟩, flush0_5 _, ?_⟩
  rw [mem_blk5]
  intro a
  match a with
  | ⟨0, _⟩ =>
    show win0_5.index ⟨(i 0).val / 4000, hlt⟩ (0 : Fin 2) * 4000 ≤ (i 0).val ∧ (i 0).val < win0_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win0_5.index ⟨(i 0).val / 4000, hlt⟩ (1 : Fin 2) * 128 ≤ (i 1).val ∧ (i 1).val < win0_5.index ⟨(i 0).val / 4000, hlt⟩ (1 : Fin 2) * 128 + 128
    rw [e51]
    omega

/-- The affine output array after the region. -/
theorem final5_fun (c : Dev nD) : (dat0 (F := Ideal) V c).arrAt 5 cfg0.N = G5 V c :=
  (dat0 (F := Ideal) V c).arrAt_eq_of_cover 5 (G5 V c) (fun t _ => flushed5_eq V c t) cover5

/-- The affine output array after the region, at (r, j). -/
theorem final5 (c : Dev nD) (r : Fin 100000) (j : Fin 128) :
    (dat0 (F := Ideal) V c).arrAt 5 cfg0.N (ix2 r j)
      = Cert.Spec.lin (fun (r : Fin 100000) (k : Fin 128) => V c (Pipeline.arrRef spec0 0) (ix2 r k)) (fun (r : Fin 100000) (k : Fin 128) => V c (Pipeline.arrRef spec0 1) (ix2 r k))
          (fun (k j : Fin 128) => V c (Pipeline.arrRef spec0 2) (ix2 k j)) (fun (k j : Fin 128) => V c (Pipeline.arrRef spec0 3) (ix2 k j))
          (fun (j : Fin 128) => V c (Pipeline.arrRef spec0 4) (ix2 (0 : Fin 1) j)) r j :=
  congrFun (final5_fun V c) (ix2 r j)

/-! ### The statistics array -/

/-- The last grid point. -/
def tLast : Fin cfg0.N := ⟨24, by rw [N_eq]; decide⟩

/-- What the statistics array ends holding: the second output's buffer after the last point. -/
abbrev stats (c : Dev nD) : Buf (Elt Ideal) ((c : Thread nD τ).loc main_v28_1) := (outsAt0 V c tLast.val tLast.isLt).2

/-- The one write-back of the statistics, at the last point, writes that buffer: its one block is the whole array. -/
theorem flushed6_eq (c : Dev nD) (t : Fin cfg0.N) (hf : (cfg0.win 6).flush t = true) :
    (dat0 (F := Ideal) V c).flushed 6 t = ((cfg0.win 6).blk t).view.read (Elt Ideal) (stats V c) := by
  have hN : cfg0.N = 25 := N_eq
  have h24 : t.val = 24 := by have := (flush0_6 t).mp hf; have := t.isLt; omega
  obtain rfl : t = tLast := Fin.ext h24
  show (cfg0.win 6).cut (grid0.coords tLast) ((dat0 (F := Ideal) V c).after 6 tLast) = _
  rw [after0_6]
  obtain ⟨-, -, -, -, -, -, -, -, -, -, -, -, e60, e61⟩ := idx_facts0 tLast
  have hz' : (fun a => win0_6.index tLast a * main_v28_1.ty.shape.size a) = fun _ => 0 := funext fun a => by
    match a with
    | ⟨0, _⟩ => show win0_6.index tLast (0 : Fin 2) * 2 = 0; rw [e60]
    | ⟨1, _⟩ => show win0_6.index tLast (1 : Fin 2) * 128 = 0; rw [e61]
  exact (Memref.read_access_unit_zero (Elt Ideal) main_v28_1 hz' (fun a => by rw [congrFun hz' a]; simp) (stats V c)).symm

/-- Every index of the statistics array is in the last point's block, which is written back. -/
theorem cover6 (i : S2x128.Idx) : ∃ t : Fin cfg0.N, (cfg0.win 6).flush t = true ∧ i ∈ ((cfg0.win 6).blk t).view.set := by
  have hi0 : (i 0).val < 2 := idx2_lt0 i
  have hi1 : (i 1).val < 128 := idx2_lt1 i
  obtain ⟨-, -, -, -, -, -, -, -, -, -, -, -, e60, e61⟩ := idx_facts0 tLast
  refine ⟨tLast, (flush0_6 tLast).mpr rfl, ?_⟩
  show i ∈ ((View.whole main_v28_1).slice (win0_6.rect tLast)).set
  rw [View.set_slice_whole, Rect.mem_set_unit]
  intro a
  match a with
  | ⟨0, _⟩ =>
    show win0_6.index tLast (0 : Fin 2) * 2 ≤ (i 0).val ∧ (i 0).val < win0_6.index tLast (0 : Fin 2) * 2 + 2
    rw [e60]; omega
  | ⟨1, _⟩ =>
    show win0_6.index tLast (1 : Fin 2) * 128 ≤ (i 1).val ∧ (i 1).val < win0_6.index tLast (1 : Fin 2) * 128 + 128
    rw [e61]; omega

/-- The statistics array after the region. -/
theorem final6_fun (c : Dev nD) : (dat0 (F := Ideal) V c).arrAt 6 cfg0.N = stats V c :=
  (dat0 (F := Ideal) V c).arrAt_eq_of_cover 6 (stats V c) (flushed6_eq V c) cover6

/-- A sum over pairs (block, row in block) is the sum over all rows: the pair (s, p) is row p + n·s. -/
theorem sum_pairs (m n : ℕ) (f : Fin (m * n) → EReal) :
    ∑ s : Fin m, ∑ p : Fin n, f (finProdFinEquiv (s, p)) = ∑ r : Fin (m * n), f r :=
  (Fintype.sum_prod_type' (fun s p => f (finProdFinEquiv (s, p)))).symm.trans (Equiv.sum_comp finProdFinEquiv f)

/-- The 25 blocks of 4000 rows are the 100000 rows. -/
theorem sum_rows (f : Fin 100000 → EReal) :
    ∑ s : Fin 25, ∑ p : Fin 4000, f ⟨s.val * 4000 + p.val, by have := s.isLt; have := p.isLt; omega⟩ = ∑ r : Fin 100000, f r := by
  refine Eq.trans ?_ (sum_pairs 25 4000 f)
  refine Finset.sum_congr rfl fun s _ => Finset.sum_congr rfl fun p _ => congrArg f (Fin.ext ?_)
  rw [finProdFinEquiv_apply_val]
  show s.val * 4000 + p.val = p.val + 4000 * s.val
  omega

/-- A function of the rows summed block by block over the 25 points is summed over all rows. -/
theorem sum_blocks (g : Fin 100000 → EReal) (B : ℕ → EReal)
    (hB : ∀ (s : ℕ) (h : s < cfg0.N), B s = ∑ p : Fin 4000, g (row ⟨s, h⟩ p)) :
    ∑ s ∈ Finset.range 25, B s = ∑ r : Fin 100000, g r := by
  rw [Finset.sum_range]
  refine Eq.trans (Finset.sum_congr rfl fun s _ => ?_) (sum_rows g)
  exact hB s.val (lt_of_lt_of_eq s.isLt N_eq.symm)

/-- Column j's sums over the blocks of all 25 points: the column sum of the affine part. -/
theorem bsum_total (c : Dev nD) (j : Fin 128) :
    ∑ s ∈ Finset.range 25, bsum V c s j = Cert.Spec.colSum (linV V c) j :=
  sum_blocks (fun r => linV V c r j) (fun s => bsum V c s j) fun s h => by
    unfold bsum
    rw [dif_pos h]
    exact Finset.sum_congr rfl fun p _ => blk_apply V c ⟨s, h⟩ p j

/-- Column j's sums of squares over the blocks of all 25 points: the column sum of the squared affine part. -/
theorem bsq_total (c : Dev nD) (j : Fin 128) :
    ∑ s ∈ Finset.range 25, bsq V c s j = Cert.Spec.colSum (fun r j => linV V c r j * linV V c r j) j :=
  sum_blocks (fun r => linV V c r j * linV V c r j) (fun s => bsq V c s j) fun s h => by
    unfold bsq
    rw [dif_pos h]
    exact Finset.sum_congr rfl fun p _ => by rw [blk_apply V c ⟨s, h⟩ p j]

/-- Row 0 of the statistics after the region: the column sums of the affine part. -/
theorem final6_row0 (c : Dev nD) (j : Fin 128) :
    (dat0 (F := Ideal) V c).arrAt 6 cfg0.N (ix2 (0 : Fin 2) j)
      = Cert.Spec.colSum (Cert.Spec.lin (fun (r : Fin 100000) (k : Fin 128) => V c (Pipeline.arrRef spec0 0) (ix2 r k)) (fun (r : Fin 100000) (k : Fin 128) => V c (Pipeline.arrRef spec0 1) (ix2 r k))
          (fun (k j : Fin 128) => V c (Pipeline.arrRef spec0 2) (ix2 k j)) (fun (k j : Fin 128) => V c (Pipeline.arrRef spec0 3) (ix2 k j))
          (fun (j : Fin 128) => V c (Pipeline.arrRef spec0 4) (ix2 (0 : Fin 1) j))) j :=
  (congrFun (final6_fun V c) (ix2 (0 : Fin 2) j)).trans (((outs_eq V c 24 tLast.isLt).2.1 j).trans (bsum_total V c j))

/-- Row 1 of the statistics after the region: the column sums of the squared affine part. -/
theorem final6_row1 (c : Dev nD) (j : Fin 128) :
    (dat0 (F := Ideal) V c).arrAt 6 cfg0.N (ix2 (1 : Fin 2) j)
      = Cert.Spec.colSum (fun r j => Cert.Spec.lin (fun (r : Fin 100000) (k : Fin 128) => V c (Pipeline.arrRef spec0 0) (ix2 r k)) (fun (r : Fin 100000) (k : Fin 128) => V c (Pipeline.arrRef spec0 1) (ix2 r k))
            (fun (k j : Fin 128) => V c (Pipeline.arrRef spec0 2) (ix2 k j)) (fun (k j : Fin 128) => V c (Pipeline.arrRef spec0 3) (ix2 k j))
            (fun (j : Fin 128) => V c (Pipeline.arrRef spec0 4) (ix2 (0 : Fin 1) j)) r j
          * Cert.Spec.lin (fun (r : Fin 100000) (k : Fin 128) => V c (Pipeline.arrRef spec0 0) (ix2 r k)) (fun (r : Fin 100000) (k : Fin 128) => V c (Pipeline.arrRef spec0 1) (ix2 r k))
            (fun (k j : Fin 128) => V c (Pipeline.arrRef spec0 2) (ix2 k j)) (fun (k j : Fin 128) => V c (Pipeline.arrRef spec0 3) (ix2 k j))
            (fun (j : Fin 128) => V c (Pipeline.arrRef spec0 4) (ix2 (0 : Fin 1) j)) r j) j :=
  (congrFun (final6_fun V c) (ix2 (1 : Fin 2) j)).trans (((outs_eq V c 24 tLast.isLt).2.2 j).trans (bsq_total V c j))

end Cert.KValue.Lin0

end
-- ==== Proof.KLin2.lean ====
import proofs.«158987_j88218628260833_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic
import proofs.«158987_j88218628260833_1_alg».proof.Proof.Spec

noncomputable section

open scoped BigOperators

namespace Cert.KValue.Lin2

open Cert.KernelIdeal Cert.KernelIdeal.Gen Idealize.ShloMosaic Idealize.ShloMosaic.ValueIdx Idealize.ShloMosaic.TcCoe Idealize.SL.Sem
open Idealize.ShloMosaic.Pipeline (Dat)

theorem mm_apply_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_apply_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm_apply_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm_apply_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction of a block with a matrix into the zero block, at (p, j): Σₖ x p k · w k j. -/
theorem mm_apply (x : FVec Ideal S4000x128 .bf16) (w : FVec Ideal S128x128 .bf16) (p : Fin 4000) (j : Fin 128) :
    FloatOps.matmul dot_S4000x128_S128x128_S4000x128_1_0_0_1_n_n none x w (constant S4000x128 .f32 0x00000000#32) (ix2 p j)
      = ∑ k : Fin 128, x (ix2 p k) * w (ix2 k j) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact mm_apply_l0 _ _
      | ⟨1, _⟩ => exact (mm_apply_l1 _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (mm_apply_r0 _ _).trans hk
      | ⟨1, _⟩ => exact mm_apply_r1 _ _)
  rw [el, er]

theorem pay3_apply (x0 x1 : Vec Ideal S4000x128 .f32) (w1 w2 : Vec Ideal S128x128 .f32) (b : Vec Ideal S1x128 .f32) (p : Fin 4000) (j : Fin 128) :
    k2_pay3 (F := Ideal) x0 x1 w1 w2 b (ix2 p j)
      = ((∑ k : Fin 128, x0 (ix2 p k) * w1 (ix2 k j)) + (∑ k : Fin 128, x1 (ix2 p k) * w2 (ix2 k j))) + b (ix2 (0 : Fin 1) j) := by
  unfold k2_pay3
  show (FloatOps.matmul (F := Ideal) dot_S4000x128_S128x128_S4000x128_1_0_0_1_n_n none _ _ (constant (F := Ideal) S4000x128 .f32 0x00000000#32) (ix2 p j)
        + FloatOps.matmul (F := Ideal) dot_S4000x128_S128x128_S4000x128_1_0_0_1_n_n none _ _ (constant (F := Ideal) S4000x128 .f32 0x00000000#32) (ix2 p j))
        + broadcastTo S4000x128 (shapeCast S1x128 b shapeCasts_S1x128_S1x128) broadcasts_S1x128_S4000x128 (ix2 p j) = _
  refine congrArg₂ (· + ·) (congrArg₂ (· + ·) ((mm_apply _ _ p j).trans ?_) ((mm_apply _ _ p j).trans ?_)) ?_
  · refine Finset.sum_congr rfl fun k _ => ?_
    show (shapeCast S4000x128 x0 shapeCasts_S4000x128_S4000x128) (ix2 p k) * (shapeCast S128x128 w1 shapeCasts_S128x128_S128x128) (ix2 k j) = _
    rw [shapeCast_self, shapeCast_self]
  · refine Finset.sum_congr rfl fun k _ => ?_
    show (shapeCast S4000x128 x1 shapeCasts_S4000x128_S4000x128) (ix2 p k) * (shapeCast S128x128 w2 shapeCasts_S128x128_S128x128) (ix2 k j) = _
    rw [shapeCast_self, shapeCast_self]
  · rw [shapeCast_self]
    exact broadcastTo_1b_ab_apply b broadcasts_S1x128_S4000x128 p j

/-- A sum over the 4000 rows of a block, one column j. -/
theorem colsum_apply (src : FVec Ideal S4000x128 .f32) (j : Fin 128) :
    multiReduction (F := Ideal) .add [0] S128 src 0x00000000#32 reduces_S4000x128_S128 (.inl rfl) rfl (ix1 j)
      = ∑ p : Fin 4000, src (ix2 p j) := by
  refine (Ideal.multiReduction_add_single src 0x00000000#32 reduces_S4000x128_S128 (.inl rfl) rfl (ix1 j)).trans ?_
  refine Finset.sum_congr rfl fun p _ => congrArg src (funext fun a => Fin.ext ?_)
  match a with
  | ⟨0, _⟩ => rfl
  | ⟨1, _⟩ => rfl

/-- The block's column sums added to the running row: entry j is acc j + Σₚ lin p j. -/
theorem pay5_apply (x0 x1 : Vec Ideal S4000x128 .f32) (w1 w2 : Vec Ideal S128x128 .f32) (b acc : Vec Ideal S1x128 .f32) (j : Fin 128) :
    k2_pay5 (F := Ideal) x0 x1 w1 w2 b acc (ix2 (0 : Fin 1) j)
      = acc (ix2 (0 : Fin 1) j) + ∑ p : Fin 4000, k2_pay3 (F := Ideal) x0 x1 w1 w2 b (ix2 p j) := by
  unfold k2_pay5
  show (shapeCast S1x128 acc shapeCasts_S1x128_S1x128) (ix2 (0 : Fin 1) j)
      + (shapeCast S1x128 (multiReduction (F := Ideal) .add [0] S128 (k2_pay3 (F := Ideal) x0 x1 w1 w2 b) 0x00000000#32 reduces_S4000x128_S128 (.inl rfl) rfl) shapeCasts_S128_S1x128) (ix2 (0 : Fin 1) j) = _
  rw [shapeCast_self]
  refine congrArg (acc (ix2 (0 : Fin 1) j) + ·) ?_
  exact (shapeCast_a_1a_apply _ shapeCasts_S128_S1x128 (0 : Fin 1) j).trans (colsum_apply _ j)

/-- The block's column sums of squares, as a 1×128 row: entry j is Σₚ lin p j · lin p j. -/
theorem pay4_apply (x0 x1 : Vec Ideal S4000x128 .f32) (w1 w2 : Vec Ideal S128x128 .f32) (b : Vec Ideal S1x128 .f32) (j : Fin 128) :
    k2_pay4 (F := Ideal) x0 x1 w1 w2 b (ix2 (0 : Fin 1) j)
      = ∑ p : Fin 4000, k2_pay3 (F := Ideal) x0 x1 w1 w2 b (ix2 p j) * k2_pay3 (F := Ideal) x0 x1 w1 w2 b (ix2 p j) := by
  unfold k2_pay4
  exact (shapeCast_a_1a_apply _ shapeCasts_S128_S1x128 (0 : Fin 1) j).trans (colsum_apply _ j)

/-- The running row of squares plus a block's contribution. -/
theorem pay1_apply (sq acc : Vec Ideal S1x128 .f32) (j : Fin 128) :
    k2_pay1 (F := Ideal) sq acc (ix2 (0 : Fin 1) j) = acc (ix2 (0 : Fin 1) j) + sq (ix2 (0 : Fin 1) j) := by
  unfold k2_pay1
  show (shapeCast S1x128 acc shapeCasts_S1x128_S1x128) (ix2 (0 : Fin 1) j) + sq (ix2 (0 : Fin 1) j) = _
  rw [shapeCast_self]

theorem hz2 : (![0, 0] : Fin 2 → Nat) = fun _ => 0 := funext fun a => by fin_cases a <;> rfl

/-- Row 1 of a 2×128 buffer as a rectangle: its local index (0, j) is the buffer's (1, j). -/
theorem emb_row1 (j : Fin 128) :
    (Rect.unit (s := S2x128) ![1, 0] ![1, 128] inb_S2x128_S1x128_1_0).emb (ix2 (0 : Fin 1) j) = ix2 (1 : Fin 2) j := by
  funext a
  apply Fin.ext
  match a with
  | ⟨0, _⟩ => rfl
  | ⟨1, _⟩ => show 0 + 1 * j.val = j.val; omega

/-- Row 0 likewise. -/
theorem emb_row0 (j : Fin 128) :
    (Rect.unit (s := S2x128) ![0, 0] ![1, 128] inb_S2x128_S1x128_0_0).emb (ix2 (0 : Fin 1) j) = ix2 (0 : Fin 2) j := by
  funext a
  apply Fin.ext
  match a with
  | ⟨0, _⟩ => rfl
  | ⟨1, _⟩ => show 0 + 1 * j.val = j.val; omega

/-- An entry of row 0 is not in row 1's rectangle. -/
theorem row0_not_mem_row1 (j : Fin 128) :
    ix2 (0 : Fin 2) j ∉ (Rect.unit (s := S2x128) ![1, 0] ![1, 128] inb_S2x128_S1x128_1_0).set := by
  rw [Rect.mem_set_unit]
  intro h
  have := (h 0).1
  revert this
  show ¬ (1 ≤ 0)
  omega

/-- An entry of row 1 is not in row 0's rectangle. -/
theorem row1_not_mem_row0 (j : Fin 128) :
    ix2 (1 : Fin 2) j ∉ (Rect.unit (s := S2x128) ![0, 0] ![1, 128] inb_S2x128_S1x128_0_0).set := by
  rw [Rect.mem_set_unit]
  intro h
  have := (h 0).2
  revert this
  show ¬ (1 < 0 + 1)
  omega

/-- The zero fill of the 2×128 buffer covers every entry. -/
theorem zero_covers (y : S2x128.Idx) :
    ∃ p ∈ ([⟨Rect.unit ![0, 0] S2x128.size inb_S2x128_S2x128_0_0, k2_pay2 (F := Ideal)⟩] : List (View.Piece (Elt Ideal) S2x128 .f32)), y ∈ p.1.set :=
  ⟨_, List.mem_singleton_self _, View.mem_set_unit_zero hz2 inb_S2x128_S2x128_0_0 y⟩

/-- The zero fill reads 0 everywhere. -/
theorem pay2_apply (y : S2x128.Idx) : k2_pay2 (F := Ideal) y = 0 := by
  unfold k2_pay2
  show Ideal.ofBits .f32 0x00000000#32 = 0
  exact Ideal.ofBits_zero_f32

/-- Reading row 1 of what a last store into row 1 left: the store's payload. -/
theorem canon_row1 (w1 : (Rect.unit (s := S2x128) ![1, 0] ![1, 128] inb_S2x128_S1x128_1_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32) :: L) (ix2 (1 : Fin 2) j) = w1 (ix2 (0 : Fin 1) j) := by
  rw [← emb_row1 j]
  exact View.canon_cons_emb _ w1 L (ix2 (0 : Fin 1) j)

/-- Reading row 0 under a last store into row 1 and a store into row 0 before it: the row-0 store's payload. -/
theorem canon_row0 (w1 : (Rect.unit (s := S2x128) ![1, 0] ![1, 128] inb_S2x128_S1x128_1_0).shape.Idx → Elt Ideal .f32)
    (w0 : (Rect.unit (s := S2x128) ![0, 0] ![1, 128] inb_S2x128_S1x128_0_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32)
        :: (⟨Rect.unit ![0, 0] ![1, 128] inb_S2x128_S1x128_0_0, w0⟩ : View.Piece (Elt Ideal) S2x128 .f32) :: L) (ix2 (0 : Fin 2) j)
      = w0 (ix2 (0 : Fin 1) j) := by
  refine (View.canon_cons_of_not_mem (⟨Rect.unit ![1, 0] ![1, 128] inb_S2x128_S1x128_1_0, w1⟩ : View.Piece (Elt Ideal) S2x128 .f32) _ (row0_not_mem_row1 j)).trans ?_
  rw [← emb_row0 j]
  exact View.canon_cons_emb _ w0 L (ix2 (0 : Fin 1) j)

/-- Row 1 under a store into row 0 over the zero fill reads the zero fill: 0. -/
theorem canon_row1_under_row0 (w0 : (Rect.unit (s := S2x128) ![0, 0] ![1, 128] inb_S2x128_S1x128_0_0).shape.Idx → Elt Ideal .f32) (j : Fin 128) :
    View.canon [(⟨Rect.unit ![0, 0] ![1, 128] inb_S2x128_S1x128_0_0, w0⟩ : View.Piece (Elt Ideal) S2x128 .f32),
        ⟨Rect.unit ![0, 0] S2x128.size inb_S2x128_S2x128_0_0, k2_pay2 (F := Ideal)⟩] (ix2 (1 : Fin 2) j) = 0 := by
  refine (View.canon_cons_of_not_mem (⟨Rect.unit ![0, 0] ![1, 128] inb_S2x128_S1x128_0_0, w0⟩ : View.Piece (Elt Ideal) S2x128 .f32) _ (row1_not_mem_row0 j)).trans ?_
  rw [View.canon_unit_zero hz2]
  exact pay2_apply _

/-- Either case leaves the affine block of the point's input blocks in the first output's buffer. -/
theorem out5_A (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond2_0 i) (x0 x1 : Vec Ideal S4000x128 .f32) (x2 x3 : Vec Ideal S128x128 .f32) (x4 : Vec Ideal S1x128 .f32) :
    out2_A_5 (F := Ideal) c i a1 h1 a2 h2 a3 h3 a4 h4 a5 h5 a6 h6 a7 h7 hc x0 x1 x2 x3 x4 = k2_pay3 (F := Ideal) x0 x1 x2 x3 x4 := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

theorem out5_B (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond2_0 i) (x0 x1 : Vec Ideal S4000x128 .f32) (x2 x3 : Vec Ideal S128x128 .f32) (x4 : Vec Ideal S1x128 .f32) (xo : Vec Ideal S2x128 .f32) :
    out2_B_5 (F := Ideal) c i a1 h1 a2 h2 a3 h3 a4 h4 a5 h5 a6 h6 a7 h7 hc x0 x1 x2 x3 x4 xo = k2_pay3 (F := Ideal) x0 x1 x2 x3 x4 := by
  unfold out2_B_5
  rw [View.read_writes_eq_canon _ _ _ (cover2_B_5 c i a1 h1 a2 h2 a3 h3 a4 h4 a5 h5 a6 h6 a7 h7 hc x0 x1 x2 x3 x4 xo)]
  unfold kernelRun2_B
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

/-- Off the first point, row 0 of the second output gains the block's column sums. -/
theorem out6_B_row0 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond2_0 i) (x0 x1 : Vec Ideal S4000x128 .f32) (x2 x3 : Vec Ideal S128x128 .f32) (x4 : Vec Ideal S1x128 .f32) (xo : Vec Ideal S2x128 .f32) (j : Fin 128) :
    out2_B_6 (F := Ideal) c i a1 h1 a2 h2 a3 h3 a4 h4 a5 h5 a6 h6 a7 h7 hc x0 x1 x2 x3 x4 xo (ix2 (0 : Fin 2) j)
      = xo (ix2 (0 : Fin 2) j) + ∑ p : Fin 4000, k2_pay3 (F := Ideal) x0 x1 x2 x3 x4 (ix2 p j) := by
  unfold out2_B_6
  rw [View.read_writes_eq_canon _ _ _ (cover2_B_6 c i a1 h1 a2 h2 a3 h3 a4 h4 a5 h5 a6 h6 a7 h7 hc x0 x1 x2 x3 x4 xo)]
  unfold kernelRun2_B
  dsimp only
  sl_unfold_words
  refine (canon_row0 _ _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay5_apply _ _ _ _ _ _ j).trans ?_
  refine congrArg (· + _) ?_
  show xo ((Rect.unit (s := S2x128) ![0, 0] ![1, 128] inb_S2x128_S1x128_0_0).emb (ix2 (0 : Fin 1) j)) = _
  rw [emb_row0]

/-- and row 1 the block's column sums of squares. -/
theorem out6_B_row1 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond2_0 i) (x0 x1 : Vec Ideal S4000x128 .f32) (x2 x3 : Vec Ideal S128x128 .f32) (x4 : Vec Ideal S1x128 .f32) (xo : Vec Ideal S2x128 .f32) (j : Fin 128) :
    out2_B_6 (F := Ideal) c i a1 h1 a2 h2 a3 h3 a4 h4 a5 h5 a6 h6 a7 h7 hc x0 x1 x2 x3 x4 xo (ix2 (1 : Fin 2) j)
      = xo (ix2 (1 : Fin 2) j) + ∑ p : Fin 4000, k2_pay3 (F := Ideal) x0 x1 x2 x3 x4 (ix2 p j) * k2_pay3 (F := Ideal) x0 x1 x2 x3 x4 (ix2 p j) := by
  unfold out2_B_6
  rw [View.read_writes_eq_canon _ _ _ (cover2_B_6 c i a1 h1 a2 h2 a3 h3 a4 h4 a5 h5 a6 h6 a7 h7 hc x0 x1 x2 x3 x4 xo)]
  unfold kernelRun2_B
  dsimp only
  sl_unfold_words
  refine (canon_row1 _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay1_apply _ _ j).trans ?_
  refine congrArg₂ (· + ·) ?_ (pay4_apply _ _ _ _ _ j)
  show xo ((Rect.unit (s := S2x128) ![1, 0] ![1, 128] inb_S2x128_S1x128_1_0).emb (ix2 (0 : Fin 1) j)) = _
  rw [emb_row1]

/-- At the first point the buffer is zero-filled first: row 0 ends at the block's column sums, -/
theorem out6_A_row0 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond2_0 i) (x0 x1 : Vec Ideal S4000x128 .f32) (x2 x3 : Vec Ideal S128x128 .f32) (x4 : Vec Ideal S1x128 .f32) (j : Fin 128) :
    out2_A_6 (F := Ideal) c i a1 h1 a2 h2 a3 h3 a4 h4 a5 h5 a6 h6 a7 h7 hc x0 x1 x2 x3 x4 (ix2 (0 : Fin 2) j)
      = ∑ p : Fin 4000, k2_pay3 (F := Ideal) x0 x1 x2 x3 x4 (ix2 p j) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  refine (canon_row0 _ _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay5_apply _ _ _ _ _ _ j).trans ?_
  rw [View.readCov_eq_canon_ld _ _ _ zero_covers, View.canon_unit_zero hz2]
  show k2_pay2 (F := Ideal) _ + _ = _
  rw [pay2_apply, zero_add]

/-- and row 1 at its column sums of squares. -/
theorem out6_A_row1 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond2_0 i) (x0 x1 : Vec Ideal S4000x128 .f32) (x2 x3 : Vec Ideal S128x128 .f32) (x4 : Vec Ideal S1x128 .f32) (j : Fin 128) :
    out2_A_6 (F := Ideal) c i a1 h1 a2 h2 a3 h3 a4 h4 a5 h5 a6 h6 a7 h7 hc x0 x1 x2 x3 x4 (ix2 (1 : Fin 2) j)
      = ∑ p : Fin 4000, k2_pay3 (F := Ideal) x0 x1 x2 x3 x4 (ix2 p j) * k2_pay3 (F := Ideal) x0 x1 x2 x3 x4 (ix2 p j) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  refine (canon_row1 _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay1_apply _ _ j).trans ?_
  refine (congrArg₂ (· + ·) ?_ (pay4_apply _ _ _ _ _ j)).trans (zero_add _)
  rw [View.readCov_eq_canon_ld _ _ _ (fun y => ⟨_, List.mem_cons_of_mem _ (List.mem_singleton_self _), View.mem_set_unit_zero hz2 inb_S2x128_S2x128_0_0 y⟩)]
  show View.canon _ ((Rect.unit (s := S2x128) ![1, 0] ![1, 128] inb_S2x128_S1x128_1_0).emb (ix2 (0 : Fin 1) j)) = 0
  rw [emb_row1]
  exact canon_row1_under_row0 _ j

/-! ## The accumulation over the grid, and the two arrays the region leaves -/

variable (V : (c : Dev nD) → (b : Ref sig .tc) → Buf (Elt Ideal) ((c : Thread nD τ).loc b))

/-- The affine block of point t: the body's first payload of the point's input blocks. -/
abbrev blk (c : Dev nD) (t : Fin cfg2.N) : Vec Ideal S4000x128 .f32 :=
  k2_pay3 (F := Ideal) (iblk2 V c 0 t) (iblk2 V c 1 t) (iblk2 V c 2 t) (iblk2 V c 3 t) (iblk2 V c 4 t)

/-- Column j's sum over point s's block (0 past the grid). -/
def bsum (c : Dev nD) (s : ℕ) (j : Fin 128) : EReal :=
  if h : s < cfg2.N then ∑ p : Fin 4000, blk V c ⟨s, h⟩ (ix2 p j) else 0

/-- Column j's sum of squares over point s's block (0 past the grid). -/
def bsq (c : Dev nD) (s : ℕ) (j : Fin 128) : EReal :=
  if h : s < cfg2.N then ∑ p : Fin 4000, blk V c ⟨s, h⟩ (ix2 p j) * blk V c ⟨s, h⟩ (ix2 p j) else 0

theorem N_eq : cfg2.N = 25 := N_2

set_option maxHeartbeats 4000000 in
/-- After point n the first output's buffer holds that point's affine block, and the second the column sums (row 0)
    and column sums of squares (row 1) of the blocks of points 0 … n: by induction on the point. -/
theorem outs_eq (c : Dev nD) : ∀ (n : ℕ) (h : n < cfg2.N),
    (outsAt2 V c n h).1 = blk V c ⟨n, h⟩
    ∧ (∀ j : Fin 128, (outsAt2 V c n h).2 (ix2 (0 : Fin 2) j) = ∑ s ∈ Finset.range (n + 1), bsum V c s j)
    ∧ (∀ j : Fin 128, (outsAt2 V c n h).2 (ix2 (1 : Fin 2) j) = ∑ s ∈ Finset.range (n + 1), bsq V c s j)
  | 0, h => by
    rw [outsAt2_A V c ⟨0, h⟩ rfl]
    dsimp only
    refine ⟨out5_A c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) _ (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)), fun j => ?_, fun j => ?_⟩
    · rw [Finset.sum_range_one]; unfold bsum; rw [dif_pos h]
      exact out6_A_row0 c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) _ (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) j
    · rw [Finset.sum_range_one]; unfold bsq; rw [dif_pos h]
      exact out6_A_row1 c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) _ (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) j
  | n + 1, h => by
    have hN : cfg2.N = 25 := N_eq
    have hB : ¬(⟨n + 1, h⟩ : Fin cfg2.N).val % 25 = 0 := by dsimp only; omega
    obtain ⟨-, ih0, ih1⟩ := outs_eq c n (Nat.lt_of_succ_lt h)
    rw [outsAt2_B V c ⟨n + 1, h⟩ hB]
    dsimp only
    refine ⟨out5_B c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) _ (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c n (Nat.lt_of_succ_lt h)).2, fun j => ?_, fun j => ?_⟩
    · rw [Finset.sum_range_succ, ← ih0 j]
      refine (out6_B_row0 c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) _ (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c n (Nat.lt_of_succ_lt h)).2 j).trans ?_
      unfold bsum; rw [dif_pos h]
    · rw [Finset.sum_range_succ, ← ih1 j]
      refine (out6_B_row1 c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) _ (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c n (Nat.lt_of_succ_lt h)).2 j).trans ?_
      unfold bsq; rw [dif_pos h]

/-! ## From the blocks to the two arrays: the affine part and its column statistics -/

/-- Where each window's block sits at grid point t: the two row-blocked inputs' and the affine output's block is block t of
    the rows, all columns; the matrices, the bias row and the statistics are one block. Decided over the 25 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 :=
  (by decide +kernel : ∀ t : Fin grid2.N, _)

/-- Row p of block t is row 4000·t + p of the array. -/
def row (t : Fin cfg2.N) (p : Fin 4000) : Fin 100000 :=
  ⟨t.val * 4000 + p.val, by have h1 := t.isLt; have h2 : cfg2.N = 25 := N_eq; have h3 := p.isLt; omega⟩

/-- Window 0's block at point t is rows 4000·t … 4000·t + 3999 of its array. -/
theorem iblk0_apply (c : Dev nD) (t : Fin cfg2.N) (p : Fin 4000) (k : Fin 128) :
    (iblk2 V c 0 t : Vec Ideal S4000x128 .f32) (ix2 p k) = (V c (Pipeline.arrRef spec2 0) : S100000x128.Idx → EReal) (ix2 (row t p) k) := by
  obtain ⟨e00, e01, e10, e11, -⟩ := idx_facts t
  unfold iblk2
  rw [View.read_apply]
  refine congrArg (V c (Pipeline.arrRef spec2 0) : S100000x128.Idx → EReal) (funext fun a => Fin.ext ?_)
  match a with
  | ⟨0, _⟩ => show win2_0.index t (0 : Fin 2) * 4000 + 1 * p.val = t.val * 4000 + p.val; rw [e00]; omega
  | ⟨1, _⟩ => show win2_0.index t (1 : Fin 2) * 128 + 1 * k.val = k.val; rw [e01]; omega

/-- Window 1's block at point t is rows 4000·t … 4000·t + 3999 of its array. -/
theorem iblk1_apply (c : Dev nD) (t : Fin cfg2.N) (p : Fin 4000) (k : Fin 128) :
    (iblk2 V c 1 t : Vec Ideal S4000x128 .f32) (ix2 p k) = (V c (Pipeline.arrRef spec2 1) : S100000x128.Idx → EReal) (ix2 (row t p) k) := by
  obtain ⟨e00, e01, e10, e11, -⟩ := idx_facts t
  unfold iblk2
  rw [View.read_apply]
  refine congrArg (V c (Pipeline.arrRef spec2 1) : S100000x128.Idx → EReal) (funext fun a => Fin.ext ?_)
  match a with
  | ⟨0, _⟩ => show win2_1.index t (0 : Fin 2) * 4000 + 1 * p.val = t.val * 4000 + p.val; rw [e10]; omega
  | ⟨1, _⟩ => show win2_1.index t (1 : Fin 2) * 128 + 1 * k.val = k.val; rw [e11]; omega

/-- Window 2's block at every point is its whole 128×128 matrix. -/
theorem iblk2_apply (c : Dev nD) (t : Fin cfg2.N) (k j : Fin 128) :
    (iblk2 V c 2 t : Vec Ideal S128x128 .f32) (ix2 k j) = (V c (Pipeline.arrRef spec2 2) : S128x128.Idx → EReal) (ix2 k j) := by
  obtain ⟨-, -, -, -, e20, e21, e30, e31, -⟩ := idx_facts t
  unfold iblk2
  rw [View.read_apply]
  refine congrArg (V c (Pipeline.arrRef spec2 2) : S128x128.Idx → EReal) (funext fun a => Fin.ext ?_)
  match a with
  | ⟨0, _⟩ => show win2_2.index t (0 : Fin 2) * 128 + 1 * k.val = k.val; rw [e20]; omega
  | ⟨1, _⟩ => show win2_2.index t (1 : Fin 2) * 128 + 1 * j.val = j.val; rw [e21]; omega

/-- Window 3's block at every point is its whole 128×128 matrix. -/
theorem iblk3_apply (c : Dev nD) (t : Fin cfg2.N) (k j : Fin 128) :
    (iblk2 V c 3 t : Vec Ideal S128x128 .f32) (ix2 k j) = (V c (Pipeline.arrRef spec2 3) : S128x128.Idx → EReal) (ix2 k j) := by
  obtain ⟨-, -, -, -, e20, e21, e30, e31, -⟩ := idx_facts t
  unfold iblk2
  rw [View.read_apply]
  refine congrArg (V c (Pipeline.arrRef spec2 3) : S128x128.Idx → EReal) (funext fun a => Fin.ext ?_)
  match a with
  | ⟨0, _⟩ => show win2_3.index t (0 : Fin 2) * 128 + 1 * k.val = k.val; rw [e30]; omega
  | ⟨1, _⟩ => show win2_3.index t (1 : Fin 2) * 128 + 1 * j.val = j.val; rw [e31]; omega

/-- Window 4's block at every point is the whole bias row. -/
theorem iblk4_apply (c : Dev nD) (t : Fin cfg2.N) (j : Fin 128) :
    (iblk2 V c 4 t : Vec Ideal S1x128 .f32) (ix2 (0 : Fin 1) j) = (V c (Pipeline.arrRef spec2 4) : S1x128.Idx → EReal) (ix2 (0 : Fin 1) j) := by
  obtain ⟨-, -, -, -, -, -, -, -, e40, e41, -⟩ := idx_facts t
  unfold iblk2
  rw [View.read_apply]
  refine congrArg (V c (Pipeline.arrRef spec2 4) : S1x128.Idx → EReal) (funext fun a => Fin.ext ?_)
  match a with
  | ⟨0, _⟩ => show win2_4.index t (0 : Fin 2) * 1 + 1 * 0 = 0; rw [e40]
  | ⟨1, _⟩ => show win2_4.index t (1 : Fin 2) * 128 + 1 * j.val = j.val; rw [e41]; omega

/-- The five input arrays as the region finds them, by coordinates. -/
abbrev arrA (c : Dev nD) : Fin 100000 → Fin 128 → EReal := fun r k => (V c (Pipeline.arrRef spec2 0) : S100000x128.Idx → EReal) (ix2 r k)
abbrev arrX (c : Dev nD) : Fin 100000 → Fin 128 → EReal := fun r k => (V c (Pipeline.arrRef spec2 1) : S100000x128.Idx → EReal) (ix2 r k)
abbrev matL (c : Dev nD) : Fin 128 → Fin 128 → EReal := fun k j => (V c (Pipeline.arrRef spec2 2) : S128x128.Idx → EReal) (ix2 k j)
abbrev matR (c : Dev nD) : Fin 128 → Fin 128 → EReal := fun k j => (V c (Pipeline.arrRef spec2 3) : S128x128.Idx → EReal) (ix2 k j)
abbrev rowB (c : Dev nD) : Fin 128 → EReal := fun j => (V c (Pipeline.arrRef spec2 4) : S1x128.Idx → EReal) (ix2 (0 : Fin 1) j)

/-- The affine part of the whole arrays, entry by entry. -/
abbrev linV (c : Dev nD) : Fin 100000 → Fin 128 → EReal :=
  Cert.Spec.lin (arrA V c) (arrX V c) (matL V c) (matR V c) (rowB V c)

/-- Entry (p, j) of point t's affine block is entry (4000·t + p, j) of the affine part of the whole arrays. -/
theorem blk_apply (c : Dev nD) (t : Fin cfg2.N) (p : Fin 4000) (j : Fin 128) :
    blk V c t (ix2 p j) = linV V c (row t p) j := by
  refine (pay3_apply (iblk2 V c 0 t) (iblk2 V c 1 t) (iblk2 V c 2 t) (iblk2 V c 3 t) (iblk2 V c 4 t) p j).trans ?_
  show _ = ((∑ k : Fin 128, arrA V c (row t p) k * matL V c k j) + (∑ k : Fin 128, arrX V c (row t p) k * matR V c k j)) + rowB V c j
  refine congrArg₂ (· + ·) (congrArg₂ (· + ·) (Finset.sum_congr rfl fun k _ => ?_) (Finset.sum_congr rfl fun k _ => ?_)) (iblk4_apply V c t j)
  · exact congrArg₂ (· * ·) (iblk0_apply V c t p k) (iblk2_apply V c t k j)
  · exact congrArg₂ (· * ·) (iblk1_apply V c t p k) (iblk3_apply V c t k j)

/-! ### The affine output array -/

/-- What the affine output array ends holding. -/
abbrev G5 (c : Dev nD) : S100000x128.Idx → EReal := fun i => linV V c (i 0 : Fin 100000) (i 1 : Fin 128)

/-- Point t's affine block at (p, q) is that array's entry at the index K the block puts there. -/
theorem point5 (c : Dev nD) (t : Fin cfg2.N) (p : Fin 4000) (q : Fin 128) (K : S100000x128.Idx)
    (hk0 : (K 0).val = t.val * 4000 + p.val) (hk1 : (K 1).val = q.val) : blk V c t (ix2 p q) = G5 V c K := by
  have h0 : (K 0 : Fin 100000) = row t p := Fin.ext hk0
  have h1 : (K 1 : Fin 128) = q := Fin.ext hk1
  show _ = linV V c (K 0 : Fin 100000) (K 1 : Fin 128)
  rw [h0, h1]
  exact blk_apply V c t p q

/-- What point t writes back to the affine output is block t of that array. -/
theorem flushed5_eq (c : Dev nD) (t : Fin cfg2.N) :
    (dat2 (F := Ideal) V c).flushed 5 t = ((cfg2.win 5).blk t).view.read (Elt Ideal) (G5 V c) := by
  show (cfg2.win 5).cut (grid2.coords t) ((dat2 (F := Ideal) V c).after 5 t) = _
  rw [after2_5, (outs_eq V c t.val t.isLt).1]
  obtain ⟨-, -, -, -, -, -, -, -, -, -, e50, e51, -⟩ := idx_facts t
  funext y
  obtain ⟨p, q, rfl⟩ : ∃ (p : Fin 4000) (q : Fin 128), y = ix2 p q := ⟨y 0, y 1, eq_ix2 y⟩
  rw [View.read_apply]
  show blk V c t (ix2 p q) = _
  exact point5 V c t p q _
    (by show win2_5.index t (0 : Fin 2) * 4000 + 1 * p.val = t.val * 4000 + p.val; rw [e50]; omega)
    (by show win2_5.index t (1 : Fin 2) * 128 + 1 * q.val = q.val; rw [e51]; omega)

/-- An index of the affine output is in point t's block iff each coordinate is in the block's range on its axis. -/
theorem mem_blk5 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v67_0).slice (win2_5.rect t)).set ↔ _
  rw [View.set_slice_whole, Rect.mem_set_unit]
  exact Iff.rfl

/-- Row r is in the block of point r / 4000, which is written back. -/
theorem cover5 (i : S100000x128.Idx) : ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 25 := N_eq
  have hlt : (i 0).val / 4000 < cfg2.N := lt_of_lt_of_eq (by omega : (i 0).val / 4000 < 25) hN.symm
  obtain ⟨-, -, -, -, -, -, -, -, -, -, e50, e51, -⟩ := idx_facts ⟨(i 0).val / 4000, hlt⟩
  refine ⟨⟨(i 0).val / 4000, hlt⟩, flush2_5 _, ?_⟩
  rw [mem_blk5]
  intro a
  match a with
  | ⟨0, _⟩ =>
    show win2_5.index ⟨(i 0).val / 4000, hlt⟩ (0 : Fin 2) * 4000 ≤ (i 0).val ∧ (i 0).val < win2_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win2_5.index ⟨(i 0).val / 4000, hlt⟩ (1 : Fin 2) * 128 ≤ (i 1).val ∧ (i 1).val < win2_5.index ⟨(i 0).val / 4000, hlt⟩ (1 : Fin 2) * 128 + 128
    rw [e51]
    omega

/-- The affine output array after the region. -/
theorem final5_fun (c : Dev nD) : (dat2 (F := Ideal) V c).arrAt 5 cfg2.N = G5 V c :=
  (dat2 (F := Ideal) V c).arrAt_eq_of_cover 5 (G5 V c) (fun t _ => flushed5_eq V c t) cover5

/-- The affine output array after the region, at (r, j). -/
theorem final5 (c : Dev nD) (r : Fin 100000) (j : Fin 128) :
    (dat2 (F := Ideal) V c).arrAt 5 cfg2.N (ix2 r j)
      = Cert.Spec.lin (fun (r : Fin 100000) (k : Fin 128) => V c (Pipeline.arrRef spec2 0) (ix2 r k)) (fun (r : Fin 100000) (k : Fin 128) => V c (Pipeline.arrRef spec2 1) (ix2 r k))
          (fun (k j : Fin 128) => V c (Pipeline.arrRef spec2 2) (ix2 k j)) (fun (k j : Fin 128) => V c (Pipeline.arrRef spec2 3) (ix2 k j))
          (fun (j : Fin 128) => V c (Pipeline.arrRef spec2 4) (ix2 (0 : Fin 1) j)) r j :=
  congrFun (final5_fun V c) (ix2 r j)

/-! ### The statistics array -/

/-- The last grid point. -/
def tLast : Fin cfg2.N := ⟨24, by rw [N_eq]; decide⟩

/-- What the statistics array ends holding: the second output's buffer after the last point. -/
abbrev stats (c : Dev nD) : Buf (Elt Ideal) ((c : Thread nD τ).loc main_v67_1) := (outsAt2 V c tLast.val tLast.isLt).2

/-- The one write-back of the statistics, at the last point, writes that buffer: its one block is the whole array. -/
theorem flushed6_eq (c : Dev nD) (t : Fin cfg2.N) (hf : (cfg2.win 6).flush t = true) :
    (dat2 (F := Ideal) V c).flushed 6 t = ((cfg2.win 6).blk t).view.read (Elt Ideal) (stats V c) := by
  have hN : cfg2.N = 25 := N_eq
  have h24 : t.val = 24 := by have := (flush2_6 t).mp hf; have := t.isLt; omega
  obtain rfl : t = tLast := Fin.ext h24
  show (cfg2.win 6).cut (grid2.coords tLast) ((dat2 (F := Ideal) V c).after 6 tLast) = _
  rw [after2_6]
  obtain ⟨-, -, -, -, -, -, -, -, -, -, -, -, e60, e61⟩ := idx_facts tLast
  have hz' : (fun a => win2_6.index tLast a * main_v67_1.ty.shape.size a) = fun _ => 0 := funext fun a => by
    match a with
    | ⟨0, _⟩ => show win2_6.index tLast (0 : Fin 2) * 2 = 0; rw [e60]
    | ⟨1, _⟩ => show win2_6.index tLast (1 : Fin 2) * 128 = 0; rw [e61]
  exact (Memref.read_access_unit_zero (Elt Ideal) main_v67_1 hz' (fun a => by rw [congrFun hz' a]; simp) (stats V c)).symm

/-- Every index of the statistics array is in the last point's block, which is written back. -/
theorem cover6 (i : S2x128.Idx) : ∃ t : Fin cfg2.N, (cfg2.win 6).flush t = true ∧ i ∈ ((cfg2.win 6).blk t).view.set := by
  have hi0 : (i 0).val < 2 := idx2_lt0 i
  have hi1 : (i 1).val < 128 := idx2_lt1 i
  obtain ⟨-, -, -, -, -, -, -, -, -, -, -, -, e60, e61⟩ := idx_facts tLast
  refine ⟨tLast, (flush2_6 tLast).mpr rfl, ?_⟩
  show i ∈ ((View.whole main_v67_1).slice (win2_6.rect tLast)).set
  rw [View.set_slice_whole, Rect.mem_set_unit]
  intro a
  match a with
  | ⟨0, _⟩ =>
    show win2_6.index tLast (0 : Fin 2) * 2 ≤ (i 0).val ∧ (i 0).val < win2_6.index tLast (0 : Fin 2) * 2 + 2
    rw [e60]; omega
  | ⟨1, _⟩ =>
    show win2_6.index tLast (1 : Fin 2) * 128 ≤ (i 1).val ∧ (i 1).val < win2_6.index tLast (1 : Fin 2) * 128 + 128
    rw [e61]; omega

/-- The statistics array after the region. -/
theorem final6_fun (c : Dev nD) : (dat2 (F := Ideal) V c).arrAt 6 cfg2.N = stats V c :=
  (dat2 (F := Ideal) V c).arrAt_eq_of_cover 6 (stats V c) (flushed6_eq V c) cover6

/-- A sum over pairs (block, row in block) is the sum over all rows: the pair (s, p) is row p + n·s. -/
theorem sum_pairs (m n : ℕ) (f : Fin (m * n) → EReal) :
    ∑ s : Fin m, ∑ p : Fin n, f (finProdFinEquiv (s, p)) = ∑ r : Fin (m * n), f r :=
  (Fintype.sum_prod_type' (fun s p => f (finProdFinEquiv (s, p)))).symm.trans (Equiv.sum_comp finProdFinEquiv f)

/-- The 25 blocks of 4000 rows are the 100000 rows. -/
theorem sum_rows (f : Fin 100000 → EReal) :
    ∑ s : Fin 25, ∑ p : Fin 4000, f ⟨s.val * 4000 + p.val, by have := s.isLt; have := p.isLt; omega⟩ = ∑ r : Fin 100000, f r := by
  refine Eq.trans ?_ (sum_pairs 25 4000 f)
  refine Finset.sum_congr rfl fun s _ => Finset.sum_congr rfl fun p _ => congrArg f (Fin.ext ?_)
  rw [finProdFinEquiv_apply_val]
  show s.val * 4000 + p.val = p.val + 4000 * s.val
  omega

/-- A function of the rows summed block by block over the 25 points is summed over all rows. -/
theorem sum_blocks (g : Fin 100000 → EReal) (B : ℕ → EReal)
    (hB : ∀ (s : ℕ) (h : s < cfg2.N), B s = ∑ p : Fin 4000, g (row ⟨s, h⟩ p)) :
    ∑ s ∈ Finset.range 25, B s = ∑ r : Fin 100000, g r := by
  rw [Finset.sum_range]
  refine Eq.trans (Finset.sum_congr rfl fun s _ => ?_) (sum_rows g)
  exact hB s.val (lt_of_lt_of_eq s.isLt N_eq.symm)

/-- Column j's sums over the blocks of all 25 points: the column sum of the affine part. -/
theorem bsum_total (c : Dev nD) (j : Fin 128) :
    ∑ s ∈ Finset.range 25, bsum V c s j = Cert.Spec.colSum (linV V c) j :=
  sum_blocks (fun r => linV V c r j) (fun s => bsum V c s j) fun s h => by
    unfold bsum
    rw [dif_pos h]
    exact Finset.sum_congr rfl fun p _ => blk_apply V c ⟨s, h⟩ p j

/-- Column j's sums of squares over the blocks of all 25 points: the column sum of the squared affine part. -/
theorem bsq_total (c : Dev nD) (j : Fin 128) :
    ∑ s ∈ Finset.range 25, bsq V c s j = Cert.Spec.colSum (fun r j => linV V c r j * linV V c r j) j :=
  sum_blocks (fun r => linV V c r j * linV V c r j) (fun s => bsq V c s j) fun s h => by
    unfold bsq
    rw [dif_pos h]
    exact Finset.sum_congr rfl fun p _ => by rw [blk_apply V c ⟨s, h⟩ p j]

/-- Row 0 of the statistics after the region: the column sums of the affine part. -/
theorem final6_row0 (c : Dev nD) (j : Fin 128) :
    (dat2 (F := Ideal) V c).arrAt 6 cfg2.N (ix2 (0 : Fin 2) j)
      = Cert.Spec.colSum (Cert.Spec.lin (fun (r : Fin 100000) (k : Fin 128) => V c (Pipeline.arrRef spec2 0) (ix2 r k)) (fun (r : Fin 100000) (k : Fin 128) => V c (Pipeline.arrRef spec2 1) (ix2 r k))
          (fun (k j : Fin 128) => V c (Pipeline.arrRef spec2 2) (ix2 k j)) (fun (k j : Fin 128) => V c (Pipeline.arrRef spec2 3) (ix2 k j))
          (fun (j : Fin 128) => V c (Pipeline.arrRef spec2 4) (ix2 (0 : Fin 1) j))) j :=
  (congrFun (final6_fun V c) (ix2 (0 : Fin 2) j)).trans (((outs_eq V c 24 tLast.isLt).2.1 j).trans (bsum_total V c j))

/-- Row 1 of the statistics after the region: the column sums of the squared affine part. -/
theorem final6_row1 (c : Dev nD) (j : Fin 128) :
    (dat2 (F := Ideal) V c).arrAt 6 cfg2.N (ix2 (1 : Fin 2) j)
      = Cert.Spec.colSum (fun r j => Cert.Spec.lin (fun (r : Fin 100000) (k : Fin 128) => V c (Pipeline.arrRef spec2 0) (ix2 r k)) (fun (r : Fin 100000) (k : Fin 128) => V c (Pipeline.arrRef spec2 1) (ix2 r k))
            (fun (k j : Fin 128) => V c (Pipeline.arrRef spec2 2) (ix2 k j)) (fun (k j : Fin 128) => V c (Pipeline.arrRef spec2 3) (ix2 k j))
            (fun (j : Fin 128) => V c (Pipeline.arrRef spec2 4) (ix2 (0 : Fin 1) j)) r j
          * Cert.Spec.lin (fun (r : Fin 100000) (k : Fin 128) => V c (Pipeline.arrRef spec2 0) (ix2 r k)) (fun (r : Fin 100000) (k : Fin 128) => V c (Pipeline.arrRef spec2 1) (ix2 r k))
            (fun (k j : Fin 128) => V c (Pipeline.arrRef spec2 2) (ix2 k j)) (fun (k j : Fin 128) => V c (Pipeline.arrRef spec2 3) (ix2 k j))
            (fun (j : Fin 128) => V c (Pipeline.arrRef spec2 4) (ix2 (0 : Fin 1) j)) r j) j :=
  (congrFun (final6_fun V c) (ix2 (1 : Fin 2) j)).trans (((outs_eq V c 24 tLast.isLt).2.2 j).trans (bsq_total V c j))

end Cert.KValue.Lin2

end
-- ==== Proof.KLin4.lean ====
import proofs.«158987_j88218628260833_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic
import proofs.«158987_j88218628260833_1_alg».proof.Proof.Spec

noncomputable section

open scoped BigOperators

namespace Cert.KValue.Lin4

open Cert.KernelIdeal Cert.KernelIdeal.Gen Idealize.ShloMosaic Idealize.ShloMosaic.ValueIdx Idealize.ShloMosaic.TcCoe Idealize.SL.Sem
open Idealize.ShloMosaic.Pipeline (Dat)

theorem mm_apply_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_apply_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm_apply_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm_apply_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The contraction of a block with a matrix into the zero block, at (p, j): Σₖ x p k · w k j. -/
theorem mm_apply (x : FVec Ideal S4000x128 .bf16) (w : FVec Ideal S128x128 .bf16) (p : Fin 4000) (j : Fin 128) :
    FloatOps.matmul dot_S4000x128_S128x128_S4000x128_1_0_0_1_n_n none x w (constant S4000x128 .f32 0x00000000#32) (ix2 p j)
      = ∑ k : Fin 128, x (ix2 p k) * w (ix2 k j) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun a => Fin.ext (by
      match a with
      | ⟨0, _⟩ => exact mm_apply_l0 _ _
      | ⟨1, _⟩ => exact (mm_apply_l1 _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun a => Fin.ext (by
      match a with
      | ⟨0, _⟩ => exact (mm_apply_r0 _ _).trans hk
      | ⟨1, _⟩ => exact mm_apply_r1 _ _)
  rw [el, er]

theorem pay3_apply (x0 x1 : Vec Ideal S4000x128 .f32) (w1 w2 : Vec Ideal S128x128 .f32) (b : Vec Ideal S1x128 .f32) (p : Fin 4000) (j : Fin 128) :
    k4_pay3 (F := Ideal) x0 x1 w1 w2 b (ix2 p j)
      = ((∑ k : Fin 128, x0 (ix2 p k) * w1 (ix2 k j)) + (∑ k : Fin 128, x1 (ix2 p k) * w2 (ix2 k j))) + b (ix2 (0 : Fin 1) j) := by
  unfold k4_pay3
  show (FloatOps.matmul (F := Ideal) dot_S4000x128_S128x128_S4000x128_1_0_0_1_n_n none _ _ (constant (F := Ideal) S4000x128 .f32 0x00000000#32) (ix2 p j)
        + FloatOps.matmul (F := Ideal) dot_S4000x128_S128x128_S4000x128_1_0_0_1_n_n none _ _ (constant (F := Ideal) S4000x128 .f32 0x00000000#32) (ix2 p j))
        + broadcastTo S4000x128 (shapeCast S1x128 b shapeCasts_S1x128_S1x128) broadcasts_S1x128_S4000x128 (ix2 p j) = _
  refine congrArg₂ (· + ·) (congrArg₂ (· + ·) ((mm_apply _ _ p j).trans ?_) ((mm_apply _ _ p j).trans ?_)) ?_
  · refine Finset.sum_congr rfl fun k _ => ?_
    show (shapeCast S4000x128 x0 shapeCasts_S4000x128_S4000x128) (ix2 p k) * (shapeCast S128x128 w1 shapeCasts_S128x128_S128x128) (ix2 k j) = _
    rw [shapeCast_self, shapeCast_self]
  · refine Finset.sum_congr rfl fun k _ => ?_
    show (shapeCast S4000x128 x1 shapeCasts_S4000x128_S4000x128) (ix2 p k) * (shapeCast S128x128 w2 shapeCasts_S128x128_S128x128) (ix2 k j) = _
    rw [shapeCast_self, shapeCast_self]
  · rw [shapeCast_self]
    exact broadcastTo_1b_ab_apply b broadcasts_S1x128_S4000x128 p j

/-- A sum over the 4000 rows of a block, one column j. -/
theorem colsum_apply (src : FVec Ideal S4000x128 .f32) (j : Fin 128) :
    multiReduction (F := Ideal) .add [0] S128 src 0x00000000#32 reduces_S4000x128_S128 (.inl rfl) rfl (ix1 j)
      = ∑ p : Fin 4000, src (ix2 p j) := by
  refine (Ideal.multiReduction_add_single src 0x00000000#32 reduces_S4000x128_S128 (.inl rfl) rfl (ix1 j)).trans ?_
  refine Finset.sum_congr rfl fun p _ => congrArg src (funext fun a => Fin.ext ?_)
  match a with
  | ⟨0, _⟩ => rfl
  | ⟨1, _⟩ => rfl

/-- The block's column sums added to the running row: entry j is acc j + Σₚ lin p j. -/
theorem pay5_apply (x0 x1 : Vec Ideal S4000x128 .f32) (w1 w2 : Vec Ideal S128x128 .f32) (b acc : Vec Ideal S1x128 .f32) (j : Fin 128) :
    k4_pay5 (F := Ideal) x0 x1 w1 w2 b acc (ix2 (0 : Fin 1) j)
      = acc (ix2 (0 : Fin 1) j) + ∑ p : Fin 4000, k4_pay3 (F := Ideal) x0 x1 w1 w2 b (ix2 p j) := by
  unfold k4_pay5
  show (shapeCast S1x128 acc shapeCasts_S1x128_S1x128) (ix2 (0 : Fin 1) j)
      + (shapeCast S1x128 (multiReduction (F := Ideal) .add [0] S128 (k4_pay3 (F := Ideal) x0 x1 w1 w2 b) 0x00000000#32 reduces_S4000x128_S128 (.inl rfl) rfl) shapeCasts_S128_S1x128) (ix2 (0 : Fin 1) j) = _
  rw [shapeCast_self]
  refine congrArg (acc (ix2 (0 : Fin 1) j) + ·) ?_
  exact (shapeCast_a_1a_apply _ shapeCasts_S128_S1x128 (0 : Fin 1) j).trans (colsum_apply _ j)

/-- The block's column sums of squares, as a 1×128 row: entry j is Σₚ lin p j · lin p j. -/
theorem pay4_apply (x0 x1 : Vec Ideal S4000x128 .f32) (w1 w2 : Vec Ideal S128x128 .f32) (b : Vec Ideal S1x128 .f32) (j : Fin 128) :
    k4_pay4 (F := Ideal) x0 x1 w1 w2 b (ix2 (0 : Fin 1) j)
      = ∑ p : Fin 4000, k4_pay3 (F := Ideal) x0 x1 w1 w2 b (ix2 p j) * k4_pay3 (F := Ideal) x0 x1 w1 w2 b (ix2 p j) := by
  unfold k4_pay4
  exact (shapeCast_a_1a_apply _ shapeCasts_S128_S1x128 (0 : Fin 1) j).trans (colsum_apply _ j)

/-- The running row of squares plus a block's contribution. -/
theorem pay1_apply (sq acc : Vec Ideal S1x128 .f32) (j : Fin 128) :
    k4_pay1 (F := Ideal) sq acc (ix2 (0 : Fin 1) j) = acc (ix2 (0 : Fin 1) j) + sq (ix2 (0 : Fin 1) j) := by
  unfold k4_pay1
  show (shapeCast S1x128 acc shapeCasts_S1x128_S1x128) (ix2 (0 : Fin 1) j) + sq (ix2 (0 : Fin 1) j) = _
  rw [shapeCast_self]

theorem hz2 : (![0, 0] : Fin 2 → Nat) = fun _ => 0 := funext fun a => by fin_cases a <;> rfl

/-- Row 1 of a 2×128 buffer as a rectangle: its local index (0, j) is the buffer's (1, j). -/
theorem emb_row1 (j : Fin 128) :
    (Rect.unit (s := S2x128) ![1, 0] ![1, 128] inb_S2x128_S1x128_1_0).emb (ix2 (0 : Fin 1) j) = ix2 (1 : Fin 2) j := by
  funext a
  apply Fin.ext
  match a with
  | ⟨0, _⟩ => rfl
  | ⟨1, _⟩ => show 0 + 1 * j.val = j.val; omega

/-- Row 0 likewise. -/
theorem emb_row0 (j : Fin 128) :
    (Rect.unit (s := S2x128) ![0, 0] ![1, 128] inb_S2x128_S1x128_0_0).emb (ix2 (0 : Fin 1) j) = ix2 (0 : Fin 2) j := by
  funext a
  apply Fin.ext
  match a with
  | ⟨0, _⟩ => rfl
  | ⟨1, _⟩ => show 0 + 1 * j.val = j.val; omega

/-- An entry of row 0 is not in row 1's rectangle. -/
theorem row0_not_mem_row1 (j : Fin 128) :
    ix2 (0 : Fin 2) j ∉ (Rect.unit (s := S2x128) ![1, 0] ![1, 128] inb_S2x128_S1x128_1_0).set := by
  rw [Rect.mem_set_unit]
  intro h
  have := (h 0).1
  revert this
  show ¬ (1 ≤ 0)
  omega

/-- An entry of row 1 is not in row 0's rectangle. -/
theorem row1_not_mem_row0 (j : Fin 128) :
    ix2 (1 : Fin 2) j ∉ (Rect.unit (s := S2x128) ![0, 0] ![1, 128] inb_S2x128_S1x128_0_0).set := by
  rw [Rect.mem_set_unit]
  intro h
  have := (h 0).2
  revert this
  show ¬ (1 < 0 + 1)
  omega

/-- The zero fill of the 2×128 buffer covers every entry. -/
theorem zero_covers (y : S2x128.Idx) :
    ∃ p ∈ ([⟨Rect.unit ![0, 0] S2x128.size inb_S2x128_S2x128_0_0, k4_pay2 (F := Ideal)⟩] : List (View.Piece (Elt Ideal) S2x128 .f32)), y ∈ p.1.set :=
  ⟨_, List.mem_singleton_self _, View.mem_set_unit_zero hz2 inb_S2x128_S2x128_0_0 y⟩

/-- The zero fill reads 0 everywhere. -/
theorem pay2_apply (y : S2x128.Idx) : k4_pay2 (F := Ideal) y = 0 := by
  unfold k4_pay2
  show Ideal.ofBits .f32 0x00000000#32 = 0
  exact Ideal.ofBits_zero_f32

/-- Reading row 1 of what a last store into row 1 left: the store's payload. -/
theorem canon_row1 (w1 : (Rect.unit (s := S2x128) ![1, 0] ![1, 128] inb_S2x128_S1x128_1_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32) :: L) (ix2 (1 : Fin 2) j) = w1 (ix2 (0 : Fin 1) j) := by
  rw [← emb_row1 j]
  exact View.canon_cons_emb _ w1 L (ix2 (0 : Fin 1) j)

/-- Reading row 0 under a last store into row 1 and a store into row 0 before it: the row-0 store's payload. -/
theorem canon_row0 (w1 : (Rect.unit (s := S2x128) ![1, 0] ![1, 128] inb_S2x128_S1x128_1_0).shape.Idx → Elt Ideal .f32)
    (w0 : (Rect.unit (s := S2x128) ![0, 0] ![1, 128] inb_S2x128_S1x128_0_0).shape.Idx → Elt Ideal .f32)
    (L : List (View.Piece (Elt Ideal) S2x128 .f32)) (j : Fin 128) :
    View.canon ((⟨Rect.unit ![1, 0] ![1, 128] inb_S2x128_S1x128_1_0, w1⟩ : View.Piece (Elt Ideal) S2x128 .f32)
        :: (⟨Rect.unit ![0, 0] ![1, 128] inb_S2x128_S1x128_0_0, w0⟩ : View.Piece (Elt Ideal) S2x128 .f32) :: L) (ix2 (0 : Fin 2) j)
      = w0 (ix2 (0 : Fin 1) j) := by
  refine (View.canon_cons_of_not_mem (⟨Rect.unit ![1, 0] ![1, 128] inb_S2x128_S1x128_1_0, w1⟩ : View.Piece (Elt Ideal) S2x128 .f32) _ (row0_not_mem_row1 j)).trans ?_
  rw [← emb_row0 j]
  exact View.canon_cons_emb _ w0 L (ix2 (0 : Fin 1) j)

/-- Row 1 under a store into row 0 over the zero fill reads the zero fill: 0. -/
theorem canon_row1_under_row0 (w0 : (Rect.unit (s := S2x128) ![0, 0] ![1, 128] inb_S2x128_S1x128_0_0).shape.Idx → Elt Ideal .f32) (j : Fin 128) :
    View.canon [(⟨Rect.unit ![0, 0] ![1, 128] inb_S2x128_S1x128_0_0, w0⟩ : View.Piece (Elt Ideal) S2x128 .f32),
        ⟨Rect.unit ![0, 0] S2x128.size inb_S2x128_S2x128_0_0, k4_pay2 (F := Ideal)⟩] (ix2 (1 : Fin 2) j) = 0 := by
  refine (View.canon_cons_of_not_mem (⟨Rect.unit ![0, 0] ![1, 128] inb_S2x128_S1x128_0_0, w0⟩ : View.Piece (Elt Ideal) S2x128 .f32) _ (row1_not_mem_row0 j)).trans ?_
  rw [View.canon_unit_zero hz2]
  exact pay2_apply _

/-- Either case leaves the affine block of the point's input blocks in the first output's buffer. -/
theorem out5_A (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond4_0 i) (x0 x1 : Vec Ideal S4000x128 .f32) (x2 x3 : Vec Ideal S128x128 .f32) (x4 : Vec Ideal S1x128 .f32) :
    out4_A_5 (F := Ideal) c i a1 h1 a2 h2 a3 h3 a4 h4 a5 h5 a6 h6 a7 h7 hc x0 x1 x2 x3 x4 = k4_pay3 (F := Ideal) x0 x1 x2 x3 x4 := by
  unfold out4_A_5
  rw [View.read_writes_eq_canon _ _ _ (cover4_A_5 c i a1 h1 a2 h2 a3 h3 a4 h4 a5 h5 a6 h6 a7 h7 hc x0 x1 x2 x3 x4)]
  unfold kernelRun4_A
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

theorem out5_B (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond4_0 i) (x0 x1 : Vec Ideal S4000x128 .f32) (x2 x3 : Vec Ideal S128x128 .f32) (x4 : Vec Ideal S1x128 .f32) (xo : Vec Ideal S2x128 .f32) :
    out4_B_5 (F := Ideal) c i a1 h1 a2 h2 a3 h3 a4 h4 a5 h5 a6 h6 a7 h7 hc x0 x1 x2 x3 x4 xo = k4_pay3 (F := Ideal) x0 x1 x2 x3 x4 := by
  unfold out4_B_5
  rw [View.read_writes_eq_canon _ _ _ (cover4_B_5 c i a1 h1 a2 h2 a3 h3 a4 h4 a5 h5 a6 h6 a7 h7 hc x0 x1 x2 x3 x4 xo)]
  unfold kernelRun4_B
  dsimp only
  sl_unfold_words
  rw [View.canon_unit_zero hz2]
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]

/-- Off the first point, row 0 of the second output gains the block's column sums. -/
theorem out6_B_row0 (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond4_0 i) (x0 x1 : Vec Ideal S4000x128 .f32) (x2 x3 : Vec Ideal S128x128 .f32) (x4 : Vec Ideal S1x128 .f32) (xo : Vec Ideal S2x128 .f32) (j : Fin 128) :
    out4_B_6 (F := Ideal) c i a1 h1 a2 h2 a3 h3 a4 h4 a5 h5 a6 h6 a7 h7 hc x0 x1 x2 x3 x4 xo (ix2 (0 : Fin 2) j)
      = xo (ix2 (0 : Fin 2) j) + ∑ p : Fin 4000, k4_pay3 (F := Ideal) x0 x1 x2 x3 x4 (ix2 p j) := by
  unfold out4_B_6
  rw [View.read_writes_eq_canon _ _ _ (cover4_B_6 c i a1 h1 a2 h2 a3 h3 a4 h4 a5 h5 a6 h6 a7 h7 hc x0 x1 x2 x3 x4 xo)]
  unfold kernelRun4_B
  dsimp only
  sl_unfold_words
  refine (canon_row0 _ _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay5_apply _ _ _ _ _ _ j).trans ?_
  refine congrArg (· + _) ?_
  show xo ((Rect.unit (s := S2x128) ![0, 0] ![1, 128] inb_S2x128_S1x128_0_0).emb (ix2 (0 : Fin 1) j)) = _
  rw [emb_row0]

/-- and row 1 the block's column sums of squares. -/
theorem out6_B_row1 (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : ¬cond4_0 i) (x0 x1 : Vec Ideal S4000x128 .f32) (x2 x3 : Vec Ideal S128x128 .f32) (x4 : Vec Ideal S1x128 .f32) (xo : Vec Ideal S2x128 .f32) (j : Fin 128) :
    out4_B_6 (F := Ideal) c i a1 h1 a2 h2 a3 h3 a4 h4 a5 h5 a6 h6 a7 h7 hc x0 x1 x2 x3 x4 xo (ix2 (1 : Fin 2) j)
      = xo (ix2 (1 : Fin 2) j) + ∑ p : Fin 4000, k4_pay3 (F := Ideal) x0 x1 x2 x3 x4 (ix2 p j) * k4_pay3 (F := Ideal) x0 x1 x2 x3 x4 (ix2 p j) := by
  unfold out4_B_6
  rw [View.read_writes_eq_canon _ _ _ (cover4_B_6 c i a1 h1 a2 h2 a3 h3 a4 h4 a5 h5 a6 h6 a7 h7 hc x0 x1 x2 x3 x4 xo)]
  unfold kernelRun4_B
  dsimp only
  sl_unfold_words
  refine (canon_row1 _ _ j).trans ?_
  simp only [View.readAt_eq_ld, h1.read_unread, h2.read_unread, h3.read_unread, h4.read_unread, h5.read_unread, h7.read_unread, View.ld_unit_zero (S := S4000x128) hz2, View.ld_unit_zero (S := S128x128) hz2, View.ld_unit_zero (S := S1x128) hz2]
  refine (pay1_apply _ _ j).trans ?_
  refine congrArg₂ (· + ·) ?_ (pay4_apply _ _ _ _ _ j)
  show xo ((Rect.unit (s := S2x128) ![1, 0] ![1, 128] inb_S2x128_S1x128_1_0).emb (ix2 (0 : Fin 1) j)) = _
  rw [emb_row1]

/-- At the first point the buffer is zero-filled first: row 0 ends at the block's column sums, -/
theorem out6_A_row0 (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond4_0 i) (x0 x1 : Vec Ideal S4000x128 .f32) (x2 x3 : Vec Ideal S128x128 .f32) (x4 : Vec Ideal S1x128 .f32) (j : Fin 128) :
    out4_A_6 (F := Ideal) c i a1 h1 a2 h2 a3 h3 a4 h4 a5 h5 a6 h6 a7 h7 hc x0 x1 x2 x3 x4 (ix2 (0 : Fin 2) j)
      = ∑ p : Fin 4000, k4_pay3 (F := Ideal) x0 x1 x2 x3 x4 (ix2 p j) := by
  unfold out4_A_6
  rw [View.read_writes_eq_canon _ _ _ (cover4_A_6 c i a1 h1 a2 h2 a3 h3 a4 h4 a5 h5 a6 h6 a7 h7 hc x0 x1 x2 x3 x4)]
  unfold kernelRun4_A
  dsimp only
  sl_unfold_words
  refine (canon_row0 _ _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay5_apply _ _ _ _ _ _ j).trans ?_
  rw [View.readCov_eq_canon_ld _ _ _ zero_covers, View.canon_unit_zero hz2]
  show k4_pay2 (F := Ideal) _ + _ = _
  rw [pay2_apply, zero_add]

/-- and row 1 at its column sums of squares. -/
theorem out6_A_row1 (c : Dev nD) (i : grid4.Coords) (a1 : Memref sig .tc .vmem S4000x128 .f32) (h1 : a1.IsWhole) (a2 : Memref sig .tc .vmem S4000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S4000x128 .f32) (h6 : a6.IsWhole) (a7 : Memref sig .tc .vmem S2x128 .f32) (h7 : a7.IsWhole) (hc : cond4_0 i) (x0 x1 : Vec Ideal S4000x128 .f32) (x2 x3 : Vec Ideal S128x128 .f32) (x4 : Vec Ideal S1x128 .f32) (j : Fin 128) :
    out4_A_6 (F := Ideal) c i a1 h1 a2 h2 a3 h3 a4 h4 a5 h5 a6 h6 a7 h7 hc x0 x1 x2 x3 x4 (ix2 (1 : Fin 2) j)
      = ∑ p : Fin 4000, k4_pay3 (F := Ideal) x0 x1 x2 x3 x4 (ix2 p j) * k4_pay3 (F := Ideal) x0 x1 x2 x3 x4 (ix2 p j) := by
  unfold out4_A_6
  rw [View.read_writes_eq_canon _ _ _ (cover4_A_6 c i a1 h1 a2 h2 a3 h3 a4 h4 a5 h5 a6 h6 a7 h7 hc x0 x1 x2 x3 x4)]
  unfold kernelRun4_A
  dsimp only
  sl_unfold_words
  refine (canon_row1 _ _ j).trans ?_
  simp only [View.readAt_eq_ld, h1.read_unread, h2.read_unread, h3.read_unread, h4.read_unread, h5.read_unread, View.ld_unit_zero (S := S4000x128) hz2, View.ld_unit_zero (S := S128x128) hz2, View.ld_unit_zero (S := S1x128) hz2]
  refine (pay1_apply _ _ j).trans ?_
  refine (congrArg₂ (· + ·) ?_ (pay4_apply _ _ _ _ _ j)).trans (zero_add _)
  rw [View.readCov_eq_canon_ld _ _ _ (fun y => ⟨_, List.mem_cons_of_mem _ (List.mem_singleton_self _), View.mem_set_unit_zero hz2 inb_S2x128_S2x128_0_0 y⟩)]
  show View.canon _ ((Rect.unit (s := S2x128) ![1, 0] ![1, 128] inb_S2x128_S1x128_1_0).emb (ix2 (0 : Fin 1) j)) = 0
  rw [emb_row1]
  exact canon_row1_under_row0 _ j

/-! ## The accumulation over the grid, and the two arrays the region leaves -/

variable (V : (c : Dev nD) → (b : Ref sig .tc) → Buf (Elt Ideal) ((c : Thread nD τ).loc b))

/-- The affine block of point t: the body's first payload of the point's input blocks. -/
abbrev blk (c : Dev nD) (t : Fin cfg4.N) : Vec Ideal S4000x128 .f32 :=
  k4_pay3 (F := Ideal) (iblk4 V c 0 t) (iblk4 V c 1 t) (iblk4 V c 2 t) (iblk4 V c 3 t) (iblk4 V c 4 t)

/-- Column j's sum over point s's block (0 past the grid). -/
def bsum (c : Dev nD) (s : ℕ) (j : Fin 128) : EReal :=
  if h : s < cfg4.N then ∑ p : Fin 4000, blk V c ⟨s, h⟩ (ix2 p j) else 0

/-- Column j's sum of squares over point s's block (0 past the grid). -/
def bsq (c : Dev nD) (s : ℕ) (j : Fin 128) : EReal :=
  if h : s < cfg4.N then ∑ p : Fin 4000, blk V c ⟨s, h⟩ (ix2 p j) * blk V c ⟨s, h⟩ (ix2 p j) else 0

theorem N_eq : cfg4.N = 25 := N_4

set_option maxHeartbeats 4000000 in
/-- After point n the first output's buffer holds that point's affine block, and the second the column sums (row 0)
    and column sums of squares (row 1) of the blocks of points 0 … n: by induction on the point. -/
theorem outs_eq (c : Dev nD) : ∀ (n : ℕ) (h : n < cfg4.N),
    (outsAt4 V c n h).1 = blk V c ⟨n, h⟩
    ∧ (∀ j : Fin 128, (outsAt4 V c n h).2 (ix2 (0 : Fin 2) j) = ∑ s ∈ Finset.range (n + 1), bsum V c s j)
    ∧ (∀ j : Fin 128, (outsAt4 V c n h).2 (ix2 (1 : Fin 2) j) = ∑ s ∈ Finset.range (n + 1), bsq V c s j)
  | 0, h => by
    rw [outsAt4_A V c ⟨0, h⟩ rfl]
    dsimp only
    refine ⟨out5_A c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) _ (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)), fun j => ?_, fun j => ?_⟩
    · rw [Finset.sum_range_one]; unfold bsum; rw [dif_pos h]
      exact out6_A_row0 c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) _ (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) j
    · rw [Finset.sum_range_one]; unfold bsq; rw [dif_pos h]
      exact out6_A_row1 c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) _ (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) j
  | n + 1, h => by
    have hN : cfg4.N = 25 := N_eq
    have hB : ¬(⟨n + 1, h⟩ : Fin cfg4.N).val % 25 = 0 := by dsimp only; omega
    obtain ⟨-, ih0, ih1⟩ := outs_eq c n (Nat.lt_of_succ_lt h)
    rw [outsAt4_B V c ⟨n + 1, h⟩ hB]
    dsimp only
    refine ⟨out5_B c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) _ (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c n (Nat.lt_of_succ_lt h)).2, fun j => ?_, fun j => ?_⟩
    · rw [Finset.sum_range_succ, ← ih0 j]
      refine (out6_B_row0 c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) _ (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c n (Nat.lt_of_succ_lt h)).2 j).trans ?_
      unfold bsum; rw [dif_pos h]
    · rw [Finset.sum_range_succ, ← ih1 j]
      refine (out6_B_row1 c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) _ (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c n (Nat.lt_of_succ_lt h)).2 j).trans ?_
      unfold bsq; rw [dif_pos h]

/-! ## From the blocks to the two arrays: the affine part and its column statistics -/

/-- Where each window's block sits at grid point t: the two row-blocked inputs' and the affine output's block is block t of
    the rows, all columns; the matrices, the bias row and the statistics are one block. Decided over the 25 points. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0 :=
  (by decide +kernel : ∀ t : Fin grid4.N, _)

/-- Row p of block t is row 4000·t + p of the array. -/
def row (t : Fin cfg4.N) (p : Fin 4000) : Fin 100000 :=
  ⟨t.val * 4000 + p.val, by have h1 := t.isLt; have h2 : cfg4.N = 25 := N_eq; have h3 := p.isLt; omega⟩

/-- Window 0's block at point t is rows 4000·t … 4000·t + 3999 of its array. -/
theorem iblk0_apply (c : Dev nD) (t : Fin cfg4.N) (p : Fin 4000) (k : Fin 128) :
    (iblk4 V c 0 t : Vec Ideal S4000x128 .f32) (ix2 p k) = (V c (Pipeline.arrRef spec4 0) : S100000x128.Idx → EReal) (ix2 (row t p) k) := by
  obtain ⟨e00, e01, e10, e11, -⟩ := idx_facts t
  unfold iblk4
  rw [View.read_apply]
  refine congrArg (V c (Pipeline.arrRef spec4 0) : S100000x128.Idx → EReal) (funext fun a => Fin.ext ?_)
  match a with
  | ⟨0, _⟩ => show win4_0.index t (0 : Fin 2) * 4000 + 1 * p.val = t.val * 4000 + p.val; rw [e00]; omega
  | ⟨1, _⟩ => show win4_0.index t (1 : Fin 2) * 128 + 1 * k.val = k.val; rw [e01]; omega

/-- Window 1's block at point t is rows 4000·t … 4000·t + 3999 of its array. -/
theorem iblk1_apply (c : Dev nD) (t : Fin cfg4.N) (p : Fin 4000) (k : Fin 128) :
    (iblk4 V c 1 t : Vec Ideal S4000x128 .f32) (ix2 p k) = (V c (Pipeline.arrRef spec4 1) : S100000x128.Idx → EReal) (ix2 (row t p) k) := by
  obtain ⟨e00, e01, e10, e11, -⟩ := idx_facts t
  unfold iblk4
  rw [View.read_apply]
  refine congrArg (V c (Pipeline.arrRef spec4 1) : S100000x128.Idx → EReal) (funext fun a => Fin.ext ?_)
  match a with
  | ⟨0, _⟩ => show win4_1.index t (0 : Fin 2) * 4000 + 1 * p.val = t.val * 4000 + p.val; rw [e10]; omega
  | ⟨1, _⟩ => show win4_1.index t (1 : Fin 2) * 128 + 1 * k.val = k.val; rw [e11]; omega

/-- Window 2's block at every point is its whole 128×128 matrix. -/
theorem iblk2_apply (c : Dev nD) (t : Fin cfg4.N) (k j : Fin 128) :
    (iblk4 V c 2 t : Vec Ideal S128x128 .f32) (ix2 k j) = (V c (Pipeline.arrRef spec4 2) : S128x128.Idx → EReal) (ix2 k j) := by
  obtain ⟨-, -, -, -, e20, e21, e30, e31, -⟩ := idx_facts t
  unfold iblk4
  rw [View.read_apply]
  refine congrArg (V c (Pipeline.arrRef spec4 2) : S128x128.Idx → EReal) (funext fun a => Fin.ext ?_)
  match a with
  | ⟨0, _⟩ => show win4_2.index t (0 : Fin 2) * 128 + 1 * k.val = k.val; rw [e20]; omega
  | ⟨1, _⟩ => show win4_2.index t (1 : Fin 2) * 128 + 1 * j.val = j.val; rw [e21]; omega

/-- Window 3's block at every point is its whole 128×128 matrix. -/
theorem iblk3_apply (c : Dev nD) (t : Fin cfg4.N) (k j : Fin 128) :
    (iblk4 V c 3 t : Vec Ideal S128x128 .f32) (ix2 k j) = (V c (Pipeline.arrRef spec4 3) : S128x128.Idx → EReal) (ix2 k j) := by
  obtain ⟨-, -, -, -, e20, e21, e30, e31, -⟩ := idx_facts t
  unfold iblk4
  rw [View.read_apply]
  refine congrArg (V c (Pipeline.arrRef spec4 3) : S128x128.Idx → EReal) (funext fun a => Fin.ext ?_)
  match a with
  | ⟨0, _⟩ => show win4_3.index t (0 : Fin 2) * 128 + 1 * k.val = k.val; rw [e30]; omega
  | ⟨1, _⟩ => show win4_3.index t (1 : Fin 2) * 128 + 1 * j.val = j.val; rw [e31]; omega

/-- Window 4's block at every point is the whole bias row. -/
theorem iblk4_apply (c : Dev nD) (t : Fin cfg4.N) (j : Fin 128) :
    (iblk4 V c 4 t : Vec Ideal S1x128 .f32) (ix2 (0 : Fin 1) j) = (V c (Pipeline.arrRef spec4 4) : S1x128.Idx → EReal) (ix2 (0 : Fin 1) j) := by
  obtain ⟨-, -, -, -, -, -, -, -, e40, e41, -⟩ := idx_facts t
  unfold iblk4
  rw [View.read_apply]
  refine congrArg (V c (Pipeline.arrRef spec4 4) : S1x128.Idx → EReal) (funext fun a => Fin.ext ?_)
  match a with
  | ⟨0, _⟩ => show win4_4.index t (0 : Fin 2) * 1 + 1 * 0 = 0; rw [e40]
  | ⟨1, _⟩ => show win4_4.index t (1 : Fin 2) * 128 + 1 * j.val = j.val; rw [e41]; omega

/-- The five input arrays as the region finds them, by coordinates. -/
abbrev arrA (c : Dev nD) : Fin 100000 → Fin 128 → EReal := fun r k => (V c (Pipeline.arrRef spec4 0) : S100000x128.Idx → EReal) (ix2 r k)
abbrev arrX (c : Dev nD) : Fin 100000 → Fin 128 → EReal := fun r k => (V c (Pipeline.arrRef spec4 1) : S100000x128.Idx → EReal) (ix2 r k)
abbrev matL (c : Dev nD) : Fin 128 → Fin 128 → EReal := fun k j => (V c (Pipeline.arrRef spec4 2) : S128x128.Idx → EReal) (ix2 k j)
abbrev matR (c : Dev nD) : Fin 128 → Fin 128 → EReal := fun k j => (V c (Pipeline.arrRef spec4 3) : S128x128.Idx → EReal) (ix2 k j)
abbrev rowB (c : Dev nD) : Fin 128 → EReal := fun j => (V c (Pipeline.arrRef spec4 4) : S1x128.Idx → EReal) (ix2 (0 : Fin 1) j)

/-- The affine part of the whole arrays, entry by entry. -/
abbrev linV (c : Dev nD) : Fin 100000 → Fin 128 → EReal :=
  Cert.Spec.lin (arrA V c) (arrX V c) (matL V c) (matR V c) (rowB V c)

/-- Entry (p, j) of point t's affine block is entry (4000·t + p, j) of the affine part of the whole arrays. -/
theorem blk_apply (c : Dev nD) (t : Fin cfg4.N) (p : Fin 4000) (j : Fin 128) :
    blk V c t (ix2 p j) = linV V c (row t p) j := by
  refine (pay3_apply (iblk4 V c 0 t) (iblk4 V c 1 t) (iblk4 V c 2 t) (iblk4 V c 3 t) (iblk4 V c 4 t) p j).trans ?_
  show _ = ((∑ k : Fin 128, arrA V c (row t p) k * matL V c k j) + (∑ k : Fin 128, arrX V c (row t p) k * matR V c k j)) + rowB V c j
  refine congrArg₂ (· + ·) (congrArg₂ (· + ·) (Finset.sum_congr rfl fun k _ => ?_) (Finset.sum_congr rfl fun k _ => ?_)) (iblk4_apply V c t j)
  · exact congrArg₂ (· * ·) (iblk0_apply V c t p k) (iblk2_apply V c t k j)
  · exact congrArg₂ (· * ·) (iblk1_apply V c t p k) (iblk3_apply V c t k j)

/-! ### The affine output array -/

/-- What the affine output array ends holding. -/
abbrev G5 (c : Dev nD) : S100000x128.Idx → EReal := fun i => linV V c (i 0 : Fin 100000) (i 1 : Fin 128)

/-- Point t's affine block at (p, q) is that array's entry at the index K the block puts there. -/
theorem point5 (c : Dev nD) (t : Fin cfg4.N) (p : Fin 4000) (q : Fin 128) (K : S100000x128.Idx)
    (hk0 : (K 0).val = t.val * 4000 + p.val) (hk1 : (K 1).val = q.val) : blk V c t (ix2 p q) = G5 V c K := by
  have h0 : (K 0 : Fin 100000) = row t p := Fin.ext hk0
  have h1 : (K 1 : Fin 128) = q := Fin.ext hk1
  show _ = linV V c (K 0 : Fin 100000) (K 1 : Fin 128)
  rw [h0, h1]
  exact blk_apply V c t p q

/-- What point t writes back to the affine output is block t of that array. -/
theorem flushed5_eq (c : Dev nD) (t : Fin cfg4.N) :
    (dat4 (F := Ideal) V c).flushed 5 t = ((cfg4.win 5).blk t).view.read (Elt Ideal) (G5 V c) := by
  show (cfg4.win 5).cut (grid4.coords t) ((dat4 (F := Ideal) V c).after 5 t) = _
  rw [after4_5, (outs_eq V c t.val t.isLt).1]
  obtain ⟨-, -, -, -, -, -, -, -, -, -, e50, e51, -⟩ := idx_facts t
  funext y
  obtain ⟨p, q, rfl⟩ : ∃ (p : Fin 4000) (q : Fin 128), y = ix2 p q := ⟨y 0, y 1, eq_ix2 y⟩
  rw [View.read_apply]
  show blk V c t (ix2 p q) = _
  exact point5 V c t p q _
    (by show win4_5.index t (0 : Fin 2) * 4000 + 1 * p.val = t.val * 4000 + p.val; rw [e50]; omega)
    (by show win4_5.index t (1 : Fin 2) * 128 + 1 * q.val = q.val; rw [e51]; omega)

/-- An index of the affine output is in point t's block iff each coordinate is in the block's range on its axis. -/
theorem mem_blk5 (t : Fin cfg4.N) (i : S100000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v106_0).slice (win4_5.rect t)).set ↔ _
  rw [View.set_slice_whole, Rect.mem_set_unit]
  exact Iff.rfl

/-- Row r is in the block of point r / 4000, which is written back. -/
theorem cover5 (i : S100000x128.Idx) : ∃ t : Fin cfg4.N, (cfg4.win 5).flush t = true ∧ i ∈ ((cfg4.win 5).blk t).view.set := by
  have hi0 : (i 0).val < 100000 := idx2_lt0 i
  have hi1 : (i 1).val < 128 := idx2_lt1 i
  have hN : cfg4.N = 25 := N_eq
  have hlt : (i 0).val / 4000 < cfg4.N := lt_of_lt_of_eq (by omega : (i 0).val / 4000 < 25) hN.symm
  obtain ⟨-, -, -, -, -, -, -, -, -, -, e50, e51, -⟩ := idx_facts ⟨(i 0).val / 4000, hlt⟩
  refine ⟨⟨(i 0).val / 4000, hlt⟩, flush4_5 _, ?_⟩
  rw [mem_blk5]
  intro a
  match a with
  | ⟨0, _⟩ =>
    show win4_5.index ⟨(i 0).val / 4000, hlt⟩ (0 : Fin 2) * 4000 ≤ (i 0).val ∧ (i 0).val < win4_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win4_5.index ⟨(i 0).val / 4000, hlt⟩ (1 : Fin 2) * 128 ≤ (i 1).val ∧ (i 1).val < win4_5.index ⟨(i 0).val / 4000, hlt⟩ (1 : Fin 2) * 128 + 128
    rw [e51]
    omega

/-- The affine output array after the region. -/
theorem final5_fun (c : Dev nD) : (dat4 (F := Ideal) V c).arrAt 5 cfg4.N = G5 V c :=
  (dat4 (F := Ideal) V c).arrAt_eq_of_cover 5 (G5 V c) (fun t _ => flushed5_eq V c t) cover5

/-- The affine output array after the region, at (r, j). -/
theorem final5 (c : Dev nD) (r : Fin 100000) (j : Fin 128) :
    (dat4 (F := Ideal) V c).arrAt 5 cfg4.N (ix2 r j)
      = Cert.Spec.lin (fun (r : Fin 100000) (k : Fin 128) => V c (Pipeline.arrRef spec4 0) (ix2 r k)) (fun (r : Fin 100000) (k : Fin 128) => V c (Pipeline.arrRef spec4 1) (ix2 r k))
          (fun (k j : Fin 128) => V c (Pipeline.arrRef spec4 2) (ix2 k j)) (fun (k j : Fin 128) => V c (Pipeline.arrRef spec4 3) (ix2 k j))
          (fun (j : Fin 128) => V c (Pipeline.arrRef spec4 4) (ix2 (0 : Fin 1) j)) r j :=
  congrFun (final5_fun V c) (ix2 r j)

/-! ### The statistics array -/

/-- The last grid point. -/
def tLast : Fin cfg4.N := ⟨24, by rw [N_eq]; decide⟩

/-- What the statistics array ends holding: the second output's buffer after the last point. -/
abbrev stats (c : Dev nD) : Buf (Elt Ideal) ((c : Thread nD τ).loc main_v106_1) := (outsAt4 V c tLast.val tLast.isLt).2

/-- The one write-back of the statistics, at the last point, writes that buffer: its one block is the whole array. -/
theorem flushed6_eq (c : Dev nD) (t : Fin cfg4.N) (hf : (cfg4.win 6).flush t = true) :
    (dat4 (F := Ideal) V c).flushed 6 t = ((cfg4.win 6).blk t).view.read (Elt Ideal) (stats V c) := by
  have hN : cfg4.N = 25 := N_eq
  have h24 : t.val = 24 := by have := (flush4_6 t).mp hf; have := t.isLt; omega
  obtain rfl : t = tLast := Fin.ext h24
  show (cfg4.win 6).cut (grid4.coords tLast) ((dat4 (F := Ideal) V c).after 6 tLast) = _
  rw [after4_6]
  obtain ⟨-, -, -, -, -, -, -, -, -, -, -, -, e60, e61⟩ := idx_facts tLast
  have hz' : (fun a => win4_6.index tLast a * main_v106_1.ty.shape.size a) = fun _ => 0 := funext fun a => by
    match a with
    | ⟨0, _⟩ => show win4_6.index tLast (0 : Fin 2) * 2 = 0; rw [e60]
    | ⟨1, _⟩ => show win4_6.index tLast (1 : Fin 2) * 128 = 0; rw [e61]
  exact (Memref.read_access_unit_zero (Elt Ideal) main_v106_1 hz' (fun a => by rw [congrFun hz' a]; simp) (stats V c)).symm

/-- Every index of the statistics array is in the last point's block, which is written back. -/
theorem cover6 (i : S2x128.Idx) : ∃ t : Fin cfg4.N, (cfg4.win 6).flush t = true ∧ i ∈ ((cfg4.win 6).blk t).view.set := by
  have hi0 : (i 0).val < 2 := idx2_lt0 i
  have hi1 : (i 1).val < 128 := idx2_lt1 i
  obtain ⟨-, -, -, -, -, -, -, -, -, -, -, -, e60, e61⟩ := idx_facts tLast
  refine ⟨tLast, (flush4_6 tLast).mpr rfl, ?_⟩
  show i ∈ ((View.whole main_v106_1).slice (win4_6.rect tLast)).set
  rw [View.set_slice_whole, Rect.mem_set_unit]
  intro a
  match a with
  | ⟨0, _⟩ =>
    show win4_6.index tLast (0 : Fin 2) * 2 ≤ (i 0).val ∧ (i 0).val < win4_6.index tLast (0 : Fin 2) * 2 + 2
    rw [e60]; omega
  | ⟨1, _⟩ =>
    show win4_6.index tLast (1 : Fin 2) * 128 ≤ (i 1).val ∧ (i 1).val < win4_6.index tLast (1 : Fin 2) * 128 + 128
    rw [e61]; omega

/-- The statistics array after the region. -/
theorem final6_fun (c : Dev nD) : (dat4 (F := Ideal) V c).arrAt 6 cfg4.N = stats V c :=
  (dat4 (F := Ideal) V c).arrAt_eq_of_cover 6 (stats V c) (flushed6_eq V c) cover6

/-- A sum over pairs (block, row in block) is the sum over all rows: the pair (s, p) is row p + n·s. -/
theorem sum_pairs (m n : ℕ) (f : Fin (m * n) → EReal) :
    ∑ s : Fin m, ∑ p : Fin n, f (finProdFinEquiv (s, p)) = ∑ r : Fin (m * n), f r :=
  (Fintype.sum_prod_type' (fun s p => f (finProdFinEquiv (s, p)))).symm.trans (Equiv.sum_comp finProdFinEquiv f)

/-- The 25 blocks of 4000 rows are the 100000 rows. -/
theorem sum_rows (f : Fin 100000 → EReal) :
    ∑ s : Fin 25, ∑ p : Fin 4000, f ⟨s.val * 4000 + p.val, by have := s.isLt; have := p.isLt; omega⟩ = ∑ r : Fin 100000, f r := by
  refine Eq.trans ?_ (sum_pairs 25 4000 f)
  refine Finset.sum_congr rfl fun s _ => Finset.sum_congr rfl fun p _ => congrArg f (Fin.ext ?_)
  rw [finProdFinEquiv_apply_val]
  show s.val * 4000 + p.val = p.val + 4000 * s.val
  omega

/-- A function of the rows summed block by block over the 25 points is summed over all rows. -/
theorem sum_blocks (g : Fin 100000 → EReal) (B : ℕ → EReal)
    (hB : ∀ (s : ℕ) (h : s < cfg4.N), B s = ∑ p : Fin 4000, g (row ⟨s, h⟩ p)) :
    ∑ s ∈ Finset.range 25, B s = ∑ r : Fin 100000, g r := by
  rw [Finset.sum_range]
  refine Eq.trans (Finset.sum_congr rfl fun s _ => ?_) (sum_rows g)
  exact hB s.val (lt_of_lt_of_eq s.isLt N_eq.symm)

/-- Column j's sums over the blocks of all 25 points: the column sum of the affine part. -/
theorem bsum_total (c : Dev nD) (j : Fin 128) :
    ∑ s ∈ Finset.range 25, bsum V c s j = Cert.Spec.colSum (linV V c) j :=
  sum_blocks (fun r => linV V c r j) (fun s => bsum V c s j) fun s h => by
    unfold bsum
    rw [dif_pos h]
    exact Finset.sum_congr rfl fun p _ => blk_apply V c ⟨s, h⟩ p j

/-- Column j's sums of squares over the blocks of all 25 points: the column sum of the squared affine part. -/
theorem bsq_total (c : Dev nD) (j : Fin 128) :
    ∑ s ∈ Finset.range 25, bsq V c s j = Cert.Spec.colSum (fun r j => linV V c r j * linV V c r j) j :=
  sum_blocks (fun r => linV V c r j * linV V c r j) (fun s => bsq V c s j) fun s h => by
    unfold bsq
    rw [dif_pos h]
    exact Finset.sum_congr rfl fun p _ => by rw [blk_apply V c ⟨s, h⟩ p j]

/-- Row 0 of the statistics after the region: the column sums of the affine part. -/
theorem final6_row0 (c : Dev nD) (j : Fin 128) :
    (dat4 (F := Ideal) V c).arrAt 6 cfg4.N (ix2 (0 : Fin 2) j)
      = Cert.Spec.colSum (Cert.Spec.lin (fun (r : Fin 100000) (k : Fin 128) => V c (Pipeline.arrRef spec4 0) (ix2 r k)) (fun (r : Fin 100000) (k : Fin 128) => V c (Pipeline.arrRef spec4 1) (ix2 r k))
          (fun (k j : Fin 128) => V c (Pipeline.arrRef spec4 2) (ix2 k j)) (fun (k j : Fin 128) => V c (Pipeline.arrRef spec4 3) (ix2 k j))
          (fun (j : Fin 128) => V c (Pipeline.arrRef spec4 4) (ix2 (0 : Fin 1) j))) j :=
  (congrFun (final6_fun V c) (ix2 (0 : Fin 2) j)).trans (((outs_eq V c 24 tLast.isLt).2.1 j).trans (bsum_total V c j))

/-- Row 1 of the statistics after the region: the column sums of the squared affine part. -/
theorem final6_row1 (c : Dev nD) (j : Fin 128) :
    (dat4 (F := Ideal) V c).arrAt 6 cfg4.N (ix2 (1 : Fin 2) j)
      = Cert.Spec.colSum (fun r j => Cert.Spec.lin (fun (r : Fin 100000) (k : Fin 128) => V c (Pipeline.arrRef spec4 0) (ix2 r k)) (fun (r : Fin 100000) (k : Fin 128) => V c (Pipeline.arrRef spec4 1) (ix2 r k))
            (fun (k j : Fin 128) => V c (Pipeline.arrRef spec4 2) (ix2 k j)) (fun (k j : Fin 128) => V c (Pipeline.arrRef spec4 3) (ix2 k j))
            (fun (j : Fin 128) => V c (Pipeline.arrRef spec4 4) (ix2 (0 : Fin 1) j)) r j
          * Cert.Spec.lin (fun (r : Fin 100000) (k : Fin 128) => V c (Pipeline.arrRef spec4 0) (ix2 r k)) (fun (r : Fin 100000) (k : Fin 128) => V c (Pipeline.arrRef spec4 1) (ix2 r k))
            (fun (k j : Fin 128) => V c (Pipeline.arrRef spec4 2) (ix2 k j)) (fun (k j : Fin 128) => V c (Pipeline.arrRef spec4 3) (ix2 k j))
            (fun (j : Fin 128) => V c (Pipeline.arrRef spec4 4) (ix2 (0 : Fin 1) j)) r j) j :=
  (congrFun (final6_fun V c) (ix2 (1 : Fin 2) j)).trans (((outs_eq V c 24 tLast.isLt).2.2 j).trans (bsq_total V c j))

end Cert.KValue.Lin4

end
-- ==== Proof.KNorm1.lean ====
/-
  The value of a layer's normalise-and-clamp region, entry by entry.

  The region walks the affine part (100000 rows, 128 columns) in 25 blocks of 4000 rows. At each block it reads the
  whole mean, variance, scale and shift rows and leaves, at row p and column j of the block,
      max (((y − μ j) · (v j + ε)^(-1/2)) · γ j + β j) 0,
  y the block's entry there. Block t is rows 4000·t … 4000·t + 3999 of the array, row r lies in the block numbered
  r / 4000, and every block is written back: so the output array ends holding that expression of the input arrays
  at every (r, j).
-/
import proofs.«158987_j88218628260833_1_alg».proof.Proof.Gen.KernelIdeal.Frame
import proofs.«158987_j88218628260833_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KValue.R1

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-- The two zero offsets of a whole-buffer access, as the constant function. -/
theorem hz : (![0, 0] : Fin 2 → Nat) = fun _ => 0 := funext fun a => by fin_cases a <;> rfl

/-- The body's stored value at row p, column j of the block: the block's entry normalised by the column's mean and
    variance, scaled, shifted and clamped below at 0. -/
theorem pay_apply (x0 : Vec Ideal S4000x128 .f32) (x1 x2 x3 x4 : Vec Ideal S1x128 .f32) (p : Fin 4000) (j : Fin 128) :
    k1_pay1 (F := Ideal) x2 x0 x1 x3 x4 (ix2 p j)
      = norm (x0 (ix2 p j)) (x1 (ix2 (0 : Fin 1) j)) (x2 (ix2 (0 : Fin 1) j)) (x3 (ix2 (0 : Fin 1) j)) (x4 (ix2 (0 : Fin 1) j)) := by
  unfold k1_pay1
  simp only [shapeCast_self]
  show max ((x0 (ix2 p j) - broadcastTo S4000x128 x1 broadcasts_S1x128_S4000x128 (ix2 p j))
        * broadcastTo S4000x128 (rsqrt (addf x2 (broadcast S1x128 (Scalar.ofBits (F := Ideal) .f32 0x3727C5AC#32)))) broadcasts_S1x128_S4000x128 (ix2 p j)
        * broadcastTo S4000x128 x3 broadcasts_S1x128_S4000x128 (ix2 p j)
        + broadcastTo S4000x128 x4 broadcasts_S1x128_S4000x128 (ix2 p j)) (Ideal.ofBits .f32 0x00000000#32) = _
  rw [broadcastTo_1b_ab_apply x1 broadcasts_S1x128_S4000x128 p j,
    broadcastTo_1b_ab_apply (rsqrt (addf x2 (broadcast S1x128 (Scalar.ofBits (F := Ideal) .f32 0x3727C5AC#32)))) broadcasts_S1x128_S4000x128 p j,
    broadcastTo_1b_ab_apply x3 broadcasts_S1x128_S4000x128 p j, broadcastTo_1b_ab_apply x4 broadcasts_S1x128_S4000x128 p j,
    Ideal.ofBits_zero_f32]
  rfl

/-- Where each window's block sits at grid point t: the affine part's and the output's block is block t of the rows, all
    columns; the four rows are read whole. Decided over the 25 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The affine part's block at point t is rows 4000·t … 4000·t + 3999 of its array. -/
theorem blk0_apply (c : Dev nD) (t : Fin cfg1.N) (p : Fin 4000) (q : Fin 128) (k : S100000x128.Idx)
    (hk0 : (k 0).val = t.val * 4000 + p.val) (hk1 : (k 1).val = q.val) :
    (iblk1 V c 0 t : Vec Ideal S4000x128 .f32) (ix2 p q) = (V c (Pipeline.arrRef spec1 0) : S100000x128.Idx → EReal) k := by
  obtain ⟨e0, e1, -⟩ := idx_facts t
  unfold iblk1
  rw [View.read_apply]
  refine congrArg (V c (Pipeline.arrRef spec1 0) : S100000x128.Idx → EReal) (funext fun a => Fin.ext ?_)
  match a with
  | ⟨0, _⟩ => show win1_0.index t (0 : Fin 2) * 4000 + 1 * p.val = (k 0).val; rw [e0, hk0]; omega
  | ⟨1, _⟩ => show win1_0.index t (1 : Fin 2) * 128 + 1 * q.val = (k 1).val; rw [e1, hk1]; omega

/-- Window 1's block at every point is its whole one-row array. -/
theorem blk1_apply (c : Dev nD) (t : Fin cfg1.N) (q : Fin 128) :
    (iblk1 V c 1 t : Vec Ideal S1x128 .f32) (ix2 (0 : Fin 1) q) = (V c (Pipeline.arrRef spec1 1) : S1x128.Idx → EReal) (ix2 (0 : Fin 1) q) := by
  obtain ⟨-, -, e10, e11, e20, e21, e30, e31, e40, e41, -⟩ := idx_facts t
  unfold iblk1
  rw [View.read_apply]
  refine congrArg (V c (Pipeline.arrRef spec1 1) : S1x128.Idx → EReal) (funext fun a => Fin.ext ?_)
  match a with
  | ⟨0, _⟩ => show win1_1.index t (0 : Fin 2) * 1 + 1 * 0 = 0; rw [e10]
  | ⟨1, _⟩ => show win1_1.index t (1 : Fin 2) * 128 + 1 * q.val = q.val; rw [e11]; omega

/-- Window 2's block at every point is its whole one-row array. -/
theorem blk2_apply (c : Dev nD) (t : Fin cfg1.N) (q : Fin 128) :
    (iblk1 V c 2 t : Vec Ideal S1x128 .f32) (ix2 (0 : Fin 1) q) = (V c (Pipeline.arrRef spec1 2) : S1x128.Idx → EReal) (ix2 (0 : Fin 1) q) := by
  obtain ⟨-, -, e10, e11, e20, e21, e30, e31, e40, e41, -⟩ := idx_facts t
  unfold iblk1
  rw [View.read_apply]
  refine congrArg (V c (Pipeline.arrRef spec1 2) : S1x128.Idx → EReal) (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

/-- Window 3's block at every point is its whole one-row array. -/
theorem blk3_apply (c : Dev nD) (t : Fin cfg1.N) (q : Fin 128) :
    (iblk1 V c 3 t : Vec Ideal S1x128 .f32) (ix2 (0 : Fin 1) q) = (V c (Pipeline.arrRef spec1 3) : S1x128.Idx → EReal) (ix2 (0 : Fin 1) q) := by
  obtain ⟨-, -, e10, e11, e20, e21, e30, e31, e40, e41, -⟩ := idx_facts t
  unfold iblk1
  rw [View.read_apply]
  refine congrArg (V c (Pipeline.arrRef spec1 3) : S1x128.Idx → EReal) (funext fun a => Fin.ext ?_)
  match a with
  | ⟨0, _⟩ => show win1_3.index t (0 : Fin 2) * 1 + 1 * 0 = 0; rw [e30]
  | ⟨1, _⟩ => show win1_3.index t (1 : Fin 2) * 128 + 1 * q.val = q.val; rw [e31]; omega

/-- Window 4's block at every point is its whole one-row array. -/
theorem blk4_apply (c : Dev nD) (t : Fin cfg1.N) (q : Fin 128) :
    (iblk1 V c 4 t : Vec Ideal S1x128 .f32) (ix2 (0 : Fin 1) q) = (V c (Pipeline.arrRef spec1 4) : S1x128.Idx → EReal) (ix2 (0 : Fin 1) q) := by
  obtain ⟨-, -, e10, e11, e20, e21, e30, e31, e40, e41, -⟩ := idx_facts t
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-- What the output array ends holding: at (r, j) the affine part's entry normalised by column j's mean and variance,
    scaled, shifted and clamped — of the arrays as the region finds them. -/
abbrev G (c : Dev nD) : S100000x128.Idx → EReal := fun i =>
  norm ((V c (Pipeline.arrRef spec1 0) : S100000x128.Idx → EReal) i)
    ((V c (Pipeline.arrRef spec1 1) : S1x128.Idx → EReal) (ix2 (0 : Fin 1) (i 1 : Fin 128)))
    ((V c (Pipeline.arrRef spec1 2) : S1x128.Idx → EReal) (ix2 (0 : Fin 1) (i 1 : Fin 128)))
    ((V c (Pipeline.arrRef spec1 3) : S1x128.Idx → EReal) (ix2 (0 : Fin 1) (i 1 : Fin 128)))
    ((V c (Pipeline.arrRef spec1 4) : S1x128.Idx → EReal) (ix2 (0 : Fin 1) (i 1 : Fin 128)))

/-- Equal arguments give equal normalised values. -/
theorem norm_congr {y y' mu mu' v v' g g' be be' : EReal} (h0 : y = y') (h1 : mu = mu') (h2 : v = v') (h3 : g = g') (h4 : be = be') :
    norm y mu v g be = norm y' mu' v' g' be' := by rw [h0, h1, h2, h3, h4]

/-- The body's value at (p, q) of block t is that array's entry at the index K the block puts there. -/
theorem point_eq (c : Dev nD) (t : Fin cfg1.N) (p : Fin 4000) (q : Fin 128) (K : S100000x128.Idx)
    (hk0 : (K 0).val = t.val * 4000 + p.val) (hk1 : (K 1).val = q.val) :
    norm ((iblk1 V c 0 t : Vec Ideal S4000x128 .f32) (ix2 p q)) ((iblk1 V c 1 t : Vec Ideal S1x128 .f32) (ix2 (0 : Fin 1) q))
      ((iblk1 V c 2 t : Vec Ideal S1x128 .f32) (ix2 (0 : Fin 1) q)) ((iblk1 V c 3 t : Vec Ideal S1x128 .f32) (ix2 (0 : Fin 1) q))
      ((iblk1 V c 4 t : Vec Ideal S1x128 .f32) (ix2 (0 : Fin 1) q)) = G V c K := by
  have hq : (K 1 : Fin 128) = q := Fin.ext hk1
  show _ = norm ((V c (Pipeline.arrRef spec1 0) : S100000x128.Idx → EReal) K)
    ((V c (Pipeline.arrRef spec1 1) : S1x128.Idx → EReal) (ix2 (0 : Fin 1) (K 1 : Fin 128)))
    ((V c (Pipeline.arrRef spec1 2) : S1x128.Idx → EReal) (ix2 (0 : Fin 1) (K 1 : Fin 128)))
    ((V c (Pipeline.arrRef spec1 3) : S1x128.Idx → EReal) (ix2 (0 : Fin 1) (K 1 : Fin 128)))
    ((V c (Pipeline.arrRef spec1 4) : S1x128.Idx → EReal) (ix2 (0 : Fin 1) (K 1 : Fin 128)))
  rw [hq]
  exact norm_congr (blk0_apply V c t p q K hk0 hk1) (blk1_apply V c t q) (blk2_apply V c t q) (blk3_apply V c t q) (blk4_apply V c t q)

/-- What point t writes back is block t of that array. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S4000x128) hz, View.ld_unit_zero (S := S1x128) hz]
  obtain ⟨-, -, -, -, -, -, -, -, -, -, e50, e51⟩ := idx_facts t
  funext y
  obtain ⟨p, q, rfl⟩ : ∃ (p : Fin 4000) (q : Fin 128), y = ix2 p q := ⟨y 0, y 1, eq_ix2 y⟩
  refine (pay_apply (iblk1 V c 0 t) (iblk1 V c 1 t) (iblk1 V c 2 t) (iblk1 V c 3 t) (iblk1 V c 4 t) p q).trans ?_
  rw [View.read_apply]
  exact point_eq V c t p q _
    (by show win1_5.index t (0 : Fin 2) * 4000 + 1 * p.val = t.val * 4000 + p.val; rw [e50]; omega)
    (by show win1_5.index t (1 : Fin 2) * 128 + 1 * q.val = q.val; rw [e51]; omega)

/-- An index of the array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v47).slice (win1_5.rect t)).set ↔ _
  rw [View.set_slice_whole, Rect.mem_set_unit]
  exact Iff.rfl

/-- Row r is in the block of point r / 4000, which is written back. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 25 := N_1
  have hlt : (i 0).val / 4000 < cfg1.N := lt_of_lt_of_eq (by omega : (i 0).val / 4000 < 25) hN.symm
  obtain ⟨-, -, -, -, -, -, -, -, -, -, e50, e51⟩ := idx_facts ⟨(i 0).val / 4000, hlt⟩
  refine ⟨⟨(i 0).val / 4000, hlt⟩, flush1_5 _, ?_⟩
  rw [mem_blk]
  intro a
  match a with
  | ⟨0, _⟩ =>
    show win1_5.index ⟨(i 0).val / 4000, hlt⟩ (0 : Fin 2) * 4000 ≤ (i 0).val ∧ (i 0).val < win1_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win1_5.index ⟨(i 0).val / 4000, hlt⟩ (1 : Fin 2) * 128 ≤ (i 1).val ∧ (i 1).val < win1_5.index ⟨(i 0).val / 4000, hlt⟩ (1 : Fin 2) * 128 + 128
    rw [e51]
    omega

/-- The output array after the region. -/
theorem final_fun (c : Dev nD) : (dat1 (F := Ideal) V c).arrAt 5 cfg1.N = G V c :=
  (dat1 (F := Ideal) V c).arrAt_eq_of_cover 5 (G V c) (fun t _ => flushed_eq V c t) cover

/-- The output array after the region, at (r, j). -/
theorem final (c : Dev nD) (r : Fin 100000) (j : Fin 128) :
    (dat1 (F := Ideal) V c).arrAt 5 cfg1.N (ix2 r j)
      = norm (V c (Pipeline.arrRef spec1 0) (ix2 r j)) (V c (Pipeline.arrRef spec1 1) (ix2 (0 : Fin 1) j)) (V c (Pipeline.arrRef spec1 2) (ix2 (0 : Fin 1) j))
          (V c (Pipeline.arrRef spec1 3) (ix2 (0 : Fin 1) j)) (V c (Pipeline.arrRef spec1 4) (ix2 (0 : Fin 1) j)) :=
  congrFun (final_fun V c) (ix2 r j)

end Cert.KValue.R1

end
-- ==== Proof.KNorm3.lean ====
/-
  The value of a layer's normalise-and-clamp region, entry by entry.

  The region walks the affine part (100000 rows, 128 columns) in 25 blocks of 4000 rows. At each block it reads the
  whole mean, variance, scale and shift rows and leaves, at row p and column j of the block,
      max (((y − μ j) · (v j + ε)^(-1/2)) · γ j + β j) 0,
  y the block's entry there. Block t is rows 4000·t … 4000·t + 3999 of the array, row r lies in the block numbered
  r / 4000, and every block is written back: so the output array ends holding that expression of the input arrays
  at every (r, j).
-/
import proofs.«158987_j88218628260833_1_alg».proof.Proof.Gen.KernelIdeal.Frame
import proofs.«158987_j88218628260833_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KValue.R3

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-- The two zero offsets of a whole-buffer access, as the constant function. -/
theorem hz : (![0, 0] : Fin 2 → Nat) = fun _ => 0 := funext fun a => by fin_cases a <;> rfl

/-- The body's stored value at row p, column j of the block: the block's entry normalised by the column's mean and
    variance, scaled, shifted and clamped below at 0. -/
theorem pay_apply (x0 : Vec Ideal S4000x128 .f32) (x1 x2 x3 x4 : Vec Ideal S1x128 .f32) (p : Fin 4000) (j : Fin 128) :
    k3_pay1 (F := Ideal) x2 x0 x1 x3 x4 (ix2 p j)
      = norm (x0 (ix2 p j)) (x1 (ix2 (0 : Fin 1) j)) (x2 (ix2 (0 : Fin 1) j)) (x3 (ix2 (0 : Fin 1) j)) (x4 (ix2 (0 : Fin 1) j)) := by
  unfold k3_pay1
  simp only [shapeCast_self]
  show max ((x0 (ix2 p j) - broadcastTo S4000x128 x1 broadcasts_S1x128_S4000x128 (ix2 p j))
        * broadcastTo S4000x128 (rsqrt (addf x2 (broadcast S1x128 (Scalar.ofBits (F := Ideal) .f32 0x3727C5AC#32)))) broadcasts_S1x128_S4000x128 (ix2 p j)
        * broadcastTo S4000x128 x3 broadcasts_S1x128_S4000x128 (ix2 p j)
        + broadcastTo S4000x128 x4 broadcasts_S1x128_S4000x128 (ix2 p j)) (Ideal.ofBits .f32 0x00000000#32) = _
  rw [broadcastTo_1b_ab_apply x1 broadcasts_S1x128_S4000x128 p j,
    broadcastTo_1b_ab_apply (rsqrt (addf x2 (broadcast S1x128 (Scalar.ofBits (F := Ideal) .f32 0x3727C5AC#32)))) broadcasts_S1x128_S4000x128 p j,
    broadcastTo_1b_ab_apply x3 broadcasts_S1x128_S4000x128 p j, broadcastTo_1b_ab_apply x4 broadcasts_S1x128_S4000x128 p j,
    Ideal.ofBits_zero_f32]
  rfl

/-- Where each window's block sits at grid point t: the affine part's and the output's block is block t of the rows, all
    columns; the four rows are read whole. Decided over the 25 points. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The affine part's block at point t is rows 4000·t … 4000·t + 3999 of its array. -/
theorem blk0_apply (c : Dev nD) (t : Fin cfg3.N) (p : Fin 4000) (q : Fin 128) (k : S100000x128.Idx)
    (hk0 : (k 0).val = t.val * 4000 + p.val) (hk1 : (k 1).val = q.val) :
    (iblk3 V c 0 t : Vec Ideal S4000x128 .f32) (ix2 p q) = (V c (Pipeline.arrRef spec3 0) : S100000x128.Idx → EReal) k := by
  obtain ⟨e0, e1, -⟩ := idx_facts t
  unfold iblk3
  rw [View.read_apply]
  refine congrArg (V c (Pipeline.arrRef spec3 0) : S100000x128.Idx → EReal) (funext fun a => Fin.ext ?_)
  match a with
  | ⟨0, _⟩ => show win3_0.index t (0 : Fin 2) * 4000 + 1 * p.val = (k 0).val; rw [e0, hk0]; omega
  | ⟨1, _⟩ => show win3_0.index t (1 : Fin 2) * 128 + 1 * q.val = (k 1).val; rw [e1, hk1]; omega

/-- Window 1's block at every point is its whole one-row array. -/
theorem blk1_apply (c : Dev nD) (t : Fin cfg3.N) (q : Fin 128) :
    (iblk3 V c 1 t : Vec Ideal S1x128 .f32) (ix2 (0 : Fin 1) q) = (V c (Pipeline.arrRef spec3 1) : S1x128.Idx → EReal) (ix2 (0 : Fin 1) q) := by
  obtain ⟨-, -, e10, e11, e20, e21, e30, e31, e40, e41, -⟩ := idx_facts t
  unfold iblk3
  rw [View.read_apply]
  refine congrArg (V c (Pipeline.arrRef spec3 1) : S1x128.Idx → EReal) (funext fun a => Fin.ext ?_)
  match a with
  | ⟨0, _⟩ => show win3_1.index t (0 : Fin 2) * 1 + 1 * 0 = 0; rw [e10]
  | ⟨1, _⟩ => show win3_1.index t (1 : Fin 2) * 128 + 1 * q.val = q.val; rw [e11]; omega

/-- Window 2's block at every point is its whole one-row array. -/
theorem blk2_apply (c : Dev nD) (t : Fin cfg3.N) (q : Fin 128) :
    (iblk3 V c 2 t : Vec Ideal S1x128 .f32) (ix2 (0 : Fin 1) q) = (V c (Pipeline.arrRef spec3 2) : S1x128.Idx → EReal) (ix2 (0 : Fin 1) q) := by
  obtain ⟨-, -, e10, e11, e20, e21, e30, e31, e40, e41, -⟩ := idx_facts t
  unfold iblk3
  rw [View.read_apply]
  refine congrArg (V c (Pipeline.arrRef spec3 2) : S1x128.Idx → EReal) (funext fun a => Fin.ext ?_)
  match a with
  | ⟨0, _⟩ => show win3_2.index t (0 : Fin 2) * 1 + 1 * 0 = 0; rw [e20]
  | ⟨1, _⟩ => show win3_2.index t (1 : Fin 2) * 128 + 1 * q.val = q.val; rw [e21]; omega

/-- Window 3's block at every point is its whole one-row array. -/
theorem blk3_apply (c : Dev nD) (t : Fin cfg3.N) (q : Fin 128) :
    (iblk3 V c 3 t : Vec Ideal S1x128 .f32) (ix2 (0 : Fin 1) q) = (V c (Pipeline.arrRef spec3 3) : S1x128.Idx → EReal) (ix2 (0 : Fin 1) q) := by
  obtain ⟨-, -, e10, e11, e20, e21, e30, e31, e40, e41, -⟩ := idx_facts t
  unfold iblk3
  rw [View.read_apply]
  refine congrArg (V c (Pipeline.arrRef spec3 3) : S1x128.Idx → EReal) (funext fun a => Fin.ext ?_)
  match a with
  | ⟨0, _⟩ => show win3_3.index t (0 : Fin 2) * 1 + 1 * 0 = 0; rw [e30]
  | ⟨1, _⟩ => show win3_3.index t (1 : Fin 2) * 128 + 1 * q.val = q.val; rw [e31]; omega

/-- Window 4's block at every point is its whole one-row array. -/
theorem blk4_apply (c : Dev nD) (t : Fin cfg3.N) (q : Fin 128) :
    (iblk3 V c 4 t : Vec Ideal S1x128 .f32) (ix2 (0 : Fin 1) q) = (V c (Pipeline.arrRef spec3 4) : S1x128.Idx → EReal) (ix2 (0 : Fin 1) q) := by
  obtain ⟨-, -, e10, e11, e20, e21, e30, e31, e40, e41, -⟩ := idx_facts t
  unfold iblk3
  rw [View.read_apply]
  refine congrArg (V c (Pipeline.arrRef spec3 4) : S1x128.Idx → EReal) (funext fun a => Fin.ext ?_)
  match a with
  | ⟨0, _⟩ => show win3_4.index t (0 : Fin 2) * 1 + 1 * 0 = 0; rw [e40]
  | ⟨1, _⟩ => show win3_4.index t (1 : Fin 2) * 128 + 1 * q.val = q.val; rw [e41]; omega

/-- What the output array ends holding: at (r, j) the affine part's entry normalised by column j's mean and variance,
    scaled, shifted and clamped — of the arrays as the region finds them. -/
abbrev G (c : Dev nD) : S100000x128.Idx → EReal := fun i =>
  norm ((V c (Pipeline.arrRef spec3 0) : S100000x128.Idx → EReal) i)
    ((V c (Pipeline.arrRef spec3 1) : S1x128.Idx → EReal) (ix2 (0 : Fin 1) (i 1 : Fin 128)))
    ((V c (Pipeline.arrRef spec3 2) : S1x128.Idx → EReal) (ix2 (0 : Fin 1) (i 1 : Fin 128)))
    ((V c (Pipeline.arrRef spec3 3) : S1x128.Idx → EReal) (ix2 (0 : Fin 1) (i 1 : Fin 128)))
    ((V c (Pipeline.arrRef spec3 4) : S1x128.Idx → EReal) (ix2 (0 : Fin 1) (i 1 : Fin 128)))

/-- Equal arguments give equal normalised values. -/
theorem norm_congr {y y' mu mu' v v' g g' be be' : EReal} (h0 : y = y') (h1 : mu = mu') (h2 : v = v') (h3 : g = g') (h4 : be = be') :
    norm y mu v g be = norm y' mu' v' g' be' := by rw [h0, h1, h2, h3, h4]

/-- The body's value at (p, q) of block t is that array's entry at the index K the block puts there. -/
theorem point_eq (c : Dev nD) (t : Fin cfg3.N) (p : Fin 4000) (q : Fin 128) (K : S100000x128.Idx)
    (hk0 : (K 0).val = t.val * 4000 + p.val) (hk1 : (K 1).val = q.val) :
    norm ((iblk3 V c 0 t : Vec Ideal S4000x128 .f32) (ix2 p q)) ((iblk3 V c 1 t : Vec Ideal S1x128 .f32) (ix2 (0 : Fin 1) q))
      ((iblk3 V c 2 t : Vec Ideal S1x128 .f32) (ix2 (0 : Fin 1) q)) ((iblk3 V c 3 t : Vec Ideal S1x128 .f32) (ix2 (0 : Fin 1) q))
      ((iblk3 V c 4 t : Vec Ideal S1x128 .f32) (ix2 (0 : Fin 1) q)) = G V c K := by
  have hq : (K 1 : Fin 128) = q := Fin.ext hk1
  show _ = norm ((V c (Pipeline.arrRef spec3 0) : S100000x128.Idx → EReal) K)
    ((V c (Pipeline.arrRef spec3 1) : S1x128.Idx → EReal) (ix2 (0 : Fin 1) (K 1 : Fin 128)))
    ((V c (Pipeline.arrRef spec3 2) : S1x128.Idx → EReal) (ix2 (0 : Fin 1) (K 1 : Fin 128)))
    ((V c (Pipeline.arrRef spec3 3) : S1x128.Idx → EReal) (ix2 (0 : Fin 1) (K 1 : Fin 128)))
    ((V c (Pipeline.arrRef spec3 4) : S1x128.Idx → EReal) (ix2 (0 : Fin 1) (K 1 : Fin 128)))
  rw [hq]
  exact norm_congr (blk0_apply V c t p q K hk0 hk1) (blk1_apply V c t q) (blk2_apply V c t q) (blk3_apply V c t q) (blk4_apply V c t q)

/-- What point t writes back is block t of that array. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S4000x128) hz, View.ld_unit_zero (S := S1x128) hz]
  obtain ⟨-, -, -, -, -, -, -, -, -, -, e50, e51⟩ := idx_facts t
  funext y
  obtain ⟨p, q, rfl⟩ : ∃ (p : Fin 4000) (q : Fin 128), y = ix2 p q := ⟨y 0, y 1, eq_ix2 y⟩
  refine (pay_apply (iblk3 V c 0 t) (iblk3 V c 1 t) (iblk3 V c 2 t) (iblk3 V c 3 t) (iblk3 V c 4 t) p q).trans ?_
  rw [View.read_apply]
  exact point_eq V c t p q _
    (by show win3_5.index t (0 : Fin 2) * 4000 + 1 * p.val = t.val * 4000 + p.val; rw [e50]; omega)
    (by show win3_5.index t (1 : Fin 2) * 128 + 1 * q.val = q.val; rw [e51]; omega)

/-- An index of the array is in point t's block iff each coordinate is in the block's range on its axis. -/
theorem mem_blk (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v86).slice (win3_5.rect t)).set ↔ _
  rw [View.set_slice_whole, Rect.mem_set_unit]
  exact Iff.rfl

/-- Row r is in the block of point r / 4000, which is written back. -/
theorem cover (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 25 := N_3
  have hlt : (i 0).val / 4000 < cfg3.N := lt_of_lt_of_eq (by omega : (i 0).val / 4000 < 25) hN.symm
  obtain ⟨-, -, -, -, -, -, -, -, -, -, e50, e51⟩ := idx_facts ⟨(i 0).val / 4000, hlt⟩
  refine ⟨⟨(i 0).val / 4000, hlt⟩, flush3_5 _, ?_⟩
  rw [mem_blk]
  intro a
  match a with
  | ⟨0, _⟩ =>
    show win3_5.index ⟨(i 0).val / 4000, hlt⟩ (0 : Fin 2) * 4000 ≤ (i 0).val ∧ (i 0).val < win3_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win3_5.index ⟨(i 0).val / 4000, hlt⟩ (1 : Fin 2) * 128 ≤ (i 1).val ∧ (i 1).val < win3_5.index ⟨(i 0).val / 4000, hlt⟩ (1 : Fin 2) * 128 + 128
    rw [e51]
    omega

/-- The output array after the region. -/
theorem final_fun (c : Dev nD) : (dat3 (F := Ideal) V c).arrAt 5 cfg3.N = G V c :=
  (dat3 (F := Ideal) V c).arrAt_eq_of_cover 5 (G V c) (fun t _ => flushed_eq V c t) cover

/-- The output array after the region, at (r, j). -/
theorem final (c : Dev nD) (r : Fin 100000) (j : Fin 128) :
    (dat3 (F := Ideal) V c).arrAt 5 cfg3.N (ix2 r j)
      = norm (V c (Pipeline.arrRef spec3 0) (ix2 r j)) (V c (Pipeline.arrRef spec3 1) (ix2 (0 : Fin 1) j)) (V c (Pipeline.arrRef spec3 2) (ix2 (0 : Fin 1) j))
          (V c (Pipeline.arrRef spec3 3) (ix2 (0 : Fin 1) j)) (V c (Pipeline.arrRef spec3 4) (ix2 (0 : Fin 1) j)) :=
  congrFun (final_fun V c) (ix2 r j)

end Cert.KValue.R3

end
-- ==== Proof.KNorm5.lean ====
/-
  The value of a layer's normalise-and-clamp region, entry by entry.

  The region walks the affine part (100000 rows, 128 columns) in 25 blocks of 4000 rows. At each block it reads the
  whole mean, variance, scale and shift rows and leaves, at row p and column j of the block,
      max (((y − μ j) · (v j + ε)^(-1/2)) · γ j + β j) 0,
  y the block's entry there. Block t is rows 4000·t … 4000·t + 3999 of the array, row r lies in the block numbered
  r / 4000, and every block is written back: so the output array ends holding that expression of the input arrays
  at every (r, j).
-/
import proofs.«158987_j88218628260833_1_alg».proof.Proof.Gen.KernelIdeal.Frame
import proofs.«158987_j88218628260833_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KValue.R5

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-- The two zero offsets of a whole-buffer access, as the constant function. -/
theorem hz : (![0, 0] : Fin 2 → Nat) = fun _ => 0 := funext fun a => by fin_cases a <;> rfl

/-- The body's stored value at row p, column j of the block: the block's entry normalised by the column's mean and
    variance, scaled, shifted and clamped below at 0. -/
theorem pay_apply (x0 : Vec Ideal S4000x128 .f32) (x1 x2 x3 x4 : Vec Ideal S1x128 .f32) (p : Fin 4000) (j : Fin 128) :
    k5_pay1 (F := Ideal) x2 x0 x1 x3 x4 (ix2 p j)
      = norm (x0 (ix2 p j)) (x1 (ix2 (0 : Fin 1) j)) (x2 (ix2 (0 : Fin 1) j)) (x3 (ix2 (0 : Fin 1) j)) (x4 (ix2 (0 : Fin 1) j)) := by
  unfold k5_pay1
  simp only [shapeCast_self]
  show max ((x0 (ix2 p j) - broadcastTo S4000x128 x1 broadcasts_S1x128_S4000x128 (ix2 p j))
        * broadcastTo S4000x128 (rsqrt (addf x2 (broadcast S1x128 (Scalar.ofBits (F := Ideal) .f32 0x3727C5AC#32)))) broadcasts_S1x128_S4000x128 (ix2 p j)
        * broadcastTo S4000x128 x3 broadcasts_S1x128_S4000x128 (ix2 p j)
        + broadcastTo S4000x128 x4 broadcasts_S1x128_S4000x128 (ix2 p j)) (Ideal.ofBits .f32 0x00000000#32) = _
  rw [broadcastTo_1b_ab_apply x1 broadcasts_S1x128_S4000x128 p j,
    broadcastTo_1b_ab_apply (rsqrt (addf x2 (broadcast S1x128 (Scalar.ofBits (F := Ideal) .f32 0x3727C5AC#32)))) broadcasts_S1x128_S4000x128 p j,
    broadcastTo_1b_ab_apply x3 broadcasts_S1x128_S4000x128 p j, broadcastTo_1b_ab_apply x4 broadcasts_S1x128_S4000x128 p j,
    Ideal.ofBits_zero_f32]
  rfl

/-- Where each window's block sits at grid point t: the affine part's and the output's block is block t of the rows, all
    columns; the four rows are read whole. Decided over the 25 points. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The affine part's block at point t is rows 4000·t … 4000·t + 3999 of its array. -/
theorem blk0_apply (c : Dev nD) (t : Fin cfg5.N) (p : Fin 4000) (q : Fin 128) (k : S100000x128.Idx)
    (hk0 : (k 0).val = t.val * 4000 + p.val) (hk1 : (k 1).val = q.val) :
    (iblk5 V c 0 t : Vec Ideal S4000x128 .f32) (ix2 p q) = (V c (Pipeline.arrRef spec5 0) : S100000x128.Idx → EReal) k := by
  obtain ⟨e0, e1, -⟩ := idx_facts t
  unfold iblk5
  rw [View.read_apply]
  refine congrArg (V c (Pipeline.arrRef spec5 0) : S100000x128.Idx → EReal) (funext fun a => Fin.ext ?_)
  match a with
  | ⟨0, _⟩ => show win5_0.index t (0 : Fin 2) * 4000 + 1 * p.val = (k 0).val; rw [e0, hk0]; omega
  | ⟨1, _⟩ => show win5_0.index t (1 : Fin 2) * 128 + 1 * q.val = (k 1).val; rw [e1, hk1]; omega

/-- Window 1's block at every point is its whole one-row array. -/
theorem blk1_apply (c : Dev nD) (t : Fin cfg5.N) (q : Fin 128) :
    (iblk5 V c 1 t : Vec Ideal S1x128 .f32) (ix2 (0 : Fin 1) q) = (V c (Pipeline.arrRef spec5 1) : S1x128.Idx → EReal) (ix2 (0 : Fin 1) q) := by
  obtain ⟨-, -, e10, e11, e20, e21, e30, e31, e40, e41, -⟩ := idx_facts t
  unfold iblk5
  rw [View.read_apply]
  refine congrArg (V c (Pipeline.arrRef spec5 1) : S1x128.Idx → EReal) (funext fun a => Fin.ext ?_)
  match a with
  | ⟨0, _⟩ => show win5_1.index t (0 : Fin 2) * 1 + 1 * 0 = 0; rw [e10]
  | ⟨1, _⟩ => show win5_1.index t (1 : Fin 2) * 128 + 1 * q.val = q.val; rw [e11]; omega

/-- Window 2's block at every point is its whole one-row array. -/
theorem blk2_apply (c : Dev nD) (t : Fin cfg5.N) (q : Fin 128) :
    (iblk5 V c 2 t : Vec Ideal S1x128 .f32) (ix2 (0 : Fin 1) q) = (V c (Pipeline.arrRef spec5 2) : S1x128.Idx → EReal) (ix2 (0 : Fin 1) q) := by
  obtain ⟨-, -, e10, e11, e20, e21, e30, e31, e40, e41, -⟩ := idx_facts t
  unfold iblk5
  rw [View.read_apply]
  refine congrArg (V c (Pipeline.arrRef spec5 2) : S1x128.Idx → EReal) (funext fun a => Fin.ext ?_)
  match a with
  | ⟨0, _⟩ => show win5_2.index t (0 : Fin 2) * 1 + 1 * 0 = 0; rw [e20]
  | ⟨1, _⟩ => show win5_2.index t (1 : Fin 2) * 128 + 1 * q.val = q.val; rw [e21]; omega

/-- Window 3's block at every point is its whole one-row array. -/
theorem blk3_apply (c : Dev nD) (t : Fin cfg5.N) (q : Fin 128) :
    (iblk5 V c 3 t : Vec Ideal S1x128 .f32) (ix2 (0 : Fin 1) q) = (V c (Pipeline.arrRef spec5 3) : S1x128.Idx → EReal) (ix2 (0 : Fin 1) q) := by
  obtain ⟨-, -, e10, e11, e20, e21, e30, e31, e40, e41, -⟩ := idx_facts t
  unfold iblk5
  rw [View.read_apply]
  refine congrArg (V c (Pipeline.arrRef spec5 3) : S1x128.Idx → EReal) (funext fun a => Fin.ext ?_)
  match a with
  | ⟨0, _⟩ => show win5_3.index t (0 : Fin 2) * 1 + 1 * 0 = 0; rw [e30]
  | ⟨1, _⟩ => show win5_3.index t (1 : Fin 2) * 128 + 1 * q.val = q.val; rw [e31]; omega

/-- Window 4's block at every point is its whole one-row array. -/
theorem blk4_apply (c : Dev nD) (t : Fin cfg5.N) (q : Fin 128) :
    (iblk5 V c 4 t : Vec Ideal S1x128 .f32) (ix2 (0 : Fin 1) q) = (V c (Pipeline.arrRef spec5 4) : S1x128.Idx → EReal) (ix2 (0 : Fin 1) q) := by
  obtain ⟨-, -, e10, e11, e20, e21, e30, e31, e40, e41, -⟩ := idx_facts t
  unfold iblk5
  rw [View.read_apply]
  refine congrArg (V c (Pipeline.arrRef spec5 4) : S1x128.Idx → EReal) (funext fun a => Fin.ext ?_)
  match a with
  | ⟨0, _⟩ => show win5_4.index t (0 : Fin 2) * 1 + 1 * 0 = 0; rw [e40]
  | ⟨1, _⟩ => show win5_4.index t (1 : Fin 2) * 128 + 1 * q.val = q.val; rw [e41]; omega

/-- What the output array ends holding: at (r, j) the affine part's entry normalised by column j's mean and variance,
    scaled, shifted and clamped — of the arrays as the region finds them. -/
abbrev G (c : Dev nD) : S100000x128.Idx → EReal := fun i =>
  norm ((V c (Pipeline.arrRef spec5 0) : S100000x128.Idx → EReal) i)
    ((V c (Pipeline.arrRef spec5 1) : S1x128.Idx → EReal) (ix2 (0 : Fin 1) (i 1 : Fin 128)))
    ((V c (Pipeline.arrRef spec5 2) : S1x128.Idx → EReal) (ix2 (0 : Fin 1) (i 1 : Fin 128)))
    ((V c (Pipeline.arrRef spec5 3) : S1x128.Idx → EReal) (ix2 (0 : Fin 1) (i 1 : Fin 128)))
    ((V c (Pipeline.arrRef spec5 4) : S1x128.Idx → EReal) (ix2 (0 : Fin 1) (i 1 : Fin 128)))

/-- Equal arguments give equal normalised values. -/
theorem norm_congr {y y' mu mu' v v' g g' be be' : EReal} (h0 : y = y') (h1 : mu = mu') (h2 : v = v') (h3 : g = g') (h4 : be = be') :
    norm y mu v g be = norm y' mu' v' g' be' := by rw [h0, h1, h2, h3, h4]

/-- The body's value at (p, q) of block t is that array's entry at the index K the block puts there. -/
theorem point_eq (c : Dev nD) (t : Fin cfg5.N) (p : Fin 4000) (q : Fin 128) (K : S100000x128.Idx)
    (hk0 : (K 0).val = t.val * 4000 + p.val) (hk1 : (K 1).val = q.val) :
    norm ((iblk5 V c 0 t : Vec Ideal S4000x128 .f32) (ix2 p q)) ((iblk5 V c 1 t : Vec Ideal S1x128 .f32) (ix2 (0 : Fin 1) q))
      ((iblk5 V c 2 t : Vec Ideal S1x128 .f32) (ix2 (0 : Fin 1) q)) ((iblk5 V c 3 t : Vec Ideal S1x128 .f32) (ix2 (0 : Fin 1) q))
      ((iblk5 V c 4 t : Vec Ideal S1x128 .f32) (ix2 (0 : Fin 1) q)) = G V c K := by
  have hq : (K 1 : Fin 128) = q := Fin.ext hk1
  show _ = norm ((V c (Pipeline.arrRef spec5 0) : S100000x128.Idx → EReal) K)
    ((V c (Pipeline.arrRef spec5 1) : S1x128.Idx → EReal) (ix2 (0 : Fin 1) (K 1 : Fin 128)))
    ((V c (Pipeline.arrRef spec5 2) : S1x128.Idx → EReal) (ix2 (0 : Fin 1) (K 1 : Fin 128)))
    ((V c (Pipeline.arrRef spec5 3) : S1x128.Idx → EReal) (ix2 (0 : Fin 1) (K 1 : Fin 128)))
    ((V c (Pipeline.arrRef spec5 4) : S1x128.Idx → EReal) (ix2 (0 : Fin 1) (K 1 : Fin 128)))
  rw [hq]
  exact norm_congr (blk0_apply V c t p q K hk0 hk1) (blk1_apply V c t q) (blk2_apply V c t q) (blk3_apply V c t q) (blk4_apply V c t q)

/-- What point t writes back is block t of that array. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero hz]
  simp only [View.ld_unit_zero (S := S4000x128) hz, View.ld_unit_zero (S := S1x128) hz]
  obtain ⟨-, -, -, -, -, -, -, -, -, -, e50, e51⟩ := idx_facts t
  funext y
  obtain ⟨p, q, rfl⟩ : ∃ (p : Fin 4000) (q : Fin 128), y = ix2 p q := ⟨y 0, y 1, eq_ix2 y⟩
  refine (pay_apply (iblk5 V c 0 t) (iblk5 V c 1 t) (iblk5 V c 2 t) (iblk5 V c 3 t) (iblk5 V c 4 t) p q).trans ?_
  rw [View.read_apply]
  exact point_eq V c t p q _
    (by show win5_5.index t (0 : Fin 2) * 4000 + 1 * p.val = t.val * 4000 + p.val; rw [e50]; omega)
    (by show win5_5.index t (1 : Fin 2) * 128 + 1 * q.val = q.val; rw [e51]; omega)

/-- An index of the array is in point t's block iff each coordinate is in the block's range on its axis. -/
theorem mem_blk (t : Fin cfg5.N) (i : S100000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole main_v125).slice (win5_5.rect t)).set ↔ _
  rw [View.set_slice_whole, Rect.mem_set_unit]
  exact Iff.rfl

/-- Row r is in the block of point r / 4000, which is written back. -/
theorem cover (i : S100000x128.Idx) : ∃ t : Fin cfg5.N, (cfg5.win 5).flush t = true ∧ i ∈ ((cfg5.win 5).blk t).view.set := by
  have hi0 : (i 0).val < 100000 := idx2_lt0 i
  have hi1 : (i 1).val < 128 := idx2_lt1 i
  have hN : cfg5.N = 25 := N_5
  have hlt : (i 0).val / 4000 < cfg5.N := lt_of_lt_of_eq (by omega : (i 0).val / 4000 < 25) hN.symm
  obtain ⟨-, -, -, -, -, -, -, -, -, -, e50, e51⟩ := idx_facts ⟨(i 0).val / 4000, hlt⟩
  refine ⟨⟨(i 0).val / 4000, hlt⟩, flush5_5 _, ?_⟩
  rw [mem_blk]
  intro a
  match a with
  | ⟨0, _⟩ =>
    show win5_5.index ⟨(i 0).val / 4000, hlt⟩ (0 : Fin 2) * 4000 ≤ (i 0).val ∧ (i 0).val < win5_5.index ⟨(i 0).val / 4000, hlt⟩ (0 : Fin 2) * 4000 + 4000
    rw [e50]
    show (i 0).val / 4000 * 4000 ≤ (i 0).val ∧ (i 0).val < (i 0).val / 4000 * 4000 + 4000
    omega
  | ⟨1, _⟩ =>
    show win5_5.index ⟨(i 0).val / 4000, hlt⟩ (1 : Fin 2) * 128 ≤ (i 1).val ∧ (i 1).val < win5_5.index ⟨(i 0).val / 4000, hlt⟩ (1 : Fin 2) * 128 + 128
    rw [e51]
    omega

/-- The output array after the region. -/
theorem final_fun (c : Dev nD) : (dat5 (F := Ideal) V c).arrAt 5 cfg5.N = G V c :=
  (dat5 (F := Ideal) V c).arrAt_eq_of_cover 5 (G V c) (fun t _ => flushed_eq V c t) cover

/-- The output array after the region, at (r, j). -/
theorem final (c : Dev nD) (r : Fin 100000) (j : Fin 128) :
    (dat5 (F := Ideal) V c).arrAt 5 cfg5.N (ix2 r j)
      = norm (V c (Pipeline.arrRef spec5 0) (ix2 r j)) (V c (Pipeline.arrRef spec5 1) (ix2 (0 : Fin 1) j)) (V c (Pipeline.arrRef spec5 2) (ix2 (0 : Fin 1) j))
          (V c (Pipeline.arrRef spec5 3) (ix2 (0 : Fin 1) j)) (V c (Pipeline.arrRef spec5 4) (ix2 (0 : Fin 1) j)) :=
  congrFun (final_fun V c) (ix2 r j)

end Cert.KValue.R5

end
-- ==== Proof.KHead.lean ====
/-
  The value of the read-out head's region, entry by entry.

  The region has one grid point: it reads the pooled features (4096 graphs, 128 columns), the first weight matrix
  (128 by 64) and bias row, the second weight column (64 by 1) and its bias, all whole, and leaves for graph g
      Σₖ max (Σ_q H g q · W1 q k + b1 k) 0 · W2 k + b2.
  Each matrix product accumulates into a zero block, so it is the plain sum; the format changes around the products
  are the identity on the extended reals. The one block is the whole output column, written back at the one point.
-/
import proofs.«158987_j88218628260833_1_alg».proof.Proof.Gen.KernelIdeal.Frame
import proofs.«158987_j88218628260833_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KValue.R6

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-- The two zero offsets of a whole-buffer access, as the constant function. -/
theorem hz : (![0, 0] : Fin 2 → Nat) = fun _ => 0 := funext fun a => by fin_cases a <;> rfl

theorem mmA_l0 (i : S4096x64.Idx) (q : dot_S4096x128_S128x64_S4096x64_1_0_0_1_n_n.contr.Idx) : (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem mmA_l1 (i : S4096x64.Idx) (q : dot_S4096x128_S128x64_S4096x64_1_0_0_1_n_n.contr.Idx) : (dot_S4096x128_S128x64_S4096x64_1_0_0_1_n_n.lhsIdx i q 1).val = (q ⟨0, by decide⟩).val :=
  dot_S4096x128_S128x64_S4096x64_1_0_0_1_n_n.lhsIdx_val_of_single rfl i q
theorem mmA_r0 (i : S4096x64.Idx) (q : dot_S4096x128_S128x64_S4096x64_1_0_0_1_n_n.contr.Idx) : (dot_S4096x128_S128x64_S4096x64_1_0_0_1_n_n.rhsIdx i q 0).val = (q ⟨0, by decide⟩).val :=
  dot_S4096x128_S128x64_S4096x64_1_0_0_1_n_n.rhsIdx_val_of_single rfl i q
theorem mmA_r1 (i : S4096x64.Idx) (q : dot_S4096x128_S128x64_S4096x64_1_0_0_1_n_n.contr.Idx) : (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The first product into the zero block, at (g, k): Σ_q x g q · w q k. -/
theorem mmA (x : FVec Ideal S4096x128 .bf16) (w : FVec Ideal S128x64 .bf16) (g : Fin 4096) (j : Fin 64) :
    FloatOps.matmul dot_S4096x128_S128x64_S4096x64_1_0_0_1_n_n none x w (constant S4096x64 .f32 0x00000000#32) (ix2 g j)
      = ∑ k : Fin 128, x (ix2 g k) * w (ix2 k j) := by
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 g j) ((contrEquiv1 dot_S4096x128_S128x64_S4096x64_1_0_0_1_n_n 128 rfl rfl).symm k) = ix2 g k :=
    funext fun a => Fin.ext (by
      match a with
      | ⟨0, _⟩ => exact mmA_l0 _ _
      | ⟨1, _⟩ => exact (mmA_l1 _ _).trans hk)
  have er : dot_S4096x128_S128x64_S4096x64_1_0_0_1_n_n.rhsIdx (ix2 g j) ((contrEquiv1 dot_S4096x128_S128x64_S4096x64_1_0_0_1_n_n 128 rfl rfl).symm k) = ix2 k j :=
    funext fun a => Fin.ext (by
      match a with
      | ⟨0, _⟩ => exact (mmA_r0 _ _).trans hk
      | ⟨1, _⟩ => exact mmA_r1 _ _)
  rw [el, er]

theorem mmB_l0 (i : S4096x1.Idx) (q : dot_S4096x64_S64x1_S4096x1_1_0_0_1_n_n.contr.Idx) : (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem mmB_l1 (i : S4096x1.Idx) (q : dot_S4096x64_S64x1_S4096x1_1_0_0_1_n_n.contr.Idx) : (dot_S4096x64_S64x1_S4096x1_1_0_0_1_n_n.lhsIdx i q 1).val = (q ⟨0, by decide⟩).val :=
  dot_S4096x64_S64x1_S4096x1_1_0_0_1_n_n.lhsIdx_val_of_single rfl i q
theorem mmB_r0 (i : S4096x1.Idx) (q : dot_S4096x64_S64x1_S4096x1_1_0_0_1_n_n.contr.Idx) : (dot_S4096x64_S64x1_S4096x1_1_0_0_1_n_n.rhsIdx i q 0).val = (q ⟨0, by decide⟩).val :=
  dot_S4096x64_S64x1_S4096x1_1_0_0_1_n_n.rhsIdx_val_of_single rfl i q
theorem mmB_r1 (i : S4096x1.Idx) (q : dot_S4096x64_S64x1_S4096x1_1_0_0_1_n_n.contr.Idx) : (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- The second product into the zero block, at (g, o): Σₖ x g k · w k o. -/
theorem mmB (x : FVec Ideal S4096x64 .bf16) (w : FVec Ideal S64x1 .bf16) (g : Fin 4096) (j : Fin 1) :
    FloatOps.matmul dot_S4096x64_S64x1_S4096x1_1_0_0_1_n_n none x w (constant S4096x1 .f32 0x00000000#32) (ix2 g j)
      = ∑ k : Fin 64, x (ix2 g k) * w (ix2 k j) := by
  rw [Ideal.matmul_constant_zero_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 g j) ((contrEquiv1 dot_S4096x64_S64x1_S4096x1_1_0_0_1_n_n 64 rfl rfl).symm k) = ix2 g k :=
    funext fun a => Fin.ext (by
      match a with
      | ⟨0, _⟩ => exact mmB_l0 _ _
      | ⟨1, _⟩ => exact (mmB_l1 _ _).trans hk)
  have er : dot_S4096x64_S64x1_S4096x1_1_0_0_1_n_n.rhsIdx (ix2 g j) ((contrEquiv1 dot_S4096x64_S64x1_S4096x1_1_0_0_1_n_n 64 rfl rfl).symm k) = ix2 k j :=
    funext fun a => Fin.ext (by
      match a with
      | ⟨0, _⟩ => exact (mmB_r0 _ _).trans hk
      | ⟨1, _⟩ => exact mmB_r1 _ _)
  rw [el, er]

/-- The body's stored value for graph g: the hidden layer's clamped units weighted and summed, plus the bias. -/
theorem pay_apply (x0 : Vec Ideal S4096x128 .f32) (x1 : Vec Ideal S128x64 .f32) (x2 : Vec Ideal S1x64 .f32) (x3 : Vec Ideal S64x1 .f32)
    (x4 : Vec Ideal S1x1 .f32) (g : Fin 4096) (o : Fin 1) :
    k6_pay1 (F := Ideal) x0 x1 x2 x3 x4 (ix2 g o)
      = (∑ k : Fin 64, max ((∑ q : Fin 128, x0 (ix2 g q) * x1 (ix2 q k)) + x2 (ix2 (0 : Fin 1) k)) 0 * x3 (ix2 k o)) + x4 (ix2 (0 : Fin 1) o) := by
  unfold k6_pay1
  show FloatOps.matmul (F := Ideal) dot_S4096x64_S64x1_S4096x1_1_0_0_1_n_n none _ _ (constant (F := Ideal) S4096x1 .f32 0x00000000#32) (ix2 g o)
        + broadcastTo S4096x1 (shapeCast S1x1 x4 shapeCasts_S1x1_S1x1) broadcasts_S1x1_S4096x1 (ix2 g o) = _
  refine congrArg₂ (· + ·) ((mmB _ _ g o).trans (Finset.sum_congr rfl fun k _ => ?_)) ?_
  · show max (FloatOps.matmul (F := Ideal) dot_S4096x128_S128x64_S4096x64_1_0_0_1_n_n none _ _ (constant (F := Ideal) S4096x64 .f32 0x00000000#32) (ix2 g k)
          + broadcastTo S4096x64 (shapeCast S1x64 x2 shapeCasts_S1x64_S1x64) broadcasts_S1x64_S4096x64 (ix2 g k)) (Ideal.ofBits .f32 0x00000000#32)
        * x3 (ix2 k o) = _
    refine congrArg₂ (· * ·) (congrArg₂ max (congrArg₂ (· + ·) ((mmA _ _ g k).trans (Finset.sum_congr rfl fun q _ => ?_)) ?_) Ideal.ofBits_zero_f32) rfl
    · show (shapeCast S4096x128 x0 shapeCasts_S4096x128_S4096x128) (ix2 g q) * x1 (ix2 q k) = _
      rw [shapeCast_self]
    · rw [shapeCast_self]
      exact broadcastTo_1b_ab_apply x2 broadcasts_S1x64_S4096x64 g k
  · rw [shapeCast_self]
    exact broadcastTo_1b_ab_apply x4 broadcasts_S1x1_S4096x1 g o

/-- At the one grid point every window's block is block (0, 0). Decided over the grid. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's one block is its whole array. -/
theorem blk0_eq (c : Dev nD) (t : Fin cfg6.N) :
    (iblk6 V c 0 t : Vec Ideal S4096x128 .f32) = (V c (Pipeline.arrRef spec6 0) : S4096x128.Idx → EReal) := by
  obtain ⟨e00, e01, e10, e11, e20, e21, e30, e31, e40, e41, -⟩ := idx_facts t
  funext y
  unfold iblk6
  rw [View.read_apply]
  refine congrArg (V c (Pipeline.arrRef spec6 0) : S4096x128.Idx → EReal) (funext fun a => Fin.ext ?_)
  match a with
  | ⟨0, _⟩ => show win6_0.index t (0 : Fin 2) * 4096 + 1 * (y 0).val = (y 0).val; rw [e00]; omega
  | ⟨1, _⟩ => show win6_0.index t (1 : Fin 2) * 128 + 1 * (y 1).val = (y 1).val; rw [e01]; omega

/-- Window 1's one block is its whole array. -/
theorem blk1_eq (c : Dev nD) (t : Fin cfg6.N) :
    (iblk6 V c 1 t : Vec Ideal S128x64 .f32) = (V c (Pipeline.arrRef spec6 1) : S128x64.Idx → EReal) := by
  obtain ⟨e00, e01, e10, e11, e20, e21, e30, e31, e40, e41, -⟩ := idx_facts t
  funext y
  unfold iblk6
  rw [View.read_apply]
  refine congrArg (V c (Pipeline.arrRef spec6 1) : S128x64.Idx → EReal) (funext fun a => Fin.ext ?_)
  match a with
  | ⟨0, _⟩ => show win6_1.index t (0 : Fin 2) * 128 + 1 * (y 0).val = (y 0).val; rw [e10]; omega
  | ⟨1, _⟩ => show win6_1.index t (1 : Fin 2) * 64 + 1 * (y 1).val = (y 1).val; rw [e11]; omega

/-- Window 2's one block is its whole array. -/
theorem blk2_eq (c : Dev nD) (t : Fin cfg6.N) :
    (iblk6 V c 2 t : Vec Ideal S1x64 .f32) = (V c (Pipeline.arrRef spec6 2) : S1x64.Idx → EReal) := by
  obtain ⟨e00, e01, e10, e11, e20, e21, e30, e31, e40, e41, -⟩ := idx_facts t
  funext y
  unfold iblk6
  rw [View.read_apply]
  refine congrArg (V c (Pipeline.arrRef spec6 2) : S1x64.Idx → EReal) (funext fun a => Fin.ext ?_)
  match a with
  | ⟨0, _⟩ => show win6_2.index t (0 : Fin 2) * 1 + 1 * (y 0).val = (y 0).val; rw [e20]; omega
  | ⟨1, _⟩ => show win6_2.index t (1 : Fin 2) * 64 + 1 * (y 1).val = (y 1).val; rw [e21]; omega

/-- Window 3's one block is its whole array. -/
theorem blk3_eq (c : Dev nD) (t : Fin cfg6.N) :
    (iblk6 V c 3 t : Vec Ideal S64x1 .f32) = (V c (Pipeline.arrRef spec6 3) : S64x1.Idx → EReal) := by
  obtain ⟨e00, e01, e10, e11, e20, e21, e30, e31, e40, e41, -⟩ := idx_facts t
  funext y
  unfold iblk6
  rw [View.read_apply]
  refine congrArg (V c (Pipeline.arrRef spec6 3) : S64x1.Idx → EReal) (funext fun a => Fin.ext ?_)
  match a with
  | ⟨0, _⟩ => show win6_3.index t (0 : Fin 2) * 64 + 1 * (y 0).val = (y 0).val; rw [e30]; omega
  | ⟨1, _⟩ => show win6_3.index t (1 : Fin 2) * 1 + 1 * (y 1).val = (y 1).val; rw [e31]; omega

/-- Window 4's one block is its whole array. -/
theorem blk4_eq (c : Dev nD) (t : Fin cfg6.N) :
    (iblk6 V c 4 t : Vec Ideal S1x1 .f32) = (V c (Pipeline.arrRef spec6 4) : S1x1.Idx → EReal) := by
  obtain ⟨e00, e01, e10, e11, e20, e21, e30, e31, e40, e41, -⟩ := idx_facts t
  funext y
  unfold iblk6
  rw [View.read_apply]
  refine congrArg (V c (Pipeline.arrRef spec6 4) : S1x1.Idx → EReal) (funext fun a => Fin.ext ?_)
  match a with
  | ⟨0, _⟩ => show win6_4.index t (0 : Fin 2) * 1 + 1 * (y 0).val = (y 0).val; rw [e40]; omega
  | ⟨1, _⟩ => show win6_4.index t (1 : Fin 2) * 1 + 1 * (y 1).val = (y 1).val; rw [e41]; omega

/-- What the output column ends holding: for graph g the head of the arrays as the region finds them. -/
abbrev G (c : Dev nD) : S4096x1.Idx → EReal := fun i =>
  head (fun g q => (V c (Pipeline.arrRef spec6 0) : S4096x128.Idx → EReal) (ix2 g q))
    (fun q k => (V c (Pipeline.arrRef spec6 1) : S128x64.Idx → EReal) (ix2 q k))
    (fun k => (V c (Pipeline.arrRef spec6 2) : S1x64.Idx → EReal) (ix2 (0 : Fin 1) k))
    (fun k => (V c (Pipeline.arrRef spec6 3) : S64x1.Idx → EReal) (ix2 k (0 : Fin 1)))
    ((V c (Pipeline.arrRef spec6 4) : S1x1.Idx → EReal) (ix2 (0 : Fin 1) (0 : Fin 1))) (i 0 : Fin 4096)

/-- What the one point writes back is the one block of that column. -/
theorem flushed_eq (c : Dev nD) (t : Fin cfg6.N) :
    (dat6 (F := Ideal) V c).flushed 5 t = ((cfg6.win 5).blk t).view.read (Elt Ideal) (G V c) := by
  show (cfg6.win 5).cut (grid6.coords t) ((dat6 (F := Ideal) V c).after 5 t) = _
  rw [after6_5]
  unfold out6_5
  rw [View.canon_unit_zero hz]
  simp only [View.ld_unit_zero (S := S4096x128) hz, View.ld_unit_zero (S := S128x64) hz, View.ld_unit_zero (S := S1x64) hz,
    View.ld_unit_zero (S := S64x1) hz, View.ld_unit_zero (S := S1x1) hz]
  obtain ⟨-, -, -, -, -, -, -, -, -, -, e50, e51⟩ := idx_facts t
  funext y
  obtain ⟨g, o, rfl⟩ : ∃ (g : Fin 4096) (o : Fin 1), y = ix2 g o := ⟨y 0, y 1, eq_ix2 y⟩
  obtain rfl : o = 0 := Subsingleton.elim _ _
  refine (pay_apply (iblk6 V c 0 t) (iblk6 V c 1 t) (iblk6 V c 2 t) (iblk6 V c 3 t) (iblk6 V c 4 t) g 0).trans ?_
  rw [blk0_eq V c t, blk1_eq V c t, blk2_eq V c t, blk3_eq V c t, blk4_eq V c t, View.read_apply]
  have hg : ((((cfg6.win 5).blk t).view.emb (ix2 g (0 : Fin 1))) 0 : Fin 4096) = g :=
    Fin.ext (by show win6_5.index t (0 : Fin 2) * 4096 + 1 * g.val = g.val; rw [e50]; omega)
  show _ = head _ _ _ _ _ ((((cfg6.win 5).blk t).view.emb (ix2 g (0 : Fin 1))) 0 : Fin 4096)
  rw [hg]
  rfl

/-- An index of the column is in the one point's block iff each coordinate is in the block's range on its axis. -/
theorem mem_blk (t : Fin cfg6.N) (i : S4096x1.Idx) :
    i ∈ ((cfg6.win 5).blk t).view.set ↔ ∀ a : Fin 2, win6_5.index t a * S4096x1.size a ≤ (i a).val ∧ (i a).val < win6_5.index t a * S4096x1.size a + S4096x1.size a := by
  show i ∈ ((View.whole main_v140).slice (win6_5.rect t)).set ↔ _
  rw [View.set_slice_whole, Rect.mem_set_unit]
  exact Iff.rfl

/-- Every index is in the one block, which is written back. -/
theorem cover (i : S4096x1.Idx) : ∃ t : Fin cfg6.N, (cfg6.win 5).flush t = true ∧ i ∈ ((cfg6.win 5).blk t).view.set := by
  have hi0 : (i 0).val < 4096 := idx2_lt0 i
  have hi1 : (i 1).val < 1 := idx2_lt1 i
  have hN : cfg6.N = 1 := N_6
  have hlt : 0 < cfg6.N := lt_of_lt_of_eq Nat.one_pos hN.symm
  obtain ⟨-, -, -, -, -, -, -, -, -, -, e50, e51⟩ := idx_facts ⟨0, hlt⟩
  refine ⟨⟨0, hlt⟩, flush6_5 _, ?_⟩
  rw [mem_blk]
  intro a
  match a with
  | ⟨0, _⟩ =>
    show win6_5.index ⟨0, hlt⟩ (0 : Fin 2) * 4096 ≤ (i 0).val ∧ (i 0).val < win6_5.index ⟨0, hlt⟩ (0 : Fin 2) * 4096 + 4096
    rw [e50]; omega
  | ⟨1, _⟩ =>
    show win6_5.index ⟨0, hlt⟩ (1 : Fin 2) * 1 ≤ (i 1).val ∧ (i 1).val < win6_5.index ⟨0, hlt⟩ (1 : Fin 2) * 1 + 1
    rw [e51]; omega

/-- The output column after the region. -/
theorem final_fun (c : Dev nD) : (dat6 (F := Ideal) V c).arrAt 5 cfg6.N = G V c :=
  (dat6 (F := Ideal) V c).arrAt_eq_of_cover 5 (G V c) (fun t _ => flushed_eq V c t) cover

/-- The output column after the region, for graph g. -/
theorem final (c : Dev nD) (g : Fin 4096) :
    (dat6 (F := Ideal) V c).arrAt 5 cfg6.N (ix2 g (0 : Fin 1))
      = head (fun g q => V c (Pipeline.arrRef spec6 0) (ix2 g q)) (fun q k => V c (Pipeline.arrRef spec6 1) (ix2 q k)) (fun k => V c (Pipeline.arrRef spec6 2) (ix2 (0 : Fin 1) k))
          (fun k => V c (Pipeline.arrRef spec6 3) (ix2 k (0 : Fin 1))) (V c (Pipeline.arrRef spec6 4) (ix2 (0 : Fin 1) (0 : Fin 1))) g :=
  congrFun (final_fun V c) (ix2 g (0 : Fin 1))

end Cert.KValue.R6

end
-- ==== Proof.Bridge.lean ====
import proofs.«158987_j88218628260833_1_alg».proof.Proof.Gen.KernelIdeal.Frame
import proofs.«158987_j88218628260833_1_alg».proof.Proof.Spec
import proofs.«158987_j88218628260833_1_alg».proof.Proof.LayerMath
import proofs.«158987_j88218628260833_1_alg».proof.Proof.LayerStep
import proofs.«158987_j88218628260833_1_alg».proof.Proof.RefRead
import proofs.«158987_j88218628260833_1_alg».proof.Proof.RefLayers
import proofs.«158987_j88218628260833_1_alg».proof.Proof.RefAggReal
import proofs.«158987_j88218628260833_1_alg».proof.Proof.KHost
import proofs.«158987_j88218628260833_1_alg».proof.Proof.KParams
import proofs.«158987_j88218628260833_1_alg».proof.Proof.KSame
import proofs.«158987_j88218628260833_1_alg».proof.Proof.KLin0
import proofs.«158987_j88218628260833_1_alg».proof.Proof.KLin2
import proofs.«158987_j88218628260833_1_alg».proof.Proof.KLin4
import proofs.«158987_j88218628260833_1_alg».proof.Proof.KNorm1
import proofs.«158987_j88218628260833_1_alg».proof.Proof.KNorm3
import proofs.«158987_j88218628260833_1_alg».proof.Proof.KNorm5
import proofs.«158987_j88218628260833_1_alg».proof.Proof.KHead
import Idealize.ShloMosaic.Lib.ValueIdx

noncomputable section

open scoped BigOperators

namespace Cert.Bridge

open Cert.KernelIdeal Cert.KernelIdeal.Gen Idealize.ShloMosaic Idealize.ShloMosaic.ValueIdx Idealize.ShloMosaic.TcCoe Idealize.SL.Sem
open Cert.ReferenceIdeal.ReadP Cert.KValue.Host

variable (m : (ℓ : Loc nD τ sig) → Buf (Elt Ideal) ℓ) (ρ : Dev nD → PrngReg) (c : Dev nD)

/-!
  The kernel program's buffers, boundary by boundary, are the reference program's stages of the same arguments:
  the aggregation and pooling lines are the same operations on both sides; each layer's affine kernel and
  normalising kernel together compute the reference's layer (the two ways of writing a variance agree on reals,
  which is why every table along the way is shown real-valued); the head is the same formula on both sides.
-/

/-- Every entry of the first six float argument arrays (the features and the layer parameters) is a real number. -/
structure RealArgs : Prop where
  h0 : ∀ i, ∃ r : ℝ, m ((c : Thread nD τ).loc main_arg0) i = (r : EReal)
  h1 : ∀ i, ∃ r : ℝ, m ((c : Thread nD τ).loc main_arg1) i = (r : EReal)
  h2 : ∀ i, ∃ r : ℝ, m ((c : Thread nD τ).loc main_arg2) i = (r : EReal)
  h3 : ∀ i, ∃ r : ℝ, m ((c : Thread nD τ).loc main_arg3) i = (r : EReal)
  h4 : ∀ i, ∃ r : ℝ, m ((c : Thread nD τ).loc main_arg4) i = (r : EReal)
  h5 : ∀ i, ∃ r : ℝ, m ((c : Thread nD τ).loc main_arg5) i = (r : EReal)

/-! ## Layer 1 -/

/-- The inputs of layer 1's affine part are real. -/
theorem real_in1 (hr : RealArgs m c) :
    Cert.Spec.IsReal (fun (r : Fin 100000) (k : Fin 128) => val_main_v20 (F := Ideal) (m ((c : Thread nD τ).loc main_arg0)) (m ((c : Thread nD τ).loc main_arg10)) (m ((c : Thread nD τ).loc main_arg11)) (ix2 r k)) ∧ Cert.Spec.IsReal (fun (r : Fin 100000) (k : Fin 128) => (m ((c : Thread nD τ).loc main_arg0)) (ix2 r k)) ∧ Cert.Spec.IsReal (fun (k j : Fin 128) => (m ((c : Thread nD τ).loc main_arg1)) (ix3 (0 : Fin 3) k j)) ∧ Cert.Spec.IsReal (fun (k j : Fin 128) => (m ((c : Thread nD τ).loc main_arg2)) (ix3 (0 : Fin 3) k j)) ∧ Cert.Spec.IsRealRow (fun (j : Fin 128) => (m ((c : Thread nD τ).loc main_arg3)) (ix2 (0 : Fin 3) j))
      ∧ Cert.Spec.IsRealRow (fun (j : Fin 128) => (m ((c : Thread nD τ).loc main_arg4)) (ix2 (0 : Fin 3) j)) ∧ Cert.Spec.IsRealRow (fun (j : Fin 128) => (m ((c : Thread nD τ).loc main_arg5)) (ix2 (0 : Fin 3) j)) :=
  ⟨fun r k => Cert.RefAggReal.agg1_real _ _ _ hr.h0 (ix2 r k), fun r k => hr.h0 (ix2 r k), fun k j => hr.h1 (ix3 _ k j), fun k j => hr.h2 (ix3 _ k j), fun j => hr.h3 (ix2 _ j), fun j => hr.h4 (ix2 _ j), fun j => hr.h5 (ix2 _ j)⟩

/-- The reference's layer-1 output is real-valued. -/
theorem x1_real (hr : RealArgs m c) : ∀ i, ∃ x : ℝ, val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) i = (x : EReal) := by
  intro i
  obtain ⟨r, j, rfl⟩ : ∃ (r : Fin 100000) (j : Fin 128), i = ix2 r j := ⟨i 0, i 1, eq_ix2 i⟩
  obtain ⟨hA, hX, hWl, hWr, hb, hg, hbe⟩ := real_in1 m c hr
  rw [Cert.RefLayers.layer1]
  exact Cert.LayerMath.layerR_isReal Cert.LayerStep.card_rows hA hX hWl hWr hb hg hbe r j

set_option maxHeartbeats 4000000 in
/-- The kernel's layer-1 output entry is the reference's. -/
theorem x1_eq (hr : RealArgs m c) (r : Fin 100000) (j : Fin 128) :
    W4 m ρ c (Proc.devRef .tc main_v47) (ix2 r j) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r j) := by
  obtain ⟨hA, hX, hWl, hWr, hb, hg, hbe⟩ := real_in1 m c hr
  rw [Cert.RefLayers.layer1]
  have eA : (fun (r : Fin 100000) (k : Fin 128) => V1 m ρ c (Pipeline.arrRef spec0 0) (ix2 r k)) = (fun (r : Fin 100000) (k : Fin 128) => val_main_v20 (F := Ideal) (m ((c : Thread nD τ).loc main_arg0)) (m ((c : Thread nD τ).loc main_arg10)) (m ((c : Thread nD τ).loc main_arg11)) (ix2 r k)) := by
    funext r k
    show W1 m ρ c (Proc.devRef .tc main_v20) (ix2 r k) = _
    rw [Cert.KValue.Same.agg1_eq m ρ c]
  have eX : (fun (r : Fin 100000) (k : Fin 128) => V1 m ρ c (Pipeline.arrRef spec0 1) (ix2 r k)) = (fun (r : Fin 100000) (k : Fin 128) => (m ((c : Thread nD τ).loc main_arg0)) (ix2 r k)) := by
    funext r k
    show W1 m ρ c (Proc.devRef .tc main_arg0) (ix2 r k) = _
    rw [W1_arg0 m ρ c]
  have eWl : (fun (k j : Fin 128) => V1 m ρ c (Pipeline.arrRef spec0 2) (ix2 k j)) = (fun (k j : Fin 128) => (m ((c : Thread nD τ).loc main_arg1)) (ix3 (0 : Fin 3) k j)) := by
    funext k j; exact Cert.KValue.Params.wl1 m ρ c k j
  have eWr : (fun (k j : Fin 128) => V1 m ρ c (Pipeline.arrRef spec0 3) (ix2 k j)) = (fun (k j : Fin 128) => (m ((c : Thread nD τ).loc main_arg2)) (ix3 (0 : Fin 3) k j)) := by
    funext k j; exact Cert.KValue.Params.wr1 m ρ c k j
  have eb : (fun (j : Fin 128) => V1 m ρ c (Pipeline.arrRef spec0 4) (ix2 (0 : Fin 1) j)) = (fun (j : Fin 128) => (m ((c : Thread nD τ).loc main_arg3)) (ix2 (0 : Fin 3) j)) := by
    funext j; exact Cert.KValue.Params.b1 m ρ c j
  have hxlin : ∀ r j, W3 m ρ c (Proc.devRef .tc main_v28_0) (ix2 r j) = Cert.Spec.lin (fun (r : Fin 100000) (k : Fin 128) => val_main_v20 (F := Ideal) (m ((c : Thread nD τ).loc main_arg0)) (m ((c : Thread nD τ).loc main_arg10)) (m ((c : Thread nD τ).loc main_arg11)) (ix2 r k)) (fun (r : Fin 100000) (k : Fin 128) => (m ((c : Thread nD τ).loc main_arg0)) (ix2 r k)) (fun (k j : Fin 128) => (m ((c : Thread nD τ).loc main_arg1)) (ix3 (0 : Fin 3) k j)) (fun (k j : Fin 128) => (m ((c : Thread nD τ).loc main_arg2)) (ix3 (0 : Fin 3) k j)) (fun (j : Fin 128) => (m ((c : Thread nD τ).loc main_arg3)) (ix2 (0 : Fin 3) j)) r j := by
    intro r j
    rw [W3_v28_0 m ρ c, show W2 m ρ c (Proc.devRef .tc main_v28_0) = (dat0 (F := Ideal) (V1 m ρ) c).arrAt 5 cfg0.N from (hF0 m ρ c 5).symm,
      Cert.KValue.Lin0.final5 (V1 m ρ) c r j, eA, eX, eWl, eWr, eb]
  have hst0 : ∀ j, W2 m ρ c (Proc.devRef .tc main_v28_1) (ix2 (0 : Fin 2) j) = Cert.Spec.colSum (Cert.Spec.lin (fun (r : Fin 100000) (k : Fin 128) => val_main_v20 (F := Ideal) (m ((c : Thread nD τ).loc main_arg0)) (m ((c : Thread nD τ).loc main_arg10)) (m ((c : Thread nD τ).loc main_arg11)) (ix2 r k)) (fun (r : Fin 100000) (k : Fin 128) => (m ((c : Thread nD τ).loc main_arg0)) (ix2 r k)) (fun (k j : Fin 128) => (m ((c : Thread nD τ).loc main_arg1)) (ix3 (0 : Fin 3) k j)) (fun (k j : Fin 128) => (m ((c : Thread nD τ).loc main_arg2)) (ix3 (0 : Fin 3) k j)) (fun (j : Fin 128) => (m ((c : Thread nD τ).loc main_arg3)) (ix2 (0 : Fin 3) j))) j := by
    intro j
    rw [show W2 m ρ c (Proc.devRef .tc main_v28_1) = (dat0 (F := Ideal) (V1 m ρ) c).arrAt 6 cfg0.N from (hF0 m ρ c 6).symm,
      Cert.KValue.Lin0.final6_row0 (V1 m ρ) c j, eA, eX, eWl, eWr, eb]
  have hst1 : ∀ j, W2 m ρ c (Proc.devRef .tc main_v28_1) (ix2 (1 : Fin 2) j)
      = Cert.Spec.colSum (fun r j => Cert.Spec.lin (fun (r : Fin 100000) (k : Fin 128) => val_main_v20 (F := Ideal) (m ((c : Thread nD τ).loc main_arg0)) (m ((c : Thread nD τ).loc main_arg10)) (m ((c : Thread nD τ).loc main_arg11)) (ix2 r k)) (fun (r : Fin 100000) (k : Fin 128) => (m ((c : Thread nD τ).loc main_arg0)) (ix2 r k)) (fun (k j : Fin 128) => (m ((c : Thread nD τ).loc main_arg1)) (ix3 (0 : Fin 3) k j)) (fun (k j : Fin 128) => (m ((c : Thread nD τ).loc main_arg2)) (ix3 (0 : Fin 3) k j)) (fun (j : Fin 128) => (m ((c : Thread nD τ).loc main_arg3)) (ix2 (0 : Fin 3) j)) r j * Cert.Spec.lin (fun (r : Fin 100000) (k : Fin 128) => val_main_v20 (F := Ideal) (m ((c : Thread nD τ).loc main_arg0)) (m ((c : Thread nD τ).loc main_arg10)) (m ((c : Thread nD τ).loc main_arg11)) (ix2 r k)) (fun (r : Fin 100000) (k : Fin 128) => (m ((c : Thread nD τ).loc main_arg0)) (ix2 r k)) (fun (k j : Fin 128) => (m ((c : Thread nD τ).loc main_arg1)) (ix3 (0 : Fin 3) k j)) (fun (k j : Fin 128) => (m ((c : Thread nD τ).loc main_arg2)) (ix3 (0 : Fin 3) k j)) (fun (j : Fin 128) => (m ((c : Thread nD τ).loc main_arg3)) (ix2 (0 : Fin 3) j)) r j) j := by
    intro j
    rw [show W2 m ρ c (Proc.devRef .tc main_v28_1) = (dat0 (F := Ideal) (V1 m ρ) c).arrAt 6 cfg0.N from (hF0 m ρ c 6).symm,
      Cert.KValue.Lin0.final6_row1 (V1 m ρ) c j, eA, eX, eWl, eWr, eb]
  rw [show W4 m ρ c (Proc.devRef .tc main_v47) = (dat1 (F := Ideal) (V3 m ρ) c).arrAt 5 cfg1.N from (hF1 m ρ c 5).symm]
  refine (Cert.KValue.R1.final (V3 m ρ) c r j).trans ?_
  exact Cert.LayerStep.layer_step (fun (j : Fin 128) => (m ((c : Thread nD τ).loc main_arg4)) (ix2 (0 : Fin 3) j)) (fun (j : Fin 128) => (m ((c : Thread nD τ).loc main_arg5)) (ix2 (0 : Fin 3) j)) hA hX hWl hWr hb
    (fun r j => W3 m ρ c (Proc.devRef .tc main_v28_0) (ix2 r j))
    (fun j => W2 m ρ c (Proc.devRef .tc main_v28_1) (ix2 (0 : Fin 2) j))
    (fun j => W2 m ρ c (Proc.devRef .tc main_v28_1) (ix2 (1 : Fin 2) j))
    (fun j => W3 m ρ c (Proc.devRef .tc main_v43) (ix2 (0 : Fin 1) j))
    (fun j => W3 m ρ c (Proc.devRef .tc main_v44) (ix2 (0 : Fin 1) j))
    (fun j => W3 m ρ c (Proc.devRef .tc main_v45) (ix2 (0 : Fin 1) j))
    (fun j => W3 m ρ c (Proc.devRef .tc main_v46) (ix2 (0 : Fin 1) j))
    hxlin hst0 hst1 (Cert.KValue.Params.mean1 m ρ c) (Cert.KValue.Params.var1 m ρ c) (Cert.KValue.Params.g1 m ρ c) (Cert.KValue.Params.be1 m ρ c) r j

/-- So the whole layer-1 output buffer is the reference's stage. -/
theorem x1_fun (hr : RealArgs m c) :
    W4 m ρ c (Proc.devRef .tc main_v47) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  funext i
  obtain ⟨r, j, rfl⟩ : ∃ (r : Fin 100000) (j : Fin 128), i = ix2 r j := ⟨i 0, i 1, eq_ix2 i⟩
  exact x1_eq m ρ c hr r j

/-! ## Layer 2 -/

/-- The inputs of layer 2's affine part are real. -/
theorem real_in2 (hr : RealArgs m c) :
    Cert.Spec.IsReal (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) ∧ Cert.Spec.IsReal (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) ∧ Cert.Spec.IsReal (fun (k j : Fin 128) => (m ((c : Thread nD τ).loc main_arg1)) (ix3 (1 : Fin 3) k j)) ∧ Cert.Spec.IsReal (fun (k j : Fin 128) => (m ((c : Thread nD τ).loc main_arg2)) (ix3 (1 : Fin 3) k j)) ∧ Cert.Spec.IsRealRow (fun (j : Fin 128) => (m ((c : Thread nD τ).loc main_arg3)) (ix2 (1 : Fin 3) j))
      ∧ Cert.Spec.IsRealRow (fun (j : Fin 128) => (m ((c : Thread nD τ).loc main_arg4)) (ix2 (1 : Fin 3) j)) ∧ Cert.Spec.IsRealRow (fun (j : Fin 128) => (m ((c : Thread nD τ).loc main_arg5)) (ix2 (1 : Fin 3) j)) :=
  ⟨fun r k => Cert.RefAggReal.agg2_real _ _ _ _ _ _ _ _ (x1_real m c hr) (ix2 r k), fun r k => x1_real m c hr (ix2 r k), fun k j => hr.h1 (ix3 _ k j), fun k j => hr.h2 (ix3 _ k j), fun j => hr.h3 (ix2 _ j), fun j => hr.h4 (ix2 _ j), fun j => hr.h5 (ix2 _ j)⟩

/-- The reference's layer-2 output is real-valued. -/
theorem x2_real (hr : RealArgs m c) : ∀ i, ∃ x : ℝ, val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) i = (x : EReal) := by
  intro i
  obtain ⟨r, j, rfl⟩ : ∃ (r : Fin 100000) (j : Fin 128), i = ix2 r j := ⟨i 0, i 1, eq_ix2 i⟩
  obtain ⟨hA, hX, hWl, hWr, hb, hg, hbe⟩ := real_in2 m c hr
  rw [Cert.RefLayers.layer2]
  exact Cert.LayerMath.layerR_isReal Cert.LayerStep.card_rows hA hX hWl hWr hb hg hbe r j

set_option maxHeartbeats 4000000 in
/-- The kernel's layer-2 output entry is the reference's. -/
theorem x2_eq (hr : RealArgs m c) (r : Fin 100000) (j : Fin 128) :
    W8 m ρ c (Proc.devRef .tc main_v86) (ix2 r j) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r j) := by
  obtain ⟨hA, hX, hWl, hWr, hb, hg, hbe⟩ := real_in2 m c hr
  rw [Cert.RefLayers.layer2]
  have eA : (fun (r : Fin 100000) (k : Fin 128) => V5 m ρ c (Pipeline.arrRef spec2 0) (ix2 r k)) = (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) := by
    funext r k
    show W5 m ρ c (Proc.devRef .tc main_v59) (ix2 r k) = _
    rw [Cert.KValue.Same.agg2_eq m ρ c (x1_fun m ρ c hr)]
  have eX : (fun (r : Fin 100000) (k : Fin 128) => V5 m ρ c (Pipeline.arrRef spec2 1) (ix2 r k)) = (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) := by
    funext r k
    show W5 m ρ c (Proc.devRef .tc main_v47) (ix2 r k) = _
    rw [(W5_v47 m ρ c).trans (x1_fun m ρ c hr)]
  have eWl : (fun (k j : Fin 128) => V5 m ρ c (Pipeline.arrRef spec2 2) (ix2 k j)) = (fun (k j : Fin 128) => (m ((c : Thread nD τ).loc main_arg1)) (ix3 (1 : Fin 3) k j)) := by
    funext k j; exact Cert.KValue.Params.wl2 m ρ c k j
  have eWr : (fun (k j : Fin 128) => V5 m ρ c (Pipeline.arrRef spec2 3) (ix2 k j)) = (fun (k j : Fin 128) => (m ((c : Thread nD τ).loc main_arg2)) (ix3 (1 : Fin 3) k j)) := by
    funext k j; exact Cert.KValue.Params.wr2 m ρ c k j
  have eb : (fun (j : Fin 128) => V5 m ρ c (Pipeline.arrRef spec2 4) (ix2 (0 : Fin 1) j)) = (fun (j : Fin 128) => (m ((c : Thread nD τ).loc main_arg3)) (ix2 (1 : Fin 3) j)) := by
    funext j; exact Cert.KValue.Params.b2 m ρ c j
  have hxlin : ∀ r j, W7 m ρ c (Proc.devRef .tc main_v67_0) (ix2 r j) = Cert.Spec.lin (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (1 : Fin 3) k j)) (fun (k j : Fin 128) => (m ((c : Thread nD τ).loc main_arg2)) (ix3 (1 : Fin 3) k j)) (fun (j : Fin 128) => (m ((c : Thread nD τ).loc main_arg3)) (ix2 (1 : Fin 3) j)) r j := by
    intro r j
    rw [W7_v67_0 m ρ c, show W6 m ρ c (Proc.devRef .tc main_v67_0) = (dat2 (F := Ideal) (V5 m ρ) c).arrAt 5 cfg2.N from (hF2 m ρ c 5).symm,
      Cert.KValue.Lin2.final5 (V5 m ρ) c r j, eA, eX, eWl, eWr, eb]
  have hst0 : ∀ j, W6 m ρ c (Proc.devRef .tc main_v67_1) (ix2 (0 : Fin 2) j) = Cert.Spec.colSum (Cert.Spec.lin (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (1 : Fin 3) k j)) (fun (k j : Fin 128) => (m ((c : Thread nD τ).loc main_arg2)) (ix3 (1 : Fin 3) k j)) (fun (j : Fin 128) => (m ((c : Thread nD τ).loc main_arg3)) (ix2 (1 : Fin 3) j))) j := by
    intro j
    rw [show W6 m ρ c (Proc.devRef .tc main_v67_1) = (dat2 (F := Ideal) (V5 m ρ) c).arrAt 6 cfg2.N from (hF2 m ρ c 6).symm,
      Cert.KValue.Lin2.final6_row0 (V5 m ρ) c j, eA, eX, eWl, eWr, eb]
  have hst1 : ∀ j, W6 m ρ c (Proc.devRef .tc main_v67_1) (ix2 (1 : Fin 2) j)
      = Cert.Spec.colSum (fun r j => Cert.Spec.lin (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (1 : Fin 3) k j)) (fun (k j : Fin 128) => (m ((c : Thread nD τ).loc main_arg2)) (ix3 (1 : Fin 3) k j)) (fun (j : Fin 128) => (m ((c : Thread nD τ).loc main_arg3)) (ix2 (1 : Fin 3) j)) r j * Cert.Spec.lin (fun (r : Fin 100000) (k : Fin 128) => val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (1 : Fin 3) k j)) (fun (k j : Fin 128) => (m ((c : Thread nD τ).loc main_arg2)) (ix3 (1 : Fin 3) k j)) (fun (j : Fin 128) => (m ((c : Thread nD τ).loc main_arg3)) (ix2 (1 : Fin 3) j)) r j) j := by
    intro j
    rw [show W6 m ρ c (Proc.devRef .tc main_v67_1) = (dat2 (F := Ideal) (V5 m ρ) c).arrAt 6 cfg2.N from (hF2 m ρ c 6).symm,
      Cert.KValue.Lin2.final6_row1 (V5 m ρ) c j, eA, eX, eWl, eWr, eb]
  rw [show W8 m ρ c (Proc.devRef .tc main_v86) = (dat3 (F := Ideal) (V7 m ρ) c).arrAt 5 cfg3.N from (hF3 m ρ c 5).symm]
  refine (Cert.KValue.R3.final (V7 m ρ) c r j).trans ?_
  exact Cert.LayerStep.layer_step (fun (j : Fin 128) => (m ((c : Thread nD τ).loc main_arg4)) (ix2 (1 : Fin 3) j)) (fun (j : Fin 128) => (m ((c : Thread nD τ).loc main_arg5)) (ix2 (1 : Fin 3) j)) hA hX hWl hWr hb
    (fun r j => W7 m ρ c (Proc.devRef .tc main_v67_0) (ix2 r j))
    (fun j => W6 m ρ c (Proc.devRef .tc main_v67_1) (ix2 (0 : Fin 2) j))
    (fun j => W6 m ρ c (Proc.devRef .tc main_v67_1) (ix2 (1 : Fin 2) j))
    (fun j => W7 m ρ c (Proc.devRef .tc main_v82) (ix2 (0 : Fin 1) j))
    (fun j => W7 m ρ c (Proc.devRef .tc main_v83) (ix2 (0 : Fin 1) j))
    (fun j => W7 m ρ c (Proc.devRef .tc main_v84) (ix2 (0 : Fin 1) j))
    (fun j => W7 m ρ c (Proc.devRef .tc main_v85) (ix2 (0 : Fin 1) j))
    hxlin hst0 hst1 (Cert.KValue.Params.mean2 m ρ c) (Cert.KValue.Params.var2 m ρ c) (Cert.KValue.Params.g2 m ρ c) (Cert.KValue.Params.be2 m ρ c) r j

/-- So the whole layer-2 output buffer is the reference's stage. -/
theorem x2_fun (hr : RealArgs m c) :
    W8 m ρ c (Proc.devRef .tc main_v86) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  funext i
  obtain ⟨r, j, rfl⟩ : ∃ (r : Fin 100000) (j : Fin 128), i = ix2 r j := ⟨i 0, i 1, eq_ix2 i⟩
  exact x2_eq m ρ c hr r j

/-! ## Layer 3 -/

/-- The inputs of layer 3's affine part are real. -/
theorem real_in3 (hr : RealArgs m c) :
    Cert.Spec.IsReal (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) ∧ Cert.Spec.IsReal (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) ∧ Cert.Spec.IsReal (fun (k j : Fin 128) => (m ((c : Thread nD τ).loc main_arg1)) (ix3 (2 : Fin 3) k j)) ∧ Cert.Spec.IsReal (fun (k j : Fin 128) => (m ((c : Thread nD τ).loc main_arg2)) (ix3 (2 : Fin 3) k j)) ∧ Cert.Spec.IsRealRow (fun (j : Fin 128) => (m ((c : Thread nD τ).loc main_arg3)) (ix2 (2 : Fin 3) j))
      ∧ Cert.Spec.IsRealRow (fun (j : Fin 128) => (m ((c : Thread nD τ).loc main_arg4)) (ix2 (2 : Fin 3) j)) ∧ Cert.Spec.IsRealRow (fun (j : Fin 128) => (m ((c : Thread nD τ).loc main_arg5)) (ix2 (2 : Fin 3) j)) :=
  ⟨fun r k => Cert.RefAggReal.agg3_real _ _ _ _ _ _ _ _ (x2_real m c hr) (ix2 r k), fun r k => x2_real m c hr (ix2 r k), fun k j => hr.h1 (ix3 _ k j), fun k j => hr.h2 (ix3 _ k j), fun j => hr.h3 (ix2 _ j), fun j => hr.h4 (ix2 _ j), fun j => hr.h5 (ix2 _ j)⟩

/-- The reference's layer-3 output is real-valued. -/
theorem x3_real (hr : RealArgs m c) : ∀ i, ∃ x : ℝ, val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) i = (x : EReal) := by
  intro i
  obtain ⟨r, j, rfl⟩ : ∃ (r : Fin 100000) (j : Fin 128), i = ix2 r j := ⟨i 0, i 1, eq_ix2 i⟩
  obtain ⟨hA, hX, hWl, hWr, hb, hg, hbe⟩ := real_in3 m c hr
  rw [Cert.RefLayers.layer3]
  exact Cert.LayerMath.layerR_isReal Cert.LayerStep.card_rows hA hX hWl hWr hb hg hbe r j

set_option maxHeartbeats 4000000 in
/-- The kernel's layer-3 output entry is the reference's. -/
theorem x3_eq (hr : RealArgs m c) (r : Fin 100000) (j : Fin 128) :
    W12 m ρ c (Proc.devRef .tc main_v125) (ix2 r j) = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r j) := by
  obtain ⟨hA, hX, hWl, hWr, hb, hg, hbe⟩ := real_in3 m c hr
  rw [Cert.RefLayers.layer3]
  have eA : (fun (r : Fin 100000) (k : Fin 128) => V9 m ρ c (Pipeline.arrRef spec4 0) (ix2 r k)) = (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) := by
    funext r k
    show W9 m ρ c (Proc.devRef .tc main_v98) (ix2 r k) = _
    rw [Cert.KValue.Same.agg3_eq m ρ c (x2_fun m ρ c hr)]
  have eX : (fun (r : Fin 100000) (k : Fin 128) => V9 m ρ c (Pipeline.arrRef spec4 1) (ix2 r k)) = (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) := by
    funext r k
    show W9 m ρ c (Proc.devRef .tc main_v86) (ix2 r k) = _
    rw [(W9_v86 m ρ c).trans (x2_fun m ρ c hr)]
  have eWl : (fun (k j : Fin 128) => V9 m ρ c (Pipeline.arrRef spec4 2) (ix2 k j)) = (fun (k j : Fin 128) => (m ((c : Thread nD τ).loc main_arg1)) (ix3 (2 : Fin 3) k j)) := by
    funext k j; exact Cert.KValue.Params.wl3 m ρ c k j
  have eWr : (fun (k j : Fin 128) => V9 m ρ c (Pipeline.arrRef spec4 3) (ix2 k j)) = (fun (k j : Fin 128) => (m ((c : Thread nD τ).loc main_arg2)) (ix3 (2 : Fin 3) k j)) := by
    funext k j; exact Cert.KValue.Params.wr3 m ρ c k j
  have eb : (fun (j : Fin 128) => V9 m ρ c (Pipeline.arrRef spec4 4) (ix2 (0 : Fin 1) j)) = (fun (j : Fin 128) => (m ((c : Thread nD τ).loc main_arg3)) (ix2 (2 : Fin 3) j)) := by
    funext j; exact Cert.KValue.Params.b3 m ρ c j
  have hxlin : ∀ r j, W11 m ρ c (Proc.devRef .tc main_v106_0) (ix2 r j) = Cert.Spec.lin (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (2 : Fin 3) k j)) (fun (k j : Fin 128) => (m ((c : Thread nD τ).loc main_arg2)) (ix3 (2 : Fin 3) k j)) (fun (j : Fin 128) => (m ((c : Thread nD τ).loc main_arg3)) (ix2 (2 : Fin 3) j)) r j := by
    intro r j
    rw [W11_v106_0 m ρ c, show W10 m ρ c (Proc.devRef .tc main_v106_0) = (dat4 (F := Ideal) (V9 m ρ) c).arrAt 5 cfg4.N from (hF4 m ρ c 5).symm,
      Cert.KValue.Lin4.final5 (V9 m ρ) c r j, eA, eX, eWl, eWr, eb]
  have hst0 : ∀ j, W10 m ρ c (Proc.devRef .tc main_v106_1) (ix2 (0 : Fin 2) j) = Cert.Spec.colSum (Cert.Spec.lin (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (2 : Fin 3) k j)) (fun (k j : Fin 128) => (m ((c : Thread nD τ).loc main_arg2)) (ix3 (2 : Fin 3) k j)) (fun (j : Fin 128) => (m ((c : Thread nD τ).loc main_arg3)) (ix2 (2 : Fin 3) j))) j := by
    intro j
    rw [show W10 m ρ c (Proc.devRef .tc main_v106_1) = (dat4 (F := Ideal) (V9 m ρ) c).arrAt 6 cfg4.N from (hF4 m ρ c 6).symm,
      Cert.KValue.Lin4.final6_row0 (V9 m ρ) c j, eA, eX, eWl, eWr, eb]
  have hst1 : ∀ j, W10 m ρ c (Proc.devRef .tc main_v106_1) (ix2 (1 : Fin 2) j)
      = Cert.Spec.colSum (fun r j => Cert.Spec.lin (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (2 : Fin 3) k j)) (fun (k j : Fin 128) => (m ((c : Thread nD τ).loc main_arg2)) (ix3 (2 : Fin 3) k j)) (fun (j : Fin 128) => (m ((c : Thread nD τ).loc main_arg3)) (ix2 (2 : Fin 3) j)) r j * Cert.Spec.lin (fun (r : Fin 100000) (k : Fin 128) => val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (r : Fin 100000) (k : Fin 128) => val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (ix2 r k)) (fun (k j : Fin 128) => (m ((c : Thread nD τ).loc main_arg1)) (ix3 (2 : Fin 3) k j)) (fun (k j : Fin 128) => (m ((c : Thread nD τ).loc main_arg2)) (ix3 (2 : Fin 3) k j)) (fun (j : Fin 128) => (m ((c : Thread nD τ).loc main_arg3)) (ix2 (2 : Fin 3) j)) r j) j := by
    intro j
    rw [show W10 m ρ c (Proc.devRef .tc main_v106_1) = (dat4 (F := Ideal) (V9 m ρ) c).arrAt 6 cfg4.N from (hF4 m ρ c 6).symm,
      Cert.KValue.Lin4.final6_row1 (V9 m ρ) c j, eA, eX, eWl, eWr, eb]
  rw [show W12 m ρ c (Proc.devRef .tc main_v125) = (dat5 (F := Ideal) (V11 m ρ) c).arrAt 5 cfg5.N from (hF5 m ρ c 5).symm]
  refine (Cert.KValue.R5.final (V11 m ρ) c r j).trans ?_
  exact Cert.LayerStep.layer_step (fun (j : Fin 128) => (m ((c : Thread nD τ).loc main_arg4)) (ix2 (2 : Fin 3) j)) (fun (j : Fin 128) => (m ((c : Thread nD τ).loc main_arg5)) (ix2 (2 : Fin 3) j)) hA hX hWl hWr hb
    (fun r j => W11 m ρ c (Proc.devRef .tc main_v106_0) (ix2 r j))
    (fun j => W10 m ρ c (Proc.devRef .tc main_v106_1) (ix2 (0 : Fin 2) j))
    (fun j => W10 m ρ c (Proc.devRef .tc main_v106_1) (ix2 (1 : Fin 2) j))
    (fun j => W11 m ρ c (Proc.devRef .tc main_v121) (ix2 (0 : Fin 1) j))
    (fun j => W11 m ρ c (Proc.devRef .tc main_v122) (ix2 (0 : Fin 1) j))
    (fun j => W11 m ρ c (Proc.devRef .tc main_v123) (ix2 (0 : Fin 1) j))
    (fun j => W11 m ρ c (Proc.devRef .tc main_v124) (ix2 (0 : Fin 1) j))
    hxlin hst0 hst1 (Cert.KValue.Params.mean3 m ρ c) (Cert.KValue.Params.var3 m ρ c) (Cert.KValue.Params.g3 m ρ c) (Cert.KValue.Params.be3 m ρ c) r j

/-- So the whole layer-3 output buffer is the reference's stage. -/
theorem x3_fun (hr : RealArgs m c) :
    W12 m ρ c (Proc.devRef .tc main_v125) = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  funext i
  obtain ⟨r, j, rfl⟩ : ∃ (r : Fin 100000) (j : Fin 128), i = ix2 r j := ⟨i 0, i 1, eq_ix2 i⟩
  exact x3_eq m ρ c hr r j

/-! ## Pooling, the head, and the result -/

set_option maxHeartbeats 4000000 in
/-- The kernel's result entry is the reference's. -/
theorem out_eq (hr : RealArgs m c) (g : Fin 4096) :
    W15 m ρ c (Proc.devRef .tc main_v141) (ix1 g) = val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix1 g) := by
  rw [Cert.KValue.Same.out_read m ρ c g, Cert.RefLayers.head_eq,
    show W14 m ρ c (Proc.devRef .tc main_v140) = (dat6 (F := Ideal) (V13 m ρ) c).arrAt 5 cfg6.N from (hF6 m ρ c 5).symm]
  refine (Cert.KValue.R6.final (V13 m ρ) c g).trans ?_
  have e0 : (fun (g : Fin 4096) (q : Fin 128) => V13 m ρ c (Pipeline.arrRef spec6 0) (ix2 g q))
      = (fun (g : Fin 4096) (q : Fin 128) => val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (ix2 g q)) := by
    funext g q
    show W13 m ρ c (Proc.devRef .tc main_v137) (ix2 g q) = _
    rw [Cert.KValue.Same.pool_eq m ρ c (x3_fun m ρ c hr)]
  have e1 : (fun (q : Fin 128) (k : Fin 64) => V13 m ρ c (Pipeline.arrRef spec6 1) (ix2 q k)) = (fun (q : Fin 128) (k : Fin 64) => (m ((c : Thread nD τ).loc main_arg6)) (ix2 q k)) := by
    funext q k
    show W13 m ρ c (Proc.devRef .tc main_arg6) (ix2 q k) = _
    rw [W13_arg6 m ρ c]
  have e2 : (fun (k : Fin 64) => V13 m ρ c (Pipeline.arrRef spec6 2) (ix2 (0 : Fin 1) k)) = (fun (k : Fin 64) => (m ((c : Thread nD τ).loc main_arg7)) (ix1 k)) := by
    funext k; exact Cert.KValue.Params.hb1 m ρ c k
  have e3 : (fun (k : Fin 64) => V13 m ρ c (Pipeline.arrRef spec6 3) (ix2 k (0 : Fin 1))) = (fun (k : Fin 64) => (m ((c : Thread nD τ).loc main_arg8)) (ix2 k (0 : Fin 1))) := by
    funext k
    show W13 m ρ c (Proc.devRef .tc main_arg8) (ix2 k (0 : Fin 1)) = _
    rw [W13_arg8 m ρ c]
  have e4 : V13 m ρ c (Pipeline.arrRef spec6 4) (ix2 (0 : Fin 1) (0 : Fin 1)) = (m ((c : Thread nD τ).loc main_arg9)) (ix1 (0 : Fin 1)) := Cert.KValue.Params.hb2 m ρ c
  rw [e0, e1, e2, e3, e4]

/-- The kernel's result buffer is the reference's result stage of the same arguments. -/
theorem out_fun (hr : RealArgs m c) :
    W15 m ρ c (Proc.devRef .tc main_v141) = val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨g, rfl⟩ : ∃ g : Fin 4096, i = ix1 g := ⟨i 0, eq_ix1 i⟩
  exact out_eq m ρ c hr g

end Cert.Bridge

end
-- ==== Proof.RefRun.lean ====
/-
  The reference's run, read back one layer at a time.

  The reference is a straight line of 233 operations; after it every buffer holds the fold of the operations' results
  over the contents at the start. This module identifies that fold, at the result buffer, with the result stage of the
  staged reading (each operation's value as a function of the arguments, every stage defined from earlier ones),
  without ever forming the composed term of the whole program — a layer's output is read twice by the next layer and
  its affine part six times by its own normalisation, so the composed term multiplies by twelve per layer. The line is
  cut after the first, second and third layer's output. Over arbitrary starting contents that agree with the staged
  reading on a stretch's inputs (the arguments, the reciprocal in-degree column, the previous layer's output) the
  stretch's output buffer holds the next layer's stage: each such statement is one layer deep. They compose through
  after (l₁ ++ l₂) V = after l₂ (after l₁ V). No operation writes an argument (the arguments are the buffers numbered
  below 13, every operation writes a buffer numbered at least 13), so every argument keeps its contents.
-/
import proofs.«158987_j88218628260833_1_alg».proof.Proof.RefRunP
import proofs.«158987_j88218628260833_1_alg».proof.Proof.RefRead

noncomputable section

namespace Cert.RefRun

open Cert.ReferenceIdeal Cert.ReferenceIdeal.Gen Cert.ReferenceIdeal.ValueQ Cert.ReferenceIdeal.ReadP Idealize.ShloMosaic Idealize.ShloMosaic.TcCoe Idealize.SL.Sem Idealize.ShloMosaic.StableHlo

variable {F : FTy → Type} [FloatOps F]

/-! ## Cutting a line of operations -/

/-- The contents after two lines run one after the other: the second line's fold over the first line's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A line cut after its first `n` operations. -/
theorem after_split (n : Nat) (l : List (HloOp τ sig (Elt F))) (V : Valuation τ sig (Elt F)) :
    after l V = after (l.drop n) (after (l.take n) V) := by
  rw [← after_app, List.take_append_drop]

/-! ## No operation writes an argument

The program's buffers are numbered: the thirteen arguments first, then one buffer per operation. Every operation
writes its own buffer, whose number is at least 13. -/

private theorem wr (y : Ref sig .tc) (h : 13 ≤ y.idx.val) :
    ∀ b ∈ ({Proc.devRef (τ := τ) .tc y} : Finset (DevRef τ sig)), ∃ r : Ref sig .tc, b = Proc.devRef .tc r ∧ 13 ≤ r.idx.val :=
  fun _ hb => ⟨y, Finset.mem_singleton.mp hb, h⟩

set_option maxRecDepth 8192 in
/-- Every buffer an operation of the reference writes has number at least 13. -/
theorem written : (ops : List (HloOp τ sig (Elt F))).Forall fun op =>
    ∀ b ∈ op.writes, ∃ r : Ref sig .tc, b = Proc.devRef .tc r ∧ 13 ≤ r.idx.val :=
  ⟨
    wr main_cst (by decide), wr main_v0 (by decide), wr main_cst_0 (by decide), wr main_v1 (by decide), wr main_v2 (by decide), wr main_v3 (by decide),
    wr main_cst_1 (by decide), wr main_v4 (by decide), wr main_v5 (by decide), wr main_cst_2 (by decide), wr main_v6 (by decide), wr main_v7 (by decide),
    wr main_v8 (by decide), wr main_c (by decide), wr main_v9 (by decide), wr main_v10 (by decide), wr main_c_3 (by decide), wr main_v11 (by decide),
    wr main_v12 (by decide), wr main_v13 (by decide), wr main_v14 (by decide), wr main_v15 (by decide), wr main_cst_4 (by decide), wr main_v16 (by decide),
    wr main_v17 (by decide), wr main_v18 (by decide), wr main_v19 (by decide), wr main_v20 (by decide), wr main_v21 (by decide), wr main_v22 (by decide),
    wr main_v23 (by decide), wr main_v24 (by decide), wr main_v25 (by decide), wr main_v26 (by decide), wr main_v27 (by decide), wr main_v28 (by decide),
    wr main_v29 (by decide), wr main_v30 (by decide), wr main_v31 (by decide), wr main_v32 (by decide), wr main_cst_5 (by decide), wr main_v33 (by decide),
    wr main_cst_6 (by decide), wr main_v34 (by decide), wr main_v35 (by decide), wr main_v36 (by decide), wr main_v37 (by decide), wr main_v38 (by decide),
    wr main_v39 (by decide), wr main_cst_7 (by decide), wr main_v40 (by decide), wr main_cst_8 (by decide), wr main_v41 (by decide), wr main_v42 (by decide),
    wr main_v43 (by decide), wr main_v44 (by decide), wr main_v45 (by decide), wr main_cst_9 (by decide), wr main_v46 (by decide), wr main_v47 (by decide),
    wr main_v48 (by decide), wr main_v49 (by decide), wr main_v50 (by decide), wr main_v51 (by decide), wr main_v52 (by decide), wr main_v53 (by decide),
    wr main_v54 (by decide), wr main_v55 (by decide), wr main_v56 (by decide), wr main_v57 (by decide), wr main_v58 (by decide), wr main_v59 (by decide),
    wr main_v60 (by decide), wr main_v61 (by decide), wr main_call0_cst (by decide), wr main_call0_v0 (by decide), wr main_v62 (by decide), wr main_c_10 (by decide),
    wr main_v63 (by decide), wr main_v64 (by decide), wr main_c_11 (by decide), wr main_v65 (by decide), wr main_v66 (by decide), wr main_v67 (by decide),
    wr main_v68 (by decide), wr main_v69 (by decide), wr main_cst_12 (by decide), wr main_v70 (by decide), wr main_v71 (by decide), wr main_v72 (by decide),
    wr main_v73 (by decide), wr main_v74 (by decide), wr main_v75 (by decide), wr main_v76 (by decide), wr main_v77 (by decide), wr main_v78 (by decide),
    wr main_v79 (by decide), wr main_v80 (by decide), wr main_v81 (by decide), wr main_v82 (by decide), wr main_v83 (by decide), wr main_v84 (by decide),
    wr main_v85 (by decide), wr main_v86 (by decide), wr main_cst_13 (by decide), wr main_v87 (by decide), wr main_cst_14 (by decide), wr main_v88 (by decide),
    wr main_v89 (by decide), wr main_v90 (by decide), wr main_v91 (by decide), wr main_v92 (by decide), wr main_v93 (by decide), wr main_cst_15 (by decide),
    wr main_v94 (by decide), wr main_cst_16 (by decide), wr main_v95 (by decide), wr main_v96 (by decide), wr main_v97 (by decide), wr main_v98 (by decide),
    wr main_v99 (by decide), wr main_cst_17 (by decide), wr main_v100 (by decide), wr main_v101 (by decide), wr main_v102 (by decide), wr main_v103 (by decide),
    wr main_v104 (by decide), wr main_v105 (by decide), wr main_v106 (by decide), wr main_v107 (by decide), wr main_v108 (by decide), wr main_v109 (by decide),
    wr main_v110 (by decide), wr main_v111 (by decide), wr main_v112 (by decide), wr main_v113 (by decide), wr main_v114 (by decide), wr main_v115 (by decide),
    wr main_call1_cst (by decide), wr main_call1_v0 (by decide), wr main_v116 (by decide), wr main_c_18 (by decide), wr main_v117 (by decide), wr main_v118 (by decide),
    wr main_c_19 (by decide), wr main_v119 (by decide), wr main_v120 (by decide), wr main_v121 (by decide), wr main_v122 (by decide), wr main_v123 (by decide),
    wr main_cst_20 (by decide), wr main_v124 (by decide), wr main_v125 (by decide), wr main_v126 (by decide), wr main_v127 (by decide), wr main_v128 (by decide),
    wr main_v129 (by decide), wr main_v130 (by decide), wr main_v131 (by decide), wr main_v132 (by decide), wr main_v133 (by decide), wr main_v134 (by decide),
    wr main_v135 (by decide), wr main_v136 (by decide), wr main_v137 (by decide), wr main_v138 (by decide), wr main_v139 (by decide), wr main_v140 (by decide),
    wr main_cst_21 (by decide), wr main_v141 (by decide), wr main_cst_22 (by decide), wr main_v142 (by decide), wr main_v143 (by decide), wr main_v144 (by decide),
    wr main_v145 (by decide), wr main_v146 (by decide), wr main_v147 (by decide), wr main_cst_23 (by decide), wr main_v148 (by decide), wr main_cst_24 (by decide),
    wr main_v149 (by decide), wr main_v150 (by decide), wr main_v151 (by decide), wr main_v152 (by decide), wr main_v153 (by decide), wr main_cst_25 (by decide),
    wr main_v154 (by decide), wr main_v155 (by decide), wr main_v156 (by decide), wr main_v157 (by decide), wr main_v158 (by decide), wr main_v159 (by decide),
    wr main_v160 (by decide), wr main_v161 (by decide), wr main_v162 (by decide), wr main_v163 (by decide), wr main_v164 (by decide), wr main_v165 (by decide),
    wr main_v166 (by decide), wr main_v167 (by decide), wr main_v168 (by decide), wr main_v169 (by decide), wr main_call2_cst (by decide), wr main_call2_v0 (by decide),
    wr main_v170 (by decide), wr main_cst_26 (by decide), wr main_v171 (by decide), wr main_cst_27 (by decide), wr main_v172 (by decide), wr main_v173 (by decide),
    wr main_v174 (by decide), wr main_cst_28 (by decide), wr main_v175 (by decide), wr main_v176 (by decide), wr main_v177 (by decide), wr main_cst_29 (by decide),
    wr main_v178 (by decide), wr main_v179 (by decide), wr main_v180 (by decide), wr main_v181 (by decide), wr main_v182 (by decide), wr main_v183 (by decide),
    wr main_v184 (by decide), wr main_v185 (by decide), wr main_v186 (by decide), wr main_call3_cst (by decide), wr main_call3_v0 (by decide), wr main_v187 (by decide),
    wr main_v188 (by decide), wr main_v189 (by decide), wr main_v190 (by decide), wr main_v191 (by decide), wr main_v192 (by decide)⟩

/-- A buffer numbered below 13 keeps its contents through any part of the line. -/
theorem arg_kept (r : Ref sig .tc) (hr : r.idx.val < 13) (l : List (HloOp τ sig (Elt F)))
    (hl : ∀ op ∈ l, op ∈ (ops : List (HloOp τ sig (Elt F)))) (V : Valuation τ sig (Elt F)) :
    after l V (Proc.devRef .tc r) = V (Proc.devRef .tc r) :=
  after_of_forall_not_mem l V fun op hop hb => by
    obtain ⟨y, hy, h13⟩ := (List.forall_iff_forall_mem.mp (written (F := F))) op (hl op hop) _ hb
    have e : r = y := Proc.devRef_injective _ hy
    subst e
    omega

/-- Contents that agree with `V0` on the arguments still do after any part of the line. -/
theorem kept (l : List (HloOp τ sig (Elt F))) (hl : ∀ op ∈ l, op ∈ (ops : List (HloOp τ sig (Elt F))))
    (V V0 : Valuation τ sig (Elt F)) (hA : ∀ r : Ref sig .tc, r.idx.val < 13 → V (Proc.devRef .tc r) = V0 (Proc.devRef .tc r)) :
    ∀ r : Ref sig .tc, r.idx.val < 13 → after l V (Proc.devRef .tc r) = V0 (Proc.devRef .tc r) :=
  fun r hr => (arg_kept r hr l hl V).trans (hA r hr)

/-! ## The four stretches

The line is cut after the first, the second and the third layer's output. -/

/-- Through the first layer's output (77 operations). -/
abbrev s0 : List (HloOp τ sig (Elt F)) := ops.take 77
/-- What follows the first stretch. -/
abbrev t0 : List (HloOp τ sig (Elt F)) := ops.drop 77
/-- Through the second layer's output (64 operations). -/
abbrev s1 : List (HloOp τ sig (Elt F)) := (t0 (F := F)).take 64
/-- What follows the second stretch. -/
abbrev t1 : List (HloOp τ sig (Elt F)) := (t0 (F := F)).drop 64
/-- Through the third layer's output (64 operations). -/
abbrev s2 : List (HloOp τ sig (Elt F)) := (t1 (F := F)).take 64
/-- Pooling and the read-out head (28 operations). -/
abbrev s3 : List (HloOp τ sig (Elt F)) := (t1 (F := F)).drop 64

theorem s0_sub : ∀ op ∈ (s0 : List (HloOp τ sig (Elt F))), op ∈ (ops : List (HloOp τ sig (Elt F))) := fun _ h => List.mem_of_mem_take h
theorem t0_sub : ∀ op ∈ (t0 : List (HloOp τ sig (Elt F))), op ∈ (ops : List (HloOp τ sig (Elt F))) := fun _ h => List.mem_of_mem_drop h
theorem s1_sub : ∀ op ∈ (s1 : List (HloOp τ sig (Elt F))), op ∈ (ops : List (HloOp τ sig (Elt F))) := fun _ h => t0_sub _ (List.mem_of_mem_take h)
theorem t1_sub : ∀ op ∈ (t1 : List (HloOp τ sig (Elt F))), op ∈ (ops : List (HloOp τ sig (Elt F))) := fun _ h => t0_sub _ (List.mem_of_mem_drop h)
theorem s2_sub : ∀ op ∈ (s2 : List (HloOp τ sig (Elt F))), op ∈ (ops : List (HloOp τ sig (Elt F))) := fun _ h => t1_sub _ (List.mem_of_mem_take h)
theorem s3_sub : ∀ op ∈ (s3 : List (HloOp τ sig (Elt F))), op ∈ (ops : List (HloOp τ sig (Elt F))) := fun _ h => t1_sub _ (List.mem_of_mem_drop h)

/-- The whole line is the four stretches in order. -/
theorem after_ops (V : Valuation τ sig (Elt F)) : after ops V = after s3 (after s2 (after s1 (after s0 V))) :=
  (after_split 77 ops V).trans ((after_split 64 t0 (after s0 V)).trans (after_split 64 t1 (after s1 (after s0 V))))

set_option maxRecDepth 16384 in
/-- The first stretch: from contents that agree with `V0` on the arguments, the first layer's output buffer holds the
    first layer's stage of `V0`'s arguments, and the reciprocal in-degree column its stage. -/
theorem stretch0 (V V0 : Valuation τ sig (Elt F)) (hA : ∀ r : Ref sig .tc, r.idx.val < 13 → V (Proc.devRef .tc r) = V0 (Proc.devRef .tc r)) :
    after s0 V (Proc.devRef .tc main_v62) = val_main_v62 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11))
    ∧ after s0 V (Proc.devRef .tc main_v8) = val_main_v8 (F := F) (V0 (Proc.devRef .tc main_arg11)) := by
  have a0 := hA main_arg0 (by decide)
  have a1 := hA main_arg1 (by decide)
  have a2 := hA main_arg2 (by decide)
  have a3 := hA main_arg3 (by decide)
  have a4 := hA main_arg4 (by decide)
  have a5 := hA main_arg5 (by decide)
  have a10 := hA main_arg10 (by decide)
  have a11 := hA main_arg11 (by decide)
  constructor
  · simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      a0, a1, a2, a3, a4, a5, a10, a11]
    rfl
  · simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      a11]
    rfl

set_option maxRecDepth 16384 in
/-- The second stretch: given the first layer's output and the in-degree column, the second layer's output buffer holds
    the second layer's stage; the in-degree column is not written. -/
theorem stretch1 (V V0 : Valuation τ sig (Elt F)) (hA : ∀ r : Ref sig .tc, r.idx.val < 13 → V (Proc.devRef .tc r) = V0 (Proc.devRef .tc r))
    (h8 : V (Proc.devRef .tc main_v8) = val_main_v8 (F := F) (V0 (Proc.devRef .tc main_arg11)))
    (h62 : V (Proc.devRef .tc main_v62) = val_main_v62 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11))) :
    after s1 V (Proc.devRef .tc main_v116) = val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11))
    ∧ after s1 V (Proc.devRef .tc main_v8) = val_main_v8 (F := F) (V0 (Proc.devRef .tc main_arg11)) := by
  have a1 := hA main_arg1 (by decide)
  have a2 := hA main_arg2 (by decide)
  have a3 := hA main_arg3 (by decide)
  have a4 := hA main_arg4 (by decide)
  have a5 := hA main_arg5 (by decide)
  have a10 := hA main_arg10 (by decide)
  have a11 := hA main_arg11 (by decide)
  constructor
  · simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      a1, a2, a3, a4, a5, a10, a11, h8, h62]
    rfl
  · simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      h8]

set_option maxRecDepth 16384 in
/-- The third stretch: given the second layer's output and the in-degree column, the third layer's output buffer holds
    the third layer's stage. -/
theorem stretch2 (V V0 : Valuation τ sig (Elt F)) (hA : ∀ r : Ref sig .tc, r.idx.val < 13 → V (Proc.devRef .tc r) = V0 (Proc.devRef .tc r))
    (h8 : V (Proc.devRef .tc main_v8) = val_main_v8 (F := F) (V0 (Proc.devRef .tc main_arg11)))
    (h116 : V (Proc.devRef .tc main_v116) = val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11))) :
    after s2 V (Proc.devRef .tc main_v170) = val_main_v170 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) := by
  have a1 := hA main_arg1 (by decide)
  have a2 := hA main_arg2 (by decide)
  have a3 := hA main_arg3 (by decide)
  have a4 := hA main_arg4 (by decide)
  have a5 := hA main_arg5 (by decide)
  have a10 := hA main_arg10 (by decide)
  have a11 := hA main_arg11 (by decide)
  simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      a1, a2, a3, a4, a5, a10, a11, h8, h116]
  rfl

set_option maxRecDepth 16384 in
/-- The last stretch: given the third layer's output, the result buffer holds the result stage. -/
theorem stretch3 (V V0 : Valuation τ sig (Elt F)) (hA : ∀ r : Ref sig .tc, r.idx.val < 13 → V (Proc.devRef .tc r) = V0 (Proc.devRef .tc r))
    (h170 : V (Proc.devRef .tc main_v170) = val_main_v170 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11))) :
    after s3 V (Proc.devRef .tc main_v192) = val_main_v192 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  have a6 := hA main_arg6 (by decide)
  have a7 := hA main_arg7 (by decide)
  have a8 := hA main_arg8 (by decide)
  have a9 := hA main_arg9 (by decide)
  have a12 := hA main_arg12 (by decide)
  simp (disch := decide) only [s0, t0, s1, t1, s2, s3, ops, List.take_succ_cons, List.take_zero, List.drop_succ_cons, List.drop_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      a6, a7, a8, a9, a12, h170]
  rfl

/-! ## The whole line -/

/-- After the whole line the result buffer holds the result stage of the starting contents of the arguments. -/
theorem result_eq (V0 : Valuation τ sig (Elt F)) :
    after ops V0 (Proc.devRef .tc main_v192) = val_main_v192 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  have hA0 : ∀ r : Ref sig .tc, r.idx.val < 13 → V0 (Proc.devRef .tc r) = V0 (Proc.devRef .tc r) := fun _ _ => rfl
  obtain ⟨e62, e8⟩ := stretch0 V0 V0 hA0
  have hA1 := kept s0 s0_sub V0 V0 hA0
  obtain ⟨e116, e8'⟩ := stretch1 (after s0 V0) V0 hA1 e8 e62
  have hA2 := kept s1 s1_sub (after s0 V0) V0 hA1
  have e170 := stretch2 (after s1 (after s0 V0)) V0 hA2 e8' e116
  have hA3 := kept s2 s2_sub (after s1 (after s0 V0)) V0 hA2
  have e192 := stretch3 (after s2 (after s1 (after s0 V0))) V0 hA3 e170
  exact (congrFun (after_ops V0) _).trans e192

/-- After the whole line every argument holds what it held at the start. -/
theorem arg_eq (V0 : Valuation τ sig (Elt F)) (r : Ref sig .tc) (hr : r.idx.val < 13) :
    after ops V0 (Proc.devRef .tc r) = V0 (Proc.devRef .tc r) :=
  arg_kept r hr ops (fun _ h => h) V0

/-- On every device, from any memory with zero counters: every weakly fair execution of the reference terminates with
    the result buffer at the result stage of the arguments' launch contents, and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192)
          = val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v192).trans (result_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide))⟩)
    (Cert.ReferenceIdeal.ValueQ.run (F := F) m ρ)

end Cert.RefRun

end
-- ==== Proof.lean ====
/-
  A three-layer graph network, run two ways, ends with the same numbers.

  Each layer aggregates every node's incoming neighbour features (a gather along the edge sources, a scatter-add
  along the edge targets, a division by the in-degree), applies an affine map, normalises every feature column over
  the nodes, scales, shifts and clamps below at zero; a per-graph mean pooling and a two-layer head follow. One program
  does the affine map and the column statistics in a blocked kernel (the column sums and sums of squares accumulated
  over 25 row blocks) and takes the variance as mean square minus squared mean; the other computes the variance as the
  mean squared deviation. Over the reals the two variances are one number, and every table along the way is real
  because the inputs are finite: so, read as exact extended reals, both programs return the same 4096 values. The
  aggregation, pooling and read-out lines are the same operations on both sides, and matrix products in reduced
  precision are exact products in this reading.
-/
import proofs.«158987_j88218628260833_1_alg».proof.Defs
import proofs.«158987_j88218628260833_1_alg».proof.Proof.Gen.Kernel
import proofs.«158987_j88218628260833_1_alg».proof.Proof.Gen.Kernel.Skeleton
import proofs.«158987_j88218628260833_1_alg».proof.Proof.Gen.Kernel.Launch
import proofs.«158987_j88218628260833_1_alg».proof.Proof.Gen.Kernel.Points
import proofs.«158987_j88218628260833_1_alg».proof.Proof.Gen.Kernel.Frame
import proofs.«158987_j88218628260833_1_alg».proof.Proof.Gen.KernelIdeal
import proofs.«158987_j88218628260833_1_alg».proof.Proof.Gen.KernelIdeal.Skeleton
import proofs.«158987_j88218628260833_1_alg».proof.Proof.Gen.KernelIdeal.Launch
import proofs.«158987_j88218628260833_1_alg».proof.Proof.Gen.KernelIdeal.Points
import proofs.«158987_j88218628260833_1_alg».proof.Proof.Gen.KernelIdeal.Frame
import proofs.«158987_j88218628260833_1_alg».proof.Proof.Gen.ReferenceIdeal
import proofs.«158987_j88218628260833_1_alg».proof.Proof.Gen.Pre_finite_inputs
import proofs.«158987_j88218628260833_1_alg».proof.Proof.FiniteInputs
import proofs.«158987_j88218628260833_1_alg».proof.Proof.KRun
import proofs.«158987_j88218628260833_1_alg».proof.Proof.Bridge
import proofs.«158987_j88218628260833_1_alg».proof.Proof.RefRun
import Idealize.ShloMosaic.Adequacy
import Idealize.ShloMosaic.Init

noncomputable section

namespace Cert.Proof

open Idealize.ShloMosaic Idealize.ShloMosaic.TcCoe Idealize.SL.Sem

/-- Under the precondition every entry of the float arguments is a real number. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.RealArgs m c := by
  obtain ⟨h0, h1, h2, h3, h4, h5, -⟩ := Cert.FiniteInputs.real_of_pre _ _ _ _ _ _ _ _ _ _ _ _ _ (hpre c)
  exact ⟨h0, h1, h2, h3, h4, h5⟩

theorem frame_k : Cert.frame_Kernel := fun m ρ _ => Cert.Kernel.Gen.frame m ρ

theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.RefRun.run_val (F := Ideal) m ρ)

/-- Nothing was rewritten when the kernel was read at exact values. -/
theorem preserves : Cert.preserves_Kernel_KernelIdeal := trivial

/-- Both programs end at the reference's result stage of the kernel's arguments. -/
theorem algebraic : Cert.algebraic_KernelIdeal_ReferenceIdeal := by
  intro m ρ m' ρ' hpre hagree
  refine ⟨fun c => Cert.ReferenceIdeal.ReadP.val_main_v192 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Bridge.out_fun m ρ c (realArgs m hpre c)), (h c).2⟩)
      (Cert.KValue.Run.run (F := Ideal) m ρ)
  · refine (θ_run Cert.ReferenceIdeal.defs _ _).mono (fun _ h c => ⟨(h c).1.trans ?_, (h c).2⟩) (Cert.RefRun.run_val (F := Ideal) m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
